-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x64x64 : Shape := ⟨4, ![8, 128, 64, 64]⟩
abbrev S8x64x128x128 : Shape := ⟨4, ![8, 64, 128, 128]⟩
abbrev S4x64x128 : Shape := ⟨3, ![4, 64, 128]⟩
abbrev S64x1 : Shape := ⟨2, ![64, 1]⟩
abbrev S9x32x128 : Shape := ⟨3, ![9, 32, 128]⟩
abbrev S32x1 : Shape := ⟨2, ![32, 1]⟩
abbrev S9x32 : Shape := ⟨2, ![9, 32]⟩
abbrev S_ : Shape := ⟨0, ![]⟩

class Facts : Prop where
  bcast_S_S8x128x64x64 : S_.BroadcastsInDim S8x128x64x64 (![] : Fin 0 → Fin S8x128x64x64.rank)
  reducesTo_S8x128x64x64_S_d0_1_2_3 : S8x128x64x64.ReducesTo [0, 1, 2, 3] S_
  h_S_ : 0 < S_.numel
  bcast_S_S8x64x128x128 : S_.BroadcastsInDim S8x64x128x128 (![] : Fin 0 → Fin S8x64x128x128.rank)
  reducesTo_S8x64x128x128_S_d0_1_2_3 : S8x64x128x128.ReducesTo [0, 1, 2, 3] S_
  bcast_S_S4x64x128 : S_.BroadcastsInDim S4x64x128 (![] : Fin 0 → Fin S4x64x128.rank)
  reducesTo_S4x64x128_S_d0_1_2 : S4x64x128.ReducesTo [0, 1, 2] S_
  bcast_S_S64x1 : S_.BroadcastsInDim S64x1 (![] : Fin 0 → Fin S64x1.rank)
  reducesTo_S64x1_S_d0_1 : S64x1.ReducesTo [0, 1] S_
  bcast_S_S9x32x128 : S_.BroadcastsInDim S9x32x128 (![] : Fin 0 → Fin S9x32x128.rank)
  reducesTo_S9x32x128_S_d0_1_2 : S9x32x128.ReducesTo [0, 1, 2] S_
  bcast_S_S32x1 : S_.BroadcastsInDim S32x1 (![] : Fin 0 → Fin S32x1.rank)
  reducesTo_S32x1_S_d0_1 : S32x1.ReducesTo [0, 1] S_
  bcast_S_S9x32 : S_.BroadcastsInDim S9x32 (![] : Fin 0 → Fin S9x32.rank)
  reducesTo_S9x32_S_d0_1 : S9x32.ReducesTo [0, 1] S_

variable [Facts]

def fn_part2 {F : FTy → Type} [FloatOps F] (main_arg7 : FVec F S32x1 .f32) (main_v33 : IVec S_ 1) : IVec S_ 1 :=
  let main_v34 : FVec F S32x1 .f32 := Host.absf main_arg7
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  main_v38

def fn_part1 {F : FTy → Type} [FloatOps F] (main_arg4 : FVec F S9x32x128 .f32) (main_arg5 : FVec F S32x1 .f32) (main_arg6 : FVec F S9x32 .f32) (main_arg7 : FVec F S32x1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S9x32x128 .f32 := Host.absf main_arg4
  let main_cst_6 : FVec F S_ .f32 := constant S_ .f32 0x7F800000#32
  let main_v20 : FVec F S9x32x128 .f32 := broadcastInDim S9x32x128 ![] bcast_S_S9x32x128 main_cst_6
  let main_v21 : IVec S9x32x128 1 := cmpf .olt main_v19 main_v20
  let main_c_7 : IVec S_ 1 := constantI S_ 1 1#1
  let main_v22 : IVec S_ 1 := (fun x v => Host.reduce IntOp.andi x v reducesTo_S9x32x128_S_d0_1_2 h_S_) main_v21 main_c_7
  let main_v23 : IVec S_ 1 := andi main_v18 main_v22
  let main_v24 : FVec F S32x1 .f32 := Host.absf main_arg5
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S9x32 .f32 := Host.absf main_arg6
  let main_cst_10 : FVec F S_ .f32 := constant S_ .f32 0x7F800000#32
  let main_v30 : FVec F S9x32 .f32 := broadcastInDim S9x32 ![] bcast_S_S9x32 main_cst_10
  let main_v31 : IVec S9x32 1 := cmpf .olt main_v29 main_v30
  let main_c_11 : IVec S_ 1 := constantI S_ 1 1#1
  let main_v32 : IVec S_ 1 := (fun x v => Host.reduce IntOp.andi x v reducesTo_S9x32_S_d0_1 h_S_) main_v31 main_c_11
  let main_v33 : IVec S_ 1 := andi main_v28 main_v32
  fn_part2 (F := F) main_arg7 main_v33

def fn {F : FTy → Type} [FloatOps F] (main_arg0 : FVec F S8x128x64x64 .f32) (main_arg1 : FVec F S8x64x128x128 .f32) (main_arg2 : FVec F S4x64x128 .f32) (main_arg3 : FVec F S64x1 .f32) (main_arg4 : FVec F S9x32x128 .f32) (main_arg5 : FVec F S32x1 .f32) (main_arg6 : FVec F S9x32 .f32) (main_arg7 : FVec F S32x1 .f32) : IVec S_ 1 :=
  let main_v0 : FVec F S8x128x64x64 .f32 := Host.absf main_arg0
  let main_cst : FVec F S_ .f32 := constant S_ .f32 0x7F800000#32
  let main_v1 : FVec F S8x128x64x64 .f32 := broadcastInDim S8x128x64x64 ![] bcast_S_S8x128x64x64 main_cst
  let main_v2 : IVec S8x128x64x64 1 := cmpf .olt main_v0 main_v1
  let main_c : IVec S_ 1 := constantI S_ 1 1#1
  let main_v3 : IVec S_ 1 := (fun x v => Host.reduce IntOp.andi x v reducesTo_S8x128x64x64_S_d0_1_2_3 h_S_) main_v2 main_c
  let main_v4 : FVec F S8x64x128x128 .f32 := Host.absf main_arg1
  let main_cst_0 : FVec F S_ .f32 := constant S_ .f32 0x7F800000#32
  let main_v5 : FVec F S8x64x128x128 .f32 := broadcastInDim S8x64x128x128 ![] bcast_S_S8x64x128x128 main_cst_0
  let main_v6 : IVec S8x64x128x128 1 := cmpf .olt main_v4 main_v5
  let main_c_1 : IVec S_ 1 := constantI S_ 1 1#1
  let main_v7 : IVec S_ 1 := (fun x v => Host.reduce IntOp.andi x v reducesTo_S8x64x128x128_S_d0_1_2_3 h_S_) main_v6 main_c_1
  let main_v8 : IVec S_ 1 := andi main_v3 main_v7
  let main_v9 : FVec F S4x64x128 .f32 := Host.absf main_arg2
  let main_cst_2 : FVec F S_ .f32 := constant S_ .f32 0x7F800000#32
  let main_v10 : FVec F S4x64x128 .f32 := broadcastInDim S4x64x128 ![] bcast_S_S4x64x128 main_cst_2
  let main_v11 : IVec S4x64x128 1 := cmpf .olt main_v9 main_v10
  let main_c_3 : IVec S_ 1 := constantI S_ 1 1#1
  let main_v12 : IVec S_ 1 := (fun x v => Host.reduce IntOp.andi x v reducesTo_S4x64x128_S_d0_1_2 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_arg6 main_arg7 main_v13 main_v16
-- ==== Kernel.lean ====
abbrev S8x128x64x64 : Shape := ⟨4, ![8, 128, 64, 64]⟩
abbrev S8x64x128x128 : Shape := ⟨4, ![8, 64, 128, 128]⟩
abbrev S4x64x128 : Shape := ⟨3, ![4, 64, 128]⟩
abbrev S64x1 : Shape := ⟨2, ![64, 1]⟩
abbrev S9x32x128 : Shape := ⟨3, ![9, 32, 128]⟩
abbrev S32x1 : Shape := ⟨2, ![32, 1]⟩
abbrev S9x32 : Shape := ⟨2, ![9, 32]⟩
abbrev S32x9 : Shape := ⟨2, ![32, 9]⟩
abbrev S1x128x64x64 : Shape := ⟨4, ![1, 128, 64, 64]⟩
abbrev S1x64x128x128 : Shape := ⟨4, ![1, 64, 128, 128]⟩
abbrev S128x16640 : Shape := ⟨2, ![128, 16640]⟩
abbrev S32x16640 : Shape := ⟨2, ![32, 16640]⟩
abbrev S128x64x64 : Shape := ⟨3, ![128, 64, 64]⟩
abbrev S8192x64 : Shape := ⟨2, ![8192, 64]⟩
abbrev S64x128 : Shape := ⟨2, ![64, 128]⟩
abbrev S8192x128 : Shape := ⟨2, ![8192, 128]⟩
abbrev S128x8192 : Shape := ⟨2, ![128, 8192]⟩
abbrev S1x64x128 : Shape := ⟨3, ![1, 64, 128]⟩
abbrev S64x8192 : Shape := ⟨2, ![64, 8192]⟩
abbrev S64x64x128 : Shape := ⟨3, ![64, 64, 128]⟩
abbrev S64x64x1x128 : Shape := ⟨4, ![64, 64, 1, 128]⟩
abbrev S64x64x2x128 : Shape := ⟨4, ![64, 64, 2, 128]⟩
abbrev S64x16384 : Shape := ⟨2, ![64, 16384]⟩
abbrev S128x128 : Shape := ⟨2, ![128, 128]⟩
abbrev S64x128x128 : Shape := ⟨3, ![64, 128, 128]⟩
abbrev S128x1 : Shape := ⟨2, ![128, 1]⟩
abbrev S128x16639 : Shape := ⟨2, ![128, 16639]⟩
abbrev S128x4096 : Shape := ⟨2, ![128, 4096]⟩
abbrev S1x32x128 : Shape := ⟨3, ![1, 32, 128]⟩
abbrev S32x128 : Shape := ⟨2, ![32, 128]⟩
abbrev S32x4096 : Shape := ⟨2, ![32, 4096]⟩
abbrev S32x16384 : Shape := ⟨2, ![32, 16384]⟩
abbrev S32x128x128 : Shape := ⟨3, ![32, 128, 128]⟩
abbrev S1x32x128x128 : Shape := ⟨4, ![1, 32, 128, 128]⟩
abbrev S32x16639 : Shape := ⟨2, ![32, 16639]⟩

abbrev nBuf : Space → Nat
  | .hbm => 10
  | .vmem => 14
  | .smem => 0
  | _ => 0

abbrev bufTy : (tb : Table) → Fin (tcTables nBuf tb) → BufTy
  | .hbm, ⟨0, _⟩ => ⟨S8x128x64x64, .f32⟩
  | .hbm, ⟨1, _⟩ => ⟨S8x64x128x128, .f32⟩
  | .hbm, ⟨2, _⟩ => ⟨S4x64x128, .f32⟩
  | .hbm, ⟨3, _⟩ => ⟨S64x1, .f32⟩
  | .hbm, ⟨4, _⟩ => ⟨S9x32x128, .f32⟩
  | .hbm, ⟨5, _⟩ => ⟨S32x1, .f32⟩
  | .hbm, ⟨6, _⟩ => ⟨S9x32, .f32⟩
  | .hbm, ⟨7, _⟩ => ⟨S32x1, .f32⟩
  | .hbm, ⟨8, _⟩ => ⟨S32x9, .f32⟩
  | .hbm, ⟨9, _⟩ => ⟨S8x64x128x128, .f32⟩
  | .local _ .vmem, ⟨0, _⟩ => ⟨S1x128x64x64, .f32⟩
  | .local _ .vmem, ⟨1, _⟩ => ⟨S1x128x64x64, .f32⟩
  | .local _ .vmem, ⟨2, _⟩ => ⟨S1x64x128x128, .f32⟩
  | .local _ .vmem, ⟨3, _⟩ => ⟨S1x64x128x128, .f32⟩
  | .local _ .vmem, ⟨4, _⟩ => ⟨S4x64x128, .f32⟩
  | .local _ .vmem, ⟨5, _⟩ => ⟨S64x1, .f32⟩
  | .local _ .vmem, ⟨6, _⟩ => ⟨S9x32x128, .f32⟩
  | .local _ .vmem, ⟨7, _⟩ => ⟨S32x1, .f32⟩
  | .local _ .vmem, ⟨8, _⟩ => ⟨S32x9, .f32⟩
  | .local _ .vmem, ⟨9, _⟩ => ⟨S32x1, .f32⟩
  | .local _ .vmem, ⟨10, _⟩ => ⟨S1x64x128x128, .f32⟩
  | .local _ .vmem, ⟨11, _⟩ => ⟨S1x64x128x128, .f32⟩
  | .local _ .vmem, ⟨12, _⟩ => ⟨S128x16640, .bf16⟩
  | .local _ .vmem, ⟨13, _⟩ => ⟨S32x16640, .f32⟩
  | _, _ => ⟨S8x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x9 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x64x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S9x32_S32x9_1_0 : S9x32.Transposes [1, 0] S32x9
  inb_S1x128x64x64_S1x128x64x64_0_0_0_0 : ∀ a, (![0, 0, 0, 0] : Fin 4 → Nat) a + S1x128x64x64.size a ≤ S1x128x64x64.size a
  h_S1x128x64x64 : 0 < S1x128x64x64.numel
  shapeCasts_S1x128x64x64_S128x64x64 : S1x128x64x64.ShapeCasts S128x64x64
  shapeCasts_S128x64x64_S8192x64 : S128x64x64.ShapeCasts S8192x64
  bitsLt_bf16_f32 : FTy.bits .bf16 < FTy.bits .f32
  iota_S64x128_d1_w32 : S64x128.Iotas .tc 32 [1]
  iota_S64x128_d0_w32 : S64x128.Iotas .tc 32 [0]
  natLt_1_32 : 1 < 32
  shapeCasts_S8192x128_S128x8192 : S8192x128.ShapeCasts S128x8192
  inb_S4x64x128_S1x64x128_0_0_0 : ∀ a, (![0, 0, 0] : Fin 3 → Nat) a + S1x64x128.size a ≤ S4x64x128.size a
  h_S1x64x128 : 0 < S1x64x128.numel
  shapeCasts_S1x64x128_S64x128 : S1x64x128.ShapeCasts S64x128
  inb_S4x64x128_S1x64x128_1_0_0 : ∀ a, (![1, 0, 0] : Fin 3 → Nat) a + S1x64x128.size a ≤ S4x64x128.size a
  inb_S64x1_S64x1_0_0 : ∀ a, (![0, 0] : Fin 2 → Nat) a + S64x1.size a ≤ S64x1.size a
  h_S64x1 : 0 < S64x1.numel
  broadcasts_S64x1_S64x8192 : S64x1.Broadcasts S64x8192
  shapeCasts_S64x8192_S64x64x128 : S64x8192.ShapeCasts S64x64x128
  inb_S4x64x128_S1x64x128_2_0_0 : ∀ a, (![2, 0, 0] : Fin 3 → Nat) a + S1x64x128.size a ≤ S4x64x128.size a
  inb_S4x64x128_S1x64x128_3_0_0 : ∀ a, (![3, 0, 0] : Fin 3 → Nat) a + S1x64x128.size a ≤ S4x64x128.size a
  shapeCasts_S64x64x128_S64x64x1x128 : S64x64x128.ShapeCasts S64x64x1x128
  concatenates_S64x64x1x128_S64x64x1x128_S64x64x2x128_d2 : Shape.Concatenates [S64x64x1x128, S64x64x1x128] S64x64x2x128 2
  shapeCasts_S64x64x2x128_S64x16384 : S64x64x2x128.ShapeCasts S64x16384
  inb_S128x16640_S128x128_0_0 : ∀ a, (![0, 0] : Fin 2 → Nat) a + S128x128.size a ≤ S128x16640.size a
  h_S128x128 : 0 < S128x128.numel
  shapeCasts_S128x128_S128x128 : S128x128.ShapeCasts S128x128
  packedbf16_S128x16640_S128x128_0_0 : (Rect.unit (s := S128x16640) ![0, 0] S128x128.size inb_S128x16640_S128x128_0_0).PackedRows (EltTy.packing .bf16)
  inb_S128x16640_S128x128_0_16512 : ∀ a, (![0, 16512] : Fin 2 → Nat) a + S128x128.size a ≤ S128x16640.size a
  packedbf16_S128x16640_S128x128_0_16512 : (Rect.unit (s := S128x16640) ![0, 16512] S128x128.size inb_S128x16640_S128x128_0_16512).PackedRows (EltTy.packing .bf16)
  inb_S128x16640_S64x16384_0_128 : ∀ a, (![0, 128] : Fin 2 → Nat) a + S64x16384.size a ≤ S128x16640.size a
  h_S64x16384 : 0 < S64x16384.numel
  shapeCasts_S64x16384_S64x16384 : S64x16384.ShapeCasts S64x16384
  packedbf16_S128x16640_S64x16384_0_128 : (Rect.unit (s := S128x16640) ![0, 128] S64x16384.size inb_S128x16640_S64x16384_0_128).PackedRows (EltTy.packing .bf16)
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S64x16384 : S64x128x128.ShapeCasts S64x16384
  inb_S128x16640_S64x16384_64_128 : ∀ a, (![64, 128] : Fin 2 → Nat) a + S64x16384.size a ≤ S128x16640.size a
  packedbf16_S128x16640_S64x16384_64_128 : (Rect.unit (s := S128x16640) ![64, 128] S64x16384.size inb_S128x16640_S64x16384_64_128).PackedRows (EltTy.packing .bf16)
  inb_S128x16640_S128x16640_0_0 : ∀ a, (![0, 0] : Fin 2 → Nat) a + S128x16640.size a ≤ S128x16640.size a
  h_S128x16640 : 0 < S128x16640.numel
  iota_S128x16640_d1_w32 : S128x16640.Iotas .tc 32 [1]
  slices_S128x16640_o0_0_S128x16639 : S128x16640.Slices ![0, 0] S128x16639
  concatenates_S128x1_S128x16639_S128x16640_d1 : Shape.Concatenates [S128x1, S128x16639] S128x16640 1
  slices_S128x16640_o0_1_S128x16639 : S128x16640.Slices ![0, 1] S128x16639
  concatenates_S128x16639_S128x1_S128x16640_d1 : Shape.Concatenates [S128x16639, S128x1] S128x16640 1
  slices_S128x16640_o0_0_S128x4096 : S128x16640.Slices ![0, 0] S128x4096
  inb_S9x32x128_S1x32x128_0_0_0 : ∀ a, (![0, 0, 0] : Fin 3 → Nat) a + S1x32x128.size a ≤ S9x32x128.size a
  h_S1x32x128 : 0 < S1x32x128.numel
  shapeCasts_S1x32x128_S32x128 : S1x32x128.ShapeCasts S32x128
  inb_S9x32x128_S1x32x128_1_0_0 : ∀ a, (![1, 0, 0] : Fin 3 → Nat) a + S1x32x128.size a ≤ S9x32x128.size a
  inb_S9x32x128_S1x32x128_2_0_0 : ∀ a, (![2, 0, 0] : Fin 3 → Nat) a + S1x32x128.size a ≤ S9x32x128.size a
  slices_S128x16640_o0_128_S128x4096 : S128x16640.Slices ![0, 128] S128x4096
  inb_S9x32x128_S1x32x128_3_0_0 : ∀ a, (![3, 0, 0] : Fin 3 → Nat) a + S1x32x128.size a ≤ S9x32x128.size a
  inb_S9x32x128_S1x32x128_4_0_0 : ∀ a, (![4, 0, 0] : Fin 3 → Nat) a + S1x32x128.size a ≤ S9x32x128.size a
  inb_S9x32x128_S1x32x128_5_0_0 : ∀ a, (![5, 0, 0] : Fin 3 → Nat) a + S1x32x128.size a ≤ S9x32x128.size a
  slices_S128x16640_o0_256_S128x4096 : S128x16640.Slices ![0, 256] S128x4096
  inb_S9x32x128_S1x32x128_6_0_0 : ∀ a, (![6, 0, 0] : Fin 3 → Nat) a + S1x32x128.size a ≤ S9x32x128.size a
  inb_S9x32x128_S1x32x128_7_0_0 : ∀ a, (![7, 0, 0] : Fin 3 → Nat) a + S1x32x128.size a ≤ S9x32x128.size a
  inb_S9x32x128_S1x32x128_8_0_0 : ∀ a, (![8, 0, 0] : Fin 3 → Nat) a + S1x32x128.size a ≤ S9x32x128.size a
  slices_S128x16640_o0_4096_S128x4096 : S128x16640.Slices ![0, 4096] S128x4096
  slices_S128x16640_o0_4224_S128x4096 : S128x16640.Slices ![0, 4224] S128x4096
  slices_S128x16640_o0_4352_S128x4096 : S128x16640.Slices ![0, 4352] S128x4096
  slices_S128x16640_o0_8192_S128x4096 : S128x16640.Slices ![0, 8192] S128x4096
  slices_S128x16640_o0_8320_S128x4096 : S128x16640.Slices ![0, 8320] S128x4096
  slices_S128x16640_o0_8448_S128x4096 : S128x16640.Slices ![0, 8448] S128x4096
  slices_S128x16640_o0_12288_S128x4096 : S128x16640.Slices ![0, 12288] S128x4096
  slices_S128x16640_o0_12416_S128x4096 : S128x16640.Slices ![0, 12416] S128x4096
  slices_S128x16640_o0_12544_S128x4096 : S128x16640.Slices ![0, 12544] S128x4096
  concatenates_S32x4096_S32x4096_S32x4096_S32x4096_S32x16384_d1 : Shape.Concatenates [S32x4096, S32x4096, S32x4096, S32x4096] S32x16384 1
  inb_S32x1_S32x1_0_0 : ∀ a, (![0, 0] : Fin 2 → Nat) a + S32x1.size a ≤ S32x1.size a
  h_S32x1 : 0 < S32x1.numel
  broadcasts_S32x1_S32x16384 : S32x1.Broadcasts S32x16384
  shapeCasts_S32x16384_S32x128x128 : S32x16384.ShapeCasts S32x128x128
  inb_S1x64x128x128_S1x32x128x128_0_0_0_0 : ∀ a, (![0, 0, 0, 0] : Fin 4 → Nat) a + S1x32x128x128.size a ≤ S1x64x128x128.size a
  h_S1x32x128x128 : 0 < S1x32x128x128.numel
  shapeCasts_S1x32x128x128_S32x128x128 : S1x32x128x128.ShapeCasts S32x128x128
  shapeCasts_S32x128x128_S1x32x128x128 : S32x128x128.ShapeCasts S1x32x128x128
  inb_S32x16640_S32x128_0_0 : ∀ a, (![0, 0] : Fin 2 → Nat) a + S32x128.size a ≤ S32x16640.size a
  h_S32x128 : 0 < S32x128.numel
  shapeCasts_S32x128_S32x128 : S32x128.ShapeCasts S32x128
  inb_S32x16640_S32x128_0_16512 : ∀ a, (![0, 16512] : Fin 2 → Nat) a + S32x128.size a ≤ S32x16640.size a
  inb_S32x16640_S32x16384_0_128 : ∀ a, (![0, 128] : Fin 2 → Nat) a + S32x16384.size a ≤ S32x16640.size a
  h_S32x16384 : 0 < S32x16384.numel
  shapeCasts_S32x16384_S32x16384 : S32x16384.ShapeCasts S32x16384
  inb_S32x16640_S32x16640_0_0 : ∀ a, (![0, 0] : Fin 2 → Nat) a + S32x16640.size a ≤ S32x16640.size a
  h_S32x16640 : 0 < S32x16640.numel
  iota_S32x16640_d1_w32 : S32x16640.Iotas .tc 32 [1]
  slices_S32x16640_o0_0_S32x16639 : S32x16640.Slices ![0, 0] S32x16639
  concatenates_S32x1_S32x16639_S32x16640_d1 : Shape.Concatenates [S32x1, S32x16639] S32x16640 1
  slices_S32x16640_o0_1_S32x16639 : S32x16640.Slices ![0, 1] S32x16639
  concatenates_S32x16639_S32x1_S32x16640_d1 : Shape.Concatenates [S32x16639, S32x1] S32x16640 1
  slices_S32x16640_o0_0_S32x4096 : S32x16640.Slices ![0, 0] S32x4096
  inb_S32x9_S32x1_0_0 : ∀ a, (![0, 0] : Fin 2 → Nat) a + S32x1.size a ≤ S32x9.size a
  shapeCasts_S32x1_S32x1 : S32x1.ShapeCasts S32x1
  broadcasts_S32x1_S32x4096 : S32x1.Broadcasts S32x4096
  inb_S32x9_S32x1_0_1 : ∀ a, (![0, 1] : Fin 2 → Nat) a + S32x1.size a ≤ S32x9.size a
  inb_S32x9_S32x1_0_2 : ∀ a, (![0, 2] : Fin 2 → Nat) a + S32x1.size a ≤ S32x9.size a
  slices_S32x16640_o0_128_S32x4096 : S32x16640.Slices ![0, 128] S32x4096
  inb_S32x9_S32x1_0_3 : ∀ a, (![0, 3] : Fin 2 → Nat) a + S32x1.size a ≤ S32x9.size a
  inb_S32x9_S32x1_0_4 : ∀ a, (![0, 4] : Fin 2 → Nat) a + S32x1.size a ≤ S32x9.size a
  inb_S32x9_S32x1_0_5 : ∀ a, (![0, 5] : Fin 2 → Nat) a + S32x1.size a ≤ S32x9.size a
  slices_S32x16640_o0_256_S32x4096 : S32x16640.Slices ![0, 256] S32x4096
  inb_S32x9_S32x1_0_6 : ∀ a, (![0, 6] : Fin 2 → Nat) a + S32x1.size a ≤ S32x9.size a
  inb_S32x9_S32x1_0_7 : ∀ a, (![0, 7] : Fin 2 → Nat) a + S32x1.size a ≤ S32x9.size a
  inb_S32x9_S32x1_0_8 : ∀ a, (![0, 8] : Fin 2 → Nat) a + S32x1.size a ≤ S32x9.size a
  slices_S32x16640_o0_4096_S32x4096 : S32x16640.Slices ![0, 4096] S32x4096
  slices_S32x16640_o0_4224_S32x4096 : S32x16640.Slices ![0, 4224] S32x4096
  slices_S32x16640_o0_4352_S32x4096 : S32x16640.Slices ![0, 4352] S32x4096
  slices_S32x16640_o0_8192_S32x4096 : S32x16640.Slices ![0, 8192] S32x4096
  slices_S32x16640_o0_8320_S32x4096 : S32x16640.Slices ![0, 8320] S32x4096
  slices_S32x16640_o0_8448_S32x4096 : S32x16640.Slices ![0, 8448] S32x4096
  slices_S32x16640_o0_12288_S32x4096 : S32x16640.Slices ![0, 12288] S32x4096
  slices_S32x16640_o0_12416_S32x4096 : S32x16640.Slices ![0, 12416] S32x4096
  slices_S32x16640_o0_12544_S32x4096 : S32x16640.Slices ![0, 12544] S32x4096
  inb_S1x64x128x128_S1x32x128x128_0_32_0_0 : ∀ a, (![0, 32, 0, 0] : Fin 4 → Nat) a + S1x32x128x128.size a ≤ S1x64x128x128.size a
  dot_S8192x64_S64x128_S8192x128_1_0_0_1_n_n_wf : DotDims.WF S8192x64 S64x128 S8192x128 [1] [0] [0] [1] [] []
  dot_S64x128_S128x8192_S64x8192_1_0_0_1_n_n_wf : DotDims.WF S64x128 S128x8192 S64x8192 [1] [0] [0] [1] [] []
  dot_S32x128_S128x4096_S32x4096_1_0_0_1_n_n_wf : DotDims.WF S32x128 S128x4096 S32x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64x64.size a ≤ S8x128x64x64.size a
  hwx0_0 : ∀ i : grid0.Coords, EltTy.bits .f32 = 32 ∨ (Rect.block (s := S8x128x64x64) S1x128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x128.size a ≤ S8x64x128x128.size a
  hwx0_1 : ∀ i : grid0.Coords, EltTy.bits .f32 = 32 ∨ (Rect.block (s := S8x64x128x128) S1x64x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64x128.size a ≤ S4x64x128.size a
  hwx0_2 : ∀ i : grid0.Coords, EltTy.bits .f32 = 32 ∨ (Rect.block (s := S4x64x128) S4x64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x32x128.size a ≤ S9x32x128.size a
  hwx0_4 : ∀ i : grid0.Coords, EltTy.bits .f32 = 32 ∨ (Rect.block (s := S9x32x128) S9x32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x9.size a ≤ S32x9.size a
  hwx0_6 : ∀ i : grid0.Coords, EltTy.bits .f32 = 32 ∨ (Rect.block (s := S32x9) S32x9.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x128x128.size a ≤ S8x64x128x128.size a
  hwx0_8 : ∀ i : grid0.Coords, EltTy.bits .f32 = 32 ∨ (Rect.block (s := S8x64x128x128) S1x64x128x128.size (cc0_transform_8 i) (hinb0_8 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S64x128_S128x8192_S64x8192_1_0_0_1_n_n : DotDims S64x128 S128x8192 S64x8192 where
  lhsContracting := [1]
  rhsContracting := [0]
  lhsNonContracting := [0]
  rhsNonContracting := [1]
  lhsBatch := []
  rhsBatch := []
  wf := dot_S64x128_S128x8192_S64x8192_1_0_0_1_n_n_wf
def dot_S32x128_S128x4096_S32x4096_1_0_0_1_n_n : DotDims S32x128 S128x4096 S32x4096 where
  lhsContracting := [1]
  rhsContracting := [0]
  lhsNonContracting := [0]
  rhsNonContracting := [1]
  lhsBatch := []
  rhsBatch := []
  wf := dot_S32x128_S128x4096_S32x4096_1_0_0_1_n_n_wf

abbrev win0_0 : Pipeline.Window sig grid0 :=
  Pipeline.Window.ofSpec (Memref.whole main_arg0) S1x128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S9x32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S32x9.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x64x128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x128x64x64 : Shape := ⟨4, ![8, 128, 64, 64]⟩
abbrev S8x64x128x128 : Shape := ⟨4, ![8, 64, 128, 128]⟩
abbrev S4x64x128 : Shape := ⟨3, ![4, 64, 128]⟩
abbrev S64x1 : Shape := ⟨2, ![64, 1]⟩
abbrev S9x32x128 : Shape := ⟨3, ![9, 32, 128]⟩
abbrev S32x1 : Shape := ⟨2, ![32, 1]⟩
abbrev S9x32 : Shape := ⟨2, ![9, 32]⟩
abbrev S8x128x128x128 : Shape := ⟨4, ![8, 128, 128, 128]⟩
abbrev S1x128x16x64 : Shape := ⟨4, ![1, 128, 16, 64]⟩
abbrev S1x64x32x128 : Shape := ⟨4, ![1, 64, 32, 128]⟩
abbrev S1x128x32x128 : Shape := ⟨4, ![1, 128, 32, 128]⟩
abbrev S128x16x64 : Shape := ⟨3, ![128, 16, 64]⟩
abbrev S2048x64 : Shape := ⟨2, ![2048, 64]⟩
abbrev S64x128 : Shape := ⟨2, ![64, 128]⟩
abbrev S2048x128 : Shape := ⟨2, ![2048, 128]⟩
abbrev S128x16x128 : Shape := ⟨3, ![128, 16, 128]⟩
abbrev S128x2048 : Shape := ⟨2, ![128, 2048]⟩
abbrev S1x64x128 : Shape := ⟨3, ![1, 64, 128]⟩
abbrev S64x2048 : Shape := ⟨2, ![64, 2048]⟩
abbrev S64x16x128 : Shape := ⟨3, ![64, 16, 128]⟩
abbrev S64x16x1x128 : Shape := ⟨4, ![64, 16, 1, 128]⟩
abbrev S64x16x2x128 : Shape := ⟨4, ![64, 16, 2, 128]⟩
abbrev S64x32x128 : Shape := ⟨3, ![64, 32, 128]⟩
abbrev S1x128x8x128 : Shape := ⟨4, ![1, 128, 8, 128]⟩
abbrev S128x36x130 : Shape := ⟨3, ![128, 36, 130]⟩
abbrev S32x34x130 : Shape := ⟨3, ![32, 34, 130]⟩
abbrev S128x32x128 : Shape := ⟨3, ![128, 32, 128]⟩
abbrev S1x128x2x128 : Shape := ⟨4, ![1, 128, 2, 128]⟩
abbrev S128x2x128 : Shape := ⟨3, ![128, 2, 128]⟩
abbrev S32x4352 : Shape := ⟨2, ![32, 4352]⟩
abbrev S128x34x128 : Shape := ⟨3, ![128, 34, 128]⟩
abbrev S128x4352 : Shape := ⟨2, ![128, 4352]⟩
abbrev S1x32x128 : Shape := ⟨3, ![1, 32, 128]⟩
abbrev S32x128 : Shape := ⟨2, ![32, 128]⟩
abbrev S32x34x128 : Shape := ⟨3, ![32, 34, 128]⟩
abbrev S32x1x130 : Shape := ⟨3, ![32, 1, 130]⟩
abbrev S32x32x128 : Shape := ⟨3, ![32, 32, 128]⟩
abbrev S1x32x32x128 : Shape := ⟨4, ![1, 32, 32, 128]⟩
abbrev S1x32 : Shape := ⟨2, ![1, 32]⟩
abbrev S32 : Shape := ⟨1, ![32]⟩
abbrev S32x1x1 : Shape := ⟨3, ![32, 1, 1]⟩

abbrev nBuf : Space → Nat
  | .hbm => 10
  | .vmem => 22
  | .smem => 0
  | _ => 0

abbrev bufTy : (tb : Table) → Fin (tcTables nBuf tb) → BufTy
  | .hbm, ⟨0, _⟩ => ⟨S8x128x64x64, .f32⟩
  | .hbm, ⟨1, _⟩ => ⟨S8x64x128x128, .f32⟩
  | .hbm, ⟨2, _⟩ => ⟨S4x64x128, .f32⟩
  | .hbm, ⟨3, _⟩ => ⟨S64x1, .f32⟩
  | .hbm, ⟨4, _⟩ => ⟨S9x32x128, .f32⟩
  | .hbm, ⟨5, _⟩ => ⟨S32x1, .f32⟩
  | .hbm, ⟨6, _⟩ => ⟨S9x32, .f32⟩
  | .hbm, ⟨7, _⟩ => ⟨S32x1, .f32⟩
  | .hbm, ⟨8, _⟩ => ⟨S8x128x128x128, .f32⟩
  | .hbm, ⟨9, _⟩ => ⟨S8x64x128x128, .f32⟩
  | .local _ .vmem, ⟨0, _⟩ => ⟨S1x128x16x64, .f32⟩
  | .local _ .vmem, ⟨1, _⟩ => ⟨S1x128x16x64, .f32⟩
  | .local _ .vmem, ⟨2, _⟩ => ⟨S1x64x32x128, .f32⟩
  | .local _ .vmem, ⟨3, _⟩ => ⟨S1x64x32x128, .f32⟩
  | .local _ .vmem, ⟨4, _⟩ => ⟨S4x64x128, .f32⟩
  | .local _ .vmem, ⟨5, _⟩ => ⟨S64x1, .f32⟩
  | .local _ .vmem, ⟨6, _⟩ => ⟨S1x128x32x128, .f32⟩
  | .local _ .vmem, ⟨7, _⟩ => ⟨S1x128x32x128, .f32⟩
  | .local _ .vmem, ⟨8, _⟩ => ⟨S1x128x32x128, .f32⟩
  | .local _ .vmem, ⟨9, _⟩ => ⟨S1x128x32x128, .f32⟩
  | .local _ .vmem, ⟨10, _⟩ => ⟨S1x128x8x128, .f32⟩
  | .local _ .vmem, ⟨11, _⟩ => ⟨S1x128x8x128, .f32⟩
  | .local _ .vmem, ⟨12, _⟩ => ⟨S1x128x8x128, .f32⟩
  | .local _ .vmem, ⟨13, _⟩ => ⟨S1x128x8x128, .f32⟩
  | .local _ .vmem, ⟨14, _⟩ => ⟨S9x32x128, .f32⟩
  | .local _ .vmem, ⟨15, _⟩ => ⟨S32x1, .f32⟩
  | .local _ .vmem, ⟨16, _⟩ => ⟨S9x32, .f32⟩
  | .local _ .vmem, ⟨17, _⟩ => ⟨S32x1, .f32⟩
  | .local _ .vmem, ⟨18, _⟩ => ⟨S1x64x32x128, .f32⟩
  | .local _ .vmem, ⟨19, _⟩ => ⟨S1x64x32x128, .f32⟩
  | .local _ .vmem, ⟨20, _⟩ => ⟨S128x36x130, .f32⟩
  | .local _ .vmem, ⟨21, _⟩ => ⟨S32x34x130, .f32⟩
  | _, _ => ⟨S8x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc1_transform_2 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![arg0.toNat, c0_i32.toNat, v2.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x128x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S9x32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S9x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S32x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x64x32x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  inb_S1x128x16x64_S1x128x16x64_0_0_0_0 : ∀ a, (![0, 0, 0, 0] : Fin 4 → Nat) a + S1x128x16x64.size a ≤ S1x128x16x64.size a
  h_S1x128x16x64 : 0 < S1x128x16x64.numel
  shapeCasts_S1x128x16x64_S128x16x64 : S1x128x16x64.ShapeCasts S128x16x64
  shapeCasts_S128x16x64_S2048x64 : S128x16x64.ShapeCasts S2048x64
  iota_S64x128_d1_w32 : S64x128.Iotas .tc 32 [1]
  iota_S64x128_d0_w32 : S64x128.Iotas .tc 32 [0]
  natLt_1_32 : 1 < 32
  shapeCasts_S2048x128_S128x16x128 : S2048x128.ShapeCasts S128x16x128
  shapeCasts_S128x16x128_S128x2048 : S128x16x128.ShapeCasts S128x2048
  inb_S4x64x128_S1x64x128_0_0_0 : ∀ a, (![0, 0, 0] : Fin 3 → Nat) a + S1x64x128.size a ≤ S4x64x128.size a
  h_S1x64x128 : 0 < S1x64x128.numel
  shapeCasts_S1x64x128_S64x128 : S1x64x128.ShapeCasts S64x128
  inb_S4x64x128_S1x64x128_1_0_0 : ∀ a, (![1, 0, 0] : Fin 3 → Nat) a + S1x64x128.size a ≤ S4x64x128.size a
  inb_S64x1_S64x1_0_0 : ∀ a, (![0, 0] : Fin 2 → Nat) a + S64x1.size a ≤ S64x1.size a
  h_S64x1 : 0 < S64x1.numel
  broadcasts_S64x1_S64x2048 : S64x1.Broadcasts S64x2048
  shapeCasts_S64x2048_S64x16x128 : S64x2048.ShapeCasts S64x16x128
  inb_S4x64x128_S1x64x128_2_0_0 : ∀ a, (![2, 0, 0] : Fin 3 → Nat) a + S1x64x128.size a ≤ S4x64x128.size a
  inb_S4x64x128_S1x64x128_3_0_0 : ∀ a, (![3, 0, 0] : Fin 3 → Nat) a + S1x64x128.size a ≤ S4x64x128.size a
  shapeCasts_S64x16x128_S64x16x1x128 : S64x16x128.ShapeCasts S64x16x1x128
  concatenates_S64x16x1x128_S64x16x1x128_S64x16x2x128_d2 : Shape.Concatenates [S64x16x1x128, S64x16x1x128] S64x16x2x128 2
  shapeCasts_S64x16x2x128_S64x32x128 : S64x16x2x128.ShapeCasts S64x32x128
  inb_S1x128x32x128_S1x64x32x128_0_0_0_0 : ∀ a, (![0, 0, 0, 0] : Fin 4 → Nat) a + S1x64x32x128.size a ≤ S1x128x32x128.size a
  h_S1x64x32x128 : 0 < S1x64x32x128.numel
  shapeCasts_S1x64x32x128_S64x32x128 : S1x64x32x128.ShapeCasts S64x32x128
  shapeCasts_S64x32x128_S1x64x32x128 : S64x32x128.ShapeCasts S1x64x32x128
  inb_S1x64x32x128_S1x64x32x128_0_0_0_0 : ∀ a, (![0, 0, 0, 0] : Fin 4 → Nat) a + S1x64x32x128.size a ≤ S1x64x32x128.size a
  inb_S1x128x32x128_S1x64x32x128_0_64_0_0 : ∀ a, (![0, 64, 0, 0] : Fin 4 → Nat) a + S1x64x32x128.size a ≤ S1x128x32x128.size a
  inb_S128x36x130_S128x36x130_0_0_0 : ∀ a, (![0, 0, 0] : Fin 3 → Nat) a + S128x36x130.size a ≤ S128x36x130.size a
  h_S128x36x130 : 0 < S128x36x130.numel
  shapeCasts_S128x36x130_S128x36x130 : S128x36x130.ShapeCasts S128x36x130
  inb_S1x128x32x128_S1x128x32x128_0_0_0_0 : ∀ a, (![0, 0, 0, 0] : Fin 4 → Nat) a + S1x128x32x128.size a ≤ S1x128x32x128.size a
  h_S1x128x32x128 : 0 < S1x128x32x128.numel
  shapeCasts_S1x128x32x128_S128x32x128 : S1x128x32x128.ShapeCasts S128x32x128
  inb_S128x36x130_S128x32x128_0_2_1 : ∀ a, (![0, 2, 1] : Fin 3 → Nat) a + S128x32x128.size a ≤ S128x36x130.size a
  h_S128x32x128 : 0 < S128x32x128.numel
  shapeCasts_S128x32x128_S128x32x128 : S128x32x128.ShapeCasts S128x32x128
  inb_S1x128x8x128_S1x128x2x128_0_0_6_0 : ∀ a, (![0, 0, 6, 0] : Fin 4 → Nat) a + S1x128x2x128.size a ≤ S1x128x8x128.size a
  h_S1x128x2x128 : 0 < S1x128x2x128.numel
  shapeCasts_S1x128x2x128_S128x2x128 : S1x128x2x128.ShapeCasts S128x2x128
  inb_S128x36x130_S128x2x128_0_0_1 : ∀ a, (![0, 0, 1] : Fin 3 → Nat) a + S128x2x128.size a ≤ S128x36x130.size a
  h_S128x2x128 : 0 < S128x2x128.numel
  shapeCasts_S128x2x128_S128x2x128 : S128x2x128.ShapeCasts S128x2x128
  inb_S1x128x8x128_S1x128x2x128_0_0_0_0 : ∀ a, (![0, 0, 0, 0] : Fin 4 → Nat) a + S1x128x2x128.size a ≤ S1x128x8x128.size a
  inb_S128x36x130_S128x2x128_0_34_1 : ∀ a, (![0, 34, 1] : Fin 3 → Nat) a + S128x2x128.size a ≤ S128x36x130.size a
  inb_S128x36x130_S128x34x128_0_0_0 : ∀ a, (![0, 0, 0] : Fin 3 → Nat) a + S128x34x128.size a ≤ S128x36x130.size a
  h_S128x34x128 : 0 < S128x34x128.numel
  shapeCasts_S128x34x128_S128x4352 : S128x34x128.ShapeCasts S128x4352
  inb_S9x32x128_S1x32x128_0_0_0 : ∀ a, (![0, 0, 0] : Fin 3 → Nat) a + S1x32x128.size a ≤ S9x32x128.size a
  h_S1x32x128 : 0 < S1x32x128.numel
  shapeCasts_S1x32x128_S32x128 : S1x32x128.ShapeCasts S32x128
  inb_S128x36x130_S128x34x128_0_0_1 : ∀ a, (![0, 0, 1] : Fin 3 → Nat) a + S128x34x128.size a ≤ S128x36x130.size a
  inb_S9x32x128_S1x32x128_1_0_0 : ∀ a, (![1, 0, 0] : Fin 3 → Nat) a + S1x32x128.size a ≤ S9x32x128.size a
  inb_S128x36x130_S128x34x128_0_0_2 : ∀ a, (![0, 0, 2] : Fin 3 → Nat) a + S128x34x128.size a ≤ S128x36x130.size a
  inb_S9x32x128_S1x32x128_2_0_0 : ∀ a, (![2, 0, 0] : Fin 3 → Nat) a + S1x32x128.size a ≤ S9x32x128.size a
  inb_S128x36x130_S128x34x128_0_1_0 : ∀ a, (![0, 1, 0] : Fin 3 → Nat) a + S128x34x128.size a ≤ S128x36x130.size a
  inb_S9x32x128_S1x32x128_3_0_0 : ∀ a, (![3, 0, 0] : Fin 3 → Nat) a + S1x32x128.size a ≤ S9x32x128.size a
  inb_S128x36x130_S128x34x128_0_1_1 : ∀ a, (![0, 1, 1] : Fin 3 → Nat) a + S128x34x128.size a ≤ S128x36x130.size a
  inb_S9x32x128_S1x32x128_4_0_0 : ∀ a, (![4, 0, 0] : Fin 3 → Nat) a + S1x32x128.size a ≤ S9x32x128.size a
  inb_S128x36x130_S128x34x128_0_1_2 : ∀ a, (![0, 1, 2] : Fin 3 → Nat) a + S128x34x128.size a ≤ S128x36x130.size a
  inb_S9x32x128_S1x32x128_5_0_0 : ∀ a, (![5, 0, 0] : Fin 3 → Nat) a + S1x32x128.size a ≤ S9x32x128.size a
  inb_S128x36x130_S128x34x128_0_2_0 : ∀ a, (![0, 2, 0] : Fin 3 → Nat) a + S128x34x128.size a ≤ S128x36x130.size a
  inb_S9x32x128_S1x32x128_6_0_0 : ∀ a, (![6, 0, 0] : Fin 3 → Nat) a + S1x32x128.size a ≤ S9x32x128.size a
  inb_S128x36x130_S128x34x128_0_2_1 : ∀ a, (![0, 2, 1] : Fin 3 → Nat) a + S128x34x128.size a ≤ S128x36x130.size a
  inb_S9x32x128_S1x32x128_7_0_0 : ∀ a, (![7, 0, 0] : Fin 3 → Nat) a + S1x32x128.size a ≤ S9x32x128.size a
  inb_S128x36x130_S128x34x128_0_2_2 : ∀ a, (![0, 2, 2] : Fin 3 → Nat) a + S128x34x128.size a ≤ S128x36x130.size a
  inb_S9x32x128_S1x32x128_8_0_0 : ∀ a, (![8, 0, 0] : Fin 3 → Nat) a + S1x32x128.size a ≤ S9x32x128.size a
  inb_S32x1_S32x1_0_0 : ∀ a, (![0, 0] : Fin 2 → Nat) a + S32x1.size a ≤ S32x1.size a
  h_S32x1 : 0 < S32x1.numel
  broadcasts_S32x1_S32x4352 : S32x1.Broadcasts S32x4352
  inb_S32x34x130_S32x34x130_0_0_0 : ∀ a, (![0, 0, 0] : Fin 3 → Nat) a + S32x34x130.size a ≤ S32x34x130.size a
  h_S32x34x130 : 0 < S32x34x130.numel
  shapeCasts_S32x34x130_S32x34x130 : S32x34x130.ShapeCasts S32x34x130
  shapeCasts_S32x4352_S32x34x128 : S32x4352.ShapeCasts S32x34x128
  inb_S32x34x130_S32x34x128_0_0_1 : ∀ a, (![0, 0, 1] : Fin 3 → Nat) a + S32x34x128.size a ≤ S32x34x130.size a
  h_S32x34x128 : 0 < S32x34x128.numel
  shapeCasts_S32x34x128_S32x34x128 : S32x34x128.ShapeCasts S32x34x128
  inb_S32x34x130_S32x1x130_0_0_0 : ∀ a, (![0, 0, 0] : Fin 3 → Nat) a + S32x1x130.size a ≤ S32x34x130.size a
  h_S32x1x130 : 0 < S32x1x130.numel
  shapeCasts_S32x1x130_S32x1x130 : S32x1x130.ShapeCasts S32x1x130
  inb_S32x34x130_S32x1x130_0_33_0 : ∀ a, (![0, 33, 0] : Fin 3 → Nat) a + S32x1x130.size a ≤ S32x34x130.size a
  inb_S32x34x130_S32x32x128_0_1_1 : ∀ a, (![0, 1, 1] : Fin 3 → Nat) a + S32x32x128.size a ≤ S32x34x130.size a
  h_S32x32x128 : 0 < S32x32x128.numel
  inb_S1x64x32x128_S1x32x32x128_0_0_0_0 : ∀ a, (![0, 0, 0, 0] : Fin 4 → Nat) a + S1x32x32x128.size a ≤ S1x64x32x128.size a
  h_S1x32x32x128 : 0 < S1x32x32x128.numel
  shapeCasts_S1x32x32x128_S32x32x128 : S1x32x32x128.ShapeCasts S32x32x128
  shapeCasts_S32x32x128_S1x32x32x128 : S32x32x128.ShapeCasts S1x32x32x128
  inb_S9x32_S9x32_0_0 : ∀ a, (![0, 0] : Fin 2 → Nat) a + S9x32.size a ≤ S9x32.size a
  h_S9x32 : 0 < S9x32.numel
  inb_S32x34x130_S32x32x128_0_0_0 : ∀ a, (![0, 0, 0] : Fin 3 → Nat) a + S32x32x128.size a ≤ S32x34x130.size a
  slices_S9x32_o0_0_S1x32 : S9x32.Slices ![0, 0] S1x32
  shapeCasts_S1x32_S32 : S1x32.ShapeCasts S32
  shapeCasts_S32_S32x1x1 : S32.ShapeCasts S32x1x1
  broadcasts_S32x1x1_S32x32x128 : S32x1x1.Broadcasts S32x32x128
  inb_S32x34x130_S32x32x128_0_0_1 : ∀ a, (![0, 0, 1] : Fin 3 → Nat) a + S32x32x128.size a ≤ S32x34x130.size a
  slices_S9x32_o1_0_S1x32 : S9x32.Slices ![1, 0] S1x32
  inb_S32x34x130_S32x32x128_0_0_2 : ∀ a, (![0, 0, 2] : Fin 3 → Nat) a + S32x32x128.size a ≤ S32x34x130.size a
  slices_S9x32_o2_0_S1x32 : S9x32.Slices ![2, 0] S1x32
  inb_S32x34x130_S32x32x128_0_1_0 : ∀ a, (![0, 1, 0] : Fin 3 → Nat) a + S32x32x128.size a ≤ S32x34x130.size a
  slices_S9x32_o3_0_S1x32 : S9x32.Slices ![3, 0] S1x32
  slices_S9x32_o4_0_S1x32 : S9x32.Slices ![4, 0] S1x32
  inb_S32x34x130_S32x32x128_0_1_2 : ∀ a, (![0, 1, 2] : Fin 3 → Nat) a + S32x32x128.size a ≤ S32x34x130.size a
  slices_S9x32_o5_0_S1x32 : S9x32.Slices ![5, 0] S1x32
  inb_S32x34x130_S32x32x128_0_2_0 : ∀ a, (![0, 2, 0] : Fin 3 → Nat) a + S32x32x128.size a ≤ S32x34x130.size a
  slices_S9x32_o6_0_S1x32 : S9x32.Slices ![6, 0] S1x32
  inb_S32x34x130_S32x32x128_0_2_1 : ∀ a, (![0, 2, 1] : Fin 3 → Nat) a + S32x32x128.size a ≤ S32x34x130.size a
  slices_S9x32_o7_0_S1x32 : S9x32.Slices ![7, 0] S1x32
  inb_S32x34x130_S32x32x128_0_2_2 : ∀ a, (![0, 2, 2] : Fin 3 → Nat) a + S32x32x128.size a ≤ S32x34x130.size a
  slices_S9x32_o8_0_S1x32 : S9x32.Slices ![8, 0] S1x32
  shapeCasts_S32x1_S32x1x1 : S32x1.ShapeCasts S32x1x1
  inb_S1x64x32x128_S1x32x32x128_0_32_0_0 : ∀ a, (![0, 32, 0, 0] : Fin 4 → Nat) a + S1x32x32x128.size a ≤ S1x64x32x128.size a
  dot_S2048x64_S64x128_S2048x128_1_0_0_1_n_n_wf : DotDims.WF S2048x64 S64x128 S2048x128 [1] [0] [0] [1] [] []
  dot_S64x128_S128x2048_S64x2048_1_0_0_1_n_n_wf : DotDims.WF S64x128 S128x2048 S64x2048 [1] [0] [0] [1] [] []
  dot_S32x128_S128x4352_S32x4352_1_0_0_1_n_n_wf : DotDims.WF S32x128 S128x4352 S32x4352 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16x64.size a ≤ S8x128x64x64.size a
  hwx0_0 : ∀ i : grid0.Coords, EltTy.bits .f32 = 32 ∨ (Rect.block (s := S8x128x64x64) S1x128x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x32x128.size a ≤ S8x64x128x128.size a
  hwx0_1 : ∀ i : grid0.Coords, EltTy.bits .f32 = 32 ∨ (Rect.block (s := S8x64x128x128) S1x64x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64x128.size a ≤ S4x64x128.size a
  hwx0_2 : ∀ i : grid0.Coords, EltTy.bits .f32 = 32 ∨ (Rect.block (s := S4x64x128) S4x64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x32x128.size a ≤ S8x128x128x128.size a
  hwx0_4 : ∀ i : grid0.Coords, EltTy.bits .f32 = 32 ∨ (Rect.block (s := S8x128x128x128) S1x128x32x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x32x128.size a ≤ S8x128x128x128.size a
  hwx1_0 : ∀ i : grid1.Coords, EltTy.bits .f32 = 32 ∨ (Rect.block (s := S8x128x128x128) S1x128x32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x8x128.size a ≤ S8x128x128x128.size a
  hwx1_1 : ∀ i : grid1.Coords, EltTy.bits .f32 = 32 ∨ (Rect.block (s := S8x128x128x128) S1x128x8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x8x128.size a ≤ S8x128x128x128.size a
  hwx1_2 : ∀ i : grid1.Coords, EltTy.bits .f32 = 32 ∨ (Rect.block (s := S8x128x128x128) S1x128x8x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x32x128.size a ≤ S9x32x128.size a
  hwx1_3 : ∀ i : grid1.Coords, EltTy.bits .f32 = 32 ∨ (Rect.block (s := S9x32x128) S9x32x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S9x32.size a ≤ S9x32.size a
  hwx1_5 : ∀ i : grid1.Coords, EltTy.bits .f32 = 32 ∨ (Rect.block (s := S9x32) S9x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x1.size a ≤ S32x1.size a
  hwx1_6 : ∀ i : grid1.Coords, EltTy.bits .f32 = 32 ∨ (Rect.block (s := S32x1) S32x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x64x32x128.size a ≤ S8x64x128x128.size a
  hwx1_7 : ∀ i : grid1.Coords, EltTy.bits .f32 = 32 ∨ (Rect.block (s := S8x64x128x128) S1x64x32x128.size (cc1_transform_7 i) (hinb1_7 i)).WholeWords (EltTy.packing .f32)

variable [Facts₀]

def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S64x128_S128x2048_S64x2048_1_0_0_1_n_n : DotDims S64x128 S128x2048 S64x2048 where
  lhsContracting := [1]
  rhsContracting := [0]
  lhsNonContracting := [0]
  rhsNonContracting := [1]
  lhsBatch := []
  rhsBatch := []
  wf := dot_S64x128_S128x2048_S64x2048_1_0_0_1_n_n_wf
def dot_S32x128_S128x4352_S32x4352_1_0_0_1_n_n : DotDims S32x128 S128x4352 S32x4352 where
  lhsContracting := [1]
  rhsContracting := [0]
  lhsNonContracting := [0]
  rhsNonContracting := [1]
  lhsBatch := []
  rhsBatch := []
  wf := dot_S32x128_S128x4352_S32x4352_1_0_0_1_n_n_wf

abbrev win0_0 : Pipeline.Window sig grid0 :=
  Pipeline.Window.ofSpec (Memref.whole main_arg0) S1x128x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S1x128x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x128x8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128x8x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S9x32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S9x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S32x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S1x64x32x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== Proof.KernelFrames.lean ====
/-
  The two kernel frames and the idealization conjunct.

  The fused kernel runs one grid point per batch element: it stages one image of the input, one of the skip
  tensor and the six parameter arrays, writes one image of the output, and never writes an argument back. Its
  frame at the word level and at the extended reals is the run of that pipeline. The idealized kernel is the
  kernel's own text read at the extended reals (no operation was rewritten), so the idealization conjunct has
  nothing to state.
-/
import proofs.«169621_g2000704505896602_pallasbulk_1077_31_alg».proof.Defs
import proofs.«169621_g2000704505896602_pallasbulk_1077_31_alg».proof.Proof.Gen.Kernel.Frame
import proofs.«169621_g2000704505896602_pallasbulk_1077_31_alg».proof.Proof.Gen.KernelIdeal.Frame

noncomputable section

namespace Cert.Proof.KernelFrames

open Idealize.ShloMosaic Idealize.SL.Sem

/-- The kernel as printed: every weakly fair execution ends, nothing faults, the eight arguments are unchanged. -/
theorem frame_kernel [Cert.Kernel.Facts] [Cert.Pre_finite_inputs.Facts] : Cert.frame_Kernel :=
  fun m ρ _ => Cert.Kernel.Gen.frame m ρ

/-- The same kernel read at the extended reals. -/
theorem frame_kernel_ideal [Cert.KernelIdeal.Facts] [Cert.Pre_finite_inputs.Facts] : Cert.frame_KernelIdeal :=
  fun m ρ _ => Cert.KernelIdeal.Gen.frame m ρ

/-- No operation of the kernel was rewritten on the way to its idealization. -/
theorem preserves : Cert.preserves_Kernel_KernelIdeal := trivial

end Cert.Proof.KernelFrames

end
-- ==== Proof.RefUpsampleRun.lean ====
/-
  The first region of the reference: transposed convolution (kernel 2, stride 2) of one strip of the input,
  written beside the matching strip of the skip tensor.

  At a grid point (b, s) the body reads 16 rows of image b of the input, 32 rows of image b of the skip tensor,
  the four 64×128 weight slices and the bias column, and writes a 128-channel strip of 32 rows: channels 0–63
  hold the up-sampled rows, channels 64–127 the skip rows. The two stores tile the output block.

  This module runs the body once on whole staging buffers: the inputs at given contents, the output at
  anything; the result is the list of pieces the body's stores leave in the output buffer.
-/
import proofs.«169621_g2000704505896602_pallasbulk_1077_31_alg».proof.Proof.Gen.ReferenceIdeal.Launch
import proofs.«169621_g2000704505896602_pallasbulk_1077_31_alg».proof.Proof.Gen.ReferenceIdeal.Skeleton
import proofs.«169621_g2000704505896602_pallasbulk_1077_31_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Upsample

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole staging buffers: input strip `x0`, skip strip `x1`, weights `x2`, bias `x3`, the output
    buffer at anything. It ends with the inputs as they were and the output buffer holding the pieces `L` its two
    stores wrote (found by running the body). -/
noncomputable def bodyRun (c : Dev nD) (i : grid0.Coords)
    (a0 : Memref sig .tc .vmem S1x128x16x64 .f32) (h0 : a0.IsWhole) (a1 : Memref sig .tc .vmem S1x64x32x128 .f32) (h1 : a1.IsWhole)
    (a2 : Memref sig .tc .vmem S4x64x128 .f32) (h2 : a2.IsWhole) (a3 : Memref sig .tc .vmem S64x1 .f32) (h3 : a3.IsWhole)
    (a4 : Memref sig .tc .vmem S1x128x32x128 .f32) (h4 : a4.IsWhole)
    (x0 : Vec F S1x128x16x64 .f32) (x1 : Vec F S1x64x32x128 .f32) (x2 : Vec F S4x64x128 .f32) (x3 : Vec F S64x1 .f32) :
    { L : List (View.Piece (Elt F) S1x128x32x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ (∃ f, a4.view.loc (c : Thread nD τ) ↦[a4.view.set]{fullShare} a4.view.writes (Elt F) f L)) -∗ K ⟨⟩))
          ⊢ wp frame (wpE (defs₀ (F := F)) Variants.none c none) E (cc0__upsample_concat_kernel i a0 h0 a1 h1 a2 h2 a3 h3 a4 h4) K } := by
  refine ⟨?_, fun E K => ?run⟩
  case run =>
    simp only [cc0__upsample_concat_kernel_eq_skeleton]; unfold cc0__upsample_concat_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h0.eq_unread hf0; obtain rfl := h1.eq_unread hf1; obtain rfl := h2.eq_unread hf2; obtain rfl := h3.eq_unread hf3
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

end Cert.ReferenceIdeal.Upsample

end
-- ==== Proof.RefUpsampleData.lean ====
/-
  The first region of the reference, point by point.

  With `V` the contents of the TensorCore's buffers when the region is entered: each input window's staging
  buffer holds, at every grid point, that window's block of its array under `V` (the pipeline never writes an
  input back); the output window's buffer holds, after the body, the pieces the body's two stores wrote, which
  tile the block (channels 0–63 and 64–127 of the 128-channel strip). From these the pipeline's proof data and
  the body's obligation at every point.
-/
import proofs.«169621_g2000704505896602_pallasbulk_1077_31_alg».proof.Proof.RefUpsampleRun

set_option maxRecDepth 16384

noncomputable section

namespace Cert.ReferenceIdeal.Upsample

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def strip (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input strip's staging buffer holds its block at every point, whether fetched there or carried. -/
theorem staged0 {c : Dev nD} (dat : Dat τ (Elt F) Unit ℕ (UR sig nD τ) ℕ cfg0 c) (hA : dat.A 0 = V c (Pipeline.arrRef spec0 0))
    (hafter : ∀ t, dat.after 0 t = strip V c 0 t) (t : Fin cfg0.N) (d) : dat.before 0 t d = strip V c 0 t :=
  (dat.before_in_eq_fetched 0 rfl (fun _ => rfl) (fun _ _ _ => rfl) (fun t => by rw [hafter]; unfold Dat.blockOf strip; rw [hA]; try rfl) t d).trans
    (by unfold Dat.fetched Dat.blockOf strip; rw [hA]; try rfl)
/-- The skip strip's staging buffer likewise. -/
theorem staged1 {c : Dev nD} (dat : Dat τ (Elt F) Unit ℕ (UR sig nD τ) ℕ cfg0 c) (hA : dat.A 1 = V c (Pipeline.arrRef spec0 1))
    (hafter : ∀ t, dat.after 1 t = strip V c 1 t) (t : Fin cfg0.N) (d) : dat.before 1 t d = strip V c 1 t :=
  (dat.before_in_eq_fetched 1 rfl (fun _ => rfl) (fun _ _ _ => rfl) (fun t => by rw [hafter]; unfold Dat.blockOf strip; rw [hA]; try rfl) t d).trans
    (by unfold Dat.fetched Dat.blockOf strip; rw [hA]; try rfl)
/-- The weights' staging buffer likewise (fetched once: its block index never moves). -/
theorem staged2 {c : Dev nD} (dat : Dat τ (Elt F) Unit ℕ (UR sig nD τ) ℕ cfg0 c) (hA : dat.A 2 = V c (Pipeline.arrRef spec0 2))
    (hafter : ∀ t, dat.after 2 t = strip V c 2 t) (t : Fin cfg0.N) (d) : dat.before 2 t d = strip V c 2 t :=
  (dat.before_in_eq_fetched 2 rfl (fun _ => rfl) (fun _ _ _ => rfl) (fun t => by rw [hafter]; unfold Dat.blockOf strip; rw [hA]; try rfl) t d).trans
    (by unfold Dat.fetched Dat.blockOf strip; rw [hA]; try rfl)
/-- The bias column's staging buffer likewise. -/
theorem staged3 {c : Dev nD} (dat : Dat τ (Elt F) Unit ℕ (UR sig nD τ) ℕ cfg0 c) (hA : dat.A 3 = V c (Pipeline.arrRef spec0 3))
    (hafter : ∀ t, dat.after 3 t = strip V c 3 t) (t : Fin cfg0.N) (d) : dat.before 3 t d = strip V c 3 t :=
  (dat.before_in_eq_fetched 3 rfl (fun _ => rfl) (fun _ _ _ => rfl) (fun t => by rw [hafter]; unfold Dat.blockOf strip; rw [hA]; try rfl) t d).trans
    (by unfold Dat.fetched Dat.blockOf strip; rw [hA]; try rfl)

/-! ## The staging memrefs at a point -/

abbrev mem0 (t : Fin cfg0.N) : Memref sig .tc .vmem S1x128x16x64 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S1x64x32x128 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S4x64x128 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S64x1 .f32 := win0_3.stage (cfg0.slots t 3)
abbrev whole3 (t : Fin cfg0.N) : (mem3 t).IsWhole := hstage0_3 ((cfg0.slots t 3).cast nbuf0_3)
abbrev mem4 (t : Fin cfg0.N) : Memref sig .tc .vmem S1x128x32x128 .f32 := win0_4.stage (cfg0.slots t 4)
abbrev whole4 (t : Fin cfg0.N) : (mem4 t).IsWhole := hstage0_4 ((cfg0.slots t 4).cast nbuf0_4)

/-! ## What the body leaves in the output strip -/

/-- One staging buffer of the output window, through which its contents are stated (which one does not matter:
    the pieces cover the block). -/
abbrev outView : View sig .tc .vmem S1x128x32x128 .f32 := (Memref.whole cc0_stg4_0 : Memref sig .tc .vmem S1x128x32x128 .f32).view

/-- The two stores — 64 channels each — tile the 128-channel strip, so every index of the block lies in one. -/
theorem pieces_cover (c : Dev nD) (i : grid0.Coords)
    (a0 : Memref sig .tc .vmem S1x128x16x64 .f32) (h0 : a0.IsWhole) (a1 : Memref sig .tc .vmem S1x64x32x128 .f32) (h1 : a1.IsWhole)
    (a2 : Memref sig .tc .vmem S4x64x128 .f32) (h2 : a2.IsWhole) (a3 : Memref sig .tc .vmem S64x1 .f32) (h3 : a3.IsWhole)
    (a4 : Memref sig .tc .vmem S1x128x32x128 .f32) (h4 : a4.IsWhole)
    (x0 : Vec F S1x128x16x64 .f32) (x1 : Vec F S1x64x32x128 .f32) (x2 : Vec F S4x64x128 .f32) (x3 : Vec F S64x1 .f32) (y : S1x128x32x128.Idx) :
    ∃ pc ∈ (bodyRun c i a0 h0 a1 h1 a2 h2 a3 h3 a4 h4 x0 x1 x2 x3).1, y ∈ pc.1.set :=
  View.cover_of_tiledL (bodyRun c i a0 h0 a1 h1 a2 h2 a3 h3 a4 h4 x0 x1 x2 x3).1 S1x64x32x128.size (by sl_kernel_rfl) y

/-- The output strip after the body: the pieces read back (over anything: they cover the block). -/
def outStrip (c : Dev nD) (i : grid0.Coords)
    (a0 : Memref sig .tc .vmem S1x128x16x64 .f32) (h0 : a0.IsWhole) (a1 : Memref sig .tc .vmem S1x64x32x128 .f32) (h1 : a1.IsWhole)
    (a2 : Memref sig .tc .vmem S4x64x128 .f32) (h2 : a2.IsWhole) (a3 : Memref sig .tc .vmem S64x1 .f32) (h3 : a3.IsWhole)
    (a4 : Memref sig .tc .vmem S1x128x32x128 .f32) (h4 : a4.IsWhole)
    (x0 : Vec F S1x128x16x64 .f32) (x1 : Vec F S1x64x32x128 .f32) (x2 : Vec F S4x64x128 .f32) (x3 : Vec F S64x1 .f32) : Vec F S1x128x32x128 .f32 :=
  outView.read (Elt F) (outView.writes (Elt F) outView.junk (bodyRun c i a0 h0 a1 h1 a2 h2 a3 h3 a4 h4 x0 x1 x2 x3).1)

/-- The output strip after the body at point `t`: at the point's memrefs and input blocks. -/
def outAt (c : Dev nD) (t : Fin cfg0.N) : Vec F S1x128x32x128 .f32 :=
  outStrip c (grid0.coords t) (mem0 t) (whole0 t) (mem1 t) (whole1 t) (mem2 t) (whole2 t) (mem3 t) (whole3 t) (mem4 t) (whole4 t)
    (strip V c 0 t) (strip V c 1 t) (strip V c 2 t) (strip V c 3 t)

/-! ## The pipeline's proof data -/

/-- The arrays as the region finds them; after the body at a point each input's buffer at its block and the
    output's at `outAt`; the invariant is the scoped rest and the generator register, untouched; nothing owed. -/
def dat (c : Dev nD) : Dat τ (Elt F) Unit ℕ (UR sig nD τ) ℕ cfg0 c where
  A w := V c (Pipeline.arrRef spec0 w)
  after w t := match w with
    | ⟨0, _⟩ => strip V c 0 t
    | ⟨1, _⟩ => strip V c 1 t
    | ⟨2, _⟩ => strip V c 2 t
    | ⟨3, _⟩ => strip V c 3 t
    | ⟨4, _⟩ => outAt V c t
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = strip V c 0 t := by dsimp only [dat]
theorem after_1 (c : Dev nD) (t : Fin cfg0.N) : (dat V c).after 1 t = strip V c 1 t := by dsimp only [dat]
theorem after_2 (c : Dev nD) (t : Fin cfg0.N) : (dat V c).after 2 t = strip V c 2 t := by dsimp only [dat]
theorem after_3 (c : Dev nD) (t : Fin cfg0.N) : (dat V c).after 3 t = strip V c 3 t := by dsimp only [dat]
theorem after_4 (c : Dev nD) (t : Fin cfg0.N) : (dat V c).after 4 t = outAt V c t := by dsimp only [dat]

theorem before_0 (c : Dev nD) (t : Fin cfg0.N) (d) : (dat V c).before 0 t d = strip V c 0 t :=
  staged0 V (dat V c) (dat_A V c 0) (after_0 V c) t d
theorem before_1 (c : Dev nD) (t : Fin cfg0.N) (d) : (dat V c).before 1 t d = strip V c 1 t :=
  staged1 V (dat V c) (dat_A V c 1) (after_1 V c) t d
theorem before_2 (c : Dev nD) (t : Fin cfg0.N) (d) : (dat V c).before 2 t d = strip V c 2 t :=
  staged2 V (dat V c) (dat_A V c 2) (after_2 V c) t d
theorem before_3 (c : Dev nD) (t : Fin cfg0.N) (d) : (dat V c).before 3 t d = strip V c 3 t :=
  staged3 V (dat V c) (dat_A V c 3) (after_3 V c) t d

/-! ## The body's obligation at a point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

set_option maxHeartbeats 800000 in
/-- At any point the inputs' buffers hold their blocks, so the body's run applies; the invariant and the core's
    dues pass through unread; the output buffer ends at the pieces read back, since they cover the block. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  unfold outAt
  unfold outStrip
  iintro ⟨HΦ, Ho, ⟨%d0, H0⟩, ⟨%d1, H1⟩, ⟨%d2, H2⟩, ⟨%d3, H3⟩, ⟨%d4, H4⟩⟩
  iapply ((bodyRun c (grid0.coords t) _ _ _ _ _ _ _ _ _ _ (strip V c 0 t) (strip V c 1 t) (strip V c 2 t) (strip V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (pieces_cover c _ _ _ _ _ _ _ _ _ _ _ _ _ _ _)

/-- The body's obligation at every point. -/
theorem body_obligation (c : Dev nD) : BodyObligation (dat (F := F) V c) (defs₀ (F := F)) Variants.none () Set.univ := fun t => by
  rw [bigSep_W0, bigSep_W0]
  exact body_at V c t

end Cert.ReferenceIdeal.Upsample

end
-- ==== Proof.RefGhostRun.lean ====
/-
  The second region of the reference: the two convolutions of one 32-row strip.

  At a grid point (b, s) the body builds the strip of z padded by two rows above and below and one column left
  and right (zeros outside the image; rows of the neighbouring strips inside it), takes the 3×3 convolution
  with bias and leaky rectifier on 34 rows, pads that by one column (and zeroes the row outside the image on
  the first and last strip), writes its 32 interior rows as output channels 0–31, and the depthwise 3×3
  convolution with bias and leaky rectifier as channels 32–63. The two stores tile the output block.

  Which rows are copied and which zeroed depends on the strip: first (s = 0), middle (s = 1, 2), last (s = 3).
  This module runs the body once per case on whole staging buffers and scratch: the result is the list of
  pieces the two output stores leave.
-/
import proofs.«169621_g2000704505896602_pallasbulk_1077_31_alg».proof.Proof.Gen.ReferenceIdeal.Launch
import proofs.«169621_g2000704505896602_pallasbulk_1077_31_alg».proof.Proof.Gen.ReferenceIdeal.Skeleton
import proofs.«169621_g2000704505896602_pallasbulk_1077_31_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Ghost

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four branch conditions, as properties of the grid point

The second grid coordinate `s` numbers the four 32-row strips of an image. -/

/-- The strip has a strip above it (`s > 0`): the two rows above are copied into the padded strip. -/
abbrev hasAbove (i : grid1.Coords) : Prop :=
  (Scalar.cmpi .ne (Scalar.extui (Scalar.cmpi .sgt (BitVec.ofNat 32 (i 1).val) 0#32)) 0#32) = 1#1
/-- The strip has a strip below it (`s < 3`): the two rows below are copied into the padded strip. -/
abbrev hasBelow (i : grid1.Coords) : Prop :=
  (Scalar.cmpi .ne (Scalar.extui (Scalar.cmpi .slt (BitVec.ofNat 32 (i 1).val) 3#32)) 0#32) = 1#1
/-- The strip is the first (`s = 0`): the row of the first convolution above the image is zeroed. -/
abbrev isFirst (i : grid1.Coords) : Prop :=
  (Scalar.cmpi .ne (Scalar.extui (Scalar.cmpi .eq (BitVec.ofNat 32 (i 1).val) 0#32)) 0#32) = 1#1
/-- The strip is the last (`s = 3`): the row of the first convolution below the image is zeroed. -/
abbrev isLast (i : grid1.Coords) : Prop :=
  (Scalar.cmpi .ne (Scalar.extui (Scalar.cmpi .eq (BitVec.ofNat 32 (i 1).val) 3#32)) 0#32) = 1#1

set_option maxHeartbeats 4000000 in
/-- The first strip of an image: nothing above, a strip below; the row above the image zeroed. -/
noncomputable def bodyRunFirst (c : Dev nD) (i : grid1.Coords)
    (a0 : Memref sig .tc .vmem S1x128x32x128 .f32) (h0 : a0.IsWhole) (a1 : Memref sig .tc .vmem S1x128x8x128 .f32) (h1 : a1.IsWhole)
    (a2 : Memref sig .tc .vmem S1x128x8x128 .f32) (h2 : a2.IsWhole) (a3 : Memref sig .tc .vmem S9x32x128 .f32) (h3 : a3.IsWhole)
    (a4 : Memref sig .tc .vmem S32x1 .f32) (h4 : a4.IsWhole) (a5 : Memref sig .tc .vmem S9x32 .f32) (h5 : a5.IsWhole)
    (a6 : Memref sig .tc .vmem S32x1 .f32) (h6 : a6.IsWhole) (a7 : Memref sig .tc .vmem S1x64x32x128 .f32) (h7 : a7.IsWhole)
    (s0 : Memref sig .tc .vmem S128x36x130 .f32) (hs0 : s0.IsWhole) (s1 : Memref sig .tc .vmem S32x34x130 .f32) (hs1 : s1.IsWhole)
    (hA : ¬hasAbove i) (hB : hasBelow i) (hC : isFirst i) (hD : ¬isLast i)
    (x0 : Vec F S1x128x32x128 .f32) (x1 : Vec F S1x128x8x128 .f32) (x2 : Vec F S1x128x8x128 .f32) (x3 : Vec F S9x32x128 .f32) (x4 : Vec F S32x1 .f32) (x5 : Vec F S9x32 .f32) (x6 : Vec F S32x1 .f32) :
    { L : List (View.Piece (Elt F) S1x64x32x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) s0 fullShare d) ∗ (∃ d, owns (c : Thread nD τ) s1 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L) ∗ (∃ d, owns (c : Thread nD τ) s0 fullShare d) ∗ (∃ d, owns (c : Thread nD τ) s1 fullShare d)) -∗ K ⟨⟩))
          ⊢ wp frame (wpE (defs₀ (F := F)) Variants.none c none) E (cc1__ghost_fused_kernel i a0 h0 a1 h1 a2 h2 a3 h3 a4 h4 a5 h5 a6 h6 a7 h7 s0 hs0 s1 hs1) K } := by
  refine ⟨?_, fun E K => ?run⟩
  case run =>
    simp only [cc1__ghost_fused_kernel_eq_skeleton]; unfold cc1__ghost_fused_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
    sl_exec (disch := first | exact hA | exact hB | exact hC | exact hD)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [HS0]
    · iexists _, _; isplitr; swap; · iexact HS0
      ipureintro; rfl
    iexists _, _; isplitr; swap; · iexact HS1
    ipureintro; rfl

set_option maxHeartbeats 4000000 in
/-- A middle strip: strips above and below; no row zeroed. -/
noncomputable def bodyRunMiddle (c : Dev nD) (i : grid1.Coords)
    (a0 : Memref sig .tc .vmem S1x128x32x128 .f32) (h0 : a0.IsWhole) (a1 : Memref sig .tc .vmem S1x128x8x128 .f32) (h1 : a1.IsWhole)
    (a2 : Memref sig .tc .vmem S1x128x8x128 .f32) (h2 : a2.IsWhole) (a3 : Memref sig .tc .vmem S9x32x128 .f32) (h3 : a3.IsWhole)
    (a4 : Memref sig .tc .vmem S32x1 .f32) (h4 : a4.IsWhole) (a5 : Memref sig .tc .vmem S9x32 .f32) (h5 : a5.IsWhole)
    (a6 : Memref sig .tc .vmem S32x1 .f32) (h6 : a6.IsWhole) (a7 : Memref sig .tc .vmem S1x64x32x128 .f32) (h7 : a7.IsWhole)
    (s0 : Memref sig .tc .vmem S128x36x130 .f32) (hs0 : s0.IsWhole) (s1 : Memref sig .tc .vmem S32x34x130 .f32) (hs1 : s1.IsWhole)
    (hA : hasAbove i) (hB : hasBelow i) (hC : ¬isFirst i) (hD : ¬isLast i)
    (x0 : Vec F S1x128x32x128 .f32) (x1 : Vec F S1x128x8x128 .f32) (x2 : Vec F S1x128x8x128 .f32) (x3 : Vec F S9x32x128 .f32) (x4 : Vec F S32x1 .f32) (x5 : Vec F S9x32 .f32) (x6 : Vec F S32x1 .f32) :
    { L : List (View.Piece (Elt F) S1x64x32x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) s0 fullShare d) ∗ (∃ d, owns (c : Thread nD τ) s1 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L) ∗ (∃ d, owns (c : Thread nD τ) s0 fullShare d) ∗ (∃ d, owns (c : Thread nD τ) s1 fullShare d)) -∗ K ⟨⟩))
          ⊢ wp frame (wpE (defs₀ (F := F)) Variants.none c none) E (cc1__ghost_fused_kernel i a0 h0 a1 h1 a2 h2 a3 h3 a4 h4 a5 h5 a6 h6 a7 h7 s0 hs0 s1 hs1) K } := by
  refine ⟨?_, fun E K => ?run⟩
  case run =>
    simp only [cc1__ghost_fused_kernel_eq_skeleton]; unfold cc1__ghost_fused_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
    sl_exec (disch := first | exact hA | exact hB | exact hC | exact hD)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [HS0]
    · iexists _, _; isplitr; swap; · iexact HS0
      ipureintro; rfl
    iexists _, _; isplitr; swap; · iexact HS1
    ipureintro; rfl

set_option maxHeartbeats 4000000 in
/-- The last strip of an image: a strip above, nothing below; the row below the image zeroed. -/
noncomputable def bodyRunLast (c : Dev nD) (i : grid1.Coords)
    (a0 : Memref sig .tc .vmem S1x128x32x128 .f32) (h0 : a0.IsWhole) (a1 : Memref sig .tc .vmem S1x128x8x128 .f32) (h1 : a1.IsWhole)
    (a2 : Memref sig .tc .vmem S1x128x8x128 .f32) (h2 : a2.IsWhole) (a3 : Memref sig .tc .vmem S9x32x128 .f32) (h3 : a3.IsWhole)
    (a4 : Memref sig .tc .vmem S32x1 .f32) (h4 : a4.IsWhole) (a5 : Memref sig .tc .vmem S9x32 .f32) (h5 : a5.IsWhole)
    (a6 : Memref sig .tc .vmem S32x1 .f32) (h6 : a6.IsWhole) (a7 : Memref sig .tc .vmem S1x64x32x128 .f32) (h7 : a7.IsWhole)
    (s0 : Memref sig .tc .vmem S128x36x130 .f32) (hs0 : s0.IsWhole) (s1 : Memref sig .tc .vmem S32x34x130 .f32) (hs1 : s1.IsWhole)
    (hA : hasAbove i) (hB : ¬hasBelow i) (hC : ¬isFirst i) (hD : isLast i)
    (x0 : Vec F S1x128x32x128 .f32) (x1 : Vec F S1x128x8x128 .f32) (x2 : Vec F S1x128x8x128 .f32) (x3 : Vec F S9x32x128 .f32) (x4 : Vec F S32x1 .f32) (x5 : Vec F S9x32 .f32) (x6 : Vec F S32x1 .f32) :
    { L : List (View.Piece (Elt F) S1x64x32x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) s0 fullShare d) ∗ (∃ d, owns (c : Thread nD τ) s1 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L) ∗ (∃ d, owns (c : Thread nD τ) s0 fullShare d) ∗ (∃ d, owns (c : Thread nD τ) s1 fullShare d)) -∗ K ⟨⟩))
          ⊢ wp frame (wpE (defs₀ (F := F)) Variants.none c none) E (cc1__ghost_fused_kernel i a0 h0 a1 h1 a2 h2 a3 h3 a4 h4 a5 h5 a6 h6 a7 h7 s0 hs0 s1 hs1) K } := by
  refine ⟨?_, fun E K => ?run⟩
  case run =>
    simp only [cc1__ghost_fused_kernel_eq_skeleton]; unfold cc1__ghost_fused_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
    sl_exec (disch := first | exact hA | exact hB | exact hC | exact hD)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [HS0]
    · iexists _, _; isplitr; swap; · iexact HS0
      ipureintro; rfl
    iexists _, _; isplitr; swap; · iexact HS1
    ipureintro; rfl

end Cert.ReferenceIdeal.Ghost

end
-- ==== Proof.RefGhostData.lean ====
/-
  The second region of the reference, point by point.

  With `V` the contents of the TensorCore's buffers when the region is entered: each of the seven input windows'
  staging buffers holds that window's block of its array at every grid point; the output block after the body
  is the pieces of the run for the point's case (first, middle or last strip of its image), which tile it. The
  three windows on z read one array; the proof data gives the strip half of its share and each halo a quarter.
  The two scratch buffers are the kernel's own: the invariant hands them to the body at anything and takes them
  back at anything (the body overwrites each whole before reading it).
-/
import proofs.«169621_g2000704505896602_pallasbulk_1077_31_alg».proof.Proof.RefGhostRun

set_option maxRecDepth 16384

noncomputable section

namespace Cert.ReferenceIdeal.Ghost

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in (decided over the 32 points) -/

theorem first_facts : ∀ t : Fin cfg1.N, isFirst (grid1.coords t) → ¬hasAbove (grid1.coords t) ∧ hasBelow (grid1.coords t) ∧ ¬isLast (grid1.coords t) :=
  (by decide +kernel : ∀ t : Fin grid1.N, isFirst (grid1.coords t) → ¬hasAbove (grid1.coords t) ∧ hasBelow (grid1.coords t) ∧ ¬isLast (grid1.coords t))
theorem last_facts : ∀ t : Fin cfg1.N, isLast (grid1.coords t) → hasAbove (grid1.coords t) ∧ ¬hasBelow (grid1.coords t) ∧ ¬isFirst (grid1.coords t) :=
  (by decide +kernel : ∀ t : Fin grid1.N, isLast (grid1.coords t) → hasAbove (grid1.coords t) ∧ ¬hasBelow (grid1.coords t) ∧ ¬isFirst (grid1.coords t))
theorem middle_facts : ∀ t : Fin cfg1.N, ¬isFirst (grid1.coords t) → ¬isLast (grid1.coords t) → hasAbove (grid1.coords t) ∧ hasBelow (grid1.coords t) :=
  (by decide +kernel : ∀ t : Fin grid1.N, ¬isFirst (grid1.coords t) → ¬isLast (grid1.coords t) → hasAbove (grid1.coords t) ∧ hasBelow (grid1.coords t))

variable (V : (c : Dev nD) → (b : Ref sig .tc) → Buf (Elt F) ((c : Thread nD τ).loc b))

/-! ## The windows' blocks -/

/-- Window `w`'s block at point `t`, read off its array as the region finds it. -/
def strip (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The strip of z: the staging buffer holds the window's block at every point. -/
theorem staged0 {c : Dev nD} (dat : Dat τ (Elt F) Unit ℕ (UR sig nD τ) ℕ cfg1 c) (hA : dat.A 0 = V c (Pipeline.arrRef spec1 0))
    (hafter : ∀ t, dat.after 0 t = strip V c 0 t) (t : Fin cfg1.N) (d) : dat.before 0 t d = strip V c 0 t :=
  (dat.before_in_eq_fetched 0 rfl (fun _ => rfl) (fun _ _ _ => rfl) (fun t => by rw [hafter]; unfold Dat.blockOf strip; rw [hA]; try rfl) t d).trans
    (by unfold Dat.fetched Dat.blockOf strip; rw [hA]; try rfl)
/-- The eight rows of z that end just above the strip: the staging buffer holds the window's block at every point. -/
theorem staged1 {c : Dev nD} (dat : Dat τ (Elt F) Unit ℕ (UR sig nD τ) ℕ cfg1 c) (hA : dat.A 1 = V c (Pipeline.arrRef spec1 1))
    (hafter : ∀ t, dat.after 1 t = strip V c 1 t) (t : Fin cfg1.N) (d) : dat.before 1 t d = strip V c 1 t :=
  (dat.before_in_eq_fetched 1 rfl (fun _ => rfl) (fun _ _ _ => rfl) (fun t => by rw [hafter]; unfold Dat.blockOf strip; rw [hA]; try rfl) t d).trans
    (by unfold Dat.fetched Dat.blockOf strip; rw [hA]; try rfl)
/-- The eight rows of z that begin just below the strip: the staging buffer holds the window's block at every point. -/
theorem staged2 {c : Dev nD} (dat : Dat τ (Elt F) Unit ℕ (UR sig nD τ) ℕ cfg1 c) (hA : dat.A 2 = V c (Pipeline.arrRef spec1 2))
    (hafter : ∀ t, dat.after 2 t = strip V c 2 t) (t : Fin cfg1.N) (d) : dat.before 2 t d = strip V c 2 t :=
  (dat.before_in_eq_fetched 2 rfl (fun _ => rfl) (fun _ _ _ => rfl) (fun t => by rw [hafter]; unfold Dat.blockOf strip; rw [hA]; try rfl) t d).trans
    (by unfold Dat.fetched Dat.blockOf strip; rw [hA]; try rfl)
/-- The 3×3 convolution's weights: the staging buffer holds the window's block at every point. -/
theorem staged3 {c : Dev nD} (dat : Dat τ (Elt F) Unit ℕ (UR sig nD τ) ℕ cfg1 c) (hA : dat.A 3 = V c (Pipeline.arrRef spec1 3))
    (hafter : ∀ t, dat.after 3 t = strip V c 3 t) (t : Fin cfg1.N) (d) : dat.before 3 t d = strip V c 3 t :=
  (dat.before_in_eq_fetched 3 rfl (fun _ => rfl) (fun _ _ _ => rfl) (fun t => by rw [hafter]; unfold Dat.blockOf strip; rw [hA]; try rfl) t d).trans
    (by unfold Dat.fetched Dat.blockOf strip; rw [hA]; try rfl)
/-- Its bias column: the staging buffer holds the window's block at every point. -/
theorem staged4 {c : Dev nD} (dat : Dat τ (Elt F) Unit ℕ (UR sig nD τ) ℕ cfg1 c) (hA : dat.A 4 = V c (Pipeline.arrRef spec1 4))
    (hafter : ∀ t, dat.after 4 t = strip V c 4 t) (t : Fin cfg1.N) (d) : dat.before 4 t d = strip V c 4 t :=
  (dat.before_in_eq_fetched 4 rfl (fun _ => rfl) (fun _ _ _ => rfl) (fun t => by rw [hafter]; unfold Dat.blockOf strip; rw [hA]; try rfl) t d).trans
    (by unfold Dat.fetched Dat.blockOf strip; rw [hA]; try rfl)
/-- The depthwise weights: the staging buffer holds the window's block at every point. -/
theorem staged5 {c : Dev nD} (dat : Dat τ (Elt F) Unit ℕ (UR sig nD τ) ℕ cfg1 c) (hA : dat.A 5 = V c (Pipeline.arrRef spec1 5))
    (hafter : ∀ t, dat.after 5 t = strip V c 5 t) (t : Fin cfg1.N) (d) : dat.before 5 t d = strip V c 5 t :=
  (dat.before_in_eq_fetched 5 rfl (fun _ => rfl) (fun _ _ _ => rfl) (fun t => by rw [hafter]; unfold Dat.blockOf strip; rw [hA]; try rfl) t d).trans
    (by unfold Dat.fetched Dat.blockOf strip; rw [hA]; try rfl)
/-- Their bias column: the staging buffer holds the window's block at every point. -/
theorem staged6 {c : Dev nD} (dat : Dat τ (Elt F) Unit ℕ (UR sig nD τ) ℕ cfg1 c) (hA : dat.A 6 = V c (Pipeline.arrRef spec1 6))
    (hafter : ∀ t, dat.after 6 t = strip V c 6 t) (t : Fin cfg1.N) (d) : dat.before 6 t d = strip V c 6 t :=
  (dat.before_in_eq_fetched 6 rfl (fun _ => rfl) (fun _ _ _ => rfl) (fun t => by rw [hafter]; unfold Dat.blockOf strip; rw [hA]; try rfl) t d).trans
    (by unfold Dat.fetched Dat.blockOf strip; rw [hA]; try rfl)

/-! ## The staging memrefs at a point, and the scratch -/

abbrev mem0 (t : Fin cfg1.N) : Memref sig .tc .vmem S1x128x32x128 .f32 := win1_0.stage (cfg1.slots t 0)
abbrev whole0 (t : Fin cfg1.N) : (mem0 t).IsWhole := hstage1_0 ((cfg1.slots t 0).cast nbuf1_0)
abbrev mem1 (t : Fin cfg1.N) : Memref sig .tc .vmem S1x128x8x128 .f32 := win1_1.stage (cfg1.slots t 1)
abbrev whole1 (t : Fin cfg1.N) : (mem1 t).IsWhole := hstage1_1 ((cfg1.slots t 1).cast nbuf1_1)
abbrev mem2 (t : Fin cfg1.N) : Memref sig .tc .vmem S1x128x8x128 .f32 := win1_2.stage (cfg1.slots t 2)
abbrev whole2 (t : Fin cfg1.N) : (mem2 t).IsWhole := hstage1_2 ((cfg1.slots t 2).cast nbuf1_2)
abbrev mem3 (t : Fin cfg1.N) : Memref sig .tc .vmem S9x32x128 .f32 := win1_3.stage (cfg1.slots t 3)
abbrev whole3 (t : Fin cfg1.N) : (mem3 t).IsWhole := hstage1_3 ((cfg1.slots t 3).cast nbuf1_3)
abbrev mem4 (t : Fin cfg1.N) : Memref sig .tc .vmem S32x1 .f32 := win1_4.stage (cfg1.slots t 4)
abbrev whole4 (t : Fin cfg1.N) : (mem4 t).IsWhole := hstage1_4 ((cfg1.slots t 4).cast nbuf1_4)
abbrev mem5 (t : Fin cfg1.N) : Memref sig .tc .vmem S9x32 .f32 := win1_5.stage (cfg1.slots t 5)
abbrev whole5 (t : Fin cfg1.N) : (mem5 t).IsWhole := hstage1_5 ((cfg1.slots t 5).cast nbuf1_5)
abbrev mem6 (t : Fin cfg1.N) : Memref sig .tc .vmem S32x1 .f32 := win1_6.stage (cfg1.slots t 6)
abbrev whole6 (t : Fin cfg1.N) : (mem6 t).IsWhole := hstage1_6 ((cfg1.slots t 6).cast nbuf1_6)
abbrev mem7 (t : Fin cfg1.N) : Memref sig .tc .vmem S1x64x32x128 .f32 := win1_7.stage (cfg1.slots t 7)
abbrev whole7 (t : Fin cfg1.N) : (mem7 t).IsWhole := hstage1_7 ((cfg1.slots t 7).cast nbuf1_7)
/-- The padded strip of z and the padded strip of the first convolution: whole buffers of the kernel's own. -/
abbrev scr0 : Memref sig .tc .vmem S128x36x130 .f32 := Memref.whole cc1_scratch0
abbrev scr1 : Memref sig .tc .vmem S32x34x130 .f32 := Memref.whole cc1_scratch1

/-- The region's invariant: the other region's staging buffers at anything, the two scratch buffers at anything,
    the generator register at some state. -/
theorem inv_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scr0 fullShare d) ∗ (∃ d, owns (c : Thread nD τ) scr1 fullShare d)) ∗ (∃ r, prngReg c r)) := by
  unfold Pipeline.ΦA; rw [scopedRest1_eq]; simp only [scr0, scr1, owns_whole]; try rfl

/-! ## What the body leaves in the output block, case by case -/

abbrev outView : View sig .tc .vmem S1x64x32x128 .f32 := (Memref.whole cc1_stg7_0 : Memref sig .tc .vmem S1x64x32x128 .f32).view

/-- The two stores of the first-strip run — 32 channels each — tile the 64-channel block. -/
theorem coverFirst (c : Dev nD) (i : grid1.Coords)
    (a0 : Memref sig .tc .vmem S1x128x32x128 .f32) (h0 : a0.IsWhole) (a1 : Memref sig .tc .vmem S1x128x8x128 .f32) (h1 : a1.IsWhole)
    (a2 : Memref sig .tc .vmem S1x128x8x128 .f32) (h2 : a2.IsWhole) (a3 : Memref sig .tc .vmem S9x32x128 .f32) (h3 : a3.IsWhole)
    (a4 : Memref sig .tc .vmem S32x1 .f32) (h4 : a4.IsWhole) (a5 : Memref sig .tc .vmem S9x32 .f32) (h5 : a5.IsWhole)
    (a6 : Memref sig .tc .vmem S32x1 .f32) (h6 : a6.IsWhole) (a7 : Memref sig .tc .vmem S1x64x32x128 .f32) (h7 : a7.IsWhole)
    (s0 : Memref sig .tc .vmem S128x36x130 .f32) (hs0 : s0.IsWhole) (s1 : Memref sig .tc .vmem S32x34x130 .f32) (hs1 : s1.IsWhole)
    (hA : ¬hasAbove i) (hB : hasBelow i) (hC : isFirst i) (hD : ¬isLast i)
    (x0 : Vec F S1x128x32x128 .f32) (x1 : Vec F S1x128x8x128 .f32) (x2 : Vec F S1x128x8x128 .f32) (x3 : Vec F S9x32x128 .f32) (x4 : Vec F S32x1 .f32) (x5 : Vec F S9x32 .f32) (x6 : Vec F S32x1 .f32) (y : S1x64x32x128.Idx) :
    ∃ pc ∈ (bodyRunFirst c i a0 h0 a1 h1 a2 h2 a3 h3 a4 h4 a5 h5 a6 h6 a7 h7 s0 hs0 s1 hs1 hA hB hC hD x0 x1 x2 x3 x4 x5 x6).1, y ∈ pc.1.set :=
  View.cover_of_tiledL (bodyRunFirst c i a0 h0 a1 h1 a2 h2 a3 h3 a4 h4 a5 h5 a6 h6 a7 h7 s0 hs0 s1 hs1 hA hB hC hD x0 x1 x2 x3 x4 x5 x6).1 S1x32x32x128.size (by sl_kernel_rfl) y

/-- The output block after the body on a first strip: the pieces read back. -/
def outStripFirst (c : Dev nD) (i : grid1.Coords)
    (a0 : Memref sig .tc .vmem S1x128x32x128 .f32) (h0 : a0.IsWhole) (a1 : Memref sig .tc .vmem S1x128x8x128 .f32) (h1 : a1.IsWhole)
    (a2 : Memref sig .tc .vmem S1x128x8x128 .f32) (h2 : a2.IsWhole) (a3 : Memref sig .tc .vmem S9x32x128 .f32) (h3 : a3.IsWhole)
    (a4 : Memref sig .tc .vmem S32x1 .f32) (h4 : a4.IsWhole) (a5 : Memref sig .tc .vmem S9x32 .f32) (h5 : a5.IsWhole)
    (a6 : Memref sig .tc .vmem S32x1 .f32) (h6 : a6.IsWhole) (a7 : Memref sig .tc .vmem S1x64x32x128 .f32) (h7 : a7.IsWhole)
    (s0 : Memref sig .tc .vmem S128x36x130 .f32) (hs0 : s0.IsWhole) (s1 : Memref sig .tc .vmem S32x34x130 .f32) (hs1 : s1.IsWhole)
    (hA : ¬hasAbove i) (hB : hasBelow i) (hC : isFirst i) (hD : ¬isLast i)
    (x0 : Vec F S1x128x32x128 .f32) (x1 : Vec F S1x128x8x128 .f32) (x2 : Vec F S1x128x8x128 .f32) (x3 : Vec F S9x32x128 .f32) (x4 : Vec F S32x1 .f32) (x5 : Vec F S9x32 .f32) (x6 : Vec F S32x1 .f32) : Vec F S1x64x32x128 .f32 :=
  outView.read (Elt F) (outView.writes (Elt F) outView.junk (bodyRunFirst c i a0 h0 a1 h1 a2 h2 a3 h3 a4 h4 a5 h5 a6 h6 a7 h7 s0 hs0 s1 hs1 hA hB hC hD x0 x1 x2 x3 x4 x5 x6).1)

/-- The two stores of the middle-strip run — 32 channels each — tile the 64-channel block. -/
theorem coverMiddle (c : Dev nD) (i : grid1.Coords)
    (a0 : Memref sig .tc .vmem S1x128x32x128 .f32) (h0 : a0.IsWhole) (a1 : Memref sig .tc .vmem S1x128x8x128 .f32) (h1 : a1.IsWhole)
    (a2 : Memref sig .tc .vmem S1x128x8x128 .f32) (h2 : a2.IsWhole) (a3 : Memref sig .tc .vmem S9x32x128 .f32) (h3 : a3.IsWhole)
    (a4 : Memref sig .tc .vmem S32x1 .f32) (h4 : a4.IsWhole) (a5 : Memref sig .tc .vmem S9x32 .f32) (h5 : a5.IsWhole)
    (a6 : Memref sig .tc .vmem S32x1 .f32) (h6 : a6.IsWhole) (a7 : Memref sig .tc .vmem S1x64x32x128 .f32) (h7 : a7.IsWhole)
    (s0 : Memref sig .tc .vmem S128x36x130 .f32) (hs0 : s0.IsWhole) (s1 : Memref sig .tc .vmem S32x34x130 .f32) (hs1 : s1.IsWhole)
    (hA : hasAbove i) (hB : hasBelow i) (hC : ¬isFirst i) (hD : ¬isLast i)
    (x0 : Vec F S1x128x32x128 .f32) (x1 : Vec F S1x128x8x128 .f32) (x2 : Vec F S1x128x8x128 .f32) (x3 : Vec F S9x32x128 .f32) (x4 : Vec F S32x1 .f32) (x5 : Vec F S9x32 .f32) (x6 : Vec F S32x1 .f32) (y : S1x64x32x128.Idx) :
    ∃ pc ∈ (bodyRunMiddle c i a0 h0 a1 h1 a2 h2 a3 h3 a4 h4 a5 h5 a6 h6 a7 h7 s0 hs0 s1 hs1 hA hB hC hD x0 x1 x2 x3 x4 x5 x6).1, y ∈ pc.1.set :=
  View.cover_of_tiledL (bodyRunMiddle c i a0 h0 a1 h1 a2 h2 a3 h3 a4 h4 a5 h5 a6 h6 a7 h7 s0 hs0 s1 hs1 hA hB hC hD x0 x1 x2 x3 x4 x5 x6).1 S1x32x32x128.size (by sl_kernel_rfl) y

/-- The output block after the body on a middle strip: the pieces read back. -/
def outStripMiddle (c : Dev nD) (i : grid1.Coords)
    (a0 : Memref sig .tc .vmem S1x128x32x128 .f32) (h0 : a0.IsWhole) (a1 : Memref sig .tc .vmem S1x128x8x128 .f32) (h1 : a1.IsWhole)
    (a2 : Memref sig .tc .vmem S1x128x8x128 .f32) (h2 : a2.IsWhole) (a3 : Memref sig .tc .vmem S9x32x128 .f32) (h3 : a3.IsWhole)
    (a4 : Memref sig .tc .vmem S32x1 .f32) (h4 : a4.IsWhole) (a5 : Memref sig .tc .vmem S9x32 .f32) (h5 : a5.IsWhole)
    (a6 : Memref sig .tc .vmem S32x1 .f32) (h6 : a6.IsWhole) (a7 : Memref sig .tc .vmem S1x64x32x128 .f32) (h7 : a7.IsWhole)
    (s0 : Memref sig .tc .vmem S128x36x130 .f32) (hs0 : s0.IsWhole) (s1 : Memref sig .tc .vmem S32x34x130 .f32) (hs1 : s1.IsWhole)
    (hA : hasAbove i) (hB : hasBelow i) (hC : ¬isFirst i) (hD : ¬isLast i)
    (x0 : Vec F S1x128x32x128 .f32) (x1 : Vec F S1x128x8x128 .f32) (x2 : Vec F S1x128x8x128 .f32) (x3 : Vec F S9x32x128 .f32) (x4 : Vec F S32x1 .f32) (x5 : Vec F S9x32 .f32) (x6 : Vec F S32x1 .f32) : Vec F S1x64x32x128 .f32 :=
  outView.read (Elt F) (outView.writes (Elt F) outView.junk (bodyRunMiddle c i a0 h0 a1 h1 a2 h2 a3 h3 a4 h4 a5 h5 a6 h6 a7 h7 s0 hs0 s1 hs1 hA hB hC hD x0 x1 x2 x3 x4 x5 x6).1)

/-- The two stores of the last-strip run — 32 channels each — tile the 64-channel block. -/
theorem coverLast (c : Dev nD) (i : grid1.Coords)
    (a0 : Memref sig .tc .vmem S1x128x32x128 .f32) (h0 : a0.IsWhole) (a1 : Memref sig .tc .vmem S1x128x8x128 .f32) (h1 : a1.IsWhole)
    (a2 : Memref sig .tc .vmem S1x128x8x128 .f32) (h2 : a2.IsWhole) (a3 : Memref sig .tc .vmem S9x32x128 .f32) (h3 : a3.IsWhole)
    (a4 : Memref sig .tc .vmem S32x1 .f32) (h4 : a4.IsWhole) (a5 : Memref sig .tc .vmem S9x32 .f32) (h5 : a5.IsWhole)
    (a6 : Memref sig .tc .vmem S32x1 .f32) (h6 : a6.IsWhole) (a7 : Memref sig .tc .vmem S1x64x32x128 .f32) (h7 : a7.IsWhole)
    (s0 : Memref sig .tc .vmem S128x36x130 .f32) (hs0 : s0.IsWhole) (s1 : Memref sig .tc .vmem S32x34x130 .f32) (hs1 : s1.IsWhole)
    (hA : hasAbove i) (hB : ¬hasBelow i) (hC : ¬isFirst i) (hD : isLast i)
    (x0 : Vec F S1x128x32x128 .f32) (x1 : Vec F S1x128x8x128 .f32) (x2 : Vec F S1x128x8x128 .f32) (x3 : Vec F S9x32x128 .f32) (x4 : Vec F S32x1 .f32) (x5 : Vec F S9x32 .f32) (x6 : Vec F S32x1 .f32) (y : S1x64x32x128.Idx) :
    ∃ pc ∈ (bodyRunLast c i a0 h0 a1 h1 a2 h2 a3 h3 a4 h4 a5 h5 a6 h6 a7 h7 s0 hs0 s1 hs1 hA hB hC hD x0 x1 x2 x3 x4 x5 x6).1, y ∈ pc.1.set :=
  View.cover_of_tiledL (bodyRunLast c i a0 h0 a1 h1 a2 h2 a3 h3 a4 h4 a5 h5 a6 h6 a7 h7 s0 hs0 s1 hs1 hA hB hC hD x0 x1 x2 x3 x4 x5 x6).1 S1x32x32x128.size (by sl_kernel_rfl) y

/-- The output block after the body on a last strip: the pieces read back. -/
def outStripLast (c : Dev nD) (i : grid1.Coords)
    (a0 : Memref sig .tc .vmem S1x128x32x128 .f32) (h0 : a0.IsWhole) (a1 : Memref sig .tc .vmem S1x128x8x128 .f32) (h1 : a1.IsWhole)
    (a2 : Memref sig .tc .vmem S1x128x8x128 .f32) (h2 : a2.IsWhole) (a3 : Memref sig .tc .vmem S9x32x128 .f32) (h3 : a3.IsWhole)
    (a4 : Memref sig .tc .vmem S32x1 .f32) (h4 : a4.IsWhole) (a5 : Memref sig .tc .vmem S9x32 .f32) (h5 : a5.IsWhole)
    (a6 : Memref sig .tc .vmem S32x1 .f32) (h6 : a6.IsWhole) (a7 : Memref sig .tc .vmem S1x64x32x128 .f32) (h7 : a7.IsWhole)
    (s0 : Memref sig .tc .vmem S128x36x130 .f32) (hs0 : s0.IsWhole) (s1 : Memref sig .tc .vmem S32x34x130 .f32) (hs1 : s1.IsWhole)
    (hA : hasAbove i) (hB : ¬hasBelow i) (hC : ¬isFirst i) (hD : isLast i)
    (x0 : Vec F S1x128x32x128 .f32) (x1 : Vec F S1x128x8x128 .f32) (x2 : Vec F S1x128x8x128 .f32) (x3 : Vec F S9x32x128 .f32) (x4 : Vec F S32x1 .f32) (x5 : Vec F S9x32 .f32) (x6 : Vec F S32x1 .f32) : Vec F S1x64x32x128 .f32 :=
  outView.read (Elt F) (outView.writes (Elt F) outView.junk (bodyRunLast c i a0 h0 a1 h1 a2 h2 a3 h3 a4 h4 a5 h5 a6 h6 a7 h7 s0 hs0 s1 hs1 hA hB hC hD x0 x1 x2 x3 x4 x5 x6).1)

/-- The output block after the body at point `t`: the run of the point's case at its memrefs and input blocks. -/
def outAt (c : Dev nD) (t : Fin cfg1.N) : Vec F S1x64x32x128 .f32 :=
  if hF : isFirst (grid1.coords t) then
    outStripFirst c (grid1.coords t) (mem0 t) (whole0 t) (mem1 t) (whole1 t) (mem2 t) (whole2 t) (mem3 t) (whole3 t) (mem4 t) (whole4 t) (mem5 t) (whole5 t) (mem6 t) (whole6 t) (mem7 t) (whole7 t) scr0 (Memref.isWhole_whole _) scr1 (Memref.isWhole_whole _) (first_facts t hF).1 (first_facts t hF).2.1 hF (first_facts t hF).2.2 (strip V c 0 t) (strip V c 1 t) (strip V c 2 t) (strip V c 3 t) (strip V c 4 t) (strip V c 5 t) (strip V c 6 t)
  else if hL : isLast (grid1.coords t) then
    outStripLast c (grid1.coords t) (mem0 t) (whole0 t) (mem1 t) (whole1 t) (mem2 t) (whole2 t) (mem3 t) (whole3 t) (mem4 t) (whole4 t) (mem5 t) (whole5 t) (mem6 t) (whole6 t) (mem7 t) (whole7 t) scr0 (Memref.isWhole_whole _) scr1 (Memref.isWhole_whole _) (last_facts t hL).1 (last_facts t hL).2.1 hF hL (strip V c 0 t) (strip V c 1 t) (strip V c 2 t) (strip V c 3 t) (strip V c 4 t) (strip V c 5 t) (strip V c 6 t)
  else
    outStripMiddle c (grid1.coords t) (mem0 t) (whole0 t) (mem1 t) (whole1 t) (mem2 t) (whole2 t) (mem3 t) (whole3 t) (mem4 t) (whole4 t) (mem5 t) (whole5 t) (mem6 t) (whole6 t) (mem7 t) (whole7 t) scr0 (Memref.isWhole_whole _) scr1 (Memref.isWhole_whole _) (middle_facts t hF hL).1 (middle_facts t hF hL).2 hF hL (strip V c 0 t) (strip V c 1 t) (strip V c 2 t) (strip V c 3 t) (strip V c 4 t) (strip V c 5 t) (strip V c 6 t)

theorem outAt_first (c : Dev nD) (t : Fin cfg1.N) (hF : isFirst (grid1.coords t)) :
    outAt V c t = outStripFirst c (grid1.coords t) (mem0 t) (whole0 t) (mem1 t) (whole1 t) (mem2 t) (whole2 t) (mem3 t) (whole3 t) (mem4 t) (whole4 t) (mem5 t) (whole5 t) (mem6 t) (whole6 t) (mem7 t) (whole7 t) scr0 (Memref.isWhole_whole _) scr1 (Memref.isWhole_whole _) (first_facts t hF).1 (first_facts t hF).2.1 hF (first_facts t hF).2.2 (strip V c 0 t) (strip V c 1 t) (strip V c 2 t) (strip V c 3 t) (strip V c 4 t) (strip V c 5 t) (strip V c 6 t) := by
  unfold outAt; exact dif_pos hF
theorem outAt_last (c : Dev nD) (t : Fin cfg1.N) (hF : ¬isFirst (grid1.coords t)) (hL : isLast (grid1.coords t)) :
    outAt V c t = outStripLast c (grid1.coords t) (mem0 t) (whole0 t) (mem1 t) (whole1 t) (mem2 t) (whole2 t) (mem3 t) (whole3 t) (mem4 t) (whole4 t) (mem5 t) (whole5 t) (mem6 t) (whole6 t) (mem7 t) (whole7 t) scr0 (Memref.isWhole_whole _) scr1 (Memref.isWhole_whole _) (last_facts t hL).1 (last_facts t hL).2.1 hF hL (strip V c 0 t) (strip V c 1 t) (strip V c 2 t) (strip V c 3 t) (strip V c 4 t) (strip V c 5 t) (strip V c 6 t) := by
  unfold outAt; exact (dif_neg hF).trans (dif_pos hL)
theorem outAt_middle (c : Dev nD) (t : Fin cfg1.N) (hF : ¬isFirst (grid1.coords t)) (hL : ¬isLast (grid1.coords t)) :
    outAt V c t = outStripMiddle c (grid1.coords t) (mem0 t) (whole0 t) (mem1 t) (whole1 t) (mem2 t) (whole2 t) (mem3 t) (whole3 t) (mem4 t) (whole4 t) (mem5 t) (whole5 t) (mem6 t) (whole6 t) (mem7 t) (whole7 t) scr0 (Memref.isWhole_whole _) scr1 (Memref.isWhole_whole _) (middle_facts t hF hL).1 (middle_facts t hF hL).2 hF hL (strip V c 0 t) (strip V c 1 t) (strip V c 2 t) (strip V c 3 t) (strip V c 4 t) (strip V c 5 t) (strip V c 6 t) := by
  unfold outAt; exact (dif_neg hF).trans (dif_neg hL)

/-! ## The pipeline's proof data -/

/-- The arrays as the region finds them; after the body each input's buffer at its block and the output's at
    `outAt`; the three windows on z hold its buffer at a half and two quarters of the full share, every other
    window its array at the full share; nothing owed. -/
def dat (c : Dev nD) : Dat τ (Elt F) Unit ℕ (UR sig nD τ) ℕ cfg1 c where
  A w := V c (Pipeline.arrRef spec1 w)
  after w t := match w with
    | ⟨0, _⟩ => strip V c 0 t
    | ⟨1, _⟩ => strip V c 1 t
    | ⟨2, _⟩ => strip V c 2 t
    | ⟨3, _⟩ => strip V c 3 t
    | ⟨4, _⟩ => strip V c 4 t
    | ⟨5, _⟩ => strip V c 5 t
    | ⟨6, _⟩ => strip V c 6 t
    | ⟨7, _⟩ => outAt V c t
  Φ _ := Pipeline.ΦA spec1 c
  q w := match w with
    | ⟨0, _⟩ => fullShare.left
    | ⟨1, _⟩ => fullShare.right.left
    | ⟨2, _⟩ => fullShare.right.right
    | _ => fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = strip V c 0 t := by dsimp only [dat]
theorem after_1 (c : Dev nD) (t : Fin cfg1.N) : (dat V c).after 1 t = strip V c 1 t := by dsimp only [dat]
theorem after_2 (c : Dev nD) (t : Fin cfg1.N) : (dat V c).after 2 t = strip V c 2 t := by dsimp only [dat]
theorem after_3 (c : Dev nD) (t : Fin cfg1.N) : (dat V c).after 3 t = strip V c 3 t := by dsimp only [dat]
theorem after_4 (c : Dev nD) (t : Fin cfg1.N) : (dat V c).after 4 t = strip V c 4 t := by dsimp only [dat]
theorem after_5 (c : Dev nD) (t : Fin cfg1.N) : (dat V c).after 5 t = strip V c 5 t := by dsimp only [dat]
theorem after_6 (c : Dev nD) (t : Fin cfg1.N) : (dat V c).after 6 t = strip V c 6 t := by dsimp only [dat]
theorem after_7 (c : Dev nD) (t : Fin cfg1.N) : (dat V c).after 7 t = outAt V c t := by dsimp only [dat]

theorem before_0 (c : Dev nD) (t : Fin cfg1.N) (d) : (dat V c).before 0 t d = strip V c 0 t :=
  staged0 V (dat V c) (dat_A V c 0) (after_0 V c) t d
theorem before_1 (c : Dev nD) (t : Fin cfg1.N) (d) : (dat V c).before 1 t d = strip V c 1 t :=
  staged1 V (dat V c) (dat_A V c 1) (after_1 V c) t d
theorem before_2 (c : Dev nD) (t : Fin cfg1.N) (d) : (dat V c).before 2 t d = strip V c 2 t :=
  staged2 V (dat V c) (dat_A V c 2) (after_2 V c) t d
theorem before_3 (c : Dev nD) (t : Fin cfg1.N) (d) : (dat V c).before 3 t d = strip V c 3 t :=
  staged3 V (dat V c) (dat_A V c 3) (after_3 V c) t d
theorem before_4 (c : Dev nD) (t : Fin cfg1.N) (d) : (dat V c).before 4 t d = strip V c 4 t :=
  staged4 V (dat V c) (dat_A V c 4) (after_4 V c) t d
theorem before_5 (c : Dev nD) (t : Fin cfg1.N) (d) : (dat V c).before 5 t d = strip V c 5 t :=
  staged5 V (dat V c) (dat_A V c 5) (after_5 V c) t d
theorem before_6 (c : Dev nD) (t : Fin cfg1.N) (d) : (dat V c).before 6 t d = strip V c 6 t :=
  staged6 V (dat V c) (dat_A V c 6) (after_6 V c) t d

/-! ## The body's obligation at a point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

set_option maxHeartbeats 3200000 in
/-- At any point the inputs' buffers hold their blocks and the invariant hands over the scratch; the point is a
    first, a last or a middle strip, and that case's run applies; the output buffer ends at the pieces read back,
    since they cover the block; the scratch goes back to the invariant at whatever it holds. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  rw [show (dat V c).Φ t.castSucc = Pipeline.ΦA spec1 c from rfl, inv_eq]
  by_cases hF : isFirst (grid1.coords t)
  ·
    rw [outAt_first V c t hF]; unfold outStripFirst
    iintro ⟨⟨⟨R0, R1, R2, R3, R4, R5, R6, R7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((bodyRunFirst c (grid1.coords t) _ _ _ _ _ _ _ _ _ _ _ _ _ _ _ _ _ _ _ _ (first_facts t hF).1 (first_facts t hF).2.1 hF (first_facts t hF).2.2 (strip V c 0 t) (strip V c 1 t) (strip V c 2 t) (strip V c 3 t) (strip V c 4 t) (strip V c 5 t) (strip V c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, ⟨%e7, H7⟩, HS0, HS1⟩
    isplitl [R0 R1 R2 R3 R4 R5 R6 R7 HS0 HS1 Hg]
    · isplitl [R0 R1 R2 R3 R4 R5 R6 R7 HS0 HS1]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverFirst c _ _ _ _ _ _ _ _ _ _ _ _ _ _ _ _ _ _ _ _ _ _ _ _ _ _ _ _ _ _ _ _)
  by_cases hL : isLast (grid1.coords t)
  ·
    rw [outAt_last V c t hF hL]; unfold outStripLast
    iintro ⟨⟨⟨R0, R1, R2, R3, R4, R5, R6, R7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((bodyRunLast c (grid1.coords t) _ _ _ _ _ _ _ _ _ _ _ _ _ _ _ _ _ _ _ _ (last_facts t hL).1 (last_facts t hL).2.1 hF hL (strip V c 0 t) (strip V c 1 t) (strip V c 2 t) (strip V c 3 t) (strip V c 4 t) (strip V c 5 t) (strip V c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, ⟨%e7, H7⟩, HS0, HS1⟩
    isplitl [R0 R1 R2 R3 R4 R5 R6 R7 HS0 HS1 Hg]
    · isplitl [R0 R1 R2 R3 R4 R5 R6 R7 HS0 HS1]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverLast c _ _ _ _ _ _ _ _ _ _ _ _ _ _ _ _ _ _ _ _ _ _ _ _ _ _ _ _ _ _ _ _)
  ·
    rw [outAt_middle V c t hF hL]; unfold outStripMiddle
    iintro ⟨⟨⟨R0, R1, R2, R3, R4, R5, R6, R7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((bodyRunMiddle c (grid1.coords t) _ _ _ _ _ _ _ _ _ _ _ _ _ _ _ _ _ _ _ _ (middle_facts t hF hL).1 (middle_facts t hF hL).2 hF hL (strip V c 0 t) (strip V c 1 t) (strip V c 2 t) (strip V c 3 t) (strip V c 4 t) (strip V c 5 t) (strip V c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, ⟨%e7, H7⟩, HS0, HS1⟩
    isplitl [R0 R1 R2 R3 R4 R5 R6 R7 HS0 HS1 Hg]
    · isplitl [R0 R1 R2 R3 R4 R5 R6 R7 HS0 HS1]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverMiddle c _ _ _ _ _ _ _ _ _ _ _ _ _ _ _ _ _ _ _ _ _ _ _ _ _ _ _ _ _ _ _ _)

/-- The body's obligation at every point. -/
theorem body_obligation (c : Dev nD) : BodyObligation (dat (F := F) V c) (defs₀ (F := F)) Variants.none () Set.univ := fun t => by
  rw [bigSep_W1, bigSep_W1]
  exact body_at V c t

end Cert.ReferenceIdeal.Ghost

end
-- ==== Proof.RefGhostShares.lean ====
/-
  The second region of the reference: one buffer behind three windows.

  The strip window and the two halo windows all read z's buffer. The pipeline holds each window's array at that
  window's share, so at entry z's buffer — whole, at the full share — is dealt as a half (the strip) and two
  quarters (the halos), and at exit the three are joined again. The five other buffers (weights, biases, the
  result) each sit behind one window and pass whole.
-/
import proofs.«169621_g2000704505896602_pallasbulk_1077_31_alg».proof.Proof.RefGhostData

set_option maxRecDepth 16384

noncomputable section

namespace Cert.ReferenceIdeal.Ghost

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each window's share of its array -/

theorem share0 (c : Dev nD) : (dat V c).share 0 = fullShare.left := by unfold Dat.share; rfl
theorem share1 (c : Dev nD) : (dat V c).share 1 = fullShare.right.left := by unfold Dat.share; rfl
theorem share2 (c : Dev nD) : (dat V c).share 2 = fullShare.right.right := by unfold Dat.share; rfl
theorem share3 (c : Dev nD) : (dat V c).share 3 = fullShare := by unfold Dat.share; rfl
theorem share4 (c : Dev nD) : (dat V c).share 4 = fullShare := by unfold Dat.share; rfl
theorem share5 (c : Dev nD) : (dat V c).share 5 = fullShare := by unfold Dat.share; rfl
theorem share6 (c : Dev nD) : (dat V c).share 6 = fullShare := by unfold Dat.share; rfl
theorem share7 (c : Dev nD) : (dat V c).share 7 = fullShare := by unfold Dat.share; rfl

set_option maxHeartbeats 2000000 in
/-- The six distinct buffers behind the region's eight windows, each whole at the full share, make the windows'
    arrays at the proof data's shares: z's buffer is dealt to its three windows as a half and two quarters, every
    other buffer goes to its one window whole. -/
theorem deal_out (c : Dev nD) (U : (b : Ref sig .tc) → Buf (Elt F) ((c : Thread nD τ).loc b))
    (G : (w : Fin cfg1.W) → Buf (Elt F) ((cfg1.win w).arr.view.loc (c : Thread nD τ)))
    (hG : ∀ w, G w = U (Pipeline.arrRef spec1 w)) :
    (Pipeline.arrBufs (Ix := Unit) (Name := ℕ) (U := UR sig nD τ) (Lvl := ℕ) spec1 c U : sProp 𝕄) ⊢ (dat V c).arrays G := by
  obtain rfl : G = fun w => U (Pipeline.arrRef spec1 w) := funext hG
  unfold Pipeline.arrBufs Dat.arrays
  have e0 : (cfg1.win 0).arr.view.set = Finset.univ := (arr_whole1 0).set_eq_univ
  have e3 : (cfg1.win 3).arr.view.set = Finset.univ := (arr_whole1 3).set_eq_univ
  have e4 : (cfg1.win 4).arr.view.set = Finset.univ := (arr_whole1 4).set_eq_univ
  have e5 : (cfg1.win 5).arr.view.set = Finset.univ := (arr_whole1 5).set_eq_univ
  have e6 : (cfg1.win 6).arr.view.set = Finset.univ := (arr_whole1 6).set_eq_univ
  have e7 : (cfg1.win 7).arr.view.set = Finset.univ := (arr_whole1 7).set_eq_univ
  rw [bigSep_W1, bigSep_eq_bigSepL_of_eq [main_v0, main_arg4, main_arg5, main_arg6, main_arg7, main_v1] (by decide) (by decide),
    e0, e3, e4, e5, e6, e7, share0, share1, share2, share3, share4, share5, share6, share7]
  beta_reduce
  show (iprop((((c : Thread nD τ).loc main_v0) ↦{fullShare} U main_v0) ∗ (((c : Thread nD τ).loc main_arg4) ↦{fullShare} U main_arg4) ∗ (((c : Thread nD τ).loc main_arg5) ↦{fullShare} U main_arg5) ∗ (((c : Thread nD τ).loc main_arg6) ↦{fullShare} U main_arg6) ∗ (((c : Thread nD τ).loc main_arg7) ↦{fullShare} U main_arg7) ∗ (((c : Thread nD τ).loc main_v1) ↦{fullShare} U main_v1)) : sProp 𝕄) ⊢ _
  iintro ⟨Hz, H4, H5, H6, H7, Ho⟩
  ihave Hz' := (pointsTo_share (PosShare.mem_left_op_right fullShare)).1 $$ Hz
  icases Hz' with ⟨Hz0, Hz12⟩
  ihave Hz'' := (pointsTo_share (PosShare.mem_left_op_right fullShare.right)).1 $$ Hz12
  icases Hz'' with ⟨Hz1, Hz2⟩
  isplitl [Hz0]; · iexact Hz0
  isplitl [Hz1]; · iexact Hz1
  isplitl [Hz2]; · iexact Hz2
  isplitl [H4]; · iexact H4
  isplitl [H5]; · iexact H5
  isplitl [H6]; · iexact H6
  isplitl [H7]; · iexact H7
  iexact Ho

set_option maxHeartbeats 2000000 in
/-- And back: the three shares of z's buffer join to the full share. -/
theorem deal_back (c : Dev nD) (U : (b : Ref sig .tc) → Buf (Elt F) ((c : Thread nD τ).loc b))
    (G : (w : Fin cfg1.W) → Buf (Elt F) ((cfg1.win w).arr.view.loc (c : Thread nD τ)))
    (hG : ∀ w, G w = U (Pipeline.arrRef spec1 w)) :
    (dat V c).arrays G ⊢ (Pipeline.arrBufs (Ix := Unit) (Name := ℕ) (U := UR sig nD τ) (Lvl := ℕ) spec1 c U : sProp 𝕄) := by
  obtain rfl : G = fun w => U (Pipeline.arrRef spec1 w) := funext hG
  unfold Pipeline.arrBufs Dat.arrays
  have e0 : (cfg1.win 0).arr.view.set = Finset.univ := (arr_whole1 0).set_eq_univ
  have e3 : (cfg1.win 3).arr.view.set = Finset.univ := (arr_whole1 3).set_eq_univ
  have e4 : (cfg1.win 4).arr.view.set = Finset.univ := (arr_whole1 4).set_eq_univ
  have e5 : (cfg1.win 5).arr.view.set = Finset.univ := (arr_whole1 5).set_eq_univ
  have e6 : (cfg1.win 6).arr.view.set = Finset.univ := (arr_whole1 6).set_eq_univ
  have e7 : (cfg1.win 7).arr.view.set = Finset.univ := (arr_whole1 7).set_eq_univ
  rw [bigSep_W1, bigSep_eq_bigSepL_of_eq [main_v0, main_arg4, main_arg5, main_arg6, main_arg7, main_v1] (by decide) (by decide),
    e0, e3, e4, e5, e6, e7, share0, share1, share2, share3, share4, share5, share6, share7]
  beta_reduce
  show _ ⊢ (iprop((((c : Thread nD τ).loc main_v0) ↦{fullShare} U main_v0) ∗ (((c : Thread nD τ).loc main_arg4) ↦{fullShare} U main_arg4) ∗ (((c : Thread nD τ).loc main_arg5) ↦{fullShare} U main_arg5) ∗ (((c : Thread nD τ).loc main_arg6) ↦{fullShare} U main_arg6) ∗ (((c : Thread nD τ).loc main_arg7) ↦{fullShare} U main_arg7) ∗ (((c : Thread nD τ).loc main_v1) ↦{fullShare} U main_v1)) : sProp 𝕄)
  iintro ⟨Hz0, Hz1, Hz2, H4, H5, H6, H7, Ho⟩
  isplitl [Hz0 Hz1 Hz2]
  · iapply (pointsTo_share (PosShare.mem_left_op_right fullShare)).2
    isplitl [Hz0]; · iexact Hz0
    iapply (pointsTo_share (PosShare.mem_left_op_right fullShare.right)).2
    isplitl [Hz1]; · iexact Hz1
    iexact Hz2
  isplitl [H4]; · iexact H4
  isplitl [H5]; · iexact H5
  isplitl [H6]; · iexact H6
  isplitl [H7]; · iexact H7
  iexact Ho

end Cert.ReferenceIdeal.Ghost

end
-- ==== Proof.RefWhole.lean ====
/-
  The reference's run: two kernel regions, one after the other, nothing between them.

  The TensorCore's buffers at launch are the memory `m`; the first region leaves its output array — z, 128
  channels: the up-sampled input beside the skip tensor — at what its write-backs fold to, every other buffer
  as launched; the second region reads z through three windows and leaves the result array at what its
  write-backs fold to. Each region enters the pipeline from "every unscoped buffer at the boundary's contents,
  the generator register at some state, nothing owed" and leaves it so.
-/
import proofs.«169621_g2000704505896602_pallasbulk_1077_31_alg».proof.Proof.RefUpsampleData
import proofs.«169621_g2000704505896602_pallasbulk_1077_31_alg».proof.Proof.RefGhostData
import proofs.«169621_g2000704505896602_pallasbulk_1077_31_alg».proof.Proof.RefGhostShares
import proofs.«169621_g2000704505896602_pallasbulk_1077_31_alg».proof.Proof.Gen.ReferenceIdeal.Regions
import Idealize.ShloMosaic.Lib.Pipeline.RegionsLoop
import Idealize.ShloMosaic.Lib.Pipeline.FrameSuffix

set_option maxRecDepth 16384

noncomputable section

namespace Cert.ReferenceIdeal.Whole

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the region boundaries -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what the pipeline leaves, every other buffer as launched. -/
def W1 (c : Dev nD) : Valuation τ sig (Elt F) :=
  Pipeline.withArrays spec0 c (W0 m ρ c) fun w => (Upsample.dat (V0 m ρ) c).arrAt w cfg0.N
theorem W1_arr (c : Dev nD) (w : Fin cfg0.W) :
    W1 m ρ c (Proc.devRef .tc (Pipeline.arrRef spec0 w)) = (Upsample.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem exit0_arr (c : Dev nD) (w : Fin cfg0.W) : (Upsample.dat (V0 m ρ) c).arrAt w cfg0.N = V1 m ρ c (Pipeline.arrRef spec0 w) :=
  (W1_arr m ρ c w).symm
theorem exit0_rest (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second region: the result array at what the pipeline leaves, every other buffer as it was (the
    region's other arrays are inputs: never written back). -/
def W2 (c : Dev nD) : Valuation τ sig (Elt F) :=
  Function.update (W1 m ρ c) main_v1 ((Ghost.dat (V1 m ρ) c).arrAt 7 cfg1.N)
abbrev V2 : (c : Dev nD) → (b : Ref sig .tc) → Buf (Elt F) ((c : Thread nD τ).loc b) := fun c b => W2 m ρ c b

/-! ## The proof data family and the thread state -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => Upsample.dat (V0 m ρ) c
  | ⟨1, _⟩ => fun c => Ghost.dat (V1 m ρ) c
abbrev 𝒱₀ : Variants := Variants.none
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)

/-! ## The first region as a segment -/

set_option backward.isDefEq.respectTransparency.types false in
/-- Entered from every unscoped buffer at the launch contents, left at the contents after it. Its five arrays are
    distinct buffers, split out of the unscoped buffers at entry and put back at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Upsample.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region's exit contents -/

theorem W2_out (c : Dev nD) : W2 m ρ c (Proc.devRef .tc main_v1) = (Ghost.dat (V1 m ρ) c).arrAt 7 cfg1.N := by
  unfold W2; exact Function.update_self _ _ _
theorem W2_of_ne (c : Dev nD) (b : Ref sig .tc) (hb : b ≠ main_v1) : W2 m ρ c (Proc.devRef .tc b) = W1 m ρ c (Proc.devRef .tc b) := by
  unfold W2
  exact Function.update_of_ne (StableHlo.devRef_ne_of_ne hb : (Proc.devRef .tc b : DevRef τ sig) ≠ Proc.devRef .tc main_v1) _ _

/-- At the second region's exit each input window's array is as entered and the output window's is what the
    pipeline leaves. -/
theorem exit1_arr (c : Dev nD) : ∀ w : Fin cfg1.W, (Ghost.dat (V1 m ρ) c).arrAt w cfg1.N = V2 m ρ c (Pipeline.arrRef spec1 w)
  | ⟨0, _⟩ => (((Ghost.dat (V1 m ρ) c).arrAt_in 0 rfl _).trans (Ghost.dat_A (V1 m ρ) c 0)).trans (W2_of_ne m ρ c _ (by decide)).symm
  | ⟨1, _⟩ => (((Ghost.dat (V1 m ρ) c).arrAt_in 1 rfl _).trans (Ghost.dat_A (V1 m ρ) c 1)).trans (W2_of_ne m ρ c _ (by decide)).symm
  | ⟨2, _⟩ => (((Ghost.dat (V1 m ρ) c).arrAt_in 2 rfl _).trans (Ghost.dat_A (V1 m ρ) c 2)).trans (W2_of_ne m ρ c _ (by decide)).symm
  | ⟨3, _⟩ => (((Ghost.dat (V1 m ρ) c).arrAt_in 3 rfl _).trans (Ghost.dat_A (V1 m ρ) c 3)).trans (W2_of_ne m ρ c _ (by decide)).symm
  | ⟨4, _⟩ => (((Ghost.dat (V1 m ρ) c).arrAt_in 4 rfl _).trans (Ghost.dat_A (V1 m ρ) c 4)).trans (W2_of_ne m ρ c _ (by decide)).symm
  | ⟨5, _⟩ => (((Ghost.dat (V1 m ρ) c).arrAt_in 5 rfl _).trans (Ghost.dat_A (V1 m ρ) c 5)).trans (W2_of_ne m ρ c _ (by decide)).symm
  | ⟨6, _⟩ => (((Ghost.dat (V1 m ρ) c).arrAt_in 6 rfl _).trans (Ghost.dat_A (V1 m ρ) c 6)).trans (W2_of_ne m ρ c _ (by decide)).symm
  | ⟨7, _⟩ => (W2_out m ρ c).symm
theorem exit1_rest (c : Dev nD) : ∀ b, b ∉ Finset.univ.image (Pipeline.arrRef spec1) → V2 m ρ c b = V1 m ρ c b :=
  fun b hb => W2_of_ne m ρ c b fun e => hb (Finset.mem_image.mpr ⟨7, Finset.mem_univ _, e.symm⟩)

/-! ## The second region as a segment -/

/-- ENTRY: every unscoped buffer at the contents after the first region is the region's arrays at the proof
    data's shares beside the unscoped rest. -/
theorem entry1 (c : Dev nD) :
    (unscopedBufs c (V1 m ρ c) : sProp 𝕄)
      ⊢ iprop((pdats m ρ 1 c).arrays ((pdats m ρ 1 c).arrAt · 0) ∗ Pipeline.unscopedRest (Ix := Unit) (Name := ℕ) (U := UR sig nD τ) (Lvl := ℕ) spec1 c (V1 m ρ c)) := by
  rw [Pipeline.unscopedBufs_split₀ (Pipeline.pin (pcfgs (F := F)) adm) 1 winFacts₀1.arr_unscoped c (V1 m ρ c)]
  exact sep_mono (Ghost.deal_out (V1 m ρ) c (V1 m ρ c) _ fun _ => rfl) .rfl

/-- EXIT: the arrays at what the pipeline leaves beside the unscoped rest are every unscoped buffer at the
    contents after the second region. -/
theorem exit1 (c : Dev nD) :
    iprop((pdats m ρ 1 c).arrays ((pdats m ρ 1 c).arrAt · cfg1.N) ∗ Pipeline.unscopedRest (Ix := Unit) (Name := ℕ) (U := UR sig nD τ) (Lvl := ℕ) spec1 c (V1 m ρ c))
      ⊢ (unscopedBufs c (V2 m ρ c) : sProp 𝕄) := by
  rw [Pipeline.unscopedBufs_split₀ (Pipeline.pin (pcfgs (F := F)) adm) 1 winFacts₀1.arr_unscoped c (V2 m ρ c)]
  refine sep_mono (Ghost.deal_back (V1 m ρ) c (V2 m ρ c) _ (exit1_arr m ρ c)) (Entails.of_eq ?_)
  unfold Pipeline.unscopedRest
  exact bigSep_congr fun b hb => by rw [exit1_rest m ρ c b (Finset.mem_sdiff.mp hb).2]

/-- The last thread state without the dues: every unscoped buffer at the last contents, the generator register at
    some state. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- Entered from every unscoped buffer at the contents after the first region, left at the last contents. Three
    of its windows read z's buffer: the full share is dealt among them at entry and joined at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Ghost.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The arguments end as launched -/

/-- Argument 0 reaches the end as launched: the first region reads it through an input window and never writes it back; the second region does not touch it. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((Upsample.dat (V0 m ρ) c).arrAt_in 0 rfl _).trans (Upsample.dat_A (V0 m ρ) c 0))
    _ = m ((c : Thread nD τ).loc main_arg0) := rfl
/-- Argument 1 reaches the end as launched: the first region reads it through an input window and never writes it back; the second region does not touch it. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((Upsample.dat (V0 m ρ) c).arrAt_in 1 rfl _).trans (Upsample.dat_A (V0 m ρ) c 1))
    _ = m ((c : Thread nD τ).loc main_arg1) := rfl
/-- Argument 2 reaches the end as launched: the first region reads it through an input window and never writes it back; the second region does not touch it. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((Upsample.dat (V0 m ρ) c).arrAt_in 2 rfl _).trans (Upsample.dat_A (V0 m ρ) c 2))
    _ = m ((c : Thread nD τ).loc main_arg2) := rfl
/-- Argument 3 reaches the end as launched: the first region reads it through an input window and never writes it back; the second region does not touch it. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 3).trans (((Upsample.dat (V0 m ρ) c).arrAt_in 3 rfl _).trans (Upsample.dat_A (V0 m ρ) c 3))
    _ = m ((c : Thread nD τ).loc main_arg3) := rfl
/-- Argument 4 reaches the end as launched: the first region does not touch it; the second region reads it through an input window. -/
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl
/-- Argument 5 reaches the end as launched: the first region does not touch it; the second region reads it through an input window. -/
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl
/-- Argument 6 reaches the end as launched: the first region does not touch it; the second region reads it through an input window. -/
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl
/-- Argument 7 reaches the end as launched: the first region does not touch it; the second region reads it through an input window. -/
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

/-! ## @main as segments, and the launch -/

abbrev segs : List (Pipeline.Seg (pcfgs (F := F)) adm (pdats m ρ) () defs₀ 𝒱₀ L lv) :=
  [ .region (reg0 m ρ), .region (reg1 m ρ) ]
/-- @main is the run of the two regions in order. -/
theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing
    faulting, and in every final state every unscoped buffer of every core holds the last contents `W2`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The run with the result array named and the arguments unchanged: the result is what the second region's
    write-backs fold to, over the contents the first region left. -/
theorem run_named : θ_run defs (onTc (τ := τ) (main (F := F))) ⟨m, fun _ => 0, ρ⟩ (fun r => ∀ c : Dev nD,
      r.2.mem ((c.tc : Thread nD τ).loc main_v1) = (Ghost.dat (V1 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v1 (by decide))).trans (W2_out m ρ c),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c),
      (h c _ (mem_uc main_arg3 (by decide))).trans (W2_main_arg3 m ρ c),
      (h c _ (mem_uc main_arg4 (by decide))).trans (W2_main_arg4 m ρ c),
      (h c _ (mem_uc main_arg5 (by decide))).trans (W2_main_arg5 m ρ c),
      (h c _ (mem_uc main_arg6 (by decide))).trans (W2_main_arg6 m ρ c),
      (h c _ (mem_uc main_arg7 (by decide))).trans (W2_main_arg7 m ρ c)⟩) (run_all m ρ)

/-- The reference's frame: it runs, and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_named m ρ)

end Cert.ReferenceIdeal.Whole

end
-- ==== Proof.Spec.lean ====
/-
  The decoder block as one function of its arguments, entry by entry, over the extended reals.

  Arguments: the input x [8,128,64,64], the skip tensor [8,64,128,128], the transposed convolution's weights
  w [4,64,128] (slice 2·di + dj) and bias [64,1], the 3×3 convolution's weights wp [9,32,128] (slice 3·ky + kx)
  and bias b1 [32,1], the depthwise weights wd [9,32] and bias b2 [32,1].

    up (b,o,i,j)  = Σ_c w(2·(i mod 2) + (j mod 2), o, c) · x(b, c, i/2, j/2) + bias(o)
    z  (b,g,i,j)  = up(b,g,i,j) for g < 64,  skip(b, g − 64, i, j) for g ≥ 64
    x1 (b,o,i,j)  = leaky( Σ_k Σ_g wp(k,o,g) · z°(b, g, i + k/3 − 1, j + k mod 3 − 1) + b1(o) )
    x2 (b,o,i,j)  = leaky( Σ_k x1°(b, o, i + k/3 − 1, j + k mod 3 − 1) · wd(k,o) + b2(o) )
    out(b,ch,i,j) = x1(b,ch,i,j) for ch < 32,  x2(b, ch − 32, i, j) for ch ≥ 32

  where ° extends by zero outside the 128 × 128 image and leaky(v) = v for v ≥ 0 and slope · v otherwise, the
  slope being the programs' literal (the word 0x3C23D70A read exactly). The padded coordinates below are shifted
  by one: row and column p of a padded image are row and column p − 1 of the image, for 1 ≤ p ≤ 128.
-/
import Idealize.ShloMosaic.PureOps.Ideal
import Idealize.ShloMosaic.Lib.ValueIdx

noncomputable section

namespace Cert.Proof.Spec

open Idealize.ShloMosaic Idealize.ShloMosaic.ValueIdx

abbrev SX : Shape := ⟨4, ![8, 128, 64, 64]⟩
abbrev SSkip : Shape := ⟨4, ![8, 64, 128, 128]⟩
abbrev SW : Shape := ⟨3, ![4, 64, 128]⟩
abbrev SBias : Shape := ⟨2, ![64, 1]⟩
abbrev SWp : Shape := ⟨3, ![9, 32, 128]⟩
abbrev SB1 : Shape := ⟨2, ![32, 1]⟩
abbrev SWd : Shape := ⟨2, ![9, 32]⟩
abbrev SOut : Shape := ⟨4, ![8, 64, 128, 128]⟩

/-- The rectifier's slope: the programs' literal, read exactly. -/
def slope : EReal := Ideal.ofBits .f32 0x3C23D70A#32

/-- The leaky rectifier as both programs spell it: compare against zero, keep or scale. -/
def leaky (v : EReal) : EReal := if (0 : EReal) ≤ v then v else slope * v

variable (x : SX.Idx → EReal) (skip : SSkip.Idx → EReal) (w : SW.Idx → EReal) (bias : SBias.Idx → EReal)
  (wp : SWp.Idx → EReal) (b1 : SB1.Idx → EReal) (wd : SWd.Idx → EReal) (b2 : SB1.Idx → EReal)

/-- The transposed convolution (kernel 2, stride 2): output pixel (i, j) reads input pixel (i/2, j/2) through
    the weight slice of its parities. -/
def up (b : Fin 8) (o : Fin 64) (i j : Fin 128) : EReal :=
  (∑ c : Fin 128, w (ix3 (⟨2 * (i.val % 2) + j.val % 2, by omega⟩ : Fin 4) o c)
      * x (ix4 b c (⟨i.val / 2, by omega⟩ : Fin 64) (⟨j.val / 2, by omega⟩ : Fin 64)))
    + bias (ix2 o (0 : Fin 1))

/-- The up-sampled channels beside the skip tensor's. -/
def z (b : Fin 8) (g : Fin 128) (i j : Fin 128) : EReal :=
  if h : g.val < 64 then up x w bias b ⟨g.val, h⟩ i j
  else skip (ix4 b (⟨g.val - 64, by omega⟩ : Fin 64) i j)

/-- z extended by zero: padded row and column `p` are row and column `p − 1` of the image. -/
def zPad (b : Fin 8) (g : Fin 128) (p q : ℕ) : EReal :=
  if h : 1 ≤ p ∧ p ≤ 128 ∧ 1 ≤ q ∧ q ≤ 128 then z x skip w bias b g ⟨p - 1, by omega⟩ ⟨q - 1, by omega⟩ else 0

/-- The 3×3 convolution over the 128 channels of z, with bias and rectifier. -/
def x1 (b : Fin 8) (o : Fin 32) (i j : Fin 128) : EReal :=
  leaky ((∑ k : Fin 9, ∑ g : Fin 128, wp (ix3 k o g) * zPad x skip w bias b g (i.val + k.val / 3) (j.val + k.val % 3))
    + b1 (ix2 o (0 : Fin 1)))

/-- x1 extended by zero. -/
def x1Pad (b : Fin 8) (o : Fin 32) (p q : ℕ) : EReal :=
  if h : 1 ≤ p ∧ p ≤ 128 ∧ 1 ≤ q ∧ q ≤ 128 then x1 x skip w bias wp b1 b o ⟨p - 1, by omega⟩ ⟨q - 1, by omega⟩ else 0

/-- The depthwise 3×3 convolution of x1, with bias and rectifier. -/
def x2 (b : Fin 8) (o : Fin 32) (i j : Fin 128) : EReal :=
  leaky ((∑ k : Fin 9, x1Pad x skip w bias wp b1 b o (i.val + k.val / 3) (j.val + k.val % 3) * wd (ix2 k o))
    + b2 (ix2 o (0 : Fin 1)))

/-- The block's output: the 32 channels of x1 beside the 32 of x2. -/
def out : SOut.Idx → EReal := fun y =>
  if h : (y 1).val < 32 then x1 x skip w bias wp b1 (y 0) ⟨(y 1).val, h⟩ (y 2) (y 3)
  else x2 x skip w bias wp b1 wd b2 (y 0) (⟨(y 1).val - 32, by have : (y 1).val < 64 := (y 1).isLt; omega⟩ : Fin 32) (y 2) (y 3)

end Cert.Proof.Spec

end
-- ==== Proof.KernelImage.lean ====
/-
  The decoder block of ONE image, by coordinates.

  The specification (Proof/Spec.lean) reads its eight arguments through multi-indices; a grid point of the fused
  kernel sees one image of the input and of the skip tensor and the six parameter arrays. Here the same formulas
  are written over functions of plain coordinates, the image fixed, and the specification at an index is shown
  to be these formulas at the index's image.
-/
import proofs.«169621_g2000704505896602_pallasbulk_1077_31_alg».proof.Proof.Spec

noncomputable section

namespace Cert.Proof.KImg

open Idealize.ShloMosaic Idealize.ShloMosaic.ValueIdx Cert.Proof.Spec

variable (X : Fin 128 → Fin 64 → Fin 64 → EReal) (Sk : Fin 64 → Fin 128 → Fin 128 → EReal)
  (W : Fin 4 → Fin 64 → Fin 128 → EReal) (B : Fin 64 → EReal)
  (Wp : Fin 9 → Fin 32 → Fin 128 → EReal) (B1 : Fin 32 → EReal) (Wd : Fin 9 → Fin 32 → EReal) (B2 : Fin 32 → EReal)

/-- The transposed convolution of one image. -/
def up (o : Fin 64) (i j : Fin 128) : EReal :=
  (∑ c : Fin 128, W (⟨2 * (i.val % 2) + j.val % 2, by omega⟩ : Fin 4) o c
      * X c (⟨i.val / 2, by omega⟩ : Fin 64) (⟨j.val / 2, by omega⟩ : Fin 64))
    + B o

/-- The up-sampled channels beside the skip tensor's. -/
def z (g : Fin 128) (i j : Fin 128) : EReal :=
  if h : g.val < 64 then up X W B ⟨g.val, h⟩ i j else Sk (⟨g.val - 64, by omega⟩ : Fin 64) i j

/-- z extended by zero: padded row and column `p` are row and column `p − 1` of the image. -/
def zPad (g : Fin 128) (p q : ℕ) : EReal :=
  if h : 1 ≤ p ∧ p ≤ 128 ∧ 1 ≤ q ∧ q ≤ 128 then z X Sk W B g ⟨p - 1, by omega⟩ ⟨q - 1, by omega⟩ else 0

/-- The 3×3 convolution over the 128 channels of z, with bias and rectifier. -/
def x1 (o : Fin 32) (i j : Fin 128) : EReal :=
  leaky ((∑ k : Fin 9, ∑ g : Fin 128, Wp k o g * zPad X Sk W B g (i.val + k.val / 3) (j.val + k.val % 3)) + B1 o)

/-- x1 extended by zero. -/
def x1Pad (o : Fin 32) (p q : ℕ) : EReal :=
  if h : 1 ≤ p ∧ p ≤ 128 ∧ 1 ≤ q ∧ q ≤ 128 then x1 X Sk W B Wp B1 o ⟨p - 1, by omega⟩ ⟨q - 1, by omega⟩ else 0

/-- The depthwise 3×3 convolution of x1, with bias and rectifier. -/
def x2 (o : Fin 32) (i j : Fin 128) : EReal :=
  leaky ((∑ k : Fin 9, x1Pad X Sk W B Wp B1 o (i.val + k.val / 3) (j.val + k.val % 3) * Wd k o) + B2 o)

/-- One image of the block's output: the 32 channels of x1 beside the 32 of x2. -/
def out (ch : Fin 64) (i j : Fin 128) : EReal :=
  if h : ch.val < 32 then x1 X Sk W B Wp B1 ⟨ch.val, h⟩ i j
  else x2 X Sk W B Wp B1 Wd B2 (⟨ch.val - 32, by have := ch.isLt; omega⟩ : Fin 32) i j

/-- The specification at an index is the one-image formulas at the index's image. -/
theorem spec_out_eq (x : SX.Idx → EReal) (skip : SSkip.Idx → EReal) (w : SW.Idx → EReal) (bias : SBias.Idx → EReal)
    (wp : SWp.Idx → EReal) (b1 : SB1.Idx → EReal) (wd : SWd.Idx → EReal) (b2 : SB1.Idx → EReal) (y : SOut.Idx) :
    Spec.out x skip w bias wp b1 wd b2 y
      = out (fun c h w' => x (ix4 (y 0) c h w')) (fun g i j => skip (ix4 (y 0) g i j)) (fun k o c => w (ix3 k o c))
          (fun o => bias (ix2 o (0 : Fin 1))) (fun k o g => wp (ix3 k o g)) (fun o => b1 (ix2 o (0 : Fin 1)))
          (fun k o => wd (ix2 k o)) (fun o => b2 (ix2 o (0 : Fin 1))) (y 1) (y 2) (y 3) := rfl

end Cert.Proof.KImg

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.KernelFlat.lean ====
/-
  The flat layout of the fused kernel, read at an index.

  A padded image (130 rows of 128 lanes, a zero row above and below) laid out flat puts padded row p, column j at
  lane p·128 + j. The kernel's three copies of a flat array — itself and its two one-lane shifts with the edge
  lanes set to zero — are, at lane l, the zero-extended image at padded row l / 128 and padded column
  l % 128 + kx (kx = 0, 1, 2): the specification's padded coordinates. A 3×3 tap (ky, kx) of a quarter of the image
  starting at pixel n₀ is then a lane slice at ky·128 + n₀ of copy kx.
-/
import proofs.«169621_g2000704505896602_pallasbulk_1077_31_alg».proof.Proof.Gen.KernelIdeal.Skeleton
import proofs.«169621_g2000704505896602_pallasbulk_1077_31_alg».proof.Proof.KernelImage
import proofs.«169621_g2000704505896602_pallasbulk_1077_31_alg».proof.Proof.LibPlainMatmul
import proofs.«169621_g2000704505896602_pallasbulk_1077_31_alg».proof.Proof.LibColumnForms
import Idealize.ShloMosaic.Lib.Pipeline.Value
import Idealize.ShloMosaic.Lib.ValueIdx
import Idealize.ShloMosaic.PureOps.Ideal.Laws

set_option maxRecDepth 16384

noncomputable section

namespace Cert.Proof.KFlat

open Cert.KernelIdeal Cert.KernelIdeal.Gen
open Idealize.ShloMosaic Idealize.ShloMosaic.ValueIdx Cert.PointConv

/-! ## The rectifier -/

/-- Compare against zero, keep or scale by the literal slope: the specification's rectifier, entry by entry. -/
theorem leaky_apply {s : Shape} (v : FVec Ideal s .f32) (i : s.Idx) :
    select (cmpf .oge v (broadcast s (Scalar.ofBits (F := Ideal) .f32 0x00000000#32))) v
        (mulf (broadcast s (Scalar.ofBits (F := Ideal) .f32 0x3C23D70A#32)) v) i = Spec.leaky (v i) := by
  show Scalar.select (Ideal.cmp .oge (v i) (Ideal.ofBits .f32 0x00000000#32)) (v i) (Ideal.ofBits .f32 0x3C23D70A#32 * v i) = _
  rw [Ideal.ofBits_zero_f32]
  unfold Spec.leaky Spec.slope Scalar.select Ideal.cmp
  by_cases h : (0 : EReal) ≤ v i
  · simp [h]
  · simp [h]

/-! ## The edge masks and the two one-lane shifts -/

theorem and127 (l : ℕ) : l &&& 127 = l % 128 := by
  have := Nat.and_two_pow_sub_one_eq_mod l 7
  simpa using this

/-- The lane mask: lane `l` taken modulo the row stride, compared with a column. -/
theorem mask_lane (l : ℕ) (hl : l < 16640) (c : ℕ) (hc : c < 128) :
    IntOp.cmpi .eq (IntOp.andi (BitVec.ofNat 32 l) 127#32) (BitVec.ofNat 32 c) = if l % 128 = c then 1#1 else 0#1 := by
  unfold IntOp.cmpi IntOp.andi
  have hm : l % 128 < 128 := Nat.mod_lt _ (by decide)
  have e : BitVec.ofNat 32 l &&& 127#32 = BitVec.ofNat 32 (l % 128) := by
    apply BitVec.eq_of_toNat_eq
    rw [BitVec.toNat_and, BitVec.toNat_ofNat, BitVec.toNat_ofNat, BitVec.toNat_ofNat]
    have h1 : l % 2 ^ 32 = l := Nat.mod_eq_of_lt (by omega)
    have h2 : (127 : ℕ) % 2 ^ 32 = 127 := by decide
    have h3 : l % 128 % 2 ^ 32 = l % 128 := Nat.mod_eq_of_lt (by omega)
    rw [h1, h2, h3, and127]
  rw [e]
  by_cases h : l % 128 = c
  · rw [if_pos h, h]; simp
  · rw [if_neg h]
    have : (BitVec.ofNat 32 (l % 128) == BitVec.ofNat 32 c) = false := by
      rw [beq_eq_false_iff_ne]
      intro hh
      have := congrArg BitVec.toNat hh
      have g1 : l % 128 % 2 ^ 32 = l % 128 := Nat.mod_eq_of_lt (by omega)
      have g2 : c % 2 ^ 32 = c := Nat.mod_eq_of_lt (by omega)
      rw [BitVec.toNat_ofNat, BitVec.toNat_ofNat, g1, g2] at this
      exact h this
    rw [this]; rfl

theorem ofBits_zero_bf16 : Ideal.ofBits .bf16 0x0000#16 = 0 := by simp [Ideal.ofBits, Ideal.ieee]

section Shift

variable {R : ℕ} {φ : FTy}

/-- The left-neighbour copy of a flat padded array: lane `l` reads lane `l − 1`, the first lane of every row zero —
    padded column `l % 128` instead of `l % 128 + 1`. -/
theorem shiftL_apply (V : FVec Ideal (⟨2, ![R, 16640]⟩ : Shape) φ) (P : Fin R → ℕ → ℕ → EReal)
    (hV : ∀ (g : Fin R) (l : Fin 16640), V (ix2 g l) = P g (l.val / 128) (l.val % 128 + 1))
    (hP0 : ∀ g p, P g p 0 = 0)
    (zc : FVec Ideal (⟨2, ![R, 1]⟩ : Shape) φ)
    (zf : FVec Ideal (⟨2, ![R, 16640]⟩ : Shape) φ) (hzf : ∀ i, zf i = 0)
    (hi : (⟨2, ![R, 16640]⟩ : Shape).Iotas .tc 32 [1])
    (hsl : (⟨2, ![R, 16640]⟩ : Shape).Slices ![0, 0] ⟨2, ![R, 16639]⟩)
    (hcat : Shape.Concatenates [⟨2, ![R, 1]⟩, ⟨2, ![R, 16639]⟩] ⟨2, ![R, 16640]⟩ 1)
    (g : Fin R) (l : Fin 16640) :
    select (cmpi .eq (andi (iota .tc ⟨2, ![R, 16640]⟩ 32 [1] hi) (broadcast ⟨2, ![R, 16640]⟩ 127#32)) (broadcast ⟨2, ![R, 16640]⟩ 0#32)) zf
      (concatenate ⟨2, ![R, 16640]⟩ 1 [⟨⟨2, ![R, 1]⟩, zc⟩, ⟨⟨2, ![R, 16639]⟩, extractStridedSlice ⟨2, ![R, 16639]⟩ ![0, 0] V hsl⟩] hcat) (ix2 g l)
      = P g (l.val / 128) (l.val % 128) := by
  have hl : l.val < 16640 := l.isLt
  show Scalar.select (IntOp.cmpi .eq (IntOp.andi (iota .tc ⟨2, ![R, 16640]⟩ 32 [1] hi (ix2 g l)) 127#32) (BitVec.ofNat 32 0)) (zf (ix2 g l)) _ = _
  rw [iota_single_apply]
  show Scalar.select (IntOp.cmpi .eq (IntOp.andi (BitVec.ofNat 32 l.val) 127#32) (BitVec.ofNat 32 0)) (zf (ix2 g l)) _ = _
  rw [mask_lane l.val hl 0 (by decide)]
  by_cases h : l.val % 128 = 0
  · rw [if_pos h, select_one, hzf, h, hP0]
  · rw [if_neg h, select_zero]
    have hl1 : l.val - 1 < 16639 := by omega
    refine (concatenate_pair_apply_right (t := ⟨2, ![R, 16640]⟩) (s₁ := ⟨2, ![R, 1]⟩) (s₂ := ⟨2, ![R, 16639]⟩) (1 : Fin 2) zc (extractStridedSlice ⟨2, ![R, 16639]⟩ ![0, 0] V hsl) hcat (ix2 g l) rfl rfl (ix2 g (⟨l.val - 1, hl1⟩ : Fin 16639)) ?_ ?_).trans ?_
    · intro b hb
      match b with
      | ⟨0, _⟩ => rfl
      | ⟨1, _⟩ => exact absurd rfl hb
    · show (l.val - 1) + 1 = l.val; omega
    · refine (extractStridedSlice_apply ![0, 0] V hsl _ (ix2 g (⟨l.val - 1, by omega⟩ : Fin 16640)) fun a => ?_).trans ?_
      · match a with
        | ⟨0, _⟩ => show g.val = 0 + g.val; omega
        | ⟨1, _⟩ => show l.val - 1 = 0 + (l.val - 1); omega
      · rw [hV]
        show P g ((l.val - 1) / 128) ((l.val - 1) % 128 + 1) = _
        have e1 : (l.val - 1) / 128 = l.val / 128 := by omega
        have e2 : (l.val - 1) % 128 + 1 = l.val % 128 := by omega
        rw [e1, e2]

/-- The right-neighbour copy: lane `l` reads lane `l + 1`, the last lane of every row zero — padded column
    `l % 128 + 2`. -/
theorem shiftR_apply (V : FVec Ideal (⟨2, ![R, 16640]⟩ : Shape) φ) (P : Fin R → ℕ → ℕ → EReal)
    (hV : ∀ (g : Fin R) (l : Fin 16640), V (ix2 g l) = P g (l.val / 128) (l.val % 128 + 1))
    (hP129 : ∀ g p, P g p 129 = 0)
    (zc : FVec Ideal (⟨2, ![R, 1]⟩ : Shape) φ)
    (zf : FVec Ideal (⟨2, ![R, 16640]⟩ : Shape) φ) (hzf : ∀ i, zf i = 0)
    (hi : (⟨2, ![R, 16640]⟩ : Shape).Iotas .tc 32 [1])
    (hsl : (⟨2, ![R, 16640]⟩ : Shape).Slices ![0, 1] ⟨2, ![R, 16639]⟩)
    (hcat : Shape.Concatenates [⟨2, ![R, 16639]⟩, ⟨2, ![R, 1]⟩] ⟨2, ![R, 16640]⟩ 1)
    (g : Fin R) (l : Fin 16640) :
    select (cmpi .eq (andi (iota .tc ⟨2, ![R, 16640]⟩ 32 [1] hi) (broadcast ⟨2, ![R, 16640]⟩ 127#32)) (broadcast ⟨2, ![R, 16640]⟩ 127#32)) zf
      (concatenate ⟨2, ![R, 16640]⟩ 1 [⟨⟨2, ![R, 16639]⟩, extractStridedSlice ⟨2, ![R, 16639]⟩ ![0, 1] V hsl⟩, ⟨⟨2, ![R, 1]⟩, zc⟩] hcat) (ix2 g l)
      = P g (l.val / 128) (l.val % 128 + 2) := by
  have hl : l.val < 16640 := l.isLt
  show Scalar.select (IntOp.cmpi .eq (IntOp.andi (iota .tc ⟨2, ![R, 16640]⟩ 32 [1] hi (ix2 g l)) 127#32) (BitVec.ofNat 32 127)) (zf (ix2 g l)) _ = _
  rw [iota_single_apply]
  show Scalar.select (IntOp.cmpi .eq (IntOp.andi (BitVec.ofNat 32 l.val) 127#32) (BitVec.ofNat 32 127)) (zf (ix2 g l)) _ = _
  rw [mask_lane l.val hl 127 (by decide)]
  by_cases h : l.val % 128 = 127
  · rw [if_pos h, select_one, hzf, h, hP129]
  · rw [if_neg h, select_zero]
    have hl1 : l.val < 16639 := by omega
    refine (concatenate_pair_apply_left (t := ⟨2, ![R, 16640]⟩) (s₁ := ⟨2, ![R, 16639]⟩) (s₂ := ⟨2, ![R, 1]⟩) (1 : Fin 2) (extractStridedSlice ⟨2, ![R, 16639]⟩ ![0, 1] V hsl) zc hcat (ix2 g l) rfl (ix2 g (⟨l.val, hl1⟩ : Fin 16639)) ?_).trans ?_
    · intro b
      match b with
      | ⟨0, _⟩ => rfl
      | ⟨1, _⟩ => rfl
    · refine (extractStridedSlice_apply ![0, 1] V hsl _ (ix2 g (⟨l.val + 1, by omega⟩ : Fin 16640)) fun a => ?_).trans ?_
      · match a with
        | ⟨0, _⟩ => show g.val = 0 + g.val; omega
        | ⟨1, _⟩ => show l.val + 1 = 1 + l.val; omega
      · rw [hV]
        show P g ((l.val + 1) / 128) ((l.val + 1) % 128 + 1) = _
        have e1 : (l.val + 1) / 128 = l.val / 128 := by omega
        have e2 : (l.val + 1) % 128 + 1 = l.val % 128 + 2 := by omega
        rw [e1, e2]

end Shift

section Conv

variable (X : Fin 128 → Fin 64 → Fin 64 → EReal) (Sk : Fin 64 → Fin 128 → Fin 128 → EReal)
  (W : Fin 4 → Fin 64 → Fin 128 → EReal) (B : Fin 64 → EReal)
  (Wp : Fin 9 → Fin 32 → Fin 128 → EReal)

/-- Lane `l` of copy `kx` of the flat padded z: padded row `l / 128`, padded column `l % 128 + kx`. -/
def ZT (kx : ℕ) (g : Fin 128) (l : ℕ) : EReal := KImg.zPad X Sk W B g (l / 128) (l % 128 + kx)

/-- One 3×3 tap of the convolution at flat pixel `n`: the sum over the 128 channels. -/
def tap (k : Fin 9) (o : Fin 32) (n : ℕ) : EReal :=
  ∑ g : Fin 128, Wp k o g * KImg.zPad X Sk W B g (n / 128 + k.val / 3) (n % 128 + k.val % 3)

theorem ZT_shift (kx ky n : ℕ) (g : Fin 128) :
    ZT X Sk W B kx g (ky * 128 + n) = KImg.zPad X Sk W B g (n / 128 + ky) (n % 128 + kx) := by
  unfold ZT
  have e1 : (ky * 128 + n) / 128 = n / 128 + ky := by omega
  have e2 : (ky * 128 + n) % 128 = n % 128 := by omega
  rw [e1, e2]

/-- A tap as the kernel takes it: the weight slice (one of nine, cast to the product's format) times a lane slice
    of one copy of the flat z, accumulated into zero. -/
theorem tap_apply (wf) (T : FVec Ideal S128x16640 .bf16) (kx : ℕ)
    (hT : ∀ (g : Fin 128) (l : Fin 16640), T (ix2 g l) = ZT X Sk W B kx g l.val)
    (w : Vec Ideal S1x32x128 .f32) (k : Fin 9) (hw : ∀ (o : Fin 32) (g : Fin 128), w (ix3 (0 : Fin 1) o g) = Wp k o g)
    (hk : k.val % 3 = kx) (s : ℕ) (hs : S128x16640.Slices ![0, s] S128x4096) (n0 : ℕ) (hs' : s = (k.val / 3) * 128 + n0)
    (hn0 : n0 + 4096 ≤ 16384) (hsc : S1x32x128.ShapeCasts S32x128) (hb : FTy.bf16.bits < FTy.f32.bits)
    (o : Fin 32) (l : Fin 4096) :
    FloatOps.matmul (plainDims 32 128 4096 wf) none (truncf (F := Ideal) .bf16 (shapeCast S32x128 w hsc) hb)
        (extractStridedSlice S128x4096 ![0, s] T hs) (constant (F := Ideal) S32x4096 .f32 0x00000000#32) (ix2 o l)
      = tap X Sk W B Wp k o (n0 + l.val) := by
  have hl : l.val < 4096 := l.isLt
  have hk3 : k.val / 3 ≤ 2 := by have := k.isLt; omega
  rw [plainMatmul_zero_apply]
  unfold tap
  refine Finset.sum_congr rfl fun g _ => ?_
  have hlane : s + l.val < 16640 := by omega
  have e1 : truncf (F := Ideal) .bf16 (shapeCast S32x128 w hsc) hb (ix2 o g) = Wp k o g := by
    show shapeCast S32x128 w hsc (ix2 o g) = Wp k o g
    refine (shapeCast_apply w hsc (ix2 o g) (ix3 (0 : Fin 1) o g) ?_).trans (hw o g)
    rw [Shape.rowMajor_val_three, Shape.rowMajor_val_two]
    show ((0 : ℕ) * 32 + o.val) * 128 + g.val = o.val * 128 + g.val
    omega
  have e2 : extractStridedSlice S128x4096 ![0, s] T hs (ix2 g l) = KImg.zPad X Sk W B g ((n0 + l.val) / 128 + k.val / 3) ((n0 + l.val) % 128 + k.val % 3) := by
    refine (extractStridedSlice_apply ![0, s] T hs (ix2 g l) (ix2 g (⟨s + l.val, hlane⟩ : Fin 16640)) fun a => ?_).trans ?_
    · match a with
      | ⟨0, _⟩ => show g.val = 0 + g.val; omega
      | ⟨1, _⟩ => rfl
    · rw [hT]
      show ZT X Sk W B kx g (s + l.val) = _
      rw [hs', Nat.add_assoc, ZT_shift, hk]
  rw [e1, e2]

/-- A lane slice of copy `kx` at `ky·128 + n₀`: tap `(ky, kx)` of the quarter of the image starting at pixel `n₀`. -/
theorem slice_apply (T : FVec Ideal S128x16640 .bf16) (kx : ℕ)
    (hT : ∀ (g : Fin 128) (l : Fin 16640), T (ix2 g l) = ZT X Sk W B kx g l.val)
    (s : ℕ) (hs : S128x16640.Slices ![0, s] S128x4096) (ky n0 : ℕ) (hs' : s = ky * 128 + n0) (hky : ky ≤ 2)
    (hn0 : n0 + 4096 ≤ 16384) (g : Fin 128) (l : Fin 4096) :
    extractStridedSlice S128x4096 ![0, s] T hs (ix2 g l)
      = KImg.zPad X Sk W B g ((n0 + l.val) / 128 + ky) ((n0 + l.val) % 128 + kx) := by
  have hl : l.val < 4096 := l.isLt
  have hlane : s + l.val < 16640 := by omega
  refine (extractStridedSlice_apply ![0, s] T hs (ix2 g l) (ix2 g (⟨s + l.val, hlane⟩ : Fin 16640)) fun a => ?_).trans ?_
  · match a with
    | ⟨0, _⟩ => show g.val = 0 + g.val; omega
    | ⟨1, _⟩ => rfl
  · rw [hT]
    show ZT X Sk W B kx g (s + l.val) = _
    rw [hs', Nat.add_assoc, ZT_shift]

/-- A tap whose lane slice was taken earlier. -/
theorem tapP_apply (wf) (P : FVec Ideal S128x4096 .bf16)
    (w : Vec Ideal S1x32x128 .f32) (k : Fin 9) (hw : ∀ (o : Fin 32) (g : Fin 128), w (ix3 (0 : Fin 1) o g) = Wp k o g)
    (n0 : ℕ)
    (hP : ∀ (g : Fin 128) (l : Fin 4096), P (ix2 g l)
      = KImg.zPad X Sk W B g ((n0 + l.val) / 128 + k.val / 3) ((n0 + l.val) % 128 + k.val % 3))
    (hsc : S1x32x128.ShapeCasts S32x128) (hb : FTy.bf16.bits < FTy.f32.bits)
    (o : Fin 32) (l : Fin 4096) :
    FloatOps.matmul (plainDims 32 128 4096 wf) none (truncf (F := Ideal) .bf16 (shapeCast S32x128 w hsc) hb)
        P (constant (F := Ideal) S32x4096 .f32 0x00000000#32) (ix2 o l)
      = tap X Sk W B Wp k o (n0 + l.val) := by
  rw [plainMatmul_zero_apply]
  unfold tap
  refine Finset.sum_congr rfl fun g _ => ?_
  have e1 : truncf (F := Ideal) .bf16 (shapeCast S32x128 w hsc) hb (ix2 o g) = Wp k o g := by
    show shapeCast S32x128 w hsc (ix2 o g) = Wp k o g
    refine (shapeCast_apply w hsc (ix2 o g) (ix3 (0 : Fin 1) o g) ?_).trans (hw o g)
    rw [Shape.rowMajor_val_three, Shape.rowMajor_val_two]
    show ((0 : ℕ) * 32 + o.val) * 128 + g.val = o.val * 128 + g.val
    omega
  rw [e1, hP]

end Conv

end Cert.Proof.KFlat

end
-- ==== Proof.KernelConv.lean ====
/-
  The 3×3 convolution of the fused kernel, read at an index.

  The flat z (128 channels, 130 rows of 128 lanes) and its two one-lane shifts are the zero-extended image at padded
  row l / 128 and padded column l % 128 + kx. Each of the four quarters of the image accumulates its nine taps in
  order; the quarters are laid side by side, the bias column is added and the rectifier applied: the
  specification's x1 at flat pixel n = i·128 + j.
-/
import proofs.«169621_g2000704505896602_pallasbulk_1077_31_alg».proof.Proof.KernelFlat

set_option maxRecDepth 16384

noncomputable section

namespace Cert.Proof.KFlat

open Cert.KernelIdeal Cert.KernelIdeal.Gen
open Idealize.ShloMosaic Idealize.ShloMosaic.ValueIdx Cert.PointConv

variable (X : Fin 128 → Fin 64 → Fin 64 → EReal) (Sk : Fin 64 → Fin 128 → Fin 128 → EReal)
  (W : Fin 4 → Fin 64 → Fin 128 → EReal) (B : Fin 64 → EReal)
  (Wp : Fin 9 → Fin 32 → Fin 128 → EReal) (B1 : Fin 32 → EReal)

theorem zPad_col0 (g : Fin 128) (p : ℕ) : KImg.zPad X Sk W B g p 0 = 0 := by
  unfold KImg.zPad; exact dif_neg (by omega)

theorem zPad_col129 (g : Fin 128) (p : ℕ) : KImg.zPad X Sk W B g p 129 = 0 := by
  unfold KImg.zPad; exact dif_neg (by omega)

/-- The left-neighbour copy of the flat z. -/
theorem pay12_apply (v76 : Vec Ideal S128x16640 .bf16)
    (h_v76 : ∀ (g : Fin 128) (l : Fin 16640), v76 (ix2 g l) = ZT X Sk W B 1 g l.val) (g : Fin 128) (l : Fin 16640) :
    k0_pay12 v76 (ix2 g l) = ZT X Sk W B 0 g l.val := by
  unfold k0_pay12
  exact shiftL_apply v76 (KImg.zPad X Sk W B) h_v76 (zPad_col0 X Sk W B) _ _ (fun _ => ofBits_zero_bf16) _ _ _ g l

/-- The right-neighbour copy of the flat z. -/
theorem pay13_apply (v76 : Vec Ideal S128x16640 .bf16)
    (h_v76 : ∀ (g : Fin 128) (l : Fin 16640), v76 (ix2 g l) = ZT X Sk W B 1 g l.val) (g : Fin 128) (l : Fin 16640) :
    k0_pay13 v76 (ix2 g l) = ZT X Sk W B 2 g l.val := by
  unfold k0_pay13
  exact shiftR_apply v76 (KImg.zPad X Sk W B) h_v76 (zPad_col129 X Sk W B) _ _ (fun _ => ofBits_zero_bf16) _ _ _ g l

/-- Taps 0 and 1 of the first quarter. -/
theorem pay14_apply (v76 : Vec Ideal S128x16640 .bf16)
    (h_v76 : ∀ (g : Fin 128) (l : Fin 16640), v76 (ix2 g l) = ZT X Sk W B 1 g l.val)
    (v96 : Vec Ideal S1x32x128 .f32) (h_v96 : ∀ (o : Fin 32) (g : Fin 128), v96 (ix3 (0 : Fin 1) o g) = Wp (0 : Fin 9) o g)
    (v101 : Vec Ideal S1x32x128 .f32) (h_v101 : ∀ (o : Fin 32) (g : Fin 128), v101 (ix3 (0 : Fin 1) o g) = Wp (1 : Fin 9) o g)
    (h_k0pay12v76 : ∀ (g : Fin 128) (l : Fin 16640), k0_pay12 v76 (ix2 g l) = ZT X Sk W B 0 g l.val)
    (o : Fin 32) (l : Fin 4096) :
    k0_pay14 v76 v96 v101 (ix2 o l) = (tap X Sk W B Wp (0 : Fin 9) o (0 + l.val) + tap X Sk W B Wp (1 : Fin 9) o (0 + l.val)) := by
  unfold k0_pay14
  exact (congrArg₂ (· + ·) (tap_apply X Sk W B Wp _ (k0_pay12 v76) 0 h_k0pay12v76 v96 (0 : Fin 9) h_v96 rfl 0 _ 0 rfl (by decide) _ _ o l) (tap_apply X Sk W B Wp _ v76 1 h_v76 v101 (1 : Fin 9) h_v101 rfl 0 _ 0 rfl (by decide) _ _ o l))

/-- Tap 2 of the first quarter. -/
theorem pay15_apply (v76 : Vec Ideal S128x16640 .bf16)
    (v107 : Vec Ideal S1x32x128 .f32) (h_v107 : ∀ (o : Fin 32) (g : Fin 128), v107 (ix3 (0 : Fin 1) o g) = Wp (2 : Fin 9) o g)
    (h_k0pay13v76 : ∀ (g : Fin 128) (l : Fin 16640), k0_pay13 v76 (ix2 g l) = ZT X Sk W B 2 g l.val)
    (o : Fin 32) (l : Fin 4096) :
    k0_pay15 v76 v107 (ix2 o l) = tap X Sk W B Wp (2 : Fin 9) o (0 + l.val) := by
  unfold k0_pay15
  exact (tap_apply X Sk W B Wp _ (k0_pay13 v76) 2 h_k0pay13v76 v107 (2 : Fin 9) h_v107 rfl 0 _ 0 rfl (by decide) _ _ o l)

/-- Taps 0–7 of the first quarter. -/
theorem pay16_apply (v76 : Vec Ideal S128x16640 .bf16)
    (h_v76 : ∀ (g : Fin 128) (l : Fin 16640), v76 (ix2 g l) = ZT X Sk W B 1 g l.val)
    (v86 : FVec Ideal S128x16640 .bf16)
    (h_v86 : ∀ (g : Fin 128) (l : Fin 16640), v86 (ix2 g l) = ZT X Sk W B 0 g l.val)
    (v94 : FVec Ideal S128x16640 .bf16)
    (h_v94 : ∀ (g : Fin 128) (l : Fin 16640), v94 (ix2 g l) = ZT X Sk W B 2 g l.val)
    (v105 : FVec Ideal S32x4096 .f32) (h_v105 : ∀ (o : Fin 32) (l : Fin 4096), v105 (ix2 o l) = (tap X Sk W B Wp (0 : Fin 9) o (0 + l.val) + tap X Sk W B Wp (1 : Fin 9) o (0 + l.val)))
    (v110 : FVec Ideal S32x4096 .f32) (h_v110 : ∀ (o : Fin 32) (l : Fin 4096), v110 (ix2 o l) = tap X Sk W B Wp (2 : Fin 9) o (0 + l.val))
    (v113 : Vec Ideal S1x32x128 .f32) (h_v113 : ∀ (o : Fin 32) (g : Fin 128), v113 (ix3 (0 : Fin 1) o g) = Wp (3 : Fin 9) o g)
    (v119 : Vec Ideal S1x32x128 .f32) (h_v119 : ∀ (o : Fin 32) (g : Fin 128), v119 (ix3 (0 : Fin 1) o g) = Wp (4 : Fin 9) o g)
    (v125 : Vec Ideal S1x32x128 .f32) (h_v125 : ∀ (o : Fin 32) (g : Fin 128), v125 (ix3 (0 : Fin 1) o g) = Wp (5 : Fin 9) o g)
    (v131 : Vec Ideal S1x32x128 .f32) (h_v131 : ∀ (o : Fin 32) (g : Fin 128), v131 (ix3 (0 : Fin 1) o g) = Wp (6 : Fin 9) o g)
    (v137 : Vec Ideal S1x32x128 .f32) (h_v137 : ∀ (o : Fin 32) (g : Fin 128), v137 (ix3 (0 : Fin 1) o g) = Wp (7 : Fin 9) o g)

    (o : Fin 32) (l : Fin 4096) :
    k0_pay16 v76 v86 v94 v105 v110 v113 v119 v125 v131 v137 (ix2 o l) = (((((((tap X Sk W B Wp (0 : Fin 9) o (0 + l.val) + tap X Sk W B Wp (1 : Fin 9) o (0 + l.val)) + tap X Sk W B Wp (2 : Fin 9) o (0 + l.val)) + tap X Sk W B Wp (3 : Fin 9) o (0 + l.val)) + tap X Sk W B Wp (4 : Fin 9) o (0 + l.val)) + tap X Sk W B Wp (5 : Fin 9) o (0 + l.val)) + tap X Sk W B Wp (6 : Fin 9) o (0 + l.val)) + tap X Sk W B Wp (7 : Fin 9) o (0 + l.val)) := by
  unfold k0_pay16
  exact (congrArg₂ (· + ·) (congrArg₂ (· + ·) (congrArg₂ (· + ·) (congrArg₂ (· + ·) (congrArg₂ (· + ·) (congrArg₂ (· + ·) (h_v105 o l) (h_v110 o l)) (tap_apply X Sk W B Wp _ v86 0 h_v86 v113 (3 : Fin 9) h_v113 rfl 128 _ 0 rfl (by decide) _ _ o l)) (tap_apply X Sk W B Wp _ v76 1 h_v76 v119 (4 : Fin 9) h_v119 rfl 128 _ 0 rfl (by decide) _ _ o l)) (tap_apply X Sk W B Wp _ v94 2 h_v94 v125 (5 : Fin 9) h_v125 rfl 128 _ 0 rfl (by decide) _ _ o l)) (tap_apply X Sk W B Wp _ v86 0 h_v86 v131 (6 : Fin 9) h_v131 rfl 256 _ 0 rfl (by decide) _ _ o l)) (tap_apply X Sk W B Wp _ v76 1 h_v76 v137 (7 : Fin 9) h_v137 rfl 256 _ 0 rfl (by decide) _ _ o l))

/-- Tap 8 of the first quarter. -/
theorem pay17_apply (v94 : FVec Ideal S128x16640 .bf16)
    (h_v94 : ∀ (g : Fin 128) (l : Fin 16640), v94 (ix2 g l) = ZT X Sk W B 2 g l.val)
    (v143 : Vec Ideal S1x32x128 .f32) (h_v143 : ∀ (o : Fin 32) (g : Fin 128), v143 (ix3 (0 : Fin 1) o g) = Wp (8 : Fin 9) o g)

    (o : Fin 32) (l : Fin 4096) :
    k0_pay17 v94 v143 (ix2 o l) = tap X Sk W B Wp (8 : Fin 9) o (0 + l.val) := by
  unfold k0_pay17
  exact (tap_apply X Sk W B Wp _ v94 2 h_v94 v143 (8 : Fin 9) h_v143 rfl 256 _ 0 rfl (by decide) _ _ o l)

/-- Taps 0–5 of the second quarter. -/
theorem pay19_apply (v76 : Vec Ideal S128x16640 .bf16)
    (h_v76 : ∀ (g : Fin 128) (l : Fin 16640), v76 (ix2 g l) = ZT X Sk W B 1 g l.val)
    (v86 : FVec Ideal S128x16640 .bf16)
    (h_v86 : ∀ (g : Fin 128) (l : Fin 16640), v86 (ix2 g l) = ZT X Sk W B 0 g l.val)
    (v94 : FVec Ideal S128x16640 .bf16)
    (h_v94 : ∀ (g : Fin 128) (l : Fin 16640), v94 (ix2 g l) = ZT X Sk W B 2 g l.val)
    (v149 : Vec Ideal S1x32x128 .f32) (h_v149 : ∀ (o : Fin 32) (g : Fin 128), v149 (ix3 (0 : Fin 1) o g) = Wp (0 : Fin 9) o g)
    (v154 : Vec Ideal S1x32x128 .f32) (h_v154 : ∀ (o : Fin 32) (g : Fin 128), v154 (ix3 (0 : Fin 1) o g) = Wp (1 : Fin 9) o g)
    (v160 : Vec Ideal S1x32x128 .f32) (h_v160 : ∀ (o : Fin 32) (g : Fin 128), v160 (ix3 (0 : Fin 1) o g) = Wp (2 : Fin 9) o g)
    (v166 : Vec Ideal S1x32x128 .f32) (h_v166 : ∀ (o : Fin 32) (g : Fin 128), v166 (ix3 (0 : Fin 1) o g) = Wp (3 : Fin 9) o g)
    (v172 : Vec Ideal S1x32x128 .f32) (h_v172 : ∀ (o : Fin 32) (g : Fin 128), v172 (ix3 (0 : Fin 1) o g) = Wp (4 : Fin 9) o g)
    (v178 : Vec Ideal S1x32x128 .f32) (h_v178 : ∀ (o : Fin 32) (g : Fin 128), v178 (ix3 (0 : Fin 1) o g) = Wp (5 : Fin 9) o g)

    (o : Fin 32) (l : Fin 4096) :
    k0_pay19 v76 v86 v94 v149 v154 v160 v166 v172 v178 (ix2 o l) = (((((tap X Sk W B Wp (0 : Fin 9) o (4096 + l.val) + tap X Sk W B Wp (1 : Fin 9) o (4096 + l.val)) + tap X Sk W B Wp (2 : Fin 9) o (4096 + l.val)) + tap X Sk W B Wp (3 : Fin 9) o (4096 + l.val)) + tap X Sk W B Wp (4 : Fin 9) o (4096 + l.val)) + tap X Sk W B Wp (5 : Fin 9) o (4096 + l.val)) := by
  unfold k0_pay19
  exact (congrArg₂ (· + ·) (congrArg₂ (· + ·) (congrArg₂ (· + ·) (congrArg₂ (· + ·) (congrArg₂ (· + ·) (tap_apply X Sk W B Wp _ v86 0 h_v86 v149 (0 : Fin 9) h_v149 rfl 4096 _ 4096 rfl (by decide) _ _ o l) (tap_apply X Sk W B Wp _ v76 1 h_v76 v154 (1 : Fin 9) h_v154 rfl 4096 _ 4096 rfl (by decide) _ _ o l)) (tap_apply X Sk W B Wp _ v94 2 h_v94 v160 (2 : Fin 9) h_v160 rfl 4096 _ 4096 rfl (by decide) _ _ o l)) (tap_apply X Sk W B Wp _ v86 0 h_v86 v166 (3 : Fin 9) h_v166 rfl 4224 _ 4096 rfl (by decide) _ _ o l)) (tap_apply X Sk W B Wp _ v76 1 h_v76 v172 (4 : Fin 9) h_v172 rfl 4224 _ 4096 rfl (by decide) _ _ o l)) (tap_apply X Sk W B Wp _ v94 2 h_v94 v178 (5 : Fin 9) h_v178 rfl 4224 _ 4096 rfl (by decide) _ _ o l))

/-- The nine taps of the second quarter. -/
theorem pay20_apply (v76 : Vec Ideal S128x16640 .bf16)
    (h_v76 : ∀ (g : Fin 128) (l : Fin 16640), v76 (ix2 g l) = ZT X Sk W B 1 g l.val)
    (v86 : FVec Ideal S128x16640 .bf16)
    (h_v86 : ∀ (g : Fin 128) (l : Fin 16640), v86 (ix2 g l) = ZT X Sk W B 0 g l.val)
    (v94 : FVec Ideal S128x16640 .bf16)
    (h_v94 : ∀ (g : Fin 128) (l : Fin 16640), v94 (ix2 g l) = ZT X Sk W B 2 g l.val)
    (v182 : FVec Ideal S32x4096 .f32) (h_v182 : ∀ (o : Fin 32) (l : Fin 4096), v182 (ix2 o l) = (((((tap X Sk W B Wp (0 : Fin 9) o (4096 + l.val) + tap X Sk W B Wp (1 : Fin 9) o (4096 + l.val)) + tap X Sk W B Wp (2 : Fin 9) o (4096 + l.val)) + tap X Sk W B Wp (3 : Fin 9) o (4096 + l.val)) + tap X Sk W B Wp (4 : Fin 9) o (4096 + l.val)) + tap X Sk W B Wp (5 : Fin 9) o (4096 + l.val)))
    (v184 : Vec Ideal S1x32x128 .f32) (h_v184 : ∀ (o : Fin 32) (g : Fin 128), v184 (ix3 (0 : Fin 1) o g) = Wp (6 : Fin 9) o g)
    (v190 : Vec Ideal S1x32x128 .f32) (h_v190 : ∀ (o : Fin 32) (g : Fin 128), v190 (ix3 (0 : Fin 1) o g) = Wp (7 : Fin 9) o g)
    (v196 : Vec Ideal S1x32x128 .f32) (h_v196 : ∀ (o : Fin 32) (g : Fin 128), v196 (ix3 (0 : Fin 1) o g) = Wp (8 : Fin 9) o g)

    (o : Fin 32) (l : Fin 4096) :
    k0_pay20 v76 v86 v94 v182 v184 v190 v196 (ix2 o l) = ((((((((tap X Sk W B Wp (0 : Fin 9) o (4096 + l.val) + tap X Sk W B Wp (1 : Fin 9) o (4096 + l.val)) + tap X Sk W B Wp (2 : Fin 9) o (4096 + l.val)) + tap X Sk W B Wp (3 : Fin 9) o (4096 + l.val)) + tap X Sk W B Wp (4 : Fin 9) o (4096 + l.val)) + tap X Sk W B Wp (5 : Fin 9) o (4096 + l.val)) + tap X Sk W B Wp (6 : Fin 9) o (4096 + l.val)) + tap X Sk W B Wp (7 : Fin 9) o (4096 + l.val)) + tap X Sk W B Wp (8 : Fin 9) o (4096 + l.val)) := by
  unfold k0_pay20
  exact (congrArg₂ (· + ·) (congrArg₂ (· + ·) (congrArg₂ (· + ·) (h_v182 o l) (tap_apply X Sk W B Wp _ v86 0 h_v86 v184 (6 : Fin 9) h_v184 rfl 4352 _ 4096 rfl (by decide) _ _ o l)) (tap_apply X Sk W B Wp _ v76 1 h_v76 v190 (7 : Fin 9) h_v190 rfl 4352 _ 4096 rfl (by decide) _ _ o l)) (tap_apply X Sk W B Wp _ v94 2 h_v94 v196 (8 : Fin 9) h_v196 rfl 4352 _ 4096 rfl (by decide) _ _ o l))

/-- Taps 0–2 of the third quarter. -/
theorem pay21_apply (v76 : Vec Ideal S128x16640 .bf16)
    (h_v76 : ∀ (g : Fin 128) (l : Fin 16640), v76 (ix2 g l) = ZT X Sk W B 1 g l.val)
    (v86 : FVec Ideal S128x16640 .bf16)
    (h_v86 : ∀ (g : Fin 128) (l : Fin 16640), v86 (ix2 g l) = ZT X Sk W B 0 g l.val)
    (v94 : FVec Ideal S128x16640 .bf16)
    (h_v94 : ∀ (g : Fin 128) (l : Fin 16640), v94 (ix2 g l) = ZT X Sk W B 2 g l.val)
    (v202 : Vec Ideal S1x32x128 .f32) (h_v202 : ∀ (o : Fin 32) (g : Fin 128), v202 (ix3 (0 : Fin 1) o g) = Wp (0 : Fin 9) o g)
    (v207 : Vec Ideal S1x32x128 .f32) (h_v207 : ∀ (o : Fin 32) (g : Fin 128), v207 (ix3 (0 : Fin 1) o g) = Wp (1 : Fin 9) o g)
    (v213 : Vec Ideal S1x32x128 .f32) (h_v213 : ∀ (o : Fin 32) (g : Fin 128), v213 (ix3 (0 : Fin 1) o g) = Wp (2 : Fin 9) o g)

    (o : Fin 32) (l : Fin 4096) :
    k0_pay21 v76 v86 v94 v202 v207 v213 (ix2 o l) = ((tap X Sk W B Wp (0 : Fin 9) o (8192 + l.val) + tap X Sk W B Wp (1 : Fin 9) o (8192 + l.val)) + tap X Sk W B Wp (2 : Fin 9) o (8192 + l.val)) := by
  unfold k0_pay21
  exact (congrArg₂ (· + ·) (congrArg₂ (· + ·) (tap_apply X Sk W B Wp _ v86 0 h_v86 v202 (0 : Fin 9) h_v202 rfl 8192 _ 8192 rfl (by decide) _ _ o l) (tap_apply X Sk W B Wp _ v76 1 h_v76 v207 (1 : Fin 9) h_v207 rfl 8192 _ 8192 rfl (by decide) _ _ o l)) (tap_apply X Sk W B Wp _ v94 2 h_v94 v213 (2 : Fin 9) h_v213 rfl 8192 _ 8192 rfl (by decide) _ _ o l))

/-- The nine taps of the third quarter. -/
theorem pay23_apply (v76 : Vec Ideal S128x16640 .bf16)
    (h_v76 : ∀ (g : Fin 128) (l : Fin 16640), v76 (ix2 g l) = ZT X Sk W B 1 g l.val)
    (v86 : FVec Ideal S128x16640 .bf16)
    (h_v86 : ∀ (g : Fin 128) (l : Fin 16640), v86 (ix2 g l) = ZT X Sk W B 0 g l.val)
    (v94 : FVec Ideal S128x16640 .bf16)
    (h_v94 : ∀ (g : Fin 128) (l : Fin 16640), v94 (ix2 g l) = ZT X Sk W B 2 g l.val)
    (v217 : FVec Ideal S32x4096 .f32) (h_v217 : ∀ (o : Fin 32) (l : Fin 4096), v217 (ix2 o l) = ((tap X Sk W B Wp (0 : Fin 9) o (8192 + l.val) + tap X Sk W B Wp (1 : Fin 9) o (8192 + l.val)) + tap X Sk W B Wp (2 : Fin 9) o (8192 + l.val)))
    (v218 : FVec Ideal S128x4096 .bf16) (h_v218 : ∀ (g : Fin 128) (l : Fin 4096), v218 (ix2 g l) = KImg.zPad X Sk W B g ((8192 + l.val) / 128 + 1) ((8192 + l.val) % 128 + 0))
    (v219 : Vec Ideal S1x32x128 .f32) (h_v219 : ∀ (o : Fin 32) (g : Fin 128), v219 (ix3 (0 : Fin 1) o g) = Wp (3 : Fin 9) o g)
    (v225 : Vec Ideal S1x32x128 .f32) (h_v225 : ∀ (o : Fin 32) (g : Fin 128), v225 (ix3 (0 : Fin 1) o g) = Wp (4 : Fin 9) o g)
    (v231 : Vec Ideal S1x32x128 .f32) (h_v231 : ∀ (o : Fin 32) (g : Fin 128), v231 (ix3 (0 : Fin 1) o g) = Wp (5 : Fin 9) o g)
    (v237 : Vec Ideal S1x32x128 .f32) (h_v237 : ∀ (o : Fin 32) (g : Fin 128), v237 (ix3 (0 : Fin 1) o g) = Wp (6 : Fin 9) o g)
    (v243 : Vec Ideal S1x32x128 .f32) (h_v243 : ∀ (o : Fin 32) (g : Fin 128), v243 (ix3 (0 : Fin 1) o g) = Wp (7 : Fin 9) o g)
    (v249 : Vec Ideal S1x32x128 .f32) (h_v249 : ∀ (o : Fin 32) (g : Fin 128), v249 (ix3 (0 : Fin 1) o g) = Wp (8 : Fin 9) o g)

    (o : Fin 32) (l : Fin 4096) :
    k0_pay23 v76 v86 v94 v217 v218 v219 v225 v231 v237 v243 v249 (ix2 o l) = ((((((((tap X Sk W B Wp (0 : Fin 9) o (8192 + l.val) + tap X Sk W B Wp (1 : Fin 9) o (8192 + l.val)) + tap X Sk W B Wp (2 : Fin 9) o (8192 + l.val)) + tap X Sk W B Wp (3 : Fin 9) o (8192 + l.val)) + tap X Sk W B Wp (4 : Fin 9) o (8192 + l.val)) + tap X Sk W B Wp (5 : Fin 9) o (8192 + l.val)) + tap X Sk W B Wp (6 : Fin 9) o (8192 + l.val)) + tap X Sk W B Wp (7 : Fin 9) o (8192 + l.val)) + tap X Sk W B Wp (8 : Fin 9) o (8192 + l.val)) := by
  unfold k0_pay23
  exact (congrArg₂ (· + ·) (congrArg₂ (· + ·) (congrArg₂ (· + ·) (congrArg₂ (· + ·) (congrArg₂ (· + ·) (congrArg₂ (· + ·) (h_v217 o l) (tapP_apply X Sk W B Wp _ v218 v219 (3 : Fin 9) h_v219 8192 h_v218 _ _ o l)) (tap_apply X Sk W B Wp _ v76 1 h_v76 v225 (4 : Fin 9) h_v225 rfl 8320 _ 8192 rfl (by decide) _ _ o l)) (tap_apply X Sk W B Wp _ v94 2 h_v94 v231 (5 : Fin 9) h_v231 rfl 8320 _ 8192 rfl (by decide) _ _ o l)) (tap_apply X Sk W B Wp _ v86 0 h_v86 v237 (6 : Fin 9) h_v237 rfl 8448 _ 8192 rfl (by decide) _ _ o l)) (tap_apply X Sk W B Wp _ v76 1 h_v76 v243 (7 : Fin 9) h_v243 rfl 8448 _ 8192 rfl (by decide) _ _ o l)) (tap_apply X Sk W B Wp _ v94 2 h_v94 v249 (8 : Fin 9) h_v249 rfl 8448 _ 8192 rfl (by decide) _ _ o l))

/-- Taps 0–5 of the fourth quarter. -/
theorem pay25_apply (v76 : Vec Ideal S128x16640 .bf16)
    (h_v76 : ∀ (g : Fin 128) (l : Fin 16640), v76 (ix2 g l) = ZT X Sk W B 1 g l.val)
    (v86 : FVec Ideal S128x16640 .bf16)
    (h_v86 : ∀ (g : Fin 128) (l : Fin 16640), v86 (ix2 g l) = ZT X Sk W B 0 g l.val)
    (v94 : FVec Ideal S128x16640 .bf16)
    (h_v94 : ∀ (g : Fin 128) (l : Fin 16640), v94 (ix2 g l) = ZT X Sk W B 2 g l.val)
    (v254 : FVec Ideal S128x4096 .bf16) (h_v254 : ∀ (g : Fin 128) (l : Fin 4096), v254 (ix2 g l) = KImg.zPad X Sk W B g ((12288 + l.val) / 128 + 0) ((12288 + l.val) % 128 + 0))
    (v255 : Vec Ideal S1x32x128 .f32) (h_v255 : ∀ (o : Fin 32) (g : Fin 128), v255 (ix3 (0 : Fin 1) o g) = Wp (0 : Fin 9) o g)
    (v260 : Vec Ideal S1x32x128 .f32) (h_v260 : ∀ (o : Fin 32) (g : Fin 128), v260 (ix3 (0 : Fin 1) o g) = Wp (1 : Fin 9) o g)
    (v266 : Vec Ideal S1x32x128 .f32) (h_v266 : ∀ (o : Fin 32) (g : Fin 128), v266 (ix3 (0 : Fin 1) o g) = Wp (2 : Fin 9) o g)
    (v272 : Vec Ideal S1x32x128 .f32) (h_v272 : ∀ (o : Fin 32) (g : Fin 128), v272 (ix3 (0 : Fin 1) o g) = Wp (3 : Fin 9) o g)
    (v278 : Vec Ideal S1x32x128 .f32) (h_v278 : ∀ (o : Fin 32) (g : Fin 128), v278 (ix3 (0 : Fin 1) o g) = Wp (4 : Fin 9) o g)
    (v284 : Vec Ideal S1x32x128 .f32) (h_v284 : ∀ (o : Fin 32) (g : Fin 128), v284 (ix3 (0 : Fin 1) o g) = Wp (5 : Fin 9) o g)

    (o : Fin 32) (l : Fin 4096) :
    k0_pay25 v76 v86 v94 v254 v255 v260 v266 v272 v278 v284 (ix2 o l) = (((((tap X Sk W B Wp (0 : Fin 9) o (12288 + l.val) + tap X Sk W B Wp (1 : Fin 9) o (12288 + l.val)) + tap X Sk W B Wp (2 : Fin 9) o (12288 + l.val)) + tap X Sk W B Wp (3 : Fin 9) o (12288 + l.val)) + tap X Sk W B Wp (4 : Fin 9) o (12288 + l.val)) + tap X Sk W B Wp (5 : Fin 9) o (12288 + l.val)) := by
  unfold k0_pay25
  exact (congrArg₂ (· + ·) (congrArg₂ (· + ·) (congrArg₂ (· + ·) (congrArg₂ (· + ·) (congrArg₂ (· + ·) (tapP_apply X Sk W B Wp _ v254 v255 (0 : Fin 9) h_v255 12288 h_v254 _ _ o l) (tap_apply X Sk W B Wp _ v76 1 h_v76 v260 (1 : Fin 9) h_v260 rfl 12288 _ 12288 rfl (by decide) _ _ o l)) (tap_apply X Sk W B Wp _ v94 2 h_v94 v266 (2 : Fin 9) h_v266 rfl 12288 _ 12288 rfl (by decide) _ _ o l)) (tap_apply X Sk W B Wp _ v86 0 h_v86 v272 (3 : Fin 9) h_v272 rfl 12416 _ 12288 rfl (by decide) _ _ o l)) (tap_apply X Sk W B Wp _ v76 1 h_v76 v278 (4 : Fin 9) h_v278 rfl 12416 _ 12288 rfl (by decide) _ _ o l)) (tap_apply X Sk W B Wp _ v94 2 h_v94 v284 (5 : Fin 9) h_v284 rfl 12416 _ 12288 rfl (by decide) _ _ o l))

/-- The nine taps of the first quarter. -/
theorem pay18_apply (v141 : FVec Ideal S32x4096 .f32) (v146 : FVec Ideal S32x4096 .f32) (A C : EReal) (o : Fin 32) (l : Fin 4096)
    (h1 : v141 (ix2 o l) = A) (h2 : v146 (ix2 o l) = C) : k0_pay18 v141 v146 (ix2 o l) = A + C := by
  unfold k0_pay18
  exact congrArg₂ (· + ·) h1 h2

/-- The lane slice of the left copy for tap 3 of the third quarter. -/
theorem pay22_apply (v86 : FVec Ideal S128x16640 .bf16)
    (h_v86 : ∀ (g : Fin 128) (l : Fin 16640), v86 (ix2 g l) = ZT X Sk W B 0 g l.val) (g : Fin 128) (l : Fin 4096) :
    k0_pay22 v86 (ix2 g l) = KImg.zPad X Sk W B g ((8192 + l.val) / 128 + 1) ((8192 + l.val) % 128 + 0) := by
  unfold k0_pay22
  exact slice_apply X Sk W B v86 0 h_v86 8320 _ 1 8192 rfl (by decide) (by decide) g l

/-- The lane slice of the left copy for tap 0 of the fourth quarter. -/
theorem pay24_apply (v86 : FVec Ideal S128x16640 .bf16)
    (h_v86 : ∀ (g : Fin 128) (l : Fin 16640), v86 (ix2 g l) = ZT X Sk W B 0 g l.val) (g : Fin 128) (l : Fin 4096) :
    k0_pay24 v86 (ix2 g l) = KImg.zPad X Sk W B g ((12288 + l.val) / 128 + 0) ((12288 + l.val) % 128 + 0) := by
  unfold k0_pay24
  exact slice_apply X Sk W B v86 0 h_v86 12288 _ 0 12288 rfl (by decide) (by decide) g l

/-- The lane slice of the left copy for tap 6 of the fourth quarter. -/
theorem pay26_apply (v86 : FVec Ideal S128x16640 .bf16)
    (h_v86 : ∀ (g : Fin 128) (l : Fin 16640), v86 (ix2 g l) = ZT X Sk W B 0 g l.val) (g : Fin 128) (l : Fin 4096) :
    k0_pay26 v86 (ix2 g l) = KImg.zPad X Sk W B g ((12288 + l.val) / 128 + 2) ((12288 + l.val) % 128 + 0) := by
  unfold k0_pay26
  exact slice_apply X Sk W B v86 0 h_v86 12544 _ 2 12288 rfl (by decide) (by decide) g l

/-! ## The four quarters side by side, the bias and the rectifier -/

/-- Four pieces of 4096 lanes laid side by side: lane `n` is piece `n / 4096` at lane `n % 4096`. -/
theorem concat4_apply {R : ℕ} {α : Type} (q0 q1 q2 q3 : (⟨2, ![R, 4096]⟩ : Shape).Idx → α)
    (h : Shape.Concatenates [⟨2, ![R, 4096]⟩, ⟨2, ![R, 4096]⟩, ⟨2, ![R, 4096]⟩, ⟨2, ![R, 4096]⟩] ⟨2, ![R, 16384]⟩ 1)
    (F : Fin R → ℕ → α)
    (h0 : ∀ (o : Fin R) (l : Fin 4096), q0 (ix2 o l) = F o (0 + l.val))
    (h1 : ∀ (o : Fin R) (l : Fin 4096), q1 (ix2 o l) = F o (4096 + l.val))
    (h2 : ∀ (o : Fin R) (l : Fin 4096), q2 (ix2 o l) = F o (8192 + l.val))
    (h3 : ∀ (o : Fin R) (l : Fin 4096), q3 (ix2 o l) = F o (12288 + l.val))
    (o : Fin R) (n : Fin 16384) :
    concatenate ⟨2, ![R, 16384]⟩ 1 [⟨⟨2, ![R, 4096]⟩, q0⟩, ⟨⟨2, ![R, 4096]⟩, q1⟩, ⟨⟨2, ![R, 4096]⟩, q2⟩, ⟨⟨2, ![R, 4096]⟩, q3⟩] h (ix2 o n)
      = F o n.val := by
  have hn : n.val < 16384 := n.isLt
  have key : ∀ (c : ℕ) (hc : c < 4) (qc : (⟨2, ![R, 4096]⟩ : Shape).Idx → α)
      (hq : ([⟨⟨2, ![R, 4096]⟩, q0⟩, ⟨⟨2, ![R, 4096]⟩, q1⟩, ⟨⟨2, ![R, 4096]⟩, q2⟩, ⟨⟨2, ![R, 4096]⟩, q3⟩] : List ((s : Shape) × (s.Idx → α)))[c]'hc = ⟨⟨2, ![R, 4096]⟩, qc⟩)
      (hlo : c * 4096 ≤ n.val) (hhi : n.val < c * 4096 + 4096)
      (hqc : ∀ (o : Fin R) (l : Fin 4096), qc (ix2 o l) = F o (c * 4096 + l.val)),
      concatenate ⟨2, ![R, 16384]⟩ 1 [⟨⟨2, ![R, 4096]⟩, q0⟩, ⟨⟨2, ![R, 4096]⟩, q1⟩, ⟨⟨2, ![R, 4096]⟩, q2⟩, ⟨⟨2, ![R, 4096]⟩, q3⟩] h (ix2 o n) = F o n.val := by
    intro c hc qc hq hlo hhi hqc
    refine (concatenate_apply_piece (t := ⟨2, ![R, 16384]⟩) (1 : Fin 2) [⟨⟨2, ![R, 4096]⟩, q0⟩, ⟨⟨2, ![R, 4096]⟩, q1⟩, ⟨⟨2, ![R, 4096]⟩, q2⟩, ⟨⟨2, ![R, 4096]⟩, q3⟩] h (ix2 o n) c hc ⟨2, ![R, 4096]⟩ qc hq rfl (c * 4096) ?_
      (ix2 o (⟨n.val - c * 4096, by omega⟩ : Fin 4096)) ?_ ?_).trans ?_
    · interval_cases c <;> rfl
    · intro b hb
      match b with
      | ⟨0, _⟩ => rfl
      | ⟨1, _⟩ => exact absurd rfl hb
    · show c * 4096 + (n.val - c * 4096) = n.val; omega
    · rw [hqc]
      show F o (c * 4096 + (n.val - c * 4096)) = F o n.val
      congr 1; omega
  by_cases c0 : n.val < 4096
  · exact key 0 (by decide) q0 rfl (by omega) (by omega) (fun o l => by rw [h0])
  by_cases c1 : n.val < 8192
  · exact key 1 (by decide) q1 rfl (by omega) (by omega) (fun o l => by rw [h1])
  by_cases c2 : n.val < 12288
  · exact key 2 (by decide) q2 rfl (by omega) (by omega) (fun o l => by rw [h2])
  · exact key 3 (by decide) q3 rfl (by omega) (by omega) (fun o l => by rw [h3])

/-- The nine taps at flat pixel `n`, in the kernel's order. -/
def conv9 (o : Fin 32) (n : ℕ) : EReal :=
  ((((((((tap X Sk W B Wp (0 : Fin 9) o n + tap X Sk W B Wp (1 : Fin 9) o n) + tap X Sk W B Wp (2 : Fin 9) o n) + tap X Sk W B Wp (3 : Fin 9) o n) + tap X Sk W B Wp (4 : Fin 9) o n) + tap X Sk W B Wp (5 : Fin 9) o n) + tap X Sk W B Wp (6 : Fin 9) o n) + tap X Sk W B Wp (7 : Fin 9) o n) + tap X Sk W B Wp (8 : Fin 9) o n)

/-- The first output of the block at flat pixel `n`. -/
def X1F (o : Fin 32) (n : ℕ) : EReal := Spec.leaky (conv9 X Sk W B Wp o n + B1 o)

/-- At flat pixel `i·128 + j` it is the specification's x1. -/
theorem X1F_eq (o : Fin 32) (i j : Fin 128) (n : ℕ) (hn : n = i.val * 128 + j.val) :
    X1F X Sk W B Wp B1 o n = KImg.x1 X Sk W B Wp B1 o i j := by
  have hj : j.val < 128 := j.isLt
  have e1 : n / 128 = i.val := by omega
  have e2 : n % 128 = j.val := by omega
  have hs : ∀ f : Fin 9 → EReal, ∑ k, f k = ((((((((f 0 + f 1) + f 2) + f 3) + f 4) + f 5) + f 6) + f 7) + f 8) := by
    intro f; rw [Fin.sum_univ_castSucc, Fin.sum_univ_eight]; rfl
  unfold X1F KImg.x1 conv9 tap
  rw [e1, e2, hs]

/-- The fourth quarter's last three taps, the four quarters side by side, the bias column and the rectifier: x1 flat. -/
theorem pay27_apply (v76 : Vec Ideal S128x16640 .bf16)
    (h_v76 : ∀ (g : Fin 128) (l : Fin 16640), v76 (ix2 g l) = ZT X Sk W B 1 g l.val)
    (v94 : FVec Ideal S128x16640 .bf16)
    (h_v94 : ∀ (g : Fin 128) (l : Fin 16640), v94 (ix2 g l) = ZT X Sk W B 2 g l.val)
    (v147 : FVec Ideal S32x4096 .f32) (h_v147 : ∀ (o : Fin 32) (l : Fin 4096), v147 (ix2 o l) = conv9 X Sk W B Wp o (0 + l.val))
    (v200 : FVec Ideal S32x4096 .f32) (h_v200 : ∀ (o : Fin 32) (l : Fin 4096), v200 (ix2 o l) = conv9 X Sk W B Wp o (4096 + l.val))
    (v253 : FVec Ideal S32x4096 .f32) (h_v253 : ∀ (o : Fin 32) (l : Fin 4096), v253 (ix2 o l) = conv9 X Sk W B Wp o (8192 + l.val))
    (v288 : FVec Ideal S32x4096 .f32) (h_v288 : ∀ (o : Fin 32) (l : Fin 4096), v288 (ix2 o l) = (((((tap X Sk W B Wp (0 : Fin 9) o (12288 + l.val) + tap X Sk W B Wp (1 : Fin 9) o (12288 + l.val)) + tap X Sk W B Wp (2 : Fin 9) o (12288 + l.val)) + tap X Sk W B Wp (3 : Fin 9) o (12288 + l.val)) + tap X Sk W B Wp (4 : Fin 9) o (12288 + l.val)) + tap X Sk W B Wp (5 : Fin 9) o (12288 + l.val)))
    (v289 : FVec Ideal S128x4096 .bf16) (h_v289 : ∀ (g : Fin 128) (l : Fin 4096), v289 (ix2 g l) = KImg.zPad X Sk W B g ((12288 + l.val) / 128 + 2) ((12288 + l.val) % 128 + 0))
    (v290 : Vec Ideal S1x32x128 .f32) (h_v290 : ∀ (o : Fin 32) (g : Fin 128), v290 (ix3 (0 : Fin 1) o g) = Wp (6 : Fin 9) o g)
    (v296 : Vec Ideal S1x32x128 .f32) (h_v296 : ∀ (o : Fin 32) (g : Fin 128), v296 (ix3 (0 : Fin 1) o g) = Wp (7 : Fin 9) o g)
    (v302 : Vec Ideal S1x32x128 .f32) (h_v302 : ∀ (o : Fin 32) (g : Fin 128), v302 (ix3 (0 : Fin 1) o g) = Wp (8 : Fin 9) o g)
    (v308 : Vec Ideal S32x1 .f32) (h_v308 : ∀ o : Fin 32, v308 (ix2 o (0 : Fin 1)) = B1 o)
    (o : Fin 32) (n : Fin 16384) :
    k0_pay27 v76 v94 v147 v200 v253 v288 v289 v290 v296 v302 v308 (ix2 o n) = X1F X Sk W B Wp B1 o n.val := by
  unfold k0_pay27
  refine (leaky_apply _ _).trans ?_
  unfold X1F
  refine congrArg Spec.leaky (congrArg₂ (· + ·) ?_ ?_)
  · refine concat4_apply v147 v200 v253 _ _ (conv9 X Sk W B Wp) h_v147 h_v200 h_v253 (fun o l => ?_) o n
    unfold conv9
    exact (congrArg₂ (· + ·) (congrArg₂ (· + ·) (congrArg₂ (· + ·) (h_v288 o l) (tapP_apply X Sk W B Wp _ v289 v290 (6 : Fin 9) h_v290 12288 h_v289 _ _ o l)) (tap_apply X Sk W B Wp _ v76 1 h_v76 v296 (7 : Fin 9) h_v296 rfl 12544 _ 12288 rfl (by decide) _ _ o l)) (tap_apply X Sk W B Wp _ v94 2 h_v94 v302 (8 : Fin 9) h_v302 rfl 12544 _ 12288 rfl (by decide) _ _ o l))
  · exact (Cert.ColumnForms.broadcastTo_a1_ab_apply v308 _ o n).trans (h_v308 o)

/-- The first output store: x1 flat, reshaped to the 32 channels of the output block. -/
theorem pay28_apply (P : FVec Ideal S32x16384 .f32)
    (hP : ∀ (o : Fin 32) (n : Fin 16384), P (ix2 o n) = X1F X Sk W B Wp B1 o n.val)
    (h1 : S32x16384.ShapeCasts S32x128x128) (h2 : S32x128x128.ShapeCasts S1x32x128x128)
    (o : Fin 32) (i j : Fin 128) :
    shapeCast S1x32x128x128 (shapeCast S32x128x128 P h1) h2 (ix4 (0 : Fin 1) o i j) = KImg.x1 X Sk W B Wp B1 o i j := by
  have hj : j.val < 128 := j.isLt
  have hi : i.val < 128 := i.isLt
  refine (shapeCast_apply _ h2 (ix4 (0 : Fin 1) o i j) (ix3 o i j) ?_).trans
    ((shapeCast_apply P h1 (ix3 o i j) (ix2 o (⟨i.val * 128 + j.val, by omega⟩ : Fin 16384)) ?_).trans ?_)
  · rw [Shape.rowMajor_val_four, Shape.rowMajor_val_three]
    show (o.val * 128 + i.val) * 128 + j.val = (((0 : ℕ) * 32 + o.val) * 128 + i.val) * 128 + j.val
    omega
  · rw [Shape.rowMajor_val_three, Shape.rowMajor_val_two]
    show o.val * 16384 + (i.val * 128 + j.val) = (o.val * 128 + i.val) * 128 + j.val
    omega
  · rw [hP]
    exact X1F_eq X Sk W B Wp B1 o i j _ rfl

end Cert.Proof.KFlat

end
-- ==== Proof.KernelDw.lean ====
/-
  The depthwise 3×3 convolution of the fused kernel, read at an index.

  The flat x1 (32 channels, 130 rows of 128 lanes, a zero row above and below) and its two one-lane shifts are the
  zero-extended x1 at padded row l / 128 and padded column l % 128 + kx. Each tap is a lane slice times a column
  of the transposed depthwise weights copied along the row; the four quarters accumulate their nine taps in order,
  are laid side by side, the bias column is added and the rectifier applied: the specification's x2.
-/
import proofs.«169621_g2000704505896602_pallasbulk_1077_31_alg».proof.Proof.KernelConv

set_option maxRecDepth 16384

noncomputable section

namespace Cert.Proof.KFlat

open Cert.KernelIdeal Cert.KernelIdeal.Gen
open Idealize.ShloMosaic Idealize.ShloMosaic.ValueIdx Cert.PointConv

/-- A lane slice at `ky·128 + n₀` of copy `kx` of a flat padded array: tap `(ky, kx)` of the quarter starting at
    pixel `n₀`. -/
theorem slicePad_apply {R : ℕ} {φ : FTy} (T : FVec Ideal (⟨2, ![R, 16640]⟩ : Shape) φ) (P : Fin R → ℕ → ℕ → EReal) (kx : ℕ)
    (hT : ∀ (g : Fin R) (l : Fin 16640), T (ix2 g l) = P g (l.val / 128) (l.val % 128 + kx))
    (s : ℕ) (hs : (⟨2, ![R, 16640]⟩ : Shape).Slices ![0, s] ⟨2, ![R, 4096]⟩) (ky n0 : ℕ) (hs' : s = ky * 128 + n0) (hky : ky ≤ 2)
    (hn0 : n0 + 4096 ≤ 16384) (g : Fin R) (l : Fin 4096) :
    extractStridedSlice ⟨2, ![R, 4096]⟩ ![0, s] T hs (ix2 g l) = P g ((n0 + l.val) / 128 + ky) ((n0 + l.val) % 128 + kx) := by
  have hl : l.val < 4096 := l.isLt
  have hlane : s + l.val < 16640 := by omega
  refine (extractStridedSlice_apply ![0, s] T hs (ix2 g l) (ix2 g (⟨s + l.val, hlane⟩ : Fin 16640)) fun a => ?_).trans ?_
  · match a with
    | ⟨0, _⟩ => show g.val = 0 + g.val; omega
    | ⟨1, _⟩ => rfl
  · rw [hT]
    show P g ((s + l.val) / 128) ((s + l.val) % 128 + kx) = _
    have e1 : (s + l.val) / 128 = (n0 + l.val) / 128 + ky := by omega
    have e2 : (s + l.val) % 128 = (n0 + l.val) % 128 := by omega
    rw [e1, e2]

/-- A column copied along the row. -/
theorem colB_apply (col : (S32x1 : Shape).Idx → EReal) (hsc : S32x1.ShapeCasts S32x1) (hbc : S32x1.Broadcasts S32x4096)
    (o : Fin 32) (l : Fin 4096) :
    broadcastTo S32x4096 (shapeCast S32x1 col hsc) hbc (ix2 o l) = col (ix2 o (0 : Fin 1)) := by
  rw [shapeCast_self]
  exact Cert.ColumnForms.broadcastTo_a1_ab_apply col hbc o l

theorem colB'_apply (col : (S32x1 : Shape).Idx → EReal) (hbc : S32x1.Broadcasts S32x4096)
    (o : Fin 32) (l : Fin 4096) :
    broadcastTo S32x4096 col hbc (ix2 o l) = col (ix2 o (0 : Fin 1)) :=
  Cert.ColumnForms.broadcastTo_a1_ab_apply col hbc o l

variable (X : Fin 128 → Fin 64 → Fin 64 → EReal) (Sk : Fin 64 → Fin 128 → Fin 128 → EReal)
  (W : Fin 4 → Fin 64 → Fin 128 → EReal) (B : Fin 64 → EReal)
  (Wp : Fin 9 → Fin 32 → Fin 128 → EReal) (B1 : Fin 32 → EReal) (Wd : Fin 9 → Fin 32 → EReal) (B2 : Fin 32 → EReal)

theorem x1Pad_col0 (o : Fin 32) (p : ℕ) : KImg.x1Pad X Sk W B Wp B1 o p 0 = 0 := by
  unfold KImg.x1Pad; exact dif_neg (by omega)

theorem x1Pad_col129 (o : Fin 32) (p : ℕ) : KImg.x1Pad X Sk W B Wp B1 o p 129 = 0 := by
  unfold KImg.x1Pad; exact dif_neg (by omega)

/-- Lane `l` of copy `kx` of the flat padded x1. -/
def XT (kx : ℕ) (o : Fin 32) (l : ℕ) : EReal := KImg.x1Pad X Sk W B Wp B1 o (l / 128) (l % 128 + kx)

/-- One depthwise tap at flat pixel `n`. -/
def dtap (k : Fin 9) (o : Fin 32) (n : ℕ) : EReal :=
  KImg.x1Pad X Sk W B Wp B1 o (n / 128 + k.val / 3) (n % 128 + k.val % 3) * Wd k o

/-- The left-neighbour copy of the flat x1. -/
theorem pay34_apply (v331 : Vec Ideal S32x16640 .f32)
    (h_v331 : ∀ (o : Fin 32) (l : Fin 16640), v331 (ix2 o l) = XT X Sk W B Wp B1 1 o l.val) (o : Fin 32) (l : Fin 16640) :
    k0_pay34 v331 (ix2 o l) = XT X Sk W B Wp B1 0 o l.val := by
  unfold k0_pay34
  exact shiftL_apply v331 (KImg.x1Pad X Sk W B Wp B1) h_v331 (x1Pad_col0 X Sk W B Wp B1) _ _ (fun _ => Ideal.ofBits_zero_f32) _ _ _ o l

/-- The right-neighbour copy of the flat x1. -/
theorem pay35_apply (v331 : Vec Ideal S32x16640 .f32)
    (h_v331 : ∀ (o : Fin 32) (l : Fin 16640), v331 (ix2 o l) = XT X Sk W B Wp B1 1 o l.val) (o : Fin 32) (l : Fin 16640) :
    k0_pay35 v331 (ix2 o l) = XT X Sk W B Wp B1 2 o l.val := by
  unfold k0_pay35
  exact shiftR_apply v331 (KImg.x1Pad X Sk W B Wp B1) h_v331 (x1Pad_col129 X Sk W B Wp B1) _ _ (fun _ => Ideal.ofBits_zero_f32) _ _ _ o l

/-- A tap from its two factors. -/
theorem dtap_mk (k : Fin 9) (o : Fin 32) (n : ℕ) (a b : EReal)
    (ha : a = KImg.x1Pad X Sk W B Wp B1 o (n / 128 + k.val / 3) (n % 128 + k.val % 3)) (hb : b = Wd k o) :
    a * b = dtap X Sk W B Wp B1 Wd k o n := by
  subst ha hb; rfl

/-- The weight column of tap 2, as loaded. -/
theorem pay38_apply (v362 : Vec Ideal S32x1 .f32) (o : Fin 32) : k0_pay38 v362 (ix2 o (0 : Fin 1)) = v362 (ix2 o (0 : Fin 1)) := by
  unfold k0_pay38
  rw [shapeCast_self]

/-- The weight column of tap 8 copied along the row. -/
theorem pay44_apply (v451 : Vec Ideal S32x1 .f32) (o : Fin 32) (l : Fin 4096) :
    k0_pay44 v451 (ix2 o l) = v451 (ix2 o (0 : Fin 1)) := by
  unfold k0_pay44
  exact colB_apply v451 _ _ o l
/-- The lane slice of the right copy for tap 2 of the first quarter. -/
theorem pay37_apply (v331 : Vec Ideal S32x16640 .f32)
    (h_k0pay35v331 : ∀ (o : Fin 32) (l : Fin 16640), k0_pay35 v331 (ix2 o l) = XT X Sk W B Wp B1 2 o l.val)
    (o : Fin 32) (l : Fin 4096) :
    k0_pay37 v331 (ix2 o l) = KImg.x1Pad X Sk W B Wp B1 o ((0 + l.val) / 128 + 0) ((0 + l.val) % 128 + 2) := by
  unfold k0_pay37
  exact slicePad_apply (k0_pay35 v331) (KImg.x1Pad X Sk W B Wp B1) 2 h_k0pay35v331 0 _ 0 0 rfl (by decide) (by decide) o l

/-- The lane slice for tap 1 of the second quarter. -/
theorem pay41_apply (v331 : Vec Ideal S32x16640 .f32) (h_v331 : ∀ (o : Fin 32) (l : Fin 16640), v331 (ix2 o l) = XT X Sk W B Wp B1 1 o l.val)

    (o : Fin 32) (l : Fin 4096) :
    k0_pay41 v331 (ix2 o l) = KImg.x1Pad X Sk W B Wp B1 o ((4096 + l.val) / 128 + 0) ((4096 + l.val) % 128 + 1) := by
  unfold k0_pay41
  exact slicePad_apply v331 (KImg.x1Pad X Sk W B Wp B1) 1 h_v331 4096 _ 0 4096 rfl (by decide) (by decide) o l

/-- The lane slice of the right copy for tap 8 of the second quarter. -/
theorem pay43_apply (v349 : FVec Ideal S32x16640 .f32) (h_v349 : ∀ (o : Fin 32) (l : Fin 16640), v349 (ix2 o l) = XT X Sk W B Wp B1 2 o l.val)

    (o : Fin 32) (l : Fin 4096) :
    k0_pay43 v349 (ix2 o l) = KImg.x1Pad X Sk W B Wp B1 o ((4096 + l.val) / 128 + 2) ((4096 + l.val) % 128 + 2) := by
  unfold k0_pay43
  exact slicePad_apply v349 (KImg.x1Pad X Sk W B Wp B1) 2 h_v349 4352 _ 2 4096 rfl (by decide) (by decide) o l

/-- The lane slice for tap 7 of the third quarter. -/
theorem pay47_apply (v331 : Vec Ideal S32x16640 .f32) (h_v331 : ∀ (o : Fin 32) (l : Fin 16640), v331 (ix2 o l) = XT X Sk W B Wp B1 1 o l.val)

    (o : Fin 32) (l : Fin 4096) :
    k0_pay47 v331 (ix2 o l) = KImg.x1Pad X Sk W B Wp B1 o ((8192 + l.val) / 128 + 2) ((8192 + l.val) % 128 + 1) := by
  unfold k0_pay47
  exact slicePad_apply v331 (KImg.x1Pad X Sk W B Wp B1) 1 h_v331 8448 _ 2 8192 rfl (by decide) (by decide) o l

/-- Taps 0 and 1 of the first quarter. -/
theorem pay36_apply (v331 : Vec Ideal S32x16640 .f32)
    (h_v331 : ∀ (o : Fin 32) (l : Fin 16640), v331 (ix2 o l) = XT X Sk W B Wp B1 1 o l.val)
    (v351 : Vec Ideal S32x1 .f32) (h_v351 : ∀ o : Fin 32, v351 (ix2 o (0 : Fin 1)) = Wd (0 : Fin 9) o)
    (v356 : Vec Ideal S32x1 .f32) (h_v356 : ∀ o : Fin 32, v356 (ix2 o (0 : Fin 1)) = Wd (1 : Fin 9) o)
    (h_k0pay34v331 : ∀ (o : Fin 32) (l : Fin 16640), k0_pay34 v331 (ix2 o l) = XT X Sk W B Wp B1 0 o l.val)
    (o : Fin 32) (l : Fin 4096) :
    k0_pay36 v331 v351 v356 (ix2 o l) = (dtap X Sk W B Wp B1 Wd (0 : Fin 9) o (0 + l.val) + dtap X Sk W B Wp B1 Wd (1 : Fin 9) o (0 + l.val)) := by
  unfold k0_pay36
  exact (congrArg₂ (· + ·) (dtap_mk X Sk W B Wp B1 Wd (0 : Fin 9) o (0 + l.val) _ _ (slicePad_apply (k0_pay34 v331) (KImg.x1Pad X Sk W B Wp B1) 0 h_k0pay34v331 0 _ 0 0 rfl (by decide) (by decide) o l) ((colB_apply v351 _ _ o l).trans (h_v351 o))) (dtap_mk X Sk W B Wp B1 Wd (1 : Fin 9) o (0 + l.val) _ _ (slicePad_apply v331 (KImg.x1Pad X Sk W B Wp B1) 1 h_v331 0 _ 0 0 rfl (by decide) (by decide) o l) ((colB_apply v356 _ _ o l).trans (h_v356 o))))

/-- The nine taps of the first quarter. -/
theorem pay39_apply (v331 : Vec Ideal S32x16640 .f32)
    (h_v331 : ∀ (o : Fin 32) (l : Fin 16640), v331 (ix2 o l) = XT X Sk W B Wp B1 1 o l.val)
    (v341 : FVec Ideal S32x16640 .f32)
    (h_v341 : ∀ (o : Fin 32) (l : Fin 16640), v341 (ix2 o l) = XT X Sk W B Wp B1 0 o l.val)
    (v349 : FVec Ideal S32x16640 .f32)
    (h_v349 : ∀ (o : Fin 32) (l : Fin 16640), v349 (ix2 o l) = XT X Sk W B Wp B1 2 o l.val)
    (v360 : FVec Ideal S32x4096 .f32) (h_v360 : ∀ (o : Fin 32) (l : Fin 4096), v360 (ix2 o l) = (dtap X Sk W B Wp B1 Wd (0 : Fin 9) o (0 + l.val) + dtap X Sk W B Wp B1 Wd (1 : Fin 9) o (0 + l.val)))
    (v361 : FVec Ideal S32x4096 .f32) (h_v361 : ∀ (o : Fin 32) (l : Fin 4096), v361 (ix2 o l) = KImg.x1Pad X Sk W B Wp B1 o ((0 + l.val) / 128 + 0) ((0 + l.val) % 128 + 2))
    (v363 : FVec Ideal S32x1 .f32) (h_v363 : ∀ o : Fin 32, v363 (ix2 o (0 : Fin 1)) = Wd (2 : Fin 9) o)
    (v368 : Vec Ideal S32x1 .f32) (h_v368 : ∀ o : Fin 32, v368 (ix2 o (0 : Fin 1)) = Wd (3 : Fin 9) o)
    (v374 : Vec Ideal S32x1 .f32) (h_v374 : ∀ o : Fin 32, v374 (ix2 o (0 : Fin 1)) = Wd (4 : Fin 9) o)
    (v380 : Vec Ideal S32x1 .f32) (h_v380 : ∀ o : Fin 32, v380 (ix2 o (0 : Fin 1)) = Wd (5 : Fin 9) o)
    (v386 : Vec Ideal S32x1 .f32) (h_v386 : ∀ o : Fin 32, v386 (ix2 o (0 : Fin 1)) = Wd (6 : Fin 9) o)
    (v392 : Vec Ideal S32x1 .f32) (h_v392 : ∀ o : Fin 32, v392 (ix2 o (0 : Fin 1)) = Wd (7 : Fin 9) o)
    (v398 : Vec Ideal S32x1 .f32) (h_v398 : ∀ o : Fin 32, v398 (ix2 o (0 : Fin 1)) = Wd (8 : Fin 9) o)

    (o : Fin 32) (l : Fin 4096) :
    k0_pay39 v331 v341 v349 v360 v361 v363 v368 v374 v380 v386 v392 v398 (ix2 o l) = ((((((((dtap X Sk W B Wp B1 Wd (0 : Fin 9) o (0 + l.val) + dtap X Sk W B Wp B1 Wd (1 : Fin 9) o (0 + l.val)) + dtap X Sk W B Wp B1 Wd (2 : Fin 9) o (0 + l.val)) + dtap X Sk W B Wp B1 Wd (3 : Fin 9) o (0 + l.val)) + dtap X Sk W B Wp B1 Wd (4 : Fin 9) o (0 + l.val)) + dtap X Sk W B Wp B1 Wd (5 : Fin 9) o (0 + l.val)) + dtap X Sk W B Wp B1 Wd (6 : Fin 9) o (0 + l.val)) + dtap X Sk W B Wp B1 Wd (7 : Fin 9) o (0 + l.val)) + dtap X Sk W B Wp B1 Wd (8 : Fin 9) o (0 + l.val)) := by
  unfold k0_pay39
  exact (congrArg₂ (· + ·) (congrArg₂ (· + ·) (congrArg₂ (· + ·) (congrArg₂ (· + ·) (congrArg₂ (· + ·) (congrArg₂ (· + ·) (congrArg₂ (· + ·) (h_v360 o l) (dtap_mk X Sk W B Wp B1 Wd (2 : Fin 9) o (0 + l.val) _ _ (h_v361 o l) ((colB'_apply v363 _ o l).trans (h_v363 o)))) (dtap_mk X Sk W B Wp B1 Wd (3 : Fin 9) o (0 + l.val) _ _ (slicePad_apply v341 (KImg.x1Pad X Sk W B Wp B1) 0 h_v341 128 _ 1 0 rfl (by decide) (by decide) o l) ((colB_apply v368 _ _ o l).trans (h_v368 o)))) (dtap_mk X Sk W B Wp B1 Wd (4 : Fin 9) o (0 + l.val) _ _ (slicePad_apply v331 (KImg.x1Pad X Sk W B Wp B1) 1 h_v331 128 _ 1 0 rfl (by decide) (by decide) o l) ((colB_apply v374 _ _ o l).trans (h_v374 o)))) (dtap_mk X Sk W B Wp B1 Wd (5 : Fin 9) o (0 + l.val) _ _ (slicePad_apply v349 (KImg.x1Pad X Sk W B Wp B1) 2 h_v349 128 _ 1 0 rfl (by decide) (by decide) o l) ((colB_apply v380 _ _ o l).trans (h_v380 o)))) (dtap_mk X Sk W B Wp B1 Wd (6 : Fin 9) o (0 + l.val) _ _ (slicePad_apply v341 (KImg.x1Pad X Sk W B Wp B1) 0 h_v341 256 _ 2 0 rfl (by decide) (by decide) o l) ((colB_apply v386 _ _ o l).trans (h_v386 o)))) (dtap_mk X Sk W B Wp B1 Wd (7 : Fin 9) o (0 + l.val) _ _ (slicePad_apply v331 (KImg.x1Pad X Sk W B Wp B1) 1 h_v331 256 _ 2 0 rfl (by decide) (by decide) o l) ((colB_apply v392 _ _ o l).trans (h_v392 o)))) (dtap_mk X Sk W B Wp B1 Wd (8 : Fin 9) o (0 + l.val) _ _ (slicePad_apply v349 (KImg.x1Pad X Sk W B Wp B1) 2 h_v349 256 _ 2 0 rfl (by decide) (by decide) o l) ((colB_apply v398 _ _ o l).trans (h_v398 o))))

/-- Tap 0 of the second quarter. -/
theorem pay40_apply (v341 : FVec Ideal S32x16640 .f32)
    (h_v341 : ∀ (o : Fin 32) (l : Fin 16640), v341 (ix2 o l) = XT X Sk W B Wp B1 0 o l.val)
    (v404 : Vec Ideal S32x1 .f32) (h_v404 : ∀ o : Fin 32, v404 (ix2 o (0 : Fin 1)) = Wd (0 : Fin 9) o)

    (o : Fin 32) (l : Fin 4096) :
    k0_pay40 v341 v404 (ix2 o l) = dtap X Sk W B Wp B1 Wd (0 : Fin 9) o (4096 + l.val) := by
  unfold k0_pay40
  exact (dtap_mk X Sk W B Wp B1 Wd (0 : Fin 9) o (4096 + l.val) _ _ (slicePad_apply v341 (KImg.x1Pad X Sk W B Wp B1) 0 h_v341 4096 _ 0 4096 rfl (by decide) (by decide) o l) ((colB_apply v404 _ _ o l).trans (h_v404 o)))

/-- Taps 0–7 of the second quarter. -/
theorem pay42_apply (v331 : Vec Ideal S32x16640 .f32)
    (h_v331 : ∀ (o : Fin 32) (l : Fin 16640), v331 (ix2 o l) = XT X Sk W B Wp B1 1 o l.val)
    (v341 : FVec Ideal S32x16640 .f32)
    (h_v341 : ∀ (o : Fin 32) (l : Fin 16640), v341 (ix2 o l) = XT X Sk W B Wp B1 0 o l.val)
    (v349 : FVec Ideal S32x16640 .f32)
    (h_v349 : ∀ (o : Fin 32) (l : Fin 16640), v349 (ix2 o l) = XT X Sk W B Wp B1 2 o l.val)
    (v407 : FVec Ideal S32x4096 .f32) (h_v407 : ∀ (o : Fin 32) (l : Fin 4096), v407 (ix2 o l) = dtap X Sk W B Wp B1 Wd (0 : Fin 9) o (4096 + l.val))
    (v408 : FVec Ideal S32x4096 .f32) (h_v408 : ∀ (o : Fin 32) (l : Fin 4096), v408 (ix2 o l) = KImg.x1Pad X Sk W B Wp B1 o ((4096 + l.val) / 128 + 0) ((4096 + l.val) % 128 + 1))
    (v409 : Vec Ideal S32x1 .f32) (h_v409 : ∀ o : Fin 32, v409 (ix2 o (0 : Fin 1)) = Wd (1 : Fin 9) o)
    (v415 : Vec Ideal S32x1 .f32) (h_v415 : ∀ o : Fin 32, v415 (ix2 o (0 : Fin 1)) = Wd (2 : Fin 9) o)
    (v421 : Vec Ideal S32x1 .f32) (h_v421 : ∀ o : Fin 32, v421 (ix2 o (0 : Fin 1)) = Wd (3 : Fin 9) o)
    (v427 : Vec Ideal S32x1 .f32) (h_v427 : ∀ o : Fin 32, v427 (ix2 o (0 : Fin 1)) = Wd (4 : Fin 9) o)
    (v433 : Vec Ideal S32x1 .f32) (h_v433 : ∀ o : Fin 32, v433 (ix2 o (0 : Fin 1)) = Wd (5 : Fin 9) o)
    (v439 : Vec Ideal S32x1 .f32) (h_v439 : ∀ o : Fin 32, v439 (ix2 o (0 : Fin 1)) = Wd (6 : Fin 9) o)
    (v445 : Vec Ideal S32x1 .f32) (h_v445 : ∀ o : Fin 32, v445 (ix2 o (0 : Fin 1)) = Wd (7 : Fin 9) o)

    (o : Fin 32) (l : Fin 4096) :
    k0_pay42 v331 v341 v349 v407 v408 v409 v415 v421 v427 v433 v439 v445 (ix2 o l) = (((((((dtap X Sk W B Wp B1 Wd (0 : Fin 9) o (4096 + l.val) + dtap X Sk W B Wp B1 Wd (1 : Fin 9) o (4096 + l.val)) + dtap X Sk W B Wp B1 Wd (2 : Fin 9) o (4096 + l.val)) + dtap X Sk W B Wp B1 Wd (3 : Fin 9) o (4096 + l.val)) + dtap X Sk W B Wp B1 Wd (4 : Fin 9) o (4096 + l.val)) + dtap X Sk W B Wp B1 Wd (5 : Fin 9) o (4096 + l.val)) + dtap X Sk W B Wp B1 Wd (6 : Fin 9) o (4096 + l.val)) + dtap X Sk W B Wp B1 Wd (7 : Fin 9) o (4096 + l.val)) := by
  unfold k0_pay42
  exact (congrArg₂ (· + ·) (congrArg₂ (· + ·) (congrArg₂ (· + ·) (congrArg₂ (· + ·) (congrArg₂ (· + ·) (congrArg₂ (· + ·) (congrArg₂ (· + ·) (h_v407 o l) (dtap_mk X Sk W B Wp B1 Wd (1 : Fin 9) o (4096 + l.val) _ _ (h_v408 o l) ((colB_apply v409 _ _ o l).trans (h_v409 o)))) (dtap_mk X Sk W B Wp B1 Wd (2 : Fin 9) o (4096 + l.val) _ _ (slicePad_apply v349 (KImg.x1Pad X Sk W B Wp B1) 2 h_v349 4096 _ 0 4096 rfl (by decide) (by decide) o l) ((colB_apply v415 _ _ o l).trans (h_v415 o)))) (dtap_mk X Sk W B Wp B1 Wd (3 : Fin 9) o (4096 + l.val) _ _ (slicePad_apply v341 (KImg.x1Pad X Sk W B Wp B1) 0 h_v341 4224 _ 1 4096 rfl (by decide) (by decide) o l) ((colB_apply v421 _ _ o l).trans (h_v421 o)))) (dtap_mk X Sk W B Wp B1 Wd (4 : Fin 9) o (4096 + l.val) _ _ (slicePad_apply v331 (KImg.x1Pad X Sk W B Wp B1) 1 h_v331 4224 _ 1 4096 rfl (by decide) (by decide) o l) ((colB_apply v427 _ _ o l).trans (h_v427 o)))) (dtap_mk X Sk W B Wp B1 Wd (5 : Fin 9) o (4096 + l.val) _ _ (slicePad_apply v349 (KImg.x1Pad X Sk W B Wp B1) 2 h_v349 4224 _ 1 4096 rfl (by decide) (by decide) o l) ((colB_apply v433 _ _ o l).trans (h_v433 o)))) (dtap_mk X Sk W B Wp B1 Wd (6 : Fin 9) o (4096 + l.val) _ _ (slicePad_apply v341 (KImg.x1Pad X Sk W B Wp B1) 0 h_v341 4352 _ 2 4096 rfl (by decide) (by decide) o l) ((colB_apply v439 _ _ o l).trans (h_v439 o)))) (dtap_mk X Sk W B Wp B1 Wd (7 : Fin 9) o (4096 + l.val) _ _ (slicePad_apply v331 (KImg.x1Pad X Sk W B Wp B1) 1 h_v331 4352 _ 2 4096 rfl (by decide) (by decide) o l) ((colB_apply v445 _ _ o l).trans (h_v445 o))))

/-- The nine taps of the second quarter. -/
theorem pay45_apply (v449 : FVec Ideal S32x4096 .f32) (h_v449 : ∀ (o : Fin 32) (l : Fin 4096), v449 (ix2 o l) = (((((((dtap X Sk W B Wp B1 Wd (0 : Fin 9) o (4096 + l.val) + dtap X Sk W B Wp B1 Wd (1 : Fin 9) o (4096 + l.val)) + dtap X Sk W B Wp B1 Wd (2 : Fin 9) o (4096 + l.val)) + dtap X Sk W B Wp B1 Wd (3 : Fin 9) o (4096 + l.val)) + dtap X Sk W B Wp B1 Wd (4 : Fin 9) o (4096 + l.val)) + dtap X Sk W B Wp B1 Wd (5 : Fin 9) o (4096 + l.val)) + dtap X Sk W B Wp B1 Wd (6 : Fin 9) o (4096 + l.val)) + dtap X Sk W B Wp B1 Wd (7 : Fin 9) o (4096 + l.val)))
    (v450 : FVec Ideal S32x4096 .f32) (h_v450 : ∀ (o : Fin 32) (l : Fin 4096), v450 (ix2 o l) = KImg.x1Pad X Sk W B Wp B1 o ((4096 + l.val) / 128 + 2) ((4096 + l.val) % 128 + 2))
    (v453 : FVec Ideal S32x4096 .f32) (h_v453 : ∀ (o : Fin 32) (l : Fin 4096), v453 (ix2 o l) = Wd (8 : Fin 9) o)

    (o : Fin 32) (l : Fin 4096) :
    k0_pay45 v449 v450 v453 (ix2 o l) = ((((((((dtap X Sk W B Wp B1 Wd (0 : Fin 9) o (4096 + l.val) + dtap X Sk W B Wp B1 Wd (1 : Fin 9) o (4096 + l.val)) + dtap X Sk W B Wp B1 Wd (2 : Fin 9) o (4096 + l.val)) + dtap X Sk W B Wp B1 Wd (3 : Fin 9) o (4096 + l.val)) + dtap X Sk W B Wp B1 Wd (4 : Fin 9) o (4096 + l.val)) + dtap X Sk W B Wp B1 Wd (5 : Fin 9) o (4096 + l.val)) + dtap X Sk W B Wp B1 Wd (6 : Fin 9) o (4096 + l.val)) + dtap X Sk W B Wp B1 Wd (7 : Fin 9) o (4096 + l.val)) + dtap X Sk W B Wp B1 Wd (8 : Fin 9) o (4096 + l.val)) := by
  unfold k0_pay45
  exact (congrArg₂ (· + ·) (h_v449 o l) (dtap_mk X Sk W B Wp B1 Wd (8 : Fin 9) o (4096 + l.val) _ _ (h_v450 o l) (h_v453 o l)))

/-- Taps 0–6 of the third quarter. -/
theorem pay46_apply (v331 : Vec Ideal S32x16640 .f32)
    (h_v331 : ∀ (o : Fin 32) (l : Fin 16640), v331 (ix2 o l) = XT X Sk W B Wp B1 1 o l.val)
    (v341 : FVec Ideal S32x16640 .f32)
    (h_v341 : ∀ (o : Fin 32) (l : Fin 16640), v341 (ix2 o l) = XT X Sk W B Wp B1 0 o l.val)
    (v349 : FVec Ideal S32x16640 .f32)
    (h_v349 : ∀ (o : Fin 32) (l : Fin 16640), v349 (ix2 o l) = XT X Sk W B Wp B1 2 o l.val)
    (v457 : Vec Ideal S32x1 .f32) (h_v457 : ∀ o : Fin 32, v457 (ix2 o (0 : Fin 1)) = Wd (0 : Fin 9) o)
    (v462 : Vec Ideal S32x1 .f32) (h_v462 : ∀ o : Fin 32, v462 (ix2 o (0 : Fin 1)) = Wd (1 : Fin 9) o)
    (v468 : Vec Ideal S32x1 .f32) (h_v468 : ∀ o : Fin 32, v468 (ix2 o (0 : Fin 1)) = Wd (2 : Fin 9) o)
    (v474 : Vec Ideal S32x1 .f32) (h_v474 : ∀ o : Fin 32, v474 (ix2 o (0 : Fin 1)) = Wd (3 : Fin 9) o)
    (v480 : Vec Ideal S32x1 .f32) (h_v480 : ∀ o : Fin 32, v480 (ix2 o (0 : Fin 1)) = Wd (4 : Fin 9) o)
    (v486 : Vec Ideal S32x1 .f32) (h_v486 : ∀ o : Fin 32, v486 (ix2 o (0 : Fin 1)) = Wd (5 : Fin 9) o)
    (v492 : Vec Ideal S32x1 .f32) (h_v492 : ∀ o : Fin 32, v492 (ix2 o (0 : Fin 1)) = Wd (6 : Fin 9) o)

    (o : Fin 32) (l : Fin 4096) :
    k0_pay46 v331 v341 v349 v457 v462 v468 v474 v480 v486 v492 (ix2 o l) = ((((((dtap X Sk W B Wp B1 Wd (0 : Fin 9) o (8192 + l.val) + dtap X Sk W B Wp B1 Wd (1 : Fin 9) o (8192 + l.val)) + dtap X Sk W B Wp B1 Wd (2 : Fin 9) o (8192 + l.val)) + dtap X Sk W B Wp B1 Wd (3 : Fin 9) o (8192 + l.val)) + dtap X Sk W B Wp B1 Wd (4 : Fin 9) o (8192 + l.val)) + dtap X Sk W B Wp B1 Wd (5 : Fin 9) o (8192 + l.val)) + dtap X Sk W B Wp B1 Wd (6 : Fin 9) o (8192 + l.val)) := by
  unfold k0_pay46
  exact (congrArg₂ (· + ·) (congrArg₂ (· + ·) (congrArg₂ (· + ·) (congrArg₂ (· + ·) (congrArg₂ (· + ·) (congrArg₂ (· + ·) (dtap_mk X Sk W B Wp B1 Wd (0 : Fin 9) o (8192 + l.val) _ _ (slicePad_apply v341 (KImg.x1Pad X Sk W B Wp B1) 0 h_v341 8192 _ 0 8192 rfl (by decide) (by decide) o l) ((colB_apply v457 _ _ o l).trans (h_v457 o))) (dtap_mk X Sk W B Wp B1 Wd (1 : Fin 9) o (8192 + l.val) _ _ (slicePad_apply v331 (KImg.x1Pad X Sk W B Wp B1) 1 h_v331 8192 _ 0 8192 rfl (by decide) (by decide) o l) ((colB_apply v462 _ _ o l).trans (h_v462 o)))) (dtap_mk X Sk W B Wp B1 Wd (2 : Fin 9) o (8192 + l.val) _ _ (slicePad_apply v349 (KImg.x1Pad X Sk W B Wp B1) 2 h_v349 8192 _ 0 8192 rfl (by decide) (by decide) o l) ((colB_apply v468 _ _ o l).trans (h_v468 o)))) (dtap_mk X Sk W B Wp B1 Wd (3 : Fin 9) o (8192 + l.val) _ _ (slicePad_apply v341 (KImg.x1Pad X Sk W B Wp B1) 0 h_v341 8320 _ 1 8192 rfl (by decide) (by decide) o l) ((colB_apply v474 _ _ o l).trans (h_v474 o)))) (dtap_mk X Sk W B Wp B1 Wd (4 : Fin 9) o (8192 + l.val) _ _ (slicePad_apply v331 (KImg.x1Pad X Sk W B Wp B1) 1 h_v331 8320 _ 1 8192 rfl (by decide) (by decide) o l) ((colB_apply v480 _ _ o l).trans (h_v480 o)))) (dtap_mk X Sk W B Wp B1 Wd (5 : Fin 9) o (8192 + l.val) _ _ (slicePad_apply v349 (KImg.x1Pad X Sk W B Wp B1) 2 h_v349 8320 _ 1 8192 rfl (by decide) (by decide) o l) ((colB_apply v486 _ _ o l).trans (h_v486 o)))) (dtap_mk X Sk W B Wp B1 Wd (6 : Fin 9) o (8192 + l.val) _ _ (slicePad_apply v341 (KImg.x1Pad X Sk W B Wp B1) 0 h_v341 8448 _ 2 8192 rfl (by decide) (by decide) o l) ((colB_apply v492 _ _ o l).trans (h_v492 o))))

/-- The nine taps of the third quarter. -/
theorem pay48_apply (v349 : FVec Ideal S32x16640 .f32)
    (h_v349 : ∀ (o : Fin 32) (l : Fin 16640), v349 (ix2 o l) = XT X Sk W B Wp B1 2 o l.val)
    (v496 : FVec Ideal S32x4096 .f32) (h_v496 : ∀ (o : Fin 32) (l : Fin 4096), v496 (ix2 o l) = ((((((dtap X Sk W B Wp B1 Wd (0 : Fin 9) o (8192 + l.val) + dtap X Sk W B Wp B1 Wd (1 : Fin 9) o (8192 + l.val)) + dtap X Sk W B Wp B1 Wd (2 : Fin 9) o (8192 + l.val)) + dtap X Sk W B Wp B1 Wd (3 : Fin 9) o (8192 + l.val)) + dtap X Sk W B Wp B1 Wd (4 : Fin 9) o (8192 + l.val)) + dtap X Sk W B Wp B1 Wd (5 : Fin 9) o (8192 + l.val)) + dtap X Sk W B Wp B1 Wd (6 : Fin 9) o (8192 + l.val)))
    (v497 : FVec Ideal S32x4096 .f32) (h_v497 : ∀ (o : Fin 32) (l : Fin 4096), v497 (ix2 o l) = KImg.x1Pad X Sk W B Wp B1 o ((8192 + l.val) / 128 + 2) ((8192 + l.val) % 128 + 1))
    (v498 : Vec Ideal S32x1 .f32) (h_v498 : ∀ o : Fin 32, v498 (ix2 o (0 : Fin 1)) = Wd (7 : Fin 9) o)
    (v504 : Vec Ideal S32x1 .f32) (h_v504 : ∀ o : Fin 32, v504 (ix2 o (0 : Fin 1)) = Wd (8 : Fin 9) o)

    (o : Fin 32) (l : Fin 4096) :
    k0_pay48 v349 v496 v497 v498 v504 (ix2 o l) = ((((((((dtap X Sk W B Wp B1 Wd (0 : Fin 9) o (8192 + l.val) + dtap X Sk W B Wp B1 Wd (1 : Fin 9) o (8192 + l.val)) + dtap X Sk W B Wp B1 Wd (2 : Fin 9) o (8192 + l.val)) + dtap X Sk W B Wp B1 Wd (3 : Fin 9) o (8192 + l.val)) + dtap X Sk W B Wp B1 Wd (4 : Fin 9) o (8192 + l.val)) + dtap X Sk W B Wp B1 Wd (5 : Fin 9) o (8192 + l.val)) + dtap X Sk W B Wp B1 Wd (6 : Fin 9) o (8192 + l.val)) + dtap X Sk W B Wp B1 Wd (7 : Fin 9) o (8192 + l.val)) + dtap X Sk W B Wp B1 Wd (8 : Fin 9) o (8192 + l.val)) := by
  unfold k0_pay48
  exact (congrArg₂ (· + ·) (congrArg₂ (· + ·) (h_v496 o l) (dtap_mk X Sk W B Wp B1 Wd (7 : Fin 9) o (8192 + l.val) _ _ (h_v497 o l) ((colB_apply v498 _ _ o l).trans (h_v498 o)))) (dtap_mk X Sk W B Wp B1 Wd (8 : Fin 9) o (8192 + l.val) _ _ (slicePad_apply v349 (KImg.x1Pad X Sk W B Wp B1) 2 h_v349 8448 _ 2 8192 rfl (by decide) (by decide) o l) ((colB_apply v504 _ _ o l).trans (h_v504 o))))

/-- Taps 0–5 of the fourth quarter. -/
theorem pay49_apply (v331 : Vec Ideal S32x16640 .f32)
    (h_v331 : ∀ (o : Fin 32) (l : Fin 16640), v331 (ix2 o l) = XT X Sk W B Wp B1 1 o l.val)
    (v341 : FVec Ideal S32x16640 .f32)
    (h_v341 : ∀ (o : Fin 32) (l : Fin 16640), v341 (ix2 o l) = XT X Sk W B Wp B1 0 o l.val)
    (v349 : FVec Ideal S32x16640 .f32)
    (h_v349 : ∀ (o : Fin 32) (l : Fin 16640), v349 (ix2 o l) = XT X Sk W B Wp B1 2 o l.val)
    (v510 : Vec Ideal S32x1 .f32) (h_v510 : ∀ o : Fin 32, v510 (ix2 o (0 : Fin 1)) = Wd (0 : Fin 9) o)
    (v515 : Vec Ideal S32x1 .f32) (h_v515 : ∀ o : Fin 32, v515 (ix2 o (0 : Fin 1)) = Wd (1 : Fin 9) o)
    (v521 : Vec Ideal S32x1 .f32) (h_v521 : ∀ o : Fin 32, v521 (ix2 o (0 : Fin 1)) = Wd (2 : Fin 9) o)
    (v527 : Vec Ideal S32x1 .f32) (h_v527 : ∀ o : Fin 32, v527 (ix2 o (0 : Fin 1)) = Wd (3 : Fin 9) o)
    (v533 : Vec Ideal S32x1 .f32) (h_v533 : ∀ o : Fin 32, v533 (ix2 o (0 : Fin 1)) = Wd (4 : Fin 9) o)
    (v539 : Vec Ideal S32x1 .f32) (h_v539 : ∀ o : Fin 32, v539 (ix2 o (0 : Fin 1)) = Wd (5 : Fin 9) o)

    (o : Fin 32) (l : Fin 4096) :
    k0_pay49 v331 v341 v349 v510 v515 v521 v527 v533 v539 (ix2 o l) = (((((dtap X Sk W B Wp B1 Wd (0 : Fin 9) o (12288 + l.val) + dtap X Sk W B Wp B1 Wd (1 : Fin 9) o (12288 + l.val)) + dtap X Sk W B Wp B1 Wd (2 : Fin 9) o (12288 + l.val)) + dtap X Sk W B Wp B1 Wd (3 : Fin 9) o (12288 + l.val)) + dtap X Sk W B Wp B1 Wd (4 : Fin 9) o (12288 + l.val)) + dtap X Sk W B Wp B1 Wd (5 : Fin 9) o (12288 + l.val)) := by
  unfold k0_pay49
  exact (congrArg₂ (· + ·) (congrArg₂ (· + ·) (congrArg₂ (· + ·) (congrArg₂ (· + ·) (congrArg₂ (· + ·) (dtap_mk X Sk W B Wp B1 Wd (0 : Fin 9) o (12288 + l.val) _ _ (slicePad_apply v341 (KImg.x1Pad X Sk W B Wp B1) 0 h_v341 12288 _ 0 12288 rfl (by decide) (by decide) o l) ((colB_apply v510 _ _ o l).trans (h_v510 o))) (dtap_mk X Sk W B Wp B1 Wd (1 : Fin 9) o (12288 + l.val) _ _ (slicePad_apply v331 (KImg.x1Pad X Sk W B Wp B1) 1 h_v331 12288 _ 0 12288 rfl (by decide) (by decide) o l) ((colB_apply v515 _ _ o l).trans (h_v515 o)))) (dtap_mk X Sk W B Wp B1 Wd (2 : Fin 9) o (12288 + l.val) _ _ (slicePad_apply v349 (KImg.x1Pad X Sk W B Wp B1) 2 h_v349 12288 _ 0 12288 rfl (by decide) (by decide) o l) ((colB_apply v521 _ _ o l).trans (h_v521 o)))) (dtap_mk X Sk W B Wp B1 Wd (3 : Fin 9) o (12288 + l.val) _ _ (slicePad_apply v341 (KImg.x1Pad X Sk W B Wp B1) 0 h_v341 12416 _ 1 12288 rfl (by decide) (by decide) o l) ((colB_apply v527 _ _ o l).trans (h_v527 o)))) (dtap_mk X Sk W B Wp B1 Wd (4 : Fin 9) o (12288 + l.val) _ _ (slicePad_apply v331 (KImg.x1Pad X Sk W B Wp B1) 1 h_v331 12416 _ 1 12288 rfl (by decide) (by decide) o l) ((colB_apply v533 _ _ o l).trans (h_v533 o)))) (dtap_mk X Sk W B Wp B1 Wd (5 : Fin 9) o (12288 + l.val) _ _ (slicePad_apply v349 (KImg.x1Pad X Sk W B Wp B1) 2 h_v349 12416 _ 1 12288 rfl (by decide) (by decide) o l) ((colB_apply v539 _ _ o l).trans (h_v539 o))))

/-! ## The four quarters side by side, the bias and the rectifier -/

/-- The nine depthwise taps at flat pixel `n`, in the kernel's order. -/
def dw9 (o : Fin 32) (n : ℕ) : EReal :=
  ((((((((dtap X Sk W B Wp B1 Wd (0 : Fin 9) o n + dtap X Sk W B Wp B1 Wd (1 : Fin 9) o n) + dtap X Sk W B Wp B1 Wd (2 : Fin 9) o n) + dtap X Sk W B Wp B1 Wd (3 : Fin 9) o n) + dtap X Sk W B Wp B1 Wd (4 : Fin 9) o n) + dtap X Sk W B Wp B1 Wd (5 : Fin 9) o n) + dtap X Sk W B Wp B1 Wd (6 : Fin 9) o n) + dtap X Sk W B Wp B1 Wd (7 : Fin 9) o n) + dtap X Sk W B Wp B1 Wd (8 : Fin 9) o n)

/-- The second output of the block at flat pixel `n`. -/
def X2F (o : Fin 32) (n : ℕ) : EReal := Spec.leaky (dw9 X Sk W B Wp B1 Wd o n + B2 o)

/-- At flat pixel `i·128 + j` it is the specification's x2. -/
theorem X2F_eq (o : Fin 32) (i j : Fin 128) (n : ℕ) (hn : n = i.val * 128 + j.val) :
    X2F X Sk W B Wp B1 Wd B2 o n = KImg.x2 X Sk W B Wp B1 Wd B2 o i j := by
  have hj : j.val < 128 := j.isLt
  have e1 : n / 128 = i.val := by omega
  have e2 : n % 128 = j.val := by omega
  have hs : ∀ f : Fin 9 → EReal, ∑ k, f k = ((((((((f 0 + f 1) + f 2) + f 3) + f 4) + f 5) + f 6) + f 7) + f 8) := by
    intro f; rw [Fin.sum_univ_castSucc, Fin.sum_univ_eight]; rfl
  unfold X2F KImg.x2 dw9 dtap
  rw [e1, e2, hs]

/-- The fourth quarter's last three taps, the four quarters side by side, the bias column, the rectifier and the
    reshape to the 32 channels of the output block: the second output store. -/
theorem pay50_apply (v331 : Vec Ideal S32x16640 .f32) (h_v331 : ∀ (o : Fin 32) (l : Fin 16640), v331 (ix2 o l) = XT X Sk W B Wp B1 1 o l.val)
    (v341 : FVec Ideal S32x16640 .f32) (h_v341 : ∀ (o : Fin 32) (l : Fin 16640), v341 (ix2 o l) = XT X Sk W B Wp B1 0 o l.val)
    (v349 : FVec Ideal S32x16640 .f32) (h_v349 : ∀ (o : Fin 32) (l : Fin 16640), v349 (ix2 o l) = XT X Sk W B Wp B1 2 o l.val)
    (v402 : FVec Ideal S32x4096 .f32) (h_v402 : ∀ (o : Fin 32) (l : Fin 4096), v402 (ix2 o l) = dw9 X Sk W B Wp B1 Wd o (0 + l.val))
    (v455 : FVec Ideal S32x4096 .f32) (h_v455 : ∀ (o : Fin 32) (l : Fin 4096), v455 (ix2 o l) = dw9 X Sk W B Wp B1 Wd o (4096 + l.val))
    (v508 : FVec Ideal S32x4096 .f32) (h_v508 : ∀ (o : Fin 32) (l : Fin 4096), v508 (ix2 o l) = dw9 X Sk W B Wp B1 Wd o (8192 + l.val))
    (v543 : FVec Ideal S32x4096 .f32) (h_v543 : ∀ (o : Fin 32) (l : Fin 4096), v543 (ix2 o l) = (((((dtap X Sk W B Wp B1 Wd (0 : Fin 9) o (12288 + l.val) + dtap X Sk W B Wp B1 Wd (1 : Fin 9) o (12288 + l.val)) + dtap X Sk W B Wp B1 Wd (2 : Fin 9) o (12288 + l.val)) + dtap X Sk W B Wp B1 Wd (3 : Fin 9) o (12288 + l.val)) + dtap X Sk W B Wp B1 Wd (4 : Fin 9) o (12288 + l.val)) + dtap X Sk W B Wp B1 Wd (5 : Fin 9) o (12288 + l.val)))
    (v545 : Vec Ideal S32x1 .f32) (h_v545 : ∀ o : Fin 32, v545 (ix2 o (0 : Fin 1)) = Wd (6 : Fin 9) o)
    (v551 : Vec Ideal S32x1 .f32) (h_v551 : ∀ o : Fin 32, v551 (ix2 o (0 : Fin 1)) = Wd (7 : Fin 9) o)
    (v557 : Vec Ideal S32x1 .f32) (h_v557 : ∀ o : Fin 32, v557 (ix2 o (0 : Fin 1)) = Wd (8 : Fin 9) o)
    (v563 : Vec Ideal S32x1 .f32) (h_v563 : ∀ o : Fin 32, v563 (ix2 o (0 : Fin 1)) = B2 o)
    (o : Fin 32) (i j : Fin 128) :
    k0_pay50 v331 v341 v349 v402 v455 v508 v543 v545 v551 v557 v563 (ix4 (0 : Fin 1) o i j) = KImg.x2 X Sk W B Wp B1 Wd B2 o i j := by
  have hj : j.val < 128 := j.isLt
  have hi : i.val < 128 := i.isLt
  unfold k0_pay50
  refine (shapeCast_apply _ _ (ix4 (0 : Fin 1) o i j) (ix3 o i j) ?_).trans
    ((shapeCast_apply _ _ (ix3 o i j) (ix2 o (⟨i.val * 128 + j.val, by omega⟩ : Fin 16384)) ?_).trans ?_)
  · rw [Shape.rowMajor_val_four, Shape.rowMajor_val_three]
    show (o.val * 128 + i.val) * 128 + j.val = (((0 : ℕ) * 32 + o.val) * 128 + i.val) * 128 + j.val
    omega
  · rw [Shape.rowMajor_val_three, Shape.rowMajor_val_two]
    show o.val * 16384 + (i.val * 128 + j.val) = (o.val * 128 + i.val) * 128 + j.val
    omega
  refine (leaky_apply _ _).trans ?_
  refine Eq.trans ?_ (X2F_eq X Sk W B Wp B1 Wd B2 o i j (i.val * 128 + j.val) rfl)
  unfold X2F
  refine congrArg Spec.leaky (congrArg₂ (· + ·) ?_ ?_)
  · refine concat4_apply v402 v455 v508 _ _ (dw9 X Sk W B Wp B1 Wd) h_v402 h_v455 h_v508 (fun o l => ?_) o (⟨i.val * 128 + j.val, by omega⟩ : Fin 16384)
    unfold dw9
    exact (congrArg₂ (· + ·) (congrArg₂ (· + ·) (congrArg₂ (· + ·) (h_v543 o l) (dtap_mk X Sk W B Wp B1 Wd (6 : Fin 9) o (12288 + l.val) _ _ (slicePad_apply v341 (KImg.x1Pad X Sk W B Wp B1) 0 h_v341 12544 _ 2 12288 rfl (by decide) (by decide) o l) ((colB_apply v545 _ _ o l).trans (h_v545 o)))) (dtap_mk X Sk W B Wp B1 Wd (7 : Fin 9) o (12288 + l.val) _ _ (slicePad_apply v331 (KImg.x1Pad X Sk W B Wp B1) 1 h_v331 12544 _ 2 12288 rfl (by decide) (by decide) o l) ((colB_apply v551 _ _ o l).trans (h_v551 o)))) (dtap_mk X Sk W B Wp B1 Wd (8 : Fin 9) o (12288 + l.val) _ _ (slicePad_apply v349 (KImg.x1Pad X Sk W B Wp B1) 2 h_v349 12544 _ 2 12288 rfl (by decide) (by decide) o l) ((colB_apply v557 _ _ o l).trans (h_v557 o))))
  · exact (Cert.ColumnForms.broadcastTo_a1_ab_apply v563 _ o _).trans (h_v563 o)

end Cert.Proof.KFlat

end
-- ==== Proof.LibStripForms.lean ====
/-
  Reshapes of a strip read by coordinates, and the column up-sampling sum.

  A vector.shape_cast keeps every entry's row-major position, so a cast that merges or splits the two TRAILING
  axes ([a, b, c] ↔ [a, b·c]), inserts a unit axis before the last one ([a, b, c] → [a, b, 1, c]) or merges two
  middle axes ([a, b, d, c] → [a, b·d, c]) reads, at an index written by its coordinates, the operand at the
  index with the split or merged coordinates.

  The 0/1 matrix S(w, j) = [j = 2w + d] (d = 0 or 1; 64 rows, 128 columns), as it is computed from two iotas by
  integer multiply, add, compare, extend and convert, up-samples a row of 64 entries to 128 columns of parity
  d: Σ_w X(w) · S(w, j) is X(j/2) where j has parity d, and 0 elsewhere.
-/
import Idealize.ShloMosaic.PureOps.Ideal
import Idealize.ShloMosaic.Lib.Pipeline.Value
import Idealize.ShloMosaic.Lib.ValueIdx

noncomputable section

namespace Cert.StripForms

open Idealize.ShloMosaic Idealize.ShloMosaic.ValueIdx

variable {α : Type}

/-- `[a, b, c]` reshaped to `[a, m]` (`m = b · c`): row `r` at column `k · c + o` is the entry `(r, k, o)`. -/
theorem shapeCast_abc_am_apply {a b c m : Nat} (x : (⟨3, ![a, b, c]⟩ : Shape).Idx → α)
    (h : (⟨3, ![a, b, c]⟩ : Shape).ShapeCasts ⟨2, ![a, m]⟩) (hm : m = b * c) (r : Fin a) (k : Fin b) (o : Fin c) (q : Fin m)
    (hq : q.val = k.val * c + o.val) : shapeCast ⟨2, ![a, m]⟩ x h (ix2 r q) = x (ix3 r k o) :=
  shapeCast_apply x h _ _ (by
    rw [Shape.rowMajor_val_three, Shape.rowMajor_val_two]
    show (r.val * b + k.val) * c + o.val = r.val * m + q.val
    rw [hq, hm]; ring)

/-- `[a, m]` reshaped to `[a, b, c]` (`m = b · c`): the entry `(r, k, o)` is row `r` at column `k · c + o`. -/
theorem shapeCast_am_abc_apply {a b c m : Nat} (x : (⟨2, ![a, m]⟩ : Shape).Idx → α)
    (h : (⟨2, ![a, m]⟩ : Shape).ShapeCasts ⟨3, ![a, b, c]⟩) (hm : m = b * c) (r : Fin a) (k : Fin b) (o : Fin c) (q : Fin m)
    (hq : q.val = k.val * c + o.val) : shapeCast ⟨3, ![a, b, c]⟩ x h (ix3 r k o) = x (ix2 r q) :=
  shapeCast_apply x h _ _ (by
    rw [Shape.rowMajor_val_three, Shape.rowMajor_val_two]
    show r.val * m + q.val = (r.val * b + k.val) * c + o.val
    rw [hq, hm]; ring)

/-- `[a, b, c]` with a unit axis inserted before the last: `(r, k, u, o)` is the entry `(r, k, o)`. -/
theorem shapeCast_abc_ab1c_apply {a b c : Nat} (x : (⟨3, ![a, b, c]⟩ : Shape).Idx → α)
    (h : (⟨3, ![a, b, c]⟩ : Shape).ShapeCasts ⟨4, ![a, b, 1, c]⟩) (r : Fin a) (k : Fin b) (u : Fin 1) (o : Fin c) :
    shapeCast ⟨4, ![a, b, 1, c]⟩ x h (ix4 r k u o) = x (ix3 r k o) :=
  shapeCast_apply x h _ _ (by
    have hu : u.val = 0 := by omega
    rw [Shape.rowMajor_val_four, Shape.rowMajor_val_three]
    show (r.val * b + k.val) * c + o.val = ((r.val * b + k.val) * 1 + u.val) * c + o.val
    rw [hu, Nat.mul_one, Nat.add_zero])

/-- `[a, b, d, c]` reshaped to `[a, m, c]` (`m = b · d`): `(r, k · d + e, o)` is the entry `(r, k, e, o)`. -/
theorem shapeCast_abdc_amc_apply {a b d c m : Nat} (x : (⟨4, ![a, b, d, c]⟩ : Shape).Idx → α)
    (h : (⟨4, ![a, b, d, c]⟩ : Shape).ShapeCasts ⟨3, ![a, m, c]⟩) (hm : m = b * d) (r : Fin a) (k : Fin b) (e : Fin d) (o : Fin c)
    (q : Fin m) (hq : q.val = k.val * d + e.val) : shapeCast ⟨3, ![a, m, c]⟩ x h (ix3 r q o) = x (ix4 r k e o) :=
  shapeCast_apply x h _ _ (by
    rw [Shape.rowMajor_val_four, Shape.rowMajor_val_three]
    show ((r.val * b + k.val) * d + e.val) * c + o.val = (r.val * m + q.val) * c + o.val
    rw [hq, hm]; ring)

/-! ## The column up-sampling matrix -/

/-- Comparing the column number with twice the row number plus the parity, on 32-bit words: equal exactly when
    the numbers are (64 rows, 128 columns: nothing wraps). -/
theorem cmp_scatter : ∀ (d : Fin 2) (w : Fin 64) (j : Fin 128),
    IntOp.cmpi .eq (BitVec.ofNat 32 j.val) (IntOp.addi (IntOp.muli 2#32 (BitVec.ofNat 32 w.val)) (BitVec.ofNat 32 d.val))
      = if j.val = 2 * w.val + d.val then 1#1 else 0#1 := by
  decide +kernel

/-- The matrix entry as the programs compute it — compare, extend to 32 bits, convert — is 1 or 0. -/
theorem scatter_entry (d : Fin 2) (w : Fin 64) (j : Fin 128) :
    FloatOps.sitofp (F := Ideal) .f32
        ((IntOp.cmpi .eq (BitVec.ofNat 32 j.val) (IntOp.addi (IntOp.muli 2#32 (BitVec.ofNat 32 w.val)) (BitVec.ofNat 32 d.val))).setWidth 32)
      = if j.val = 2 * w.val + d.val then (1 : EReal) else 0 := by
  rw [cmp_scatter]
  split
  · show (((1#1 : BitVec 1).setWidth 32).toInt : ℝ) = ((1 : ℝ) : EReal)
    norm_num
  · show (((0#1 : BitVec 1).setWidth 32).toInt : ℝ) = ((0 : ℝ) : EReal)
    norm_num

/-- Up-sampling a row: the sum against the matrix picks entry `j / 2` on the columns of parity `d`, nothing on
    the others. -/
theorem sum_scatter (d : Fin 2) (X : Fin 64 → EReal) (j : Fin 128) :
    ∑ w : Fin 64, X w * (if j.val = 2 * w.val + d.val then (1 : EReal) else 0)
      = if j.val % 2 = d.val then X ⟨j.val / 2, by omega⟩ else 0 := by
  by_cases hp : j.val % 2 = d.val
  · rw [if_pos hp, Finset.sum_eq_single (⟨j.val / 2, by omega⟩ : Fin 64)]
    · rw [if_pos (by show j.val = 2 * (j.val / 2) + d.val; omega), mul_one]
    · intro w _ hw
      rw [if_neg (fun e => hw (Fin.ext (by show w.val = j.val / 2; omega))), mul_zero]
    · intro h; exact absurd (Finset.mem_univ _) h
  · rw [if_neg hp]
    refine Finset.sum_eq_zero fun w _ => ?_
    rw [if_neg (fun e => hp (by omega)), mul_zero]

end Cert.StripForms

end
-- ==== Proof.KernelUp.lean ====
/-
  The transposed convolution of the fused kernel, read at an index.

  The input image, its rows laid out as a [128·64, 64] matrix, is multiplied by the two 0/1 matrices
  S_d(w, j) = [j = 2w + d]: column j of the product is the input's column j / 2 where j has parity d, zero
  elsewhere. The four weight slices then contract the 128 input channels, two slices per output-row parity; the
  bias column is added and the two row parities are interleaved: flat pixel n = i·128 + j of channel o is the
  specification's up-sampled value at (o, i, j).
-/
import proofs.«169621_g2000704505896602_pallasbulk_1077_31_alg».proof.Proof.KernelFlat
import proofs.«169621_g2000704505896602_pallasbulk_1077_31_alg».proof.Proof.LibStripForms

set_option maxRecDepth 16384

noncomputable section

namespace Cert.Proof.KFlat

open Cert.KernelIdeal Cert.KernelIdeal.Gen
open Idealize.ShloMosaic Idealize.ShloMosaic.ValueIdx Cert.PointConv Cert.StripForms

set_option maxHeartbeats 1000000 in
/-- The input image as a [128·64, 64] matrix: row `c·64 + h` is row `h` of channel `c`. -/
theorem pay1_apply (x0 : Vec Ideal S1x128x64x64 .f32) (c : Fin 128) (h : Fin 64) (w' : Fin 64) (q : Fin 8192)
    (hq : q.val = c.val * 64 + h.val) : k0_pay1 x0 (ix2 q w') = x0 (ix4 (0 : Fin 1) c h w') := by
  unfold k0_pay1
  show shapeCast S8192x64 (shapeCast S128x64x64 x0 shapeCasts_S1x128x64x64_S128x64x64) shapeCasts_S128x64x64_S8192x64 (ix2 q w') = _
  refine (shapeCast_apply _ shapeCasts_S128x64x64_S8192x64 (ix2 q w') (ix3 c h w') ?_).trans
    (shapeCast_apply x0 shapeCasts_S1x128x64x64_S128x64x64 (ix3 c h w') (ix4 (0 : Fin 1) c h w') ?_)
  · rw [Shape.rowMajor_val_three, Shape.rowMajor_val_two]
    show (c.val * 64 + h.val) * 64 + w'.val = q.val * 64 + w'.val
    rw [hq]
  · rw [Shape.rowMajor_val_four, Shape.rowMajor_val_three]
    show (((0 : ℕ) * 128 + c.val) * 64 + h.val) * 64 + w'.val = (c.val * 64 + h.val) * 64 + w'.val
    omega

/-- The 0/1 up-sampling matrix of parity `d`, as computed from the two iotas. -/
theorem scat_apply (d : Fin 2) (hi1 : S64x128.Iotas .tc 32 [1]) (hi0 : S64x128.Iotas .tc 32 [0]) (hlt : 1 < 32)
    (hb : FTy.bf16.bits < FTy.f32.bits) (w' : Fin 64) (j : Fin 128) :
    truncf (F := Ideal) .bf16 (sitofp .f32 (extui 32 (cmpi .eq (iota .tc S64x128 32 [1] hi1)
        (addi (muli (broadcast S64x128 2#32) (iota .tc S64x128 32 [0] hi0)) (broadcast S64x128 (BitVec.ofNat 32 d.val)))) hlt)) hb (ix2 w' j)
      = if j.val = 2 * w'.val + d.val then (1 : EReal) else 0 := by
  show FloatOps.sitofp (F := Ideal) .f32 ((IntOp.cmpi .eq (iota .tc S64x128 32 [1] hi1 (ix2 w' j))
      (IntOp.addi (IntOp.muli 2#32 (iota .tc S64x128 32 [0] hi0 (ix2 w' j))) (BitVec.ofNat 32 d.val))).setWidth 32) = _
  rw [iota_single_apply, iota_single_apply]
  exact scatter_entry d w' j

/-- The column up-sampling of parity `d`: entry `(c, h·128 + j)` is the input at `(c, h, j / 2)` where `j` has
    parity `d`, zero elsewhere. -/
theorem E_apply (x0 : Vec Ideal S1x128x64x64 .f32) (d : Fin 2) (S : FVec Ideal S64x128 .bf16)
    (hS : ∀ (w' : Fin 64) (j : Fin 128), S (ix2 w' j) = if j.val = 2 * w'.val + d.val then (1 : EReal) else 0)
    (wf) (hsc : S8192x128.ShapeCasts S128x8192) (hb : FTy.bf16.bits < FTy.f32.bits)
    (c : Fin 128) (h : Fin 64) (j : Fin 128) (m : Fin 8192) (hm : m.val = h.val * 128 + j.val) :
    shapeCast S128x8192 (truncf (F := Ideal) .bf16 (FloatOps.matmul (plainDims 8192 64 128 wf) none (k0_pay1 x0) S
        (constant (F := Ideal) S8192x128 .f32 0x00000000#32)) hb) hsc (ix2 c m)
      = if j.val % 2 = d.val then x0 (ix4 (0 : Fin 1) c h (⟨j.val / 2, by omega⟩ : Fin 64)) else 0 := by
  have hh : h.val < 64 := h.isLt
  have hc : c.val < 128 := c.isLt
  refine (shapeCast_apply _ hsc (ix2 c m) (ix2 (⟨c.val * 64 + h.val, by omega⟩ : Fin 8192) j) ?_).trans ?_
  · rw [Shape.rowMajor_val_two, Shape.rowMajor_val_two]
    show (c.val * 64 + h.val) * 128 + j.val = c.val * 8192 + m.val
    omega
  · show FloatOps.matmul (plainDims 8192 64 128 wf) none (k0_pay1 x0) S (constant (F := Ideal) S8192x128 .f32 0x00000000#32)
        (ix2 (⟨c.val * 64 + h.val, by omega⟩ : Fin 8192) j) = _
    rw [plainMatmul_zero_apply]
    rw [← sum_scatter d (fun w' => x0 (ix4 (0 : Fin 1) c h w')) j]
    refine Finset.sum_congr rfl fun w' _ => ?_
    rw [pay1_apply x0 c h w' _ rfl, hS]

section Up

variable (X : Fin 128 → Fin 64 → Fin 64 → EReal) (W : Fin 4 → Fin 64 → Fin 128 → EReal) (B : Fin 64 → EReal)

/-- Two weight slices against the two up-sampled copies, and the bias column: one row parity of the transposed
    convolution, entry `(o, h, j)`. -/
theorem rows_apply (E0 E1 : FVec Ideal S128x8192 .bf16) (w0 w1 : Vec Ideal S1x64x128 .f32) (bv : Vec Ideal S64x1 .f32)
    (wf) (hs0 hs1 : S1x64x128.ShapeCasts S64x128) (hb0 hb1 hb2 : FTy.bf16.bits < FTy.f32.bits)
    (hbc : S64x1.Broadcasts S64x8192) (hsc : S64x8192.ShapeCasts S64x64x128)
    (o : Fin 64) (h : Fin 64) (j : Fin 128) (m : Fin 8192) (hm : m.val = h.val * 128 + j.val) :
    shapeCast S64x64x128 (truncf (F := Ideal) .bf16 (addf (addf
        (FloatOps.matmul (plainDims 64 128 8192 wf) none (truncf (F := Ideal) .bf16 (shapeCast S64x128 w0 hs0) hb0) E0 (constant (F := Ideal) S64x8192 .f32 0x00000000#32))
        (FloatOps.matmul (plainDims 64 128 8192 wf) none (truncf (F := Ideal) .bf16 (shapeCast S64x128 w1 hs1) hb1) E1 (constant (F := Ideal) S64x8192 .f32 0x00000000#32)))
        (broadcastTo S64x8192 bv hbc)) hb2) hsc (ix3 o h j)
      = ((∑ c : Fin 128, w0 (ix3 (0 : Fin 1) o c) * E0 (ix2 c m)) + (∑ c : Fin 128, w1 (ix3 (0 : Fin 1) o c) * E1 (ix2 c m)))
          + bv (ix2 o (0 : Fin 1)) := by
  have hw : ∀ (w : Vec Ideal S1x64x128 .f32) (hs : S1x64x128.ShapeCasts S64x128) (hb : FTy.bf16.bits < FTy.f32.bits) (c : Fin 128),
      truncf (F := Ideal) .bf16 (shapeCast S64x128 w hs) hb (ix2 o c) = w (ix3 (0 : Fin 1) o c) := by
    intro w hs hb c
    show shapeCast S64x128 w hs (ix2 o c) = _
    refine shapeCast_apply w hs (ix2 o c) (ix3 (0 : Fin 1) o c) ?_
    rw [Shape.rowMajor_val_three, Shape.rowMajor_val_two]
    show ((0 : ℕ) * 64 + o.val) * 128 + c.val = o.val * 128 + c.val
    omega
  refine (shapeCast_apply _ hsc (ix3 o h j) (ix2 o m) ?_).trans ?_
  · rw [Shape.rowMajor_val_two, Shape.rowMajor_val_three]
    show o.val * 8192 + m.val = (o.val * 64 + h.val) * 128 + j.val
    omega
  · refine congrArg₂ (· + ·) (congrArg₂ (· + ·) ?_ ?_) (Cert.ColumnForms.broadcastTo_a1_ab_apply bv hbc o m)
    · rw [plainMatmul_zero_apply]
      exact Finset.sum_congr rfl fun c _ => by rw [hw]
    · rw [plainMatmul_zero_apply]
      exact Finset.sum_congr rfl fun c _ => by rw [hw]

/-- The two parity sums and the bias are the specification's up-sampled value: on a column of parity 0 the second
    sum's terms are products by zero, on a column of parity 1 the first's. -/
theorem up_alg (o : Fin 64) (i j : Fin 128) :
    ((∑ c : Fin 128, W (⟨2 * (i.val % 2), by omega⟩ : Fin 4) o c
          * (if j.val % 2 = (0 : Fin 2).val then X c (⟨i.val / 2, by omega⟩ : Fin 64) (⟨j.val / 2, by omega⟩ : Fin 64) else 0))
      + (∑ c : Fin 128, W (⟨2 * (i.val % 2) + 1, by omega⟩ : Fin 4) o c
          * (if j.val % 2 = (1 : Fin 2).val then X c (⟨i.val / 2, by omega⟩ : Fin 64) (⟨j.val / 2, by omega⟩ : Fin 64) else 0)))
      + B o = KImg.up X W B o i j := by
  unfold KImg.up
  refine congrArg (· + B o) ?_
  rcases Nat.mod_two_eq_zero_or_one j.val with hp | hp
  · have e0 : j.val % 2 = (0 : Fin 2).val := hp
    have e1 : ¬ j.val % 2 = (1 : Fin 2).val := by rw [hp]; decide
    simp only [if_pos e0, if_neg e1, mul_zero, Finset.sum_const_zero, add_zero]
    refine Finset.sum_congr rfl fun c _ => ?_
    congr 2
    exact Fin.ext (by show 2 * (i.val % 2) = 2 * (i.val % 2) + j.val % 2; omega)
  · have e0 : ¬ j.val % 2 = (0 : Fin 2).val := by rw [hp]; decide
    have e1 : j.val % 2 = (1 : Fin 2).val := hp
    simp only [if_neg e0, if_pos e1, mul_zero, Finset.sum_const_zero, zero_add]
    refine Finset.sum_congr rfl fun c _ => ?_
    congr 2
    exact Fin.ext (by show 2 * (i.val % 2) + 1 = 2 * (i.val % 2) + j.val % 2; omega)

end Up

/-! ## The payloads -/

/-- The up-sampled copy of parity 0. -/
theorem pay3_apply (x0 : Vec Ideal S1x128x64x64 .f32) (c : Fin 128) (h : Fin 64) (j : Fin 128) (m : Fin 8192)
    (hm : m.val = h.val * 128 + j.val) :
    k0_pay3 x0 (ix2 c m) = if j.val % 2 = (0 : Fin 2).val then x0 (ix4 (0 : Fin 1) c h (⟨j.val / 2, by omega⟩ : Fin 64)) else 0 := by
  unfold k0_pay3 k0_pay2
  exact E_apply x0 0 _ (fun w' j => scat_apply 0 _ _ _ _ w' j) _ _ _ c h j m hm

/-- The up-sampled copy of parity 1. -/
theorem pay4_apply (x0 : Vec Ideal S1x128x64x64 .f32) (c : Fin 128) (h : Fin 64) (j : Fin 128) (m : Fin 8192)
    (hm : m.val = h.val * 128 + j.val) :
    k0_pay4 x0 (ix2 c m) = if j.val % 2 = (1 : Fin 2).val then x0 (ix4 (0 : Fin 1) c h (⟨j.val / 2, by omega⟩ : Fin 64)) else 0 := by
  unfold k0_pay4 k0_pay2
  exact E_apply x0 1 _ (fun w' j => scat_apply 1 _ _ _ _ w' j) _ _ _ c h j m hm

/-- The even output rows of the transposed convolution. -/
theorem pay5_apply (x0 : Vec Ideal S1x128x64x64 .f32) (v26 v29 : Vec Ideal S1x64x128 .f32) (v35 : Vec Ideal S64x1 .f32)
    (o : Fin 64) (h : Fin 64) (j : Fin 128) (m : Fin 8192) (hm : m.val = h.val * 128 + j.val) :
    k0_pay5 x0 v26 v29 v35 (ix3 o h j)
      = ((∑ c : Fin 128, v26 (ix3 (0 : Fin 1) o c) * k0_pay3 x0 (ix2 c m)) + (∑ c : Fin 128, v29 (ix3 (0 : Fin 1) o c) * k0_pay4 x0 (ix2 c m)))
          + v35 (ix2 o (0 : Fin 1)) := by
  unfold k0_pay5
  exact rows_apply (k0_pay3 x0) (k0_pay4 x0) v26 v29 v35 _ _ _ _ _ _ _ _ o h j m hm

/-- The interleaved rows, an even output row: the first operand's entry. -/
theorem pay8_even (v16 v25 : FVec Ideal S128x8192 .bf16) (v39 : FVec Ideal S64x64x128 .bf16) (v40 v43 : Vec Ideal S1x64x128 .f32)
    (v49 : Vec Ideal S64x1 .f32) (o : Fin 64) (h : Fin 64) (j : Fin 128) (n : Fin 16384) (hn : n.val = (2 * h.val) * 128 + j.val) :
    k0_pay8 v16 v25 v39 v40 v43 v49 (ix2 o n) = v39 (ix3 o h j) := by
  unfold k0_pay8
  rw [shapeCast_self]
  refine (shapeCast_apply _ shapeCasts_S64x64x2x128_S64x16384 (ix2 o n) (ix4 o h (0 : Fin 2) j) ?_).trans ?_
  · rw [Shape.rowMajor_val_four, Shape.rowMajor_val_two]
    show ((o.val * 64 + h.val) * 2 + 0) * 128 + j.val = o.val * 16384 + n.val
    omega
  · refine (concatenate_pair_apply_left (t := S64x64x2x128) (s₁ := S64x64x1x128) (s₂ := S64x64x1x128) (2 : Fin 4) _ _ concatenates_S64x64x1x128_S64x64x1x128_S64x64x2x128_d2 (ix4 o h (0 : Fin 2) j) rfl
      (ix4 o h (0 : Fin 1) j) ?_).trans (shapeCast_abc_ab1c_apply v39 _ o h 0 j)
    intro b
    match b with
    | ⟨0, _⟩ => rfl
    | ⟨1, _⟩ => rfl
    | ⟨2, _⟩ => rfl
    | ⟨3, _⟩ => rfl

/-- The interleaved rows, an odd output row: the second row parity, computed in place. -/
theorem pay8_odd (v16 v25 : FVec Ideal S128x8192 .bf16) (v39 : FVec Ideal S64x64x128 .bf16) (v40 v43 : Vec Ideal S1x64x128 .f32)
    (v49 : Vec Ideal S64x1 .f32) (o : Fin 64) (h : Fin 64) (j : Fin 128) (n : Fin 16384) (hn : n.val = (2 * h.val + 1) * 128 + j.val)
    (m : Fin 8192) (hm : m.val = h.val * 128 + j.val) :
    k0_pay8 v16 v25 v39 v40 v43 v49 (ix2 o n)
      = ((∑ c : Fin 128, v40 (ix3 (0 : Fin 1) o c) * v16 (ix2 c m)) + (∑ c : Fin 128, v43 (ix3 (0 : Fin 1) o c) * v25 (ix2 c m)))
          + v49 (ix2 o (0 : Fin 1)) := by
  unfold k0_pay8
  rw [shapeCast_self]
  refine (shapeCast_apply _ shapeCasts_S64x64x2x128_S64x16384 (ix2 o n) (ix4 o h (1 : Fin 2) j) ?_).trans ?_
  · rw [Shape.rowMajor_val_four, Shape.rowMajor_val_two]
    show ((o.val * 64 + h.val) * 2 + 1) * 128 + j.val = o.val * 16384 + n.val
    omega
  · refine (concatenate_pair_apply_right (t := S64x64x2x128) (s₁ := S64x64x1x128) (s₂ := S64x64x1x128) (2 : Fin 4) _ _ concatenates_S64x64x1x128_S64x64x1x128_S64x64x2x128_d2 (ix4 o h (1 : Fin 2) j) rfl rfl
      (ix4 o h (0 : Fin 1) j) ?_ ?_).trans ((shapeCast_abc_ab1c_apply _ _ o h 0 j).trans ?_)
    · intro b hb
      match b with
      | ⟨0, _⟩ => rfl
      | ⟨1, _⟩ => rfl
      | ⟨2, _⟩ => exact absurd rfl hb
      | ⟨3, _⟩ => rfl
    · rfl
    · exact rows_apply v16 v25 v40 v43 v49 _ _ _ _ _ _ _ _ o h j m hm

section UpFinal

variable (X : Fin 128 → Fin 64 → Fin 64 → EReal) (W : Fin 4 → Fin 64 → Fin 128 → EReal) (B : Fin 64 → EReal)

/-- The flat up-sampled half of z at pixel `n = i·128 + j` of channel `o`: the specification's `up`. -/
theorem up_final (x0 : Vec Ideal S1x128x64x64 .f32) (w0 w1 w2 w3 : Vec Ideal S1x64x128 .f32) (bv : Vec Ideal S64x1 .f32)
    (hx : ∀ (c : Fin 128) (h w' : Fin 64), x0 (ix4 (0 : Fin 1) c h w') = X c h w')
    (hw0 : ∀ (o : Fin 64) (c : Fin 128), w0 (ix3 (0 : Fin 1) o c) = W 0 o c)
    (hw1 : ∀ (o : Fin 64) (c : Fin 128), w1 (ix3 (0 : Fin 1) o c) = W 1 o c)
    (hw2 : ∀ (o : Fin 64) (c : Fin 128), w2 (ix3 (0 : Fin 1) o c) = W 2 o c)
    (hw3 : ∀ (o : Fin 64) (c : Fin 128), w3 (ix3 (0 : Fin 1) o c) = W 3 o c)
    (hb : ∀ o : Fin 64, bv (ix2 o (0 : Fin 1)) = B o)
    (o : Fin 64) (i j : Fin 128) (n : Fin 16384) (hn : n.val = i.val * 128 + j.val) :
    k0_pay8 (k0_pay3 x0) (k0_pay4 x0) (k0_pay5 x0 w0 w1 bv) w2 w3 bv (ix2 o n) = KImg.up X W B o i j := by
  have hi : i.val < 128 := i.isLt
  have hj : j.val < 128 := j.isLt
  rw [← up_alg X W B o i j]
  rcases Nat.mod_two_eq_zero_or_one i.val with hd | hd
  · rw [pay8_even _ _ _ _ _ _ o (⟨i.val / 2, by omega⟩ : Fin 64) j n (by show n.val = 2 * (i.val / 2) * 128 + j.val; omega),
      pay5_apply x0 w0 w1 bv o (⟨i.val / 2, by omega⟩ : Fin 64) j (⟨i.val / 2 * 128 + j.val, by omega⟩ : Fin 8192) rfl]
    refine congrArg₂ (· + ·) (congrArg₂ (· + ·) (Finset.sum_congr rfl fun c _ => ?_) (Finset.sum_congr rfl fun c _ => ?_)) (hb o)
    · rw [hw0, pay3_apply x0 c (⟨i.val / 2, by omega⟩ : Fin 64) j _ rfl, hx]
      congr 2
      exact Fin.ext (by show 0 = 2 * (i.val % 2); omega)
    · rw [hw1, pay4_apply x0 c (⟨i.val / 2, by omega⟩ : Fin 64) j _ rfl, hx]
      congr 2
      exact Fin.ext (by show 1 = 2 * (i.val % 2) + 1; omega)
  · rw [pay8_odd _ _ _ _ _ _ o (⟨i.val / 2, by omega⟩ : Fin 64) j n (by show n.val = (2 * (i.val / 2) + 1) * 128 + j.val; omega)
      (⟨i.val / 2 * 128 + j.val, by omega⟩ : Fin 8192) rfl]
    refine congrArg₂ (· + ·) (congrArg₂ (· + ·) (Finset.sum_congr rfl fun c _ => ?_) (Finset.sum_congr rfl fun c _ => ?_)) (hb o)
    · rw [hw2, pay3_apply x0 c (⟨i.val / 2, by omega⟩ : Fin 64) j _ rfl, hx]
      congr 2
      exact Fin.ext (by show 2 = 2 * (i.val % 2); omega)
    · rw [hw3, pay4_apply x0 c (⟨i.val / 2, by omega⟩ : Fin 64) j _ rfl, hx]
      congr 2
      exact Fin.ext (by show 3 = 2 * (i.val % 2) + 1; omega)

end UpFinal

end Cert.Proof.KFlat

end
-- ==== Proof.KernelScratch.lean ====
/-
  The two scratch buffers of the fused kernel, read at an index.

  A flat padded buffer is filled by stores through unit-stride rectangles: a block of zeros over the first 128
  lanes, one over the last 128, and the image's 16384 flat pixels in between (for z in two channel halves: the
  up-sampled channels and the skip tensor's). Read back whole, lane l of row g is the zero-extended image at padded
  row l / 128 and padded column l % 128 + 1.
-/
import proofs.«169621_g2000704505896602_pallasbulk_1077_31_alg».proof.Proof.KernelDw
import proofs.«169621_g2000704505896602_pallasbulk_1077_31_alg».proof.Proof.KernelUp

set_option maxRecDepth 16384

noncomputable section

namespace Cert.Proof.KFlat

open Cert.KernelIdeal Cert.KernelIdeal.Gen
open Idealize.ShloMosaic Idealize.ShloMosaic.ValueIdx Cert.PointConv

section Pieces

variable {Val : EltTy → Type} {e : EltTy}

/-- Membership of (g, l) in the rectangle of rows a…a+h−1 and lanes b…b+w−1. -/
theorem mem_unit2 {R C : ℕ} (a b h w : ℕ) (inb) (g : Fin R) (l : Fin C) :
    (ix2 g l : (⟨2, ![R, C]⟩ : Shape).Idx) ∈ (Rect.unit (s := ⟨2, ![R, C]⟩) ![a, b] ![h, w] inb).set
      ↔ (a ≤ g.val ∧ g.val < a + h) ∧ (b ≤ l.val ∧ l.val < b + w) := by
  rw [Rect.mem_set_unit]
  constructor
  · intro H
    exact ⟨H (0 : Fin 2), H (1 : Fin 2)⟩
  · intro H x
    match x with
    | ⟨0, _⟩ => exact H.1
    | ⟨1, _⟩ => exact H.2

/-- Inside the newest store's rectangle: its payload at the shifted index. -/
theorem canon_hit2 [∀ e, Nonempty (Val e)] {R C : ℕ} (a b h w : ℕ) (inb)
    (pay : (⟨2, ![h, w]⟩ : Shape).Idx → Val e) (L : List (View.Piece Val (⟨2, ![R, C]⟩ : Shape) e))
    (g : Fin R) (l : Fin C) (hg : a ≤ g.val ∧ g.val < a + h) (hl : b ≤ l.val ∧ l.val < b + w) :
    View.canon (⟨Rect.unit (s := ⟨2, ![R, C]⟩) ![a, b] ![h, w] inb, pay⟩ :: L) (ix2 g l)
      = pay (ix2 (⟨g.val - a, by omega⟩ : Fin h) (⟨l.val - b, by omega⟩ : Fin w)) := by
  have e : (Rect.unit (s := ⟨2, ![R, C]⟩) ![a, b] ![h, w] inb).emb (ix2 (⟨g.val - a, by omega⟩ : Fin h) (⟨l.val - b, by omega⟩ : Fin w))
      = ix2 g l := funext fun x => Fin.ext (by
    match x with
    | ⟨0, _⟩ => show a + 1 * (g.val - a) = g.val; omega
    | ⟨1, _⟩ => show b + 1 * (l.val - b) = l.val; omega)
  rw [← e]
  exact View.canon_cons_emb _ _ _ _

/-- Outside it: what the older stores left. -/
theorem canon_miss2 [∀ e, Nonempty (Val e)] {R C : ℕ} (a b h w : ℕ) (inb)
    (pay : (⟨2, ![h, w]⟩ : Shape).Idx → Val e) (L : List (View.Piece Val (⟨2, ![R, C]⟩ : Shape) e))
    (g : Fin R) (l : Fin C) (hm : ¬((a ≤ g.val ∧ g.val < a + h) ∧ (b ≤ l.val ∧ l.val < b + w))) :
    View.canon (⟨Rect.unit (s := ⟨2, ![R, C]⟩) ![a, b] ![h, w] inb, pay⟩ :: L) (ix2 g l) = View.canon L (ix2 g l) :=
  View.canon_cons_of_not_mem _ _ (by rw [mem_unit2]; exact hm)

end Pieces

theorem hz2 : (![0, 0] : Fin 2 → ℕ) = fun _ => 0 := funext fun a => by fin_cases a <;> rfl

variable (X : Fin 128 → Fin 64 → Fin 64 → EReal) (Sk : Fin 64 → Fin 128 → Fin 128 → EReal)
  (W : Fin 4 → Fin 64 → Fin 128 → EReal) (B : Fin 64 → EReal)
  (Wp : Fin 9 → Fin 32 → Fin 128 → EReal) (B1 : Fin 32 → EReal) (Wd : Fin 9 → Fin 32 → EReal) (B2 : Fin 32 → EReal)

/-- The flat x1 scratch read back whole: the zero-extended x1. -/
theorem xcov_apply {sig : RefSig} {κ : Kind} {sp : Space} (v : View sig κ sp S32x16640 .f32)
    (P : FVec Ideal S32x16384 .f32) (Z1 Z0 : FVec Ideal S32x128 .f32) (inb1) (inb2) (inb3) (inb0)
    (hP : ∀ (o : Fin 32) (n : Fin 16384), P (ix2 o n) = X1F X Sk W B Wp B1 o n.val)
    (hZ1 : ∀ i, Z1 i = 0) (hZ0 : ∀ i, Z0 i = 0) (o : Fin 32) (l : Fin 16640) :
    v.readCov (Val := Elt Ideal) [⟨Rect.unit ![0, 128] S32x16384.size inb1, P⟩, ⟨Rect.unit ![0, 16512] S32x128.size inb2, Z1⟩,
        ⟨Rect.unit ![0, 0] S32x128.size inb3, Z0⟩] (Rect.unit ![0, 0] S32x16640.size inb0).toLoadRect (ix2 o l)
      = XT X Sk W B Wp B1 1 o l.val := by
  have hl : l.val < 16640 := l.isLt
  have ho : o.val < 32 := o.isLt
  rw [View.readCov_eq_canon_ld v _ _ (fun y => by
    rw [eq_ix2 y]
    have hy1 : (y 1).val < 16640 := (y 1).isLt
    have hy0 : (y 0).val < 32 := (y 0).isLt
    by_cases c0 : (y 1).val < 128
    · exact ⟨_, List.mem_cons_of_mem _ (List.mem_cons_of_mem _ (List.mem_singleton_self _)), (mem_unit2 0 0 32 128 inb3 (y 0) (y 1)).2 ⟨⟨by omega, by omega⟩, by omega, by omega⟩⟩
    by_cases c1 : (y 1).val < 16512
    · exact ⟨_, List.mem_cons_self, (mem_unit2 0 128 32 16384 inb1 (y 0) (y 1)).2 ⟨⟨by omega, by omega⟩, by omega, by omega⟩⟩
    · exact ⟨_, List.mem_cons_of_mem _ List.mem_cons_self, (mem_unit2 0 16512 32 128 inb2 (y 0) (y 1)).2 ⟨⟨by omega, by omega⟩, by omega, by omega⟩⟩)]
  rw [View.ld_unit_zero (S := S32x16640) hz2]
  unfold XT KImg.x1Pad
  by_cases c0 : l.val < 128
  · refine ((canon_miss2 (Val := Elt Ideal) (e := .f32) 0 128 32 16384 inb1 P _ o l (by omega)).trans
      ((canon_miss2 (Val := Elt Ideal) (e := .f32) 0 16512 32 128 inb2 Z1 _ o l (by omega)).trans
      ((canon_hit2 (Val := Elt Ideal) (e := .f32) 0 0 32 128 inb3 Z0 _ o l ⟨by omega, by omega⟩ ⟨by omega, by omega⟩).trans (hZ0 _)))).trans ?_
    rw [dif_neg (show ¬(1 ≤ l.val / 128 ∧ l.val / 128 ≤ 128 ∧ 1 ≤ l.val % 128 + 1 ∧ l.val % 128 + 1 ≤ 128) by omega)]
  by_cases c1 : l.val < 16512
  · refine ((canon_hit2 (Val := Elt Ideal) (e := .f32) 0 128 32 16384 inb1 P _ o l ⟨by omega, by omega⟩ ⟨by omega, by omega⟩).trans (hP _ _)).trans ?_
    rw [dif_pos (show (1 ≤ l.val / 128 ∧ l.val / 128 ≤ 128 ∧ 1 ≤ l.val % 128 + 1 ∧ l.val % 128 + 1 ≤ 128) by omega)]
    refine X1F_eq X Sk W B Wp B1 _ _ _ _ ?_
    show l.val - 128 = (l.val / 128 - 1) * 128 + (l.val % 128 + 1 - 1)
    omega
  · refine ((canon_miss2 (Val := Elt Ideal) (e := .f32) 0 128 32 16384 inb1 P _ o l (by omega)).trans
      ((canon_hit2 (Val := Elt Ideal) (e := .f32) 0 16512 32 128 inb2 Z1 _ o l ⟨by omega, by omega⟩ ⟨by omega, by omega⟩).trans (hZ1 _))).trans ?_
    rw [dif_neg (show ¬(1 ≤ l.val / 128 ∧ l.val / 128 ≤ 128 ∧ 1 ≤ l.val % 128 + 1 ∧ l.val % 128 + 1 ≤ 128) by omega)]

/-- The skip tensor's image laid out flat: row `g'`, pixel `n`. -/
theorem skip_apply (x1 : Vec Ideal S1x64x128x128 .f32) (g' : Fin 64) (n : Fin 16384) :
    k0_pay10 (k0_pay9 x1) (ix2 g' n)
      = x1 (ix4 (0 : Fin 1) g' (⟨n.val / 128, by have := n.isLt; omega⟩ : Fin 128) (⟨n.val % 128, Nat.mod_lt _ (by decide)⟩ : Fin 128)) := by
  have hn : n.val < 16384 := n.isLt
  unfold k0_pay10 k0_pay9
  rw [shapeCast_self]
  show shapeCast S64x16384 (shapeCast S64x128x128 x1 shapeCasts_S1x64x128x128_S64x128x128) shapeCasts_S64x128x128_S64x16384 (ix2 g' n) = _
  refine (shapeCast_apply _ shapeCasts_S64x128x128_S64x16384 (ix2 g' n)
      (ix3 g' (⟨n.val / 128, by omega⟩ : Fin 128) (⟨n.val % 128, Nat.mod_lt _ (by decide)⟩ : Fin 128)) ?_).trans
    (shapeCast_apply x1 shapeCasts_S1x64x128x128_S64x128x128 _ (ix4 (0 : Fin 1) g' (⟨n.val / 128, by omega⟩ : Fin 128) (⟨n.val % 128, Nat.mod_lt _ (by decide)⟩ : Fin 128)) ?_)
  · rw [Shape.rowMajor_val_three, Shape.rowMajor_val_two]
    show (g'.val * 128 + n.val / 128) * 128 + n.val % 128 = g'.val * 16384 + n.val
    omega
  · rw [Shape.rowMajor_val_four, Shape.rowMajor_val_three]
    show (((0 : ℕ) * 64 + g'.val) * 128 + n.val / 128) * 128 + n.val % 128 = (g'.val * 128 + n.val / 128) * 128 + n.val % 128
    omega

theorem pay6_zero (i : S128x128.Idx) : (k0_pay6 (F := Ideal)) i = 0 := by
  unfold k0_pay6; rw [shapeCast_self]; exact ofBits_zero_bf16

theorem pay7_zero (i : S128x128.Idx) : (k0_pay7 (F := Ideal)) i = 0 := by
  unfold k0_pay7; rw [shapeCast_self]; exact ofBits_zero_bf16

theorem pay29_zero (i : S32x128.Idx) : (k0_pay29 (F := Ideal)) i = 0 := by
  unfold k0_pay29; rw [shapeCast_self]; exact Ideal.ofBits_zero_f32

theorem pay31_zero (i : S32x128.Idx) : k0_pay31 (k0_pay30 (F := Ideal)) i = 0 := by
  unfold k0_pay31 k0_pay30; rw [shapeCast_self]; exact Ideal.ofBits_zero_f32

theorem pay32_apply (v : FVec Ideal S32x16384 .f32) : k0_pay32 v = v := by
  unfold k0_pay32; rw [shapeCast_self]

/-- The flat z scratch read back whole: the zero-extended z. -/
theorem zcov_apply {sig : RefSig} {κ : Kind} {sp : Space} (v : View sig κ sp S128x16640 .bf16)
    (Psk Pup : FVec Ideal S64x16384 .bf16) (Z1 Z0 : FVec Ideal S128x128 .bf16) (inb1) (inb2) (inb3) (inb4) (inb0)
    (hsk : ∀ (g' : Fin 64) (n : Fin 16384), Psk (ix2 g' n)
      = Sk g' (⟨n.val / 128, by have := n.isLt; omega⟩ : Fin 128) (⟨n.val % 128, Nat.mod_lt _ (by decide)⟩ : Fin 128))
    (hup : ∀ (o : Fin 64) (n : Fin 16384), Pup (ix2 o n)
      = KImg.up X W B o (⟨n.val / 128, by have := n.isLt; omega⟩ : Fin 128) (⟨n.val % 128, Nat.mod_lt _ (by decide)⟩ : Fin 128))
    (hZ1 : ∀ i, Z1 i = 0) (hZ0 : ∀ i, Z0 i = 0) (g : Fin 128) (l : Fin 16640) :
    v.readCov (Val := Elt Ideal) [⟨Rect.unit ![64, 128] S64x16384.size inb1, Psk⟩, ⟨Rect.unit ![0, 128] S64x16384.size inb2, Pup⟩,
        ⟨Rect.unit ![0, 16512] S128x128.size inb3, Z1⟩, ⟨Rect.unit ![0, 0] S128x128.size inb4, Z0⟩]
        (Rect.unit ![0, 0] S128x16640.size inb0).toLoadRect (ix2 g l)
      = ZT X Sk W B 1 g l.val := by
  have hl : l.val < 16640 := l.isLt
  have hg : g.val < 128 := g.isLt
  rw [View.readCov_eq_canon_ld v _ _ (fun y => by
    rw [eq_ix2 y]
    have hy1 : (y 1).val < 16640 := (y 1).isLt
    have hy0 : (y 0).val < 128 := (y 0).isLt
    by_cases c0 : (y 1).val < 128
    · exact ⟨_, List.mem_cons_of_mem _ (List.mem_cons_of_mem _ (List.mem_cons_of_mem _ (List.mem_singleton_self _))),
        (mem_unit2 0 0 128 128 inb4 (y 0) (y 1)).2 ⟨⟨by omega, by omega⟩, by omega, by omega⟩⟩
    by_cases c1 : (y 1).val < 16512
    · by_cases cg : (y 0).val < 64
      · exact ⟨_, List.mem_cons_of_mem _ List.mem_cons_self, (mem_unit2 0 128 64 16384 inb2 (y 0) (y 1)).2 ⟨⟨by omega, by omega⟩, by omega, by omega⟩⟩
      · exact ⟨_, List.mem_cons_self, (mem_unit2 64 128 64 16384 inb1 (y 0) (y 1)).2 ⟨⟨by omega, by omega⟩, by omega, by omega⟩⟩
    · exact ⟨_, List.mem_cons_of_mem _ (List.mem_cons_of_mem _ List.mem_cons_self),
        (mem_unit2 0 16512 128 128 inb3 (y 0) (y 1)).2 ⟨⟨by omega, by omega⟩, by omega, by omega⟩⟩)]
  rw [View.ld_unit_zero (S := S128x16640) hz2]
  unfold ZT KImg.zPad
  by_cases c0 : l.val < 128
  · refine ((canon_miss2 (Val := Elt Ideal) (e := .bf16) 64 128 64 16384 inb1 Psk _ g l (by omega)).trans
      ((canon_miss2 (Val := Elt Ideal) (e := .bf16) 0 128 64 16384 inb2 Pup _ g l (by omega)).trans
      ((canon_miss2 (Val := Elt Ideal) (e := .bf16) 0 16512 128 128 inb3 Z1 _ g l (by omega)).trans
      ((canon_hit2 (Val := Elt Ideal) (e := .bf16) 0 0 128 128 inb4 Z0 _ g l ⟨by omega, by omega⟩ ⟨by omega, by omega⟩).trans (hZ0 _))))).trans ?_
    rw [dif_neg (show ¬(1 ≤ l.val / 128 ∧ l.val / 128 ≤ 128 ∧ 1 ≤ l.val % 128 + 1 ∧ l.val % 128 + 1 ≤ 128) by omega)]
  by_cases c1 : l.val < 16512
  · rw [dif_pos (show (1 ≤ l.val / 128 ∧ l.val / 128 ≤ 128 ∧ 1 ≤ l.val % 128 + 1 ∧ l.val % 128 + 1 ≤ 128) by omega)]
    unfold KImg.z
    by_cases cg : g.val < 64
    · refine ((canon_miss2 (Val := Elt Ideal) (e := .bf16) 64 128 64 16384 inb1 Psk _ g l (by omega)).trans
        ((canon_hit2 (Val := Elt Ideal) (e := .bf16) 0 128 64 16384 inb2 Pup _ g l ⟨by omega, by omega⟩ ⟨by omega, by omega⟩).trans (hup _ _))).trans ?_
      rw [dif_pos cg]
      congr 1
      · exact Fin.ext (by show (l.val - 128) / 128 = l.val / 128 - 1; omega)
      · exact Fin.ext (by show (l.val - 128) % 128 = l.val % 128 + 1 - 1; omega)
    · refine ((canon_hit2 (Val := Elt Ideal) (e := .bf16) 64 128 64 16384 inb1 Psk _ g l ⟨by omega, by omega⟩ ⟨by omega, by omega⟩).trans (hsk _ _)).trans ?_
      rw [dif_neg cg]
      congr 1
      · exact Fin.ext (by show (l.val - 128) / 128 = l.val / 128 - 1; omega)
      · exact Fin.ext (by show (l.val - 128) % 128 = l.val % 128 + 1 - 1; omega)
  · refine ((canon_miss2 (Val := Elt Ideal) (e := .bf16) 64 128 64 16384 inb1 Psk _ g l (by omega)).trans
      ((canon_miss2 (Val := Elt Ideal) (e := .bf16) 0 128 64 16384 inb2 Pup _ g l (by omega)).trans
      ((canon_hit2 (Val := Elt Ideal) (e := .bf16) 0 16512 128 128 inb3 Z1 _ g l ⟨by omega, by omega⟩ ⟨by omega, by omega⟩).trans (hZ1 _)))).trans ?_
    rw [dif_neg (show ¬(1 ≤ l.val / 128 ∧ l.val / 128 ≤ 128 ∧ 1 ≤ l.val % 128 + 1 ∧ l.val % 128 + 1 ≤ 128) by omega)]

end Cert.Proof.KFlat

end
-- ==== Proof.KernelPoint.lean ====
/-
  One grid point of the fused kernel: what its two output stores leave in the output block is the decoder block
  of the point's image (Proof/KernelImage.lean), as a function of the eight input blocks.
-/
import proofs.«169621_g2000704505896602_pallasbulk_1077_31_alg».proof.Proof.Gen.KernelIdeal.Value
import proofs.«169621_g2000704505896602_pallasbulk_1077_31_alg».proof.Proof.KernelImage
import proofs.«169621_g2000704505896602_pallasbulk_1077_31_alg».proof.Proof.KernelScratch

set_option maxRecDepth 16384

noncomputable section

namespace Cert.Proof.KPoint

open Cert.KernelIdeal Cert.KernelIdeal.Gen Cert.Proof.KFlat
open Idealize.ShloMosaic Idealize.ShloMosaic.TcCoe Idealize.ShloMosaic.ValueIdx Idealize.SL.Sem Idealize.ShloMosaic.Tactic

theorem hz4 : (![0, 0, 0, 0] : Fin 4 → ℕ) = fun _ => 0 := funext fun a => by fin_cases a <;> rfl

/-- A load of slice `k` of a rank-3 array. -/
theorem ld_lead3 {K R C : ℕ} (x : Vec Ideal (⟨3, ![K, R, C]⟩ : Shape) .f32) (k : ℕ) (inb) (hk : k < K) (o : Fin R) (g : Fin C) :
    View.ld (Val := Elt Ideal) x (Rect.unit (s := ⟨3, ![K, R, C]⟩) ![k, 0, 0] ![1, R, C] inb) (ix3 (0 : Fin 1) o g) = x (ix3 ⟨k, hk⟩ o g) := by
  show x ((Rect.unit (s := ⟨3, ![K, R, C]⟩) ![k, 0, 0] ![1, R, C] inb).emb (ix3 (0 : Fin 1) o g)) = _
  refine congrArg x (funext fun a => Fin.ext ?_)
  match a with
  | ⟨0, _⟩ => show k + 1 * 0 = k; omega
  | ⟨1, _⟩ => show 0 + 1 * o.val = o.val; omega
  | ⟨2, _⟩ => show 0 + 1 * g.val = g.val; omega

/-- A load of column `k` of a matrix. -/
theorem ld_col {R K : ℕ} (x : Vec Ideal (⟨2, ![R, K]⟩ : Shape) .f32) (k : ℕ) (inb) (hk : k < K) (o : Fin R) :
    View.ld (Val := Elt Ideal) x (Rect.unit (s := ⟨2, ![R, K]⟩) ![0, k] ![R, 1] inb) (ix2 o (0 : Fin 1)) = x (ix2 o ⟨k, hk⟩) := by
  show x ((Rect.unit (s := ⟨2, ![R, K]⟩) ![0, k] ![R, 1] inb).emb (ix2 o (0 : Fin 1))) = _
  refine congrArg x (funext fun a => Fin.ext ?_)
  match a with
  | ⟨0, _⟩ => show 0 + 1 * o.val = o.val; omega
  | ⟨1, _⟩ => show k + 1 * 0 = k; omega

section Pieces4

variable {Val : EltTy → Type} {e : EltTy}

theorem mem_unit4 (a h : ℕ) (inb) (b : Fin 1) (ch : Fin 64) (i j : Fin 128) :
    (ix4 b ch i j : S1x64x128x128.Idx) ∈ (Rect.unit (s := S1x64x128x128) ![0, a, 0, 0] ![1, h, 128, 128] inb).set
      ↔ (a ≤ ch.val ∧ ch.val < a + h) := by
  rw [Rect.mem_set_unit]
  constructor
  · intro H
    exact H (1 : Fin 4)
  · intro H x
    match x with
    | ⟨0, _⟩ => exact ⟨Nat.zero_le _, by show b.val < 0 + 1; omega⟩
    | ⟨1, _⟩ => exact H
    | ⟨2, _⟩ => exact ⟨Nat.zero_le _, by show i.val < 0 + 128; omega⟩
    | ⟨3, _⟩ => exact ⟨Nat.zero_le _, by show j.val < 0 + 128; omega⟩

theorem canon_hit4 [∀ e, Nonempty (Val e)] (a h : ℕ) (inb)
    (pay : (⟨4, ![1, h, 128, 128]⟩ : Shape).Idx → Val e) (L : List (View.Piece Val S1x64x128x128 e))
    (b : Fin 1) (ch : Fin 64) (i j : Fin 128) (hc : a ≤ ch.val ∧ ch.val < a + h) :
    View.canon (⟨Rect.unit (s := S1x64x128x128) ![0, a, 0, 0] ![1, h, 128, 128] inb, pay⟩ :: L) (ix4 b ch i j)
      = pay (ix4 (0 : Fin 1) (⟨ch.val - a, by omega⟩ : Fin h) i j) := by
  have e : (Rect.unit (s := S1x64x128x128) ![0, a, 0, 0] ![1, h, 128, 128] inb).emb (ix4 (0 : Fin 1) (⟨ch.val - a, by omega⟩ : Fin h) i j)
      = ix4 b ch i j := funext fun x => Fin.ext (by
    match x with
    | ⟨0, _⟩ => show 0 + 1 * 0 = b.val; omega
    | ⟨1, _⟩ => show a + 1 * (ch.val - a) = ch.val; omega
    | ⟨2, _⟩ => show 0 + 1 * i.val = i.val; omega
    | ⟨3, _⟩ => show 0 + 1 * j.val = j.val; omega)
  rw [← e]
  exact View.canon_cons_emb _ _ _ _

theorem canon_miss4 [∀ e, Nonempty (Val e)] (a h : ℕ) (inb)
    (pay : (⟨4, ![1, h, 128, 128]⟩ : Shape).Idx → Val e) (L : List (View.Piece Val S1x64x128x128 e))
    (b : Fin 1) (ch : Fin 64) (i j : Fin 128) (hm : ¬(a ≤ ch.val ∧ ch.val < a + h)) :
    View.canon (⟨Rect.unit (s := S1x64x128x128) ![0, a, 0, 0] ![1, h, 128, 128] inb, pay⟩ :: L) (ix4 b ch i j) = View.canon L (ix4 b ch i j) :=
  View.canon_cons_of_not_mem _ _ (by rw [mem_unit4]; exact hm)

end Pieces4

set_option maxHeartbeats 4000000 in
/-- The output block after the body over any reading of the eight input blocks by coordinates. -/
theorem block_eq_aux (c : Dev nD) (i₀ : grid0.Coords) (a1 : Memref sig .tc .vmem S1x128x64x64 .f32) (h1 : a1.IsWhole) (a2 : Memref sig .tc .vmem S1x64x128x128 .f32) (h2 : a2.IsWhole) (a3 : Memref sig .tc .vmem S4x64x128 .f32) (h3 : a3.IsWhole) (a4 : Memref sig .tc .vmem S64x1 .f32) (h4 : a4.IsWhole) (a5 : Memref sig .tc .vmem S9x32x128 .f32) (h5 : a5.IsWhole) (a6 : Memref sig .tc .vmem S32x1 .f32) (h6 : a6.IsWhole) (a7 : Memref sig .tc .vmem S32x9 .f32) (h7 : a7.IsWhole) (a8 : Memref sig .tc .vmem S32x1 .f32) (h8 : a8.IsWhole) (a9 : Memref sig .tc .vmem S1x64x128x128 .f32) (h9 : a9.IsWhole) (a10 : Memref sig .tc .vmem S128x16640 .bf16) (h10 : a10.IsWhole) (a11 : Memref sig .tc .vmem S32x16640 .f32) (h11 : a11.IsWhole)
    (x0 : Vec Ideal S1x128x64x64 .f32) (x1 : Vec Ideal S1x64x128x128 .f32) (x2 : Vec Ideal S4x64x128 .f32) (x3 : Vec Ideal S64x1 .f32) (x4 : Vec Ideal S9x32x128 .f32) (x5 : Vec Ideal S32x1 .f32) (x6 : Vec Ideal S32x9 .f32) (x7 : Vec Ideal S32x1 .f32)
    (X : Fin 128 → Fin 64 → Fin 64 → EReal) (Sk : Fin 64 → Fin 128 → Fin 128 → EReal)
    (W : Fin 4 → Fin 64 → Fin 128 → EReal) (B : Fin 64 → EReal)
    (Wp : Fin 9 → Fin 32 → Fin 128 → EReal) (B1 : Fin 32 → EReal) (Wd : Fin 9 → Fin 32 → EReal) (B2 : Fin 32 → EReal)
    (hX : ∀ (c : Fin 128) (h w' : Fin 64), x0 (ix4 (0 : Fin 1) c h w') = X c h w')
    (hSk : ∀ (g : Fin 64) (i j : Fin 128), x1 (ix4 (0 : Fin 1) g i j) = Sk g i j)
    (hW : ∀ (k : Fin 4) (o : Fin 64) (c : Fin 128), x2 (ix3 k o c) = W k o c)
    (hB : ∀ o : Fin 64, x3 (ix2 o (0 : Fin 1)) = B o)
    (hWp : ∀ (k : Fin 9) (o : Fin 32) (g : Fin 128), x4 (ix3 k o g) = Wp k o g)
    (hB1 : ∀ o : Fin 32, x5 (ix2 o (0 : Fin 1)) = B1 o)
    (hWd : ∀ (k : Fin 9) (o : Fin 32), x6 (ix2 o k) = Wd k o)
    (hB2 : ∀ o : Fin 32, x7 (ix2 o (0 : Fin 1)) = B2 o)
    (b : Fin 1) (ch : Fin 64) (i j : Fin 128) :
    out0_A_8 c i₀ a1 h1 a2 h2 a3 h3 a4 h4 a5 h5 a6 h6 a7 h7 a8 h8 a9 h9 a10 h10 a11 h11 x0 x1 x2 x3 x4 x5 x6 x7 (ix4 b ch i j) = KImg.out X Sk W B Wp B1 Wd B2 ch i j := by
  have hchlt : ch.val < 64 := ch.isLt
  unfold out0_A_8
  rw [View.read_writes_eq_canon (Val := Elt Ideal) _ _ _ (cover0_A_8 (F := Ideal) c i₀ a1 h1 a2 h2 a3 h3 a4 h4 a5 h5 a6 h6 a7 h7 a8 h8 a9 h9 a10 h10 a11 h11 x0 x1 x2 x3 x4 x5 x6 x7)]
  unfold kernelRun0_A
  dsimp only
  sl_unfold_words
  generalize hZ : View.readCov (Val := Elt Ideal) a10.view _ _ = Z
  simp only [View.readAt_eq_ld, Memref.IsWhole.read_unread, View.ld_unit_zero (S := S1x128x64x64) hz4,
    View.ld_unit_zero (S := S1x64x128x128) hz4, View.ld_unit_zero (S := S64x1) hz2, View.ld_unit_zero (S := S32x1) hz2] at hZ ⊢
  have hu : ∀ (k : ℕ) (hk : k < 4) (inb) (o : Fin 64) (c : Fin 128),
      View.ld (Val := Elt Ideal) x2 (Rect.unit (s := S4x64x128) ![k, 0, 0] ![1, 64, 128] inb) (ix3 (0 : Fin 1) o c) = W ⟨k, hk⟩ o c :=
    fun k hk inb o c => (ld_lead3 x2 k inb hk o c).trans (hW _ o c)
  have hw : ∀ (k : ℕ) (hk : k < 9) (inb) (o : Fin 32) (g : Fin 128),
      View.ld (Val := Elt Ideal) x4 (Rect.unit (s := S9x32x128) ![k, 0, 0] ![1, 32, 128] inb) (ix3 (0 : Fin 1) o g) = Wp ⟨k, hk⟩ o g :=
    fun k hk inb o g => (ld_lead3 x4 k inb hk o g).trans (hWp _ o g)
  have hc : ∀ (k : ℕ) (hk : k < 9) (inb) (o : Fin 32),
      View.ld (Val := Elt Ideal) x6 (Rect.unit (s := S32x9) ![0, k] ![32, 1] inb) (ix2 o (0 : Fin 1)) = Wd ⟨k, hk⟩ o :=
    fun k hk inb o => (ld_col x6 k inb hk o).trans (hWd _ o)
  have hZi : ∀ (g : Fin 128) (l : Fin 16640), Z (ix2 g l) = ZT X Sk W B 1 g l.val := by
    intro g l
    rw [← hZ]
    exact zcov_apply X Sk W B a10.view _ _ _ _ _ _ _ _ _
      (fun g' n => (skip_apply x1 g' n).trans (hSk _ _ _))
      (fun o n => up_final X W B x0 _ _ _ _ x3 hX (hu 0 (by decide) inb_S4x64x128_S1x64x128_0_0_0) (hu 1 (by decide) inb_S4x64x128_S1x64x128_1_0_0) (hu 2 (by decide) inb_S4x64x128_S1x64x128_2_0_0) (hu 3 (by decide) inb_S4x64x128_S1x64x128_3_0_0) hB o _ _ n
        (by show n.val = n.val / 128 * 128 + n.val % 128; omega))
      pay7_zero pay6_zero g l
  clear hZ
  have hFL := pay12_apply X Sk W B Z hZi
  have hFR := pay13_apply X Sk W B Z hZi
  have hX1 : ∀ (o : Fin 32) (n : Fin 16384), _ = X1F X Sk W B Wp B1 o n.val := fun o n => (pay27_apply X Sk W B Wp B1 Z hZi _ hFR _ (fun o l => (pay18_apply _ _ _ _ o l (pay16_apply X Sk W B Wp Z hZi _ hFL _ hFR _ (pay14_apply X Sk W B Wp Z hZi _ (hw 0 (by decide) inb_S9x32x128_S1x32x128_0_0_0) _ (hw 1 (by decide) inb_S9x32x128_S1x32x128_1_0_0) hFL) _ (pay15_apply X Sk W B Wp Z _ (hw 2 (by decide) inb_S9x32x128_S1x32x128_2_0_0) hFR) _ (hw 3 (by decide) inb_S9x32x128_S1x32x128_3_0_0) _ (hw 4 (by decide) inb_S9x32x128_S1x32x128_4_0_0) _ (hw 5 (by decide) inb_S9x32x128_S1x32x128_5_0_0) _ (hw 6 (by decide) inb_S9x32x128_S1x32x128_6_0_0) _ (hw 7 (by decide) inb_S9x32x128_S1x32x128_7_0_0) o l) (pay17_apply X Sk W B Wp _ hFR _ (hw 8 (by decide) inb_S9x32x128_S1x32x128_8_0_0) o l))) _ (fun o l => (pay20_apply X Sk W B Wp Z hZi _ hFL _ hFR _ (pay19_apply X Sk W B Wp Z hZi _ hFL _ hFR _ (hw 0 (by decide) inb_S9x32x128_S1x32x128_0_0_0) _ (hw 1 (by decide) inb_S9x32x128_S1x32x128_1_0_0) _ (hw 2 (by decide) inb_S9x32x128_S1x32x128_2_0_0) _ (hw 3 (by decide) inb_S9x32x128_S1x32x128_3_0_0) _ (hw 4 (by decide) inb_S9x32x128_S1x32x128_4_0_0) _ (hw 5 (by decide) inb_S9x32x128_S1x32x128_5_0_0)) _ (hw 6 (by decide) inb_S9x32x128_S1x32x128_6_0_0) _ (hw 7 (by decide) inb_S9x32x128_S1x32x128_7_0_0) _ (hw 8 (by decide) inb_S9x32x128_S1x32x128_8_0_0) o l)) _ (fun o l => (pay23_apply X Sk W B Wp Z hZi _ hFL _ hFR _ (pay21_apply X Sk W B Wp Z hZi _ hFL _ hFR _ (hw 0 (by decide) inb_S9x32x128_S1x32x128_0_0_0) _ (hw 1 (by decide) inb_S9x32x128_S1x32x128_1_0_0) _ (hw 2 (by decide) inb_S9x32x128_S1x32x128_2_0_0)) _ (pay22_apply X Sk W B _ hFL) _ (hw 3 (by decide) inb_S9x32x128_S1x32x128_3_0_0) _ (hw 4 (by decide) inb_S9x32x128_S1x32x128_4_0_0) _ (hw 5 (by decide) inb_S9x32x128_S1x32x128_5_0_0) _ (hw 6 (by decide) inb_S9x32x128_S1x32x128_6_0_0) _ (hw 7 (by decide) inb_S9x32x128_S1x32x128_7_0_0) _ (hw 8 (by decide) inb_S9x32x128_S1x32x128_8_0_0) o l)) _ (fun o l => (pay25_apply X Sk W B Wp Z hZi _ hFL _ hFR _ (pay24_apply X Sk W B _ hFL) _ (hw 0 (by decide) inb_S9x32x128_S1x32x128_0_0_0) _ (hw 1 (by decide) inb_S9x32x128_S1x32x128_1_0_0) _ (hw 2 (by decide) inb_S9x32x128_S1x32x128_2_0_0) _ (hw 3 (by decide) inb_S9x32x128_S1x32x128_3_0_0) _ (hw 4 (by decide) inb_S9x32x128_S1x32x128_4_0_0) _ (hw 5 (by decide) inb_S9x32x128_S1x32x128_5_0_0) o l)) _ (pay26_apply X Sk W B _ hFL) _ (hw 6 (by decide) inb_S9x32x128_S1x32x128_6_0_0) _ (hw 7 (by decide) inb_S9x32x128_S1x32x128_7_0_0) _ (hw 8 (by decide) inb_S9x32x128_S1x32x128_8_0_0) _ hB1 o n)
  by_cases hch : ch.val < 32
  · refine ((canon_miss4 (Val := Elt Ideal) (e := .f32) 32 32 _ _ _ b ch i j (by omega)).trans (canon_hit4 (Val := Elt Ideal) (e := .f32) 0 32 _ _ _ b ch i j ⟨by omega, by omega⟩)).trans ?_
    unfold k0_pay28
    refine (pay28_apply X Sk W B Wp B1 _ hX1 _ _ _ i j).trans ?_
    unfold KImg.out
    rw [dif_pos hch]
    rfl
  · refine (canon_hit4 (Val := Elt Ideal) (e := .f32) 32 32 _ _ _ b ch i j ⟨by omega, by omega⟩).trans ?_
    generalize hXC : View.readCov (Val := Elt Ideal) a11.view _ _ = XC
    have hXCi : ∀ (o : Fin 32) (l : Fin 16640), XC (ix2 o l) = XT X Sk W B Wp B1 1 o l.val := by
      intro o l
      rw [← hXC]
      exact xcov_apply X Sk W B Wp B1 a11.view _ _ _ _ _ _ _ (fun o n => by rw [pay32_apply]; exact hX1 o n) pay31_zero pay29_zero o l
    clear hXC
    have hGL := pay34_apply X Sk W B Wp B1 XC hXCi
    have hGR := pay35_apply X Sk W B Wp B1 XC hXCi
    refine ((pay50_apply X Sk W B Wp B1 Wd B2 XC hXCi _ hGL _ hGR _ (fun o l => (pay39_apply X Sk W B Wp B1 Wd XC hXCi _ hGL _ hGR _ (pay36_apply X Sk W B Wp B1 Wd XC hXCi _ (hc 0 (by decide) inb_S32x9_S32x1_0_0) _ (hc 1 (by decide) inb_S32x9_S32x1_0_1) hGL) _ (pay37_apply X Sk W B Wp B1 XC hGR) _ (fun o => (pay38_apply _ o).trans ((hc 2 (by decide) inb_S32x9_S32x1_0_2) o)) _ (hc 3 (by decide) inb_S32x9_S32x1_0_3) _ (hc 4 (by decide) inb_S32x9_S32x1_0_4) _ (hc 5 (by decide) inb_S32x9_S32x1_0_5) _ (hc 6 (by decide) inb_S32x9_S32x1_0_6) _ (hc 7 (by decide) inb_S32x9_S32x1_0_7) _ (hc 8 (by decide) inb_S32x9_S32x1_0_8) o l)) _ (fun o l => (pay45_apply X Sk W B Wp B1 Wd _ (pay42_apply X Sk W B Wp B1 Wd XC hXCi _ hGL _ hGR _ (pay40_apply X Sk W B Wp B1 Wd _ hGL _ (hc 0 (by decide) inb_S32x9_S32x1_0_0)) _ (pay41_apply X Sk W B Wp B1 XC hXCi) _ (hc 1 (by decide) inb_S32x9_S32x1_0_1) _ (hc 2 (by decide) inb_S32x9_S32x1_0_2) _ (hc 3 (by decide) inb_S32x9_S32x1_0_3) _ (hc 4 (by decide) inb_S32x9_S32x1_0_4) _ (hc 5 (by decide) inb_S32x9_S32x1_0_5) _ (hc 6 (by decide) inb_S32x9_S32x1_0_6) _ (hc 7 (by decide) inb_S32x9_S32x1_0_7)) _ (pay43_apply X Sk W B Wp B1 _ hGR) _ (fun o l => (pay44_apply _ o l).trans ((hc 8 (by decide) inb_S32x9_S32x1_0_8) o)) o l)) _ (fun o l => (pay48_apply X Sk W B Wp B1 Wd _ hGR _ (pay46_apply X Sk W B Wp B1 Wd XC hXCi _ hGL _ hGR _ (hc 0 (by decide) inb_S32x9_S32x1_0_0) _ (hc 1 (by decide) inb_S32x9_S32x1_0_1) _ (hc 2 (by decide) inb_S32x9_S32x1_0_2) _ (hc 3 (by decide) inb_S32x9_S32x1_0_3) _ (hc 4 (by decide) inb_S32x9_S32x1_0_4) _ (hc 5 (by decide) inb_S32x9_S32x1_0_5) _ (hc 6 (by decide) inb_S32x9_S32x1_0_6)) _ (pay47_apply X Sk W B Wp B1 XC hXCi) _ (hc 7 (by decide) inb_S32x9_S32x1_0_7) _ (hc 8 (by decide) inb_S32x9_S32x1_0_8) o l)) _ (fun o l => (pay49_apply X Sk W B Wp B1 Wd XC hXCi _ hGL _ hGR _ (hc 0 (by decide) inb_S32x9_S32x1_0_0) _ (hc 1 (by decide) inb_S32x9_S32x1_0_1) _ (hc 2 (by decide) inb_S32x9_S32x1_0_2) _ (hc 3 (by decide) inb_S32x9_S32x1_0_3) _ (hc 4 (by decide) inb_S32x9_S32x1_0_4) _ (hc 5 (by decide) inb_S32x9_S32x1_0_5) o l)) _ (hc 6 (by decide) inb_S32x9_S32x1_0_6) _ (hc 7 (by decide) inb_S32x9_S32x1_0_7) _ (hc 8 (by decide) inb_S32x9_S32x1_0_8) _ hB2 _ i j)).trans ?_
    unfold KImg.out
    rw [dif_neg hch]

/-- The output block after the body, entry by entry: the decoder block of the image the point staged. -/
theorem block_eq (c : Dev nD) (i : grid0.Coords) (a1 : Memref sig .tc .vmem S1x128x64x64 .f32) (h1 : a1.IsWhole) (a2 : Memref sig .tc .vmem S1x64x128x128 .f32) (h2 : a2.IsWhole) (a3 : Memref sig .tc .vmem S4x64x128 .f32) (h3 : a3.IsWhole) (a4 : Memref sig .tc .vmem S64x1 .f32) (h4 : a4.IsWhole) (a5 : Memref sig .tc .vmem S9x32x128 .f32) (h5 : a5.IsWhole) (a6 : Memref sig .tc .vmem S32x1 .f32) (h6 : a6.IsWhole) (a7 : Memref sig .tc .vmem S32x9 .f32) (h7 : a7.IsWhole) (a8 : Memref sig .tc .vmem S32x1 .f32) (h8 : a8.IsWhole) (a9 : Memref sig .tc .vmem S1x64x128x128 .f32) (h9 : a9.IsWhole) (a10 : Memref sig .tc .vmem S128x16640 .bf16) (h10 : a10.IsWhole) (a11 : Memref sig .tc .vmem S32x16640 .f32) (h11 : a11.IsWhole)
    (x0 : Vec Ideal S1x128x64x64 .f32) (x1 : Vec Ideal S1x64x128x128 .f32) (x2 : Vec Ideal S4x64x128 .f32) (x3 : Vec Ideal S64x1 .f32) (x4 : Vec Ideal S9x32x128 .f32) (x5 : Vec Ideal S32x1 .f32) (x6 : Vec Ideal S32x9 .f32) (x7 : Vec Ideal S32x1 .f32) (y : S1x64x128x128.Idx) :
    out0_A_8 c i a1 h1 a2 h2 a3 h3 a4 h4 a5 h5 a6 h6 a7 h7 a8 h8 a9 h9 a10 h10 a11 h11 x0 x1 x2 x3 x4 x5 x6 x7 y
      = KImg.out (fun c h w' => x0 (ix4 (0 : Fin 1) c h w')) (fun g i j => x1 (ix4 (0 : Fin 1) g i j)) (fun k o c => x2 (ix3 k o c))
          (fun o => x3 (ix2 o (0 : Fin 1))) (fun k o g => x4 (ix3 k o g)) (fun o => x5 (ix2 o (0 : Fin 1)))
          (fun k o => x6 (ix2 o k)) (fun o => x7 (ix2 o (0 : Fin 1))) (y 1) (y 2) (y 3) := by
  have key := block_eq_aux c i a1 h1 a2 h2 a3 h3 a4 h4 a5 h5 a6 h6 a7 h7 a8 h8 a9 h9 a10 h10 a11 h11 x0 x1 x2 x3 x4 x5 x6 x7
    (fun c h w' => x0 (ix4 (0 : Fin 1) c h w')) (fun g i j => x1 (ix4 (0 : Fin 1) g i j)) (fun k o c => x2 (ix3 k o c))
    (fun o => x3 (ix2 o (0 : Fin 1))) (fun k o g => x4 (ix3 k o g)) (fun o => x5 (ix2 o (0 : Fin 1)))
    (fun k o => x6 (ix2 o k)) (fun o => x7 (ix2 o (0 : Fin 1)))
    (fun _ _ _ => rfl) (fun _ _ _ => rfl) (fun _ _ _ => rfl) (fun _ => rfl) (fun _ _ _ => rfl) (fun _ => rfl) (fun _ _ => rfl) (fun _ => rfl)
    (y 0) (y 1) (y 2) (y 3)
  exact (congrArg (out0_A_8 c i a1 h1 a2 h2 a3 h3 a4 h4 a5 h5 a6 h6 a7 h7 a8 h8 a9 h9 a10 h10 a11 h11 x0 x1 x2 x3 x4 x5 x6 x7) (eq_ix4 y)).trans key

end Cert.Proof.KPoint

end
-- ==== Proof.KernelResult.lean ====
/-
  The fused kernel's result array is the decoder block of its arguments (Proof/Spec.lean).

  One grid point per image b. The body lays z out flat — 128 channels by 130 rows of 128 lanes, a zero row above
  and below the image — takes each 3×3 tap as a lane slice of z or of its two one-lane shifts (edge lanes
  masked to zero), accumulates nine products per quarter of the image, adds the bias, rectifies, stores the 32
  channels, lays them out flat again and takes the depthwise taps the same way. Lane p·128 + j of a flat row is
  padded row p, column j: the specification's padded coordinates.
-/
import proofs.«169621_g2000704505896602_pallasbulk_1077_31_alg».proof.Defs
import proofs.«169621_g2000704505896602_pallasbulk_1077_31_alg».proof.Proof.Gen.KernelIdeal.Value
import proofs.«169621_g2000704505896602_pallasbulk_1077_31_alg».proof.Proof.Spec
import proofs.«169621_g2000704505896602_pallasbulk_1077_31_alg».proof.Proof.KernelPoint

set_option maxRecDepth 16384

noncomputable section

namespace Cert.Proof.ResultEq

open Idealize.ShloMosaic Idealize.ShloMosaic.TcCoe Idealize.SL.Sem

open Idealize.ShloMosaic Idealize.ShloMosaic.TcCoe Idealize.SL.Sem Idealize.ShloMosaic.ValueIdx
open Cert.KernelIdeal Cert.KernelIdeal.Gen

section
variable (m : (ℓ : Loc nD τ sig) → Buf (Elt Ideal) ℓ)

/-- The printed index maps, decided over the grid: point `t` stages image `t` of the input and of the skip
    tensor and writes image `t` of the output; the six parameter arrays are staged whole. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 4) = t.val ∧ win0_8.index t (1 : Fin 4) = 0 ∧ win0_8.index t (2 : Fin 4) = 0 ∧ win0_8.index t (3 : Fin 4) = 0 :=
  (by decide +kernel : ∀ t : Fin grid0.N, _)

/-- The depthwise weights as the region finds them: the host transposed them once before the region. -/
theorem V_wd (c : Dev nD) : (V m c main_v0 : S32x9.Idx → EReal)
    = transpose S32x9 [1, 0] (m ((c : Thread nD τ).loc main_arg6)) transposes_S9x32_S32x9_1_0 := by
  dsimp only [Gen.V, Gen.hostOps0]; after_results

/-- What the whole array ends holding: the decoder block of the arguments. -/
abbrev G (c : Dev nD) : S8x64x128x128.Idx → EReal :=
  Spec.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))

set_option maxHeartbeats 1000000 in
/-- WHAT POINT `t` WRITES BACK is block `t` of the decoder block of the arguments. -/
theorem flushed8_eq (c : Dev nD) (t : Fin cfg0.N) :
    (dats (F := Ideal) m 0 c).flushed 8 t = ((cfg0.win 8).blk t).view.read (Elt Ideal) (G m c) := by
  rw [Cert.KernelIdeal.Value.flushed8_A]
  funext j
  show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) j = G m c (((cfg0.win 8).blk t).view.emb j)
  rw [KPoint.block_eq, G, KImg.spec_out_eq]

  obtain ⟨a00, a01, a02, a03, a10, a11, a12, a13, a20, a21, a22, a30, a31, a40, a41, a42, a50, a51, a60, a61, a70, a71, a80, a81, a82, a83⟩ := idx_facts t
  have hj0 : (j 0).val = 0 := by have : (j 0).val < 1 := (j 0).isLt; omega
  have hj1 : (j 1).val < 64 := (j 1).isLt
  have hj2 : (j 2).val < 128 := (j 2).isLt
  have hj3 : (j 3).val < 128 := (j 3).isLt
  have e1 : (((cfg0.win 8).blk t).view.emb j 1) = j 1 := by
    apply Fin.ext; show win0_8.index t (1 : Fin 4) * 64 + 1 * (j 1).val = (j 1).val; omega
  have e2 : (((cfg0.win 8).blk t).view.emb j 2) = j 2 := by
    apply Fin.ext; show win0_8.index t (2 : Fin 4) * 128 + 1 * (j 2).val = (j 2).val; omega
  have e3 : (((cfg0.win 8).blk t).view.emb j 3) = j 3 := by
    apply Fin.ext; show win0_8.index t (3 : Fin 4) * 128 + 1 * (j 3).val = (j 3).val; omega
  have e0 : (((cfg0.win 8).blk t).view.emb j 0).val = t.val := by
    show win0_8.index t (0 : Fin 4) * 1 + 1 * (j 0).val = t.val; omega
  rw [e1, e2, e3]
  have hx0 : (fun (c_1 : Fin 128) (h w' : Fin 64) => iblk m c 0 t (ix4 (0 : Fin 1) c_1 h w'))
      = fun c_1 h w' => m ((c : Thread nD τ).loc main_arg0) (ix4 (((cfg0.win 8).blk t).view.emb j 0) c_1 h w') := by
    funext c_1 h w'
    show V m c main_arg0 (((cfg0.win 0).blk t).view.emb (ix4 (0 : Fin 1) c_1 h w')) = _
    rw [V_main_arg0]
    refine congrArg _ (funext fun a => Fin.ext ?_)
    match a with
    | ⟨0, _⟩ => show win0_0.index t (0 : Fin 4) * 1 + 1 * 0 = (((cfg0.win 8).blk t).view.emb j 0).val; omega
    | ⟨1, _⟩ => show win0_0.index t (1 : Fin 4) * 128 + 1 * c_1.val = c_1.val; omega
    | ⟨2, _⟩ => show win0_0.index t (2 : Fin 4) * 64 + 1 * h.val = h.val; omega
    | ⟨3, _⟩ => show win0_0.index t (3 : Fin 4) * 64 + 1 * w'.val = w'.val; omega
  have hx1 : (fun (g : Fin 64) (i j_1 : Fin 128) => iblk m c 1 t (ix4 (0 : Fin 1) g i j_1))
      = fun g i j_1 => m ((c : Thread nD τ).loc main_arg1) (ix4 (((cfg0.win 8).blk t).view.emb j 0) g i j_1) := by
    funext g i j_1
    show V m c main_arg1 (((cfg0.win 1).blk t).view.emb (ix4 (0 : Fin 1) g i j_1)) = _
    rw [V_main_arg1]
    refine congrArg _ (funext fun a => Fin.ext ?_)
    match a with
    | ⟨0, _⟩ => show win0_1.index t (0 : Fin 4) * 1 + 1 * 0 = (((cfg0.win 8).blk t).view.emb j 0).val; omega
    | ⟨1, _⟩ => show win0_1.index t (1 : Fin 4) * 64 + 1 * g.val = g.val; omega
    | ⟨2, _⟩ => show win0_1.index t (2 : Fin 4) * 128 + 1 * i.val = i.val; omega
    | ⟨3, _⟩ => show win0_1.index t (3 : Fin 4) * 128 + 1 * j_1.val = j_1.val; omega
  have hx2 : (fun (k : Fin 4) (o : Fin 64) (c_1 : Fin 128) => iblk m c 2 t (ix3 k o c_1))
      = fun k o c_1 => m ((c : Thread nD τ).loc main_arg2) (ix3 k o c_1) := by
    funext k o c_1
    show V m c main_arg2 (((cfg0.win 2).blk t).view.emb (ix3 k o c_1)) = _
    rw [V_main_arg2]
    refine congrArg _ (funext fun a => Fin.ext ?_)
    match a with
    | ⟨0, _⟩ => show win0_2.index t (0 : Fin 3) * 4 + 1 * k.val = k.val; omega
    | ⟨1, _⟩ => show win0_2.index t (1 : Fin 3) * 64 + 1 * o.val = o.val; omega
    | ⟨2, _⟩ => show win0_2.index t (2 : Fin 3) * 128 + 1 * c_1.val = c_1.val; omega
  have hx3 : (fun (o : Fin 64) => iblk m c 3 t (ix2 o (0 : Fin 1)))
      = fun o => m ((c : Thread nD τ).loc main_arg3) (ix2 o (0 : Fin 1)) := by
    funext o
    show V m c main_arg3 (((cfg0.win 3).blk t).view.emb (ix2 o (0 : Fin 1))) = _
    rw [V_main_arg3]
    refine congrArg _ (funext fun a => Fin.ext ?_)
    match a with
    | ⟨0, _⟩ => show win0_3.index t (0 : Fin 2) * 64 + 1 * o.val = o.val; omega
    | ⟨1, _⟩ => show win0_3.index t (1 : Fin 2) * 1 + 1 * 0 = 0; omega
  have hx4 : (fun (k : Fin 9) (o : Fin 32) (g : Fin 128) => iblk m c 4 t (ix3 k o g))
      = fun k o g => m ((c : Thread nD τ).loc main_arg4) (ix3 k o g) := by
    funext k o g
    show V m c main_arg4 (((cfg0.win 4).blk t).view.emb (ix3 k o g)) = _
    rw [V_main_arg4]
    refine congrArg _ (funext fun a => Fin.ext ?_)
    match a with
    | ⟨0, _⟩ => show win0_4.index t (0 : Fin 3) * 9 + 1 * k.val = k.val; omega
    | ⟨1, _⟩ => show win0_4.index t (1 : Fin 3) * 32 + 1 * o.val = o.val; omega
    | ⟨2, _⟩ => show win0_4.index t (2 : Fin 3) * 128 + 1 * g.val = g.val; omega
  have hx5 : (fun (o : Fin 32) => iblk m c 5 t (ix2 o (0 : Fin 1)))
      = fun o => m ((c : Thread nD τ).loc main_arg5) (ix2 o (0 : Fin 1)) := by
    funext o
    show V m c main_arg5 (((cfg0.win 5).blk t).view.emb (ix2 o (0 : Fin 1))) = _
    rw [V_main_arg5]
    refine congrArg _ (funext fun a => Fin.ext ?_)
    match a with
    | ⟨0, _⟩ => show win0_5.index t (0 : Fin 2) * 32 + 1 * o.val = o.val; omega
    | ⟨1, _⟩ => show win0_5.index t (1 : Fin 2) * 1 + 1 * 0 = 0; omega
  have hx6 : (fun (k : Fin 9) (o : Fin 32) => iblk m c 6 t (ix2 o k))
      = fun k o => m ((c : Thread nD τ).loc main_arg6) (ix2 k o) := by
    funext k o
    show (V m c main_v0 : S32x9.Idx → EReal) (((cfg0.win 6).blk t).view.emb (ix2 o k)) = _
    rw [V_wd]
    refine (transpose_apply _ _ _ _ (ix2 k o) fun b => ?_)
    match b with
    | ⟨0, _⟩ => show o.val = win0_6.index t (0 : Fin 2) * 32 + 1 * o.val; omega
    | ⟨1, _⟩ => show k.val = win0_6.index t (1 : Fin 2) * 9 + 1 * k.val; omega
  have hx7 : (fun (o : Fin 32) => iblk m c 7 t (ix2 o (0 : Fin 1)))
      = fun o => m ((c : Thread nD τ).loc main_arg7) (ix2 o (0 : Fin 1)) := by
    funext o
    show V m c main_arg7 (((cfg0.win 7).blk t).view.emb (ix2 o (0 : Fin 1))) = _
    rw [V_main_arg7]
    refine congrArg _ (funext fun a => Fin.ext ?_)
    match a with
    | ⟨0, _⟩ => show win0_7.index t (0 : Fin 2) * 32 + 1 * o.val = o.val; omega
    | ⟨1, _⟩ => show win0_7.index t (1 : Fin 2) * 1 + 1 * 0 = 0; omega
  rw [hx0, hx1, hx2, hx3, hx4, hx5, hx6, hx7]

/-- An index of the output array is in point `t`'s block iff each coordinate is in the block's range on its axis. -/
theorem mem_blk8 (t : Fin cfg0.N) (i : S8x64x128x128.Idx) :
    i ∈ ((cfg0.win 8).blk t).view.set ↔ ∀ a : Fin 4, win0_8.index t a * S1x64x128x128.size a ≤ (i a).val ∧ (i a).val < win0_8.index t a * S1x64x128x128.size a + S1x64x128x128.size a := by
  show i ∈ ((View.whole main_v1).slice (win0_8.rect t)).set ↔ _
  rw [View.set_slice_whole, Rect.mem_set_unit]
  exact Iff.rfl

/-- Every index of the output array is in some point's block: image `b` is point `b`'s. -/
theorem cover8 (i : S8x64x128x128.Idx) :
    ∃ t : Fin cfg0.N, (cfg0.win 8).flush t = true ∧ i ∈ ((cfg0.win 8).blk t).view.set := by
  have hi0 : (i 0).val < 8 := (i 0).isLt
  have hi1 : (i 1).val < 64 := (i 1).isLt
  have hi2 : (i 2).val < 128 := (i 2).isLt
  have hi3 : (i 3).val < 128 := (i 3).isLt
  have hN : cfg0.N = 8 := N_0
  refine ⟨⟨(i 0).val, by rw [hN]; exact hi0⟩, flush0_8 _, ?_⟩
  rw [mem_blk8]
  obtain ⟨-, -, -, -, -, -, -, -, -, -, -, -, -, -, -, -, -, -, -, -, -, -, a80, a81, a82, a83⟩ := idx_facts ⟨(i 0).val, by rw [hN]; exact hi0⟩
  intro a
  match a with
  | ⟨0, _⟩ =>
    show win0_8.index ⟨(i 0).val, _⟩ (0 : Fin 4) * 1 ≤ (i 0).val ∧ (i 0).val < win0_8.index ⟨(i 0).val, _⟩ (0 : Fin 4) * 1 + 1
    have : (⟨(i 0).val, by rw [hN]; exact hi0⟩ : Fin cfg0.N).val = (i 0).val := rfl
    omega
  | ⟨1, _⟩ =>
    show win0_8.index ⟨(i 0).val, _⟩ (1 : Fin 4) * 64 ≤ (i 1).val ∧ (i 1).val < win0_8.index ⟨(i 0).val, _⟩ (1 : Fin 4) * 64 + 64
    omega
  | ⟨2, _⟩ =>
    show win0_8.index ⟨(i 0).val, _⟩ (2 : Fin 4) * 128 ≤ (i 2).val ∧ (i 2).val < win0_8.index ⟨(i 0).val, _⟩ (2 : Fin 4) * 128 + 128
    omega
  | ⟨3, _⟩ =>
    show win0_8.index ⟨(i 0).val, _⟩ (3 : Fin 4) * 128 ≤ (i 3).val ∧ (i 3).val < win0_8.index ⟨(i 0).val, _⟩ (3 : Fin 4) * 128 + 128
    omega

end

/-- What the fused kernel's eight write-backs fold to is the decoder block of its arguments. -/
theorem kernel_result [Cert.KernelIdeal.Facts]
    (m : (ℓ : Loc Cert.KernelIdeal.nD Cert.KernelIdeal.τ Cert.KernelIdeal.sig) → Buf (Elt Ideal) ℓ)
    (c : Dev Cert.KernelIdeal.nD) :
    ((Cert.KernelIdeal.Gen.dats (F := Ideal) m 0 c).arrAt 8 Cert.KernelIdeal.cfg0.N : Spec.SOut.Idx → EReal)
      = Spec.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) :=
  (Cert.KernelIdeal.Gen.dats (F := Ideal) m 0 c).arrAt_eq_of_cover 8 (G m c) (fun t _ => flushed8_eq m c t) cover8

end Cert.Proof.ResultEq

end
-- ==== Proof.LibMergeForms.lean ====
/-
  Reshapes that merge or split the two leading axes, and a bias row copied down the rows, read at an index by
  coordinates.

  A reshape keeps the row-major position of every entry. Merging the leading axes `a, b` of an array into one axis
  of extent `a · b` sends the entry `(r, k, …)` to row `r · b + k`; splitting undoes it. A vector `[k]` laid out as
  one row `[1, k]` and copied to every row of `[R, k]` reads, at `(q, o)`, the vector at `o`.
-/
import Idealize.ShloMosaic.Lib.Pipeline.Value
import Idealize.ShloMosaic.Lib.ValueIdx
import Idealize.ShloMosaic.Lib.ValueLayout

noncomputable section

namespace Cert.PointConv

open Idealize.ShloMosaic Idealize.ShloMosaic.ValueIdx

variable {α : Type}

/-- `[a, b, c]` reshaped to `[m, c]` (`m = a · b`): row `r · b + k` at column `o` is the entry `(r, k, o)`. -/
theorem shapeCast_abc_mc_apply {a b c m : Nat} (x : (⟨3, ![a, b, c]⟩ : Shape).Idx → α)
    (h : (⟨3, ![a, b, c]⟩ : Shape).ShapeCasts ⟨2, ![m, c]⟩) (r : Fin a) (k : Fin b) (o : Fin c) (q : Fin m)
    (hq : q.val = r.val * b + k.val) : shapeCast ⟨2, ![m, c]⟩ x h (ix2 q o) = x (ix3 r k o) :=
  shapeCast_apply x h _ _ (by
    rw [Shape.rowMajor_val_three, Shape.rowMajor_val_two]
    show (r.val * b + k.val) * c + o.val = q.val * c + o.val
    rw [hq])

/-- `[m, c]` reshaped to `[a, b, c]` (`m = a · b`): the entry `(r, k, o)` is row `r · b + k` at column `o`. -/
theorem shapeCast_mc_abc_apply {a b c m : Nat} (x : (⟨2, ![m, c]⟩ : Shape).Idx → α)
    (h : (⟨2, ![m, c]⟩ : Shape).ShapeCasts ⟨3, ![a, b, c]⟩) (r : Fin a) (k : Fin b) (o : Fin c) (q : Fin m)
    (hq : q.val = r.val * b + k.val) : shapeCast ⟨3, ![a, b, c]⟩ x h (ix3 r k o) = x (ix2 q o) :=
  shapeCast_apply x h _ _ (by
    rw [Shape.rowMajor_val_three, Shape.rowMajor_val_two]
    show q.val * c + o.val = (r.val * b + k.val) * c + o.val
    rw [hq])

/-- `[a, b, c, d]` reshaped to `[m, c, d]` (`m = a · b`): the entry `(r · b + k, i, j)` is the entry `(r, k, i, j)`. -/
theorem shapeCast_abcd_mcd_apply {a b c d m : Nat} (x : (⟨4, ![a, b, c, d]⟩ : Shape).Idx → α)
    (h : (⟨4, ![a, b, c, d]⟩ : Shape).ShapeCasts ⟨3, ![m, c, d]⟩) (r : Fin a) (k : Fin b) (i : Fin c) (j : Fin d) (q : Fin m)
    (hq : q.val = r.val * b + k.val) : shapeCast ⟨3, ![m, c, d]⟩ x h (ix3 q i j) = x (ix4 r k i j) :=
  shapeCast_apply x h _ _ (by
    rw [Shape.rowMajor_val_four, Shape.rowMajor_val_three]
    show ((r.val * b + k.val) * c + i.val) * d + j.val = (q.val * c + i.val) * d + j.val
    rw [hq])

/-- A vector `[k]` laid out as the row `[1, k]` and copied to every row of `[R, k]`: at `(q, o)` it is the vector at `o`. -/
theorem rowBias_apply {R k : Nat} (b : (⟨1, ![k]⟩ : Shape).Idx → α) (h1 : (⟨1, ![k]⟩ : Shape).ShapeCasts ⟨2, ![1, k]⟩)
    (h2 : (⟨2, ![1, k]⟩ : Shape).Broadcasts ⟨2, ![R, k]⟩) (q : Fin R) (o : Fin k) :
    broadcastTo ⟨2, ![R, k]⟩ (shapeCast ⟨2, ![1, k]⟩ b h1) h2 (ix2 q o) = b (ix1 o) :=
  (broadcastTo_1b_ab_apply _ h2 q o).trans (shapeCast_a_1a_apply b h1 0 o)

end Cert.PointConv

end
-- ==== Proof.RefUpsampleValue.lean ====
/-
  What the first region of the reference writes at a grid point: a strip of z.

  For an input strip x0 [1,128,16,64], a skip strip x1 [1,64,32,128], the weights x2 [4,64,128] and the bias
  x3 [64,1], the output block [1,128,32,128] holds, on channels 0–63, the transposed convolution

      Σ_c x2(2·(r mod 2) + (j mod 2), o, c) · x0(0, c, r/2, j/2) + x3(o, 0)

  at row r and column j of the strip, and on channels 64–127 the skip strip. The body reaches it as: the input
  rows times the two 0/1 column up-sampling matrices (columns of parity 0 and of parity 1), each weight slice
  times the matching up-sampled rows, the two products added and the bias added, once for the even output rows
  and once for the odd ones, the two interleaved row by row.
-/
import proofs.«169621_g2000704505896602_pallasbulk_1077_31_alg».proof.Proof.RefUpsampleData
import proofs.«169621_g2000704505896602_pallasbulk_1077_31_alg».proof.Proof.LibStripForms
import proofs.«169621_g2000704505896602_pallasbulk_1077_31_alg».proof.Proof.LibPlainMatmul
import proofs.«169621_g2000704505896602_pallasbulk_1077_31_alg».proof.Proof.LibMergeForms
import proofs.«169621_g2000704505896602_pallasbulk_1077_31_alg».proof.Proof.LibColumnForms
import Idealize.ShloMosaic.Lib.ValueLayout
import Idealize.ShloMosaic.PureOps.Ideal.Laws

set_option maxRecDepth 16384

noncomputable section

namespace Cert.ReferenceIdeal.Upsample

open Cert.ReferenceIdeal Cert.ReferenceIdeal.Gen
open Idealize.ShloMosaic Idealize.ShloMosaic.TcCoe Idealize.ShloMosaic.ValueIdx
open Cert.PointConv Cert.StripForms Cert.ColumnForms

/-! ## The input rows and the up-sampling matrices -/

/-- The input strip laid out with one row per (channel, row): row `c·16 + h`, column `w`. -/
theorem inRows_apply (x0 : Vec Ideal S1x128x16x64 .f32) (c : Fin 128) (h : Fin 16) (w : Fin 64) (q : Fin 2048)
    (hq : q.val = c.val * 16 + h.val) : k0_pay3 (F := Ideal) x0 (ix2 q w) = x0 (ix4 (0 : Fin 1) c h w) := by
  unfold k0_pay3
  refine (shapeCast_abc_mc_apply _ _ c h w q hq).trans ?_
  exact shapeCast_1abc_abc_apply _ _ c h w

/-- Twice the row number, as the body computes it. -/
theorem twiceRow_apply (w : Fin 64) (j : Fin 128) : k0_pay4 (ix2 w j) = IntOp.muli 2#32 (BitVec.ofNat 32 w.val) := by
  unfold k0_pay4
  show IntOp.muli 2#32 (iota .tc S64x128 32 [0] iota_S64x128_d0_w32 (ix2 w j)) = _
  rw [iota_single_apply]

/-- The up-sampling matrix of parity `d` as the body computes it, at row `w`, column `j`. -/
theorem scatterMat_apply (d : Fin 2) (w : Fin 64) (j : Fin 128) :
    (sitofp .f32 (extui 32 (cmpi .eq (iota .tc S64x128 32 [1] iota_S64x128_d1_w32)
        (addi k0_pay4 (broadcast S64x128 (BitVec.ofNat 32 d.val)))) natLt_1_32) : FVec Ideal S64x128 .f32) (ix2 w j)
      = if j.val = 2 * w.val + d.val then (1 : EReal) else 0 := by
  show FloatOps.sitofp (F := Ideal) .f32 ((IntOp.cmpi .eq (iota .tc S64x128 32 [1] iota_S64x128_d1_w32 (ix2 w j))
      (IntOp.addi (k0_pay4 (ix2 w j)) (BitVec.ofNat 32 d.val))).setWidth 32) = _
  rw [iota_single_apply, twiceRow_apply]
  exact scatter_entry d w j

theorem dotScatter_eq : dot_S2048x64_S64x128_S2048x128_1_0_0_1_n_n
    = plainDims 2048 64 128 dot_S2048x64_S64x128_S2048x128_1_0_0_1_n_n_wf := rfl
theorem dotRows_eq : dot_S64x128_S128x2048_S64x2048_1_0_0_1_n_n
    = plainDims 64 128 2048 dot_S64x128_S128x2048_S64x2048_1_0_0_1_n_n_wf := rfl

/-- The input rows up-sampled to the columns of parity 0: entry (c, h·128 + j). -/
theorem upCols0_apply (x0 : Vec Ideal S1x128x16x64 .f32) (c : Fin 128) (h : Fin 16) (j : Fin 128) (q : Fin 2048)
    (hq : q.val = h.val * 128 + j.val) :
    k0_pay5 (F := Ideal) x0 (ix2 c q)
      = if j.val % 2 = 0 then x0 (ix4 (0 : Fin 1) c h ⟨j.val / 2, by omega⟩) else 0 := by
  unfold k0_pay5
  refine (shapeCast_abc_am_apply _ _ (by norm_num) c h j q hq).trans ?_
  refine (shapeCast_mc_abc_apply _ _ c h j (⟨c.val * 16 + h.val, by omega⟩ : Fin 2048) rfl).trans ?_
  rw [dotScatter_eq]
  refine (plainMatmul_zero_apply _ none _ _ _ _).trans ?_
  have e : ∀ w : Fin 64, k0_pay3 (F := Ideal) x0 (ix2 (⟨c.val * 16 + h.val, by omega⟩ : Fin 2048) w) = x0 (ix4 (0 : Fin 1) c h w) :=
    fun w => inRows_apply x0 c h w _ rfl
  simp only [e]
  have s : ∀ w : Fin 64, (sitofp .f32 (extui 32 (cmpi .eq (iota .tc S64x128 32 [1] iota_S64x128_d1_w32)
        (addi k0_pay4 (broadcast S64x128 0#32))) natLt_1_32) : FVec Ideal S64x128 .f32) (ix2 w j)
      = if j.val = 2 * w.val + (0 : Fin 2).val then (1 : EReal) else 0 := fun w => scatterMat_apply 0 w j
  simp only [s]
  exact sum_scatter 0 (fun w => x0 (ix4 (0 : Fin 1) c h w)) j

/-- The same for the columns of parity 1. -/
theorem upCols1_apply (x0 : Vec Ideal S1x128x16x64 .f32) (c : Fin 128) (h : Fin 16) (j : Fin 128) (q : Fin 2048)
    (hq : q.val = h.val * 128 + j.val) :
    k0_pay6 (F := Ideal) x0 (ix2 c q)
      = if j.val % 2 = 1 then x0 (ix4 (0 : Fin 1) c h ⟨j.val / 2, by omega⟩) else 0 := by
  unfold k0_pay6
  refine (shapeCast_abc_am_apply _ _ (by norm_num) c h j q hq).trans ?_
  refine (shapeCast_mc_abc_apply _ _ c h j (⟨c.val * 16 + h.val, by omega⟩ : Fin 2048) rfl).trans ?_
  rw [dotScatter_eq]
  refine (plainMatmul_zero_apply _ none _ _ _ _).trans ?_
  have e : ∀ w : Fin 64, k0_pay3 (F := Ideal) x0 (ix2 (⟨c.val * 16 + h.val, by omega⟩ : Fin 2048) w) = x0 (ix4 (0 : Fin 1) c h w) :=
    fun w => inRows_apply x0 c h w _ rfl
  simp only [e]
  have s : ∀ w : Fin 64, (sitofp .f32 (extui 32 (cmpi .eq (iota .tc S64x128 32 [1] iota_S64x128_d1_w32)
        (addi k0_pay4 (broadcast S64x128 1#32))) natLt_1_32) : FVec Ideal S64x128 .f32) (ix2 w j)
      = if j.val = 2 * w.val + (1 : Fin 2).val then (1 : EReal) else 0 := fun w => scatterMat_apply 1 w j
  simp only [s]
  exact sum_scatter 1 (fun w => x0 (ix4 (0 : Fin 1) c h w)) j

/-! ## The weight slices and the row sums -/

/-- Slice `k` of the weights, laid out as a 64 × 128 matrix. -/
theorem wSlice_apply (x2 : Vec Ideal S4x64x128 .f32) (k : Fin 4) (inb) (o : Fin 64) (c : Fin 128) :
    shapeCast S64x128 (View.ld x2 (Rect.unit (s := S4x64x128) ![k.val, 0, 0] S1x64x128.size inb)) shapeCasts_S1x64x128_S64x128 (ix2 o c)
      = x2 (ix3 k o c) := by
  refine (shapeCast_1ab_ab_apply _ _ o c).trans ?_
  show x2 ((Rect.unit (s := S4x64x128) ![k.val, 0, 0] S1x64x128.size inb).emb (ix3 (0 : Fin 1) o c)) = _
  refine congrArg x2 (funext fun a => Fin.ext ?_)
  match a with
  | ⟨0, _⟩ => show k.val + 1 * 0 = k.val; omega
  | ⟨1, _⟩ => show 0 + 1 * o.val = o.val; omega
  | ⟨2, _⟩ => show 0 + 1 * c.val = c.val; omega

/-- Two weight matrices times two up-sampled operands, added, the bias column added: entry (o, q). -/
theorem rowSums_apply (W0 W1 : FVec Ideal S64x128 .f32) (P0 P1 : FVec Ideal S128x2048 .f32) (B : FVec Ideal S64x1 .f32)
    (o : Fin 64) (q : Fin 2048) :
    addf (addf (matmul dot_S64x128_S128x2048_S64x2048_1_0_0_1_n_n none W0 P0 (constant S64x2048 .f32 0x00000000#32))
        (matmul dot_S64x128_S128x2048_S64x2048_1_0_0_1_n_n none W1 P1 (constant S64x2048 .f32 0x00000000#32)))
      (broadcastTo S64x2048 B broadcasts_S64x1_S64x2048) (ix2 o q)
      = ((∑ c : Fin 128, W0 (ix2 o c) * P0 (ix2 c q)) + ∑ c : Fin 128, W1 (ix2 o c) * P1 (ix2 c q)) + B (ix2 o (0 : Fin 1)) := by
  show (FloatOps.matmul dot_S64x128_S128x2048_S64x2048_1_0_0_1_n_n none W0 P0 (constant S64x2048 .f32 0x00000000#32) (ix2 o q)
      + FloatOps.matmul dot_S64x128_S128x2048_S64x2048_1_0_0_1_n_n none W1 P1 (constant S64x2048 .f32 0x00000000#32) (ix2 o q))
      + broadcastTo S64x2048 B broadcasts_S64x1_S64x2048 (ix2 o q) = _
  rw [dotRows_eq, plainMatmul_zero_apply, plainMatmul_zero_apply, broadcastTo_a1_ab_apply]

/-- Of two sums whose operands vanish on opposite parities only the one of the column's parity is left. -/
theorem parity_sum (A0 A1 X : Fin 128 → EReal) (j : ℕ) :
    (∑ c : Fin 128, A0 c * (if j % 2 = 0 then X c else 0)) + (∑ c : Fin 128, A1 c * (if j % 2 = 1 then X c else 0))
      = ∑ c : Fin 128, (if j % 2 = 0 then A0 c else A1 c) * X c := by
  by_cases hp : j % 2 = 0
  · have h1 : ¬ j % 2 = 1 := by omega
    simp only [if_pos hp, if_neg h1, mul_zero, Finset.sum_const_zero, add_zero]
  · have h1 : j % 2 = 1 := by omega
    simp only [if_neg hp, if_pos h1, mul_zero, Finset.sum_const_zero, zero_add]

/-! ## The output rows -/

/-- The transposed convolution at strip row `2h + di`, column `j`, output channel `o`, from the blocks. -/
def upAt (x0 : S1x128x16x64.Idx → EReal) (x2 : S4x64x128.Idx → EReal) (x3 : S64x1.Idx → EReal)
    (o : Fin 64) (h : Fin 16) (di : Fin 2) (j : Fin 128) : EReal :=
  (∑ c : Fin 128, (if j.val % 2 = 0 then x2 (ix3 (⟨2 * di.val, by omega⟩ : Fin 4) o c) else x2 (ix3 (⟨2 * di.val + 1, by omega⟩ : Fin 4) o c))
      * x0 (ix4 (0 : Fin 1) c h ⟨j.val / 2, by omega⟩)) + x3 (ix2 o (0 : Fin 1))

/-- Weight matrices `W0`, `W1` (slices 2di and 2di + 1) times the two up-sampled operands, with the bias: the
    transposed convolution on the rows of parity `di`. -/
theorem rows_of_slices (x0 : Vec Ideal S1x128x16x64 .f32) (x2 : Vec Ideal S4x64x128 .f32) (x3 : Vec Ideal S64x1 .f32)
    (W0 W1 : FVec Ideal S64x128 .f32) (di : Fin 2)
    (hW0 : ∀ (o : Fin 64) (c : Fin 128), W0 (ix2 o c) = x2 (ix3 (⟨2 * di.val, by omega⟩ : Fin 4) o c))
    (hW1 : ∀ (o : Fin 64) (c : Fin 128), W1 (ix2 o c) = x2 (ix3 (⟨2 * di.val + 1, by omega⟩ : Fin 4) o c))
    (o : Fin 64) (h : Fin 16) (j : Fin 128) :
    addf (addf (matmul dot_S64x128_S128x2048_S64x2048_1_0_0_1_n_n none W0 (k0_pay5 x0) (constant S64x2048 .f32 0x00000000#32))
        (matmul dot_S64x128_S128x2048_S64x2048_1_0_0_1_n_n none W1 (k0_pay6 x0) (constant S64x2048 .f32 0x00000000#32)))
      (broadcastTo S64x2048 x3 broadcasts_S64x1_S64x2048) (ix2 o (⟨h.val * 128 + j.val, by omega⟩ : Fin 2048))
      = upAt x0 x2 x3 o h di j := by
  refine (rowSums_apply _ _ _ _ _ o _).trans ?_
  have p0 : ∀ c : Fin 128, k0_pay5 (F := Ideal) x0 (ix2 c (⟨h.val * 128 + j.val, by omega⟩ : Fin 2048))
      = if j.val % 2 = 0 then x0 (ix4 (0 : Fin 1) c h ⟨j.val / 2, by omega⟩) else 0 := fun c => upCols0_apply x0 c h j _ rfl
  have p1 : ∀ c : Fin 128, k0_pay6 (F := Ideal) x0 (ix2 c (⟨h.val * 128 + j.val, by omega⟩ : Fin 2048))
      = if j.val % 2 = 1 then x0 (ix4 (0 : Fin 1) c h ⟨j.val / 2, by omega⟩) else 0 := fun c => upCols1_apply x0 c h j _ rfl
  simp only [p0, p1, hW0, hW1]
  unfold upAt
  exact congrArg (· + x3 (ix2 o (0 : Fin 1))) (parity_sum _ _ _ j.val)

/-- The even rows of the strip (the first pair of weight slices). -/
theorem evenRows_apply (x0 : Vec Ideal S1x128x16x64 .f32) (x2 : Vec Ideal S4x64x128 .f32) (x3 : Vec Ideal S64x1 .f32)
    (inb0 inb1) (o : Fin 64) (h : Fin 16) (j : Fin 128) :
    k0_pay7 (F := Ideal) x0 (View.ld x2 (Rect.unit (s := S4x64x128) ![0, 0, 0] S1x64x128.size inb0))
        (View.ld x2 (Rect.unit (s := S4x64x128) ![1, 0, 0] S1x64x128.size inb1)) x3 (ix3 o h j)
      = upAt x0 x2 x3 o h 0 j := by
  unfold k0_pay7
  refine (shapeCast_am_abc_apply _ _ (by norm_num) o h j (⟨h.val * 128 + j.val, by omega⟩ : Fin 2048) rfl).trans ?_
  exact rows_of_slices x0 x2 x3 _ _ 0 (fun o c => wSlice_apply x2 0 inb0 o c) (fun o c => wSlice_apply x2 1 inb1 o c) o h j

/-- The channels 0–63 of the strip at row `2h + di`: the even and the odd rows interleaved. -/
theorem loPiece_apply (x0 : Vec Ideal S1x128x16x64 .f32) (x2 : Vec Ideal S4x64x128 .f32) (x3 : Vec Ideal S64x1 .f32)
    (inb0 inb1 inb2 inb3) (u : Fin 1) (o : Fin 64) (h : Fin 16) (di : Fin 2) (j : Fin 128) (r : Fin 32)
    (hr : r.val = h.val * 2 + di.val) :
    k0_pay1 (F := Ideal) (k0_pay5 x0) (k0_pay6 x0)
        (k0_pay7 x0 (View.ld x2 (Rect.unit (s := S4x64x128) ![0, 0, 0] S1x64x128.size inb0))
          (View.ld x2 (Rect.unit (s := S4x64x128) ![1, 0, 0] S1x64x128.size inb1)) x3)
        (k0_pay8 (View.ld x2 (Rect.unit (s := S4x64x128) ![2, 0, 0] S1x64x128.size inb2)))
        (View.ld x2 (Rect.unit (s := S4x64x128) ![3, 0, 0] S1x64x128.size inb3)) x3 (ix4 u o r j)
      = upAt x0 x2 x3 o h di j := by
  unfold k0_pay1
  refine (shapeCast_abc_1abc_apply _ _ u o r j).trans ?_
  refine (shapeCast_abdc_amc_apply _ _ (by norm_num) o h di j r hr).trans ?_
  match di with
  | ⟨0, _⟩ =>
    refine (concatenate_pair_apply_left (t := S64x16x2x128) (s₁ := S64x16x1x128) (s₂ := S64x16x1x128) (2 : Fin 4) _ _ _ (ix4 o h (⟨0, by omega⟩ : Fin 2) j) rfl (ix4 o h (0 : Fin 1) j)
      (fun b => by match b with | ⟨0, _⟩ => rfl | ⟨1, _⟩ => rfl | ⟨2, _⟩ => rfl | ⟨3, _⟩ => rfl)).trans ?_
    refine (shapeCast_abc_ab1c_apply _ _ o h (0 : Fin 1) j).trans ?_
    exact evenRows_apply x0 x2 x3 inb0 inb1 o h j
  | ⟨1, _⟩ =>
    refine (concatenate_pair_apply_right (t := S64x16x2x128) (s₁ := S64x16x1x128) (s₂ := S64x16x1x128) (2 : Fin 4) _ _ _ (ix4 o h (⟨1, by omega⟩ : Fin 2) j) rfl rfl (ix4 o h (0 : Fin 1) j)
      (fun b hb => by match b with | ⟨0, _⟩ => rfl | ⟨1, _⟩ => rfl | ⟨2, _⟩ => exact absurd rfl hb | ⟨3, _⟩ => rfl) rfl).trans ?_
    refine (shapeCast_abc_ab1c_apply _ _ o h (0 : Fin 1) j).trans ?_
    refine (shapeCast_am_abc_apply _ _ (by norm_num) o h j (⟨h.val * 128 + j.val, by omega⟩ : Fin 2048) rfl).trans ?_
    refine rows_of_slices x0 x2 x3 _ _ 1 (fun o c => ?_) (fun o c => wSlice_apply x2 3 inb3 o c) o h j
    unfold k0_pay8
    exact wSlice_apply x2 2 inb2 o c

/-- The channels 64–127 of the strip: the skip strip as loaded. -/
theorem hiPiece_apply (x1 : Vec Ideal S1x64x32x128 .f32) (y : S1x64x32x128.Idx) : k0_pay2 (F := Ideal) x1 y = x1 y := by
  unfold k0_pay2
  exact congrFun (shapeCast_shapeCast x1 _ _) y

/-! ## The strip as one function of the blocks -/

/-- The strip of z the body writes, entry by entry. -/
def zStrip (x0 : S1x128x16x64.Idx → EReal) (x1 : S1x64x32x128.Idx → EReal) (x2 : S4x64x128.Idx → EReal) (x3 : S64x1.Idx → EReal) :
    S1x128x32x128.Idx → EReal := fun y =>
  if hg : (y 1).val < 64 then
    upAt x0 x2 x3 ⟨(y 1).val, hg⟩ (⟨(y 2).val / 2, by have : (y 2).val < 32 := (y 2).isLt; omega⟩ : Fin 16)
      (⟨(y 2).val % 2, by omega⟩ : Fin 2) (⟨(y 3).val, (y 3).isLt⟩ : Fin 128)
  else x1 (ix4 (0 : Fin 1) (⟨(y 1).val - 64, by have : (y 1).val < 128 := (y 1).isLt; omega⟩ : Fin 64)
      (⟨(y 2).val, (y 2).isLt⟩ : Fin 32) (⟨(y 3).val, (y 3).isLt⟩ : Fin 128))

theorem upAt_congr (x0 : S1x128x16x64.Idx → EReal) (x2 : S4x64x128.Idx → EReal) (x3 : S64x1.Idx → EReal)
    {o o' : Fin 64} {h h' : Fin 16} {di di' : Fin 2} {j j' : Fin 128}
    (ho : o.val = o'.val) (hh : h.val = h'.val) (hd : di.val = di'.val) (hj : j.val = j'.val) :
    upAt x0 x2 x3 o h di j = upAt x0 x2 x3 o' h' di' j' := by
  obtain rfl := Fin.ext ho; obtain rfl := Fin.ext hh; obtain rfl := Fin.ext hd; obtain rfl := Fin.ext hj; rfl

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The strip on the channels the second store covers is the skip strip. -/
theorem zStrip_hi (x0 : S1x128x16x64.Idx → EReal) (x1 : S1x64x32x128.Idx → EReal) (x2 : S4x64x128.Idx → EReal) (x3 : S64x1.Idx → EReal)
    (inb) (u : Fin 1) (g : Fin 64) (r : Fin 32) (j : Fin 128) :
    zStrip x0 x1 x2 x3 ((Rect.unit (s := S1x128x32x128) ![0, 64, 0, 0] ![1, 64, 32, 128] inb).emb (ix4 u g r j)) = x1 (ix4 u g r j) := by
  have e1 : (((Rect.unit (s := S1x128x32x128) ![0, 64, 0, 0] ![1, 64, 32, 128] inb).emb (ix4 u g r j)) 1).val = 64 + 1 * g.val := rfl
  unfold zStrip
  rw [dif_neg (by rw [e1]; omega)]
  refine congrArg x1 (funext fun a => Fin.ext ?_)
  match a with
  | ⟨0, _⟩ => show 0 = u.val; omega
  | ⟨1, _⟩ => show (64 + 1 * g.val) - 64 = g.val; omega
  | ⟨2, _⟩ => show 0 + 1 * r.val = r.val; omega
  | ⟨3, _⟩ => show 0 + 1 * j.val = j.val; omega

/-- The strip on the channels the first store covers is the transposed convolution. -/
theorem zStrip_lo (x0 : S1x128x16x64.Idx → EReal) (x1 : S1x64x32x128.Idx → EReal) (x2 : S4x64x128.Idx → EReal) (x3 : S64x1.Idx → EReal)
    (inb) (u : Fin 1) (o : Fin 64) (r : Fin 32) (j : Fin 128) :
    zStrip x0 x1 x2 x3 ((Rect.unit (s := S1x128x32x128) ![0, 0, 0, 0] ![1, 64, 32, 128] inb).emb (ix4 u o r j))
      = upAt x0 x2 x3 o (⟨r.val / 2, by omega⟩ : Fin 16) (⟨r.val % 2, by omega⟩ : Fin 2) j := by
  have e1 : (((Rect.unit (s := S1x128x32x128) ![0, 0, 0, 0] ![1, 64, 32, 128] inb).emb (ix4 u o r j)) 1).val = 0 + 1 * o.val := rfl
  unfold zStrip
  rw [dif_pos (by rw [e1]; omega)]
  refine upAt_congr x0 x2 x3 ?_ ?_ ?_ ?_
  · show 0 + 1 * o.val = o.val; omega
  · show (0 + 1 * r.val) / 2 = r.val / 2; rw [Nat.zero_add, Nat.one_mul]
  · show (0 + 1 * r.val) % 2 = r.val % 2; rw [Nat.zero_add, Nat.one_mul]
  · show 0 + 1 * j.val = j.val; omega

set_option maxHeartbeats 1000000 in
/-- What the body leaves in the output block is that strip. -/
theorem outStrip_eq (c : Dev nD) (i : grid0.Coords)
    (a0 : Memref sig .tc .vmem S1x128x16x64 .f32) (h0 : a0.IsWhole) (a1 : Memref sig .tc .vmem S1x64x32x128 .f32) (h1 : a1.IsWhole)
    (a2 : Memref sig .tc .vmem S4x64x128 .f32) (h2 : a2.IsWhole) (a3 : Memref sig .tc .vmem S64x1 .f32) (h3 : a3.IsWhole)
    (a4 : Memref sig .tc .vmem S1x128x32x128 .f32) (h4 : a4.IsWhole)
    (x0 : Vec Ideal S1x128x16x64 .f32) (x1 : Vec Ideal S1x64x32x128 .f32) (x2 : Vec Ideal S4x64x128 .f32) (x3 : Vec Ideal S64x1 .f32) :
    outStrip (F := Ideal) c i a0 h0 a1 h1 a2 h2 a3 h3 a4 h4 x0 x1 x2 x3 = zStrip x0 x1 x2 x3 := by
  funext y
  have hy := pieces_cover (F := Ideal) c i a0 h0 a1 h1 a2 h2 a3 h3 a4 h4 x0 x1 x2 x3 y
  unfold outStrip
  rw [View.read_writes_apply_eq_canon _ _ y _ hy]
  refine View.canon_apply_of_pieces (zStrip x0 x1 x2 x3) _ ?_ y hy
  unfold bodyRun
  dsimp only
  sl_unfold_words
  simp only [View.readAt_eq_ld, h0.read_unread, h1.read_unread, h2.read_unread, h3.read_unread]
  intro p hp x
  simp only [List.mem_cons, List.mem_singleton, List.not_mem_nil, or_false] at hp
  rcases hp with rfl | rfl
  · -- channels 64–127
    obtain ⟨u, g, r, j, rfl⟩ : ∃ (u : Fin 1) (g : Fin 64) (r : Fin 32) (j : Fin 128), x = ix4 u g r j := ⟨x 0, x 1, x 2, x 3, eq_ix4 x⟩
    dsimp only
    refine (hiPiece_apply _ _).trans ?_
    refine (congrFun (View.ld_unit_zero (S := S1x64x32x128) hz4 _ x1) _).trans ?_
    exact (zStrip_hi x0 x1 x2 x3 _ u g r j).symm
  · obtain ⟨u, g, r, j, rfl⟩ : ∃ (u : Fin 1) (g : Fin 64) (r : Fin 32) (j : Fin 128), x = ix4 u g r j := ⟨x 0, x 1, x 2, x 3, eq_ix4 x⟩
    dsimp only
    rw [View.ld_unit_zero (S := S1x128x16x64) hz4 _ x0, View.ld_unit_zero (S := S64x1) hz2 _ x3]
    refine (loPiece_apply x0 x2 x3 _ _ _ _ u g (⟨r.val / 2, by omega⟩ : Fin 16) (⟨r.val % 2, by omega⟩ : Fin 2) j r (by show r.val = r.val / 2 * 2 + r.val % 2; omega)).trans ?_
    exact (zStrip_lo x0 x1 x2 x3 _ u g r j).symm

end Cert.ReferenceIdeal.Upsample

end
-- ==== Proof.RefUpsampleArray.lean ====
/-
  The first region of the reference leaves z.

  Grid point t = 4·b + s stages rows 16s … 16s+15 of image b of the input, rows 32s … 32s+31 of image b of the
  skip tensor, the whole weights and bias, and writes rows 32s … 32s+31 of image b of z. The strip it writes is
  the strip of Spec.z of the arrays the region finds; the thirty-two strips tile z.
-/
import proofs.«169621_g2000704505896602_pallasbulk_1077_31_alg».proof.Proof.RefUpsampleValue
import proofs.«169621_g2000704505896602_pallasbulk_1077_31_alg».proof.Proof.Spec

set_option maxRecDepth 16384

noncomputable section

namespace Cert.ReferenceIdeal.Upsample

open Cert.ReferenceIdeal Cert.ReferenceIdeal.Gen Cert.Proof
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## Which block each window has at a point (decided over the 32 points) -/

theorem idx_facts : ∀ t : Fin cfg0.N,
    win0_0.index t = ![t.val / 4, 0, t.val % 4, 0] ∧ win0_1.index t = ![t.val / 4, 0, t.val % 4, 0]
    ∧ win0_2.index t = ![0, 0, 0] ∧ win0_3.index t = ![0, 0] ∧ win0_4.index t = ![t.val / 4, 0, t.val % 4, 0] :=
  (by decide +kernel : ∀ t : Fin grid0.N,
    win0_0.index t = ![t.val / 4, 0, t.val % 4, 0] ∧ win0_1.index t = ![t.val / 4, 0, t.val % 4, 0]
    ∧ win0_2.index t = ![0, 0, 0] ∧ win0_3.index t = ![0, 0] ∧ win0_4.index t = ![t.val / 4, 0, t.val % 4, 0])

theorem point_lt (t : Fin cfg0.N) : t.val < 32 := lt_of_lt_of_eq t.isLt N_0

/-! ## The blocks at array coordinates -/

theorem strip0_apply (c : Dev nD) (t : Fin cfg0.N) (u : Fin 1) (k : Fin 128) (h : Fin 16) (w : Fin 64) :
    strip V c 0 t (ix4 u k h w)
      = (V c main_arg0 : Spec.SX.Idx → EReal) (ix4 (⟨t.val / 4, by have := point_lt t; omega⟩ : Fin 8) k
          (⟨t.val % 4 * 16 + h.val, by omega⟩ : Fin 64) w) := by
  have hi := (idx_facts t).1
  show V c (Pipeline.arrRef spec0 0) (((cfg0.win 0).blk t).view.emb (ix4 u k h w)) = _
  refine congrArg (V c main_arg0) (funext fun a => Fin.ext ?_)
  match a with
  | ⟨0, _⟩ => show win0_0.index t 0 * 1 + 1 * u.val = t.val / 4; rw [hi]; show t.val / 4 * 1 + 1 * u.val = t.val / 4; omega
  | ⟨1, _⟩ => show win0_0.index t 1 * 128 + 1 * k.val = k.val; rw [hi]; show 0 * 128 + 1 * k.val = k.val; omega
  | ⟨2, _⟩ => show win0_0.index t 2 * 16 + 1 * h.val = t.val % 4 * 16 + h.val; rw [hi]; show t.val % 4 * 16 + 1 * h.val = _; omega
  | ⟨3, _⟩ => show win0_0.index t 3 * 64 + 1 * w.val = w.val; rw [hi]; show 0 * 64 + 1 * w.val = w.val; omega

theorem strip1_apply (c : Dev nD) (t : Fin cfg0.N) (u : Fin 1) (g : Fin 64) (r : Fin 32) (j : Fin 128) :
    strip V c 1 t (ix4 u g r j)
      = (V c main_arg1 : Spec.SSkip.Idx → EReal) (ix4 (⟨t.val / 4, by have := point_lt t; omega⟩ : Fin 8) g
          (⟨t.val % 4 * 32 + r.val, by omega⟩ : Fin 128) j) := by
  have hi := (idx_facts t).2.1
  show V c (Pipeline.arrRef spec0 1) (((cfg0.win 1).blk t).view.emb (ix4 u g r j)) = _
  refine congrArg (V c main_arg1) (funext fun a => Fin.ext ?_)
  match a with
  | ⟨0, _⟩ => show win0_1.index t 0 * 1 + 1 * u.val = t.val / 4; rw [hi]; show t.val / 4 * 1 + 1 * u.val = t.val / 4; omega
  | ⟨1, _⟩ => show win0_1.index t 1 * 64 + 1 * g.val = g.val; rw [hi]; show 0 * 64 + 1 * g.val = g.val; omega
  | ⟨2, _⟩ => show win0_1.index t 2 * 32 + 1 * r.val = t.val % 4 * 32 + r.val; rw [hi]; show t.val % 4 * 32 + 1 * r.val = _; omega
  | ⟨3, _⟩ => show win0_1.index t 3 * 128 + 1 * j.val = j.val; rw [hi]; show 0 * 128 + 1 * j.val = j.val; omega

theorem strip2_apply (c : Dev nD) (t : Fin cfg0.N) (k : Fin 4) (o : Fin 64) (g : Fin 128) :
    strip V c 2 t (ix3 k o g) = (V c main_arg2 : Spec.SW.Idx → EReal) (ix3 k o g) := by
  have hi := (idx_facts t).2.2.1
  show V c (Pipeline.arrRef spec0 2) (((cfg0.win 2).blk t).view.emb (ix3 k o g)) = _
  refine congrArg (V c main_arg2) (funext fun a => Fin.ext ?_)
  match a with
  | ⟨0, _⟩ => show win0_2.index t 0 * 4 + 1 * k.val = k.val; rw [hi]; show 0 * 4 + 1 * k.val = k.val; omega
  | ⟨1, _⟩ => show win0_2.index t 1 * 64 + 1 * o.val = o.val; rw [hi]; show 0 * 64 + 1 * o.val = o.val; omega
  | ⟨2, _⟩ => show win0_2.index t 2 * 128 + 1 * g.val = g.val; rw [hi]; show 0 * 128 + 1 * g.val = g.val; omega

theorem strip3_apply (c : Dev nD) (t : Fin cfg0.N) (o : Fin 64) (u : Fin 1) :
    strip V c 3 t (ix2 o u) = (V c main_arg3 : Spec.SBias.Idx → EReal) (ix2 o u) := by
  have hi := (idx_facts t).2.2.2.1
  show V c (Pipeline.arrRef spec0 3) (((cfg0.win 3).blk t).view.emb (ix2 o u)) = _
  refine congrArg (V c main_arg3) (funext fun a => Fin.ext ?_)
  match a with
  | ⟨0, _⟩ => show win0_3.index t 0 * 64 + 1 * o.val = o.val; rw [hi]; show 0 * 64 + 1 * o.val = o.val; omega
  | ⟨1, _⟩ => show win0_3.index t 1 * 1 + 1 * u.val = u.val; rw [hi]; show 0 * 1 + 1 * u.val = u.val; omega

/-! ## The strip a point writes is the strip of z -/

theorem ix3_congr {n0 n1 n2 : Nat} {a a' : Fin n0} {b b' : Fin n1} {c c' : Fin n2}
    (ha : a.val = a'.val) (hb : b.val = b'.val) (hc : c.val = c'.val) : ix3 a b c = ix3 a' b' c' := by
  obtain rfl := Fin.ext ha; obtain rfl := Fin.ext hb; obtain rfl := Fin.ext hc; rfl
theorem ix4_congr {n0 n1 n2 n3 : Nat} {a a' : Fin n0} {b b' : Fin n1} {c c' : Fin n2} {d d' : Fin n3}
    (ha : a.val = a'.val) (hb : b.val = b'.val) (hc : c.val = c'.val) (hd : d.val = d'.val) : ix4 a b c d = ix4 a' b' c' d' := by
  obtain rfl := Fin.ext ha; obtain rfl := Fin.ext hb; obtain rfl := Fin.ext hc; obtain rfl := Fin.ext hd; rfl

theorem zStrip_lo_apply (x0 : S1x128x16x64.Idx → EReal) (x1 : S1x64x32x128.Idx → EReal) (x2 : S4x64x128.Idx → EReal) (x3 : S64x1.Idx → EReal)
    (u : Fin 1) (g : Fin 128) (r : Fin 32) (j : Fin 128) (hg : g.val < 64) :
    zStrip x0 x1 x2 x3 (ix4 u g r j)
      = upAt x0 x2 x3 ⟨g.val, hg⟩ (⟨r.val / 2, by omega⟩ : Fin 16) (⟨r.val % 2, by omega⟩ : Fin 2) j := by
  unfold zStrip
  rw [dif_pos (show ((ix4 u g r j : S1x128x32x128.Idx) 1).val < 64 from hg)]
theorem zStrip_hi_apply (x0 : S1x128x16x64.Idx → EReal) (x1 : S1x64x32x128.Idx → EReal) (x2 : S4x64x128.Idx → EReal) (x3 : S64x1.Idx → EReal)
    (u : Fin 1) (g : Fin 128) (r : Fin 32) (j : Fin 128) (hg : ¬ g.val < 64) :
    zStrip x0 x1 x2 x3 (ix4 u g r j) = x1 (ix4 (0 : Fin 1) (⟨g.val - 64, by omega⟩ : Fin 64) r j) := by
  unfold zStrip
  rw [dif_neg (show ¬ ((ix4 u g r j : S1x128x32x128.Idx) 1).val < 64 from hg)]

/-- The strip of the blocks at point t = 4b + s is rows 32s … 32s+31 of image b of Spec.z of the arrays. -/
theorem strip_is_z (c : Dev nD) (t : Fin cfg0.N) (u : Fin 1) (g : Fin 128) (r : Fin 32) (j : Fin 128) :
    zStrip (strip V c 0 t) (strip V c 1 t) (strip V c 2 t) (strip V c 3 t) (ix4 u g r j)
      = Spec.z (V c main_arg0) (V c main_arg1) (V c main_arg2) (V c main_arg3)
          (⟨t.val / 4, by have := point_lt t; omega⟩ : Fin 8) g (⟨t.val % 4 * 32 + r.val, by omega⟩ : Fin 128) j := by
  by_cases hg : g.val < 64
  · rw [zStrip_lo_apply _ _ _ _ u g r j hg]
    unfold Spec.z
    rw [dif_pos hg]
    unfold upAt Spec.up
    refine congr (congrArg HAdd.hAdd (Finset.sum_congr rfl fun k _ => ?_)) ?_
    · rw [strip0_apply]
      refine congr (congrArg HMul.hMul ?_) (congrArg _ (ix4_congr rfl rfl (by show t.val % 4 * 16 + r.val / 2 = (t.val % 4 * 32 + r.val) / 2; omega) rfl))
      by_cases hp : j.val % 2 = 0
      · rw [if_pos hp, strip2_apply]
        exact congrArg _ (ix3_congr (by show 2 * (r.val % 2) = 2 * ((t.val % 4 * 32 + r.val) % 2) + j.val % 2; omega) rfl rfl)
      · rw [if_neg hp, strip2_apply]
        exact congrArg _ (ix3_congr (by show 2 * (r.val % 2) + 1 = 2 * ((t.val % 4 * 32 + r.val) % 2) + j.val % 2; omega) rfl rfl)
    · exact strip3_apply V c t _ _
  · rw [zStrip_hi_apply _ _ _ _ u g r j hg]
    unfold Spec.z
    rw [dif_neg hg, strip1_apply]

/-- Spec.z of the arrays the region finds, as contents of z's buffer. -/
def zOf (c : Dev nD) : Buf (Elt Ideal) ((c : Thread nD τ).loc main_v0) := fun y =>
  Spec.z (V c main_arg0) (V c main_arg1) (V c main_arg2) (V c main_arg3)
    (⟨(y 0).val, (y 0).isLt⟩ : Fin 8) (⟨(y 1).val, (y 1).isLt⟩ : Fin 128) (⟨(y 2).val, (y 2).isLt⟩ : Fin 128) (⟨(y 3).val, (y 3).isLt⟩ : Fin 128)

theorem z_congr (x : Spec.SX.Idx → EReal) (sk : Spec.SSkip.Idx → EReal) (w : Spec.SW.Idx → EReal) (bs : Spec.SBias.Idx → EReal)
    {b b' : Fin 8} {g g' i i' j j' : Fin 128} (hb : b.val = b'.val) (hg : g.val = g'.val) (hi : i.val = i'.val) (hj : j.val = j'.val) :
    Spec.z x sk w bs b g i j = Spec.z x sk w bs b' g' i' j' := by
  obtain rfl := Fin.ext hb; obtain rfl := Fin.ext hg; obtain rfl := Fin.ext hi; obtain rfl := Fin.ext hj; rfl

/-- WHAT POINT t WRITES BACK is its block of that array. -/
theorem flushed_z (c : Dev nD) (t : Fin cfg0.N) :
    (dat V c).flushed 4 t = ((cfg0.win 4).blk t).view.read (Elt Ideal) (zOf V c) := by
  show (cfg0.win 4).cut (grid0.coords t) ((dat V c).after 4 t) = _
  rw [after_4]
  unfold outAt
  rw [outStrip_eq]
  funext y
  obtain ⟨u, g, r, j, rfl⟩ : ∃ (u : Fin 1) (g : Fin 128) (r : Fin 32) (j : Fin 128), y = ix4 u g r j := ⟨y 0, y 1, y 2, y 3, eq_ix4 y⟩
  have ht := point_lt t
  have hi := (idx_facts t).2.2.2.2
  refine (strip_is_z V c t u g r j).trans ?_
  show _ = zOf V c (((cfg0.win 4).blk t).view.emb (ix4 u g r j))
  unfold zOf
  refine z_congr _ _ _ _ ?_ ?_ ?_ ?_
  · show t.val / 4 = win0_4.index t 0 * 1 + 1 * u.val; rw [hi]; show t.val / 4 = t.val / 4 * 1 + 1 * u.val; omega
  · show g.val = win0_4.index t 1 * 128 + 1 * g.val; rw [hi]; show g.val = 0 * 128 + 1 * g.val; omega
  · show t.val % 4 * 32 + r.val = win0_4.index t 2 * 32 + 1 * r.val; rw [hi]; show _ = t.val % 4 * 32 + 1 * r.val; omega
  · show j.val = win0_4.index t 3 * 128 + 1 * j.val; rw [hi]; show j.val = 0 * 128 + 1 * j.val; omega

/-! ## The strips tile z -/

theorem mem_strip (t : Fin cfg0.N) (i : S8x128x128x128.Idx) :
    i ∈ ((cfg0.win 4).blk t).view.set ↔ ∀ a : Fin 4, win0_4.index t a * S1x128x32x128.size a ≤ (i a).val
      ∧ (i a).val < win0_4.index t a * S1x128x32x128.size a + S1x128x32x128.size a := by
  show i ∈ ((View.whole main_v0).slice (win0_4.rect t)).set ↔ _
  rw [View.set_slice_whole, Rect.mem_set_unit]
  exact Iff.rfl

theorem strips_cover (i : S8x128x128x128.Idx) :
    ∃ t : Fin cfg0.N, (cfg0.win 4).flush t = true ∧ i ∈ ((cfg0.win 4).blk t).view.set := by
  have h0 : (i 0).val < 8 := (i 0).isLt
  have h1 : (i 1).val < 128 := (i 1).isLt
  have h2 : (i 2).val < 128 := (i 2).isLt
  have h3 : (i 3).val < 128 := (i 3).isLt
  refine ⟨⟨(i 0).val * 4 + (i 2).val / 32, by show _ < grid0.N; rw [N_0]; omega⟩, flush0_4 _, ?_⟩
  rw [mem_strip]
  have hi := (idx_facts ⟨(i 0).val * 4 + (i 2).val / 32, by show _ < grid0.N; rw [N_0]; omega⟩).2.2.2.2
  intro a
  rw [hi]
  match a with
  | ⟨0, _⟩ => show ((i 0).val * 4 + (i 2).val / 32) / 4 * 1 ≤ (i 0).val ∧ (i 0).val < ((i 0).val * 4 + (i 2).val / 32) / 4 * 1 + 1; omega
  | ⟨1, _⟩ => show 0 * 128 ≤ (i 1).val ∧ (i 1).val < 0 * 128 + 128; omega
  | ⟨2, _⟩ => show ((i 0).val * 4 + (i 2).val / 32) % 4 * 32 ≤ (i 2).val ∧ (i 2).val < ((i 0).val * 4 + (i 2).val / 32) % 4 * 32 + 32; omega
  | ⟨3, _⟩ => show 0 * 128 ≤ (i 3).val ∧ (i 3).val < 0 * 128 + 128; omega

/-- After the region z's buffer holds Spec.z of the arrays the region found. -/
theorem z_array (c : Dev nD) : (dat V c).arrAt 4 cfg0.N = zOf V c :=
  (dat V c).arrAt_eq_of_cover 4 (zOf V c) (fun t _ => flushed_z V c t) (strips_cover)

end Cert.ReferenceIdeal.Upsample

end
-- ==== Proof.RefGhostValue.lean ====
/-
  What the second region of the reference computes from a padded strip.

  The body's arithmetic, read entry by entry over ANY nine shifted windows of a padded strip of z and ANY nine
  shifted windows of a padded strip of the first convolution (which windows they are, and what the padding
  holds, depends on the strip's position in the image and is settled elsewhere):

    conv(o, r, j) = leaky( Σ_k Σ_g wp(k, o, g) · T_k(g, r, j) + b1(o) )        34 rows of the first convolution
    dw(o, i, j)   = leaky( Σ_k U_k(o, i, j) · wd(k, o) + b2(o) )               32 rows of the depthwise one

  each sum taken tap by tap from a zero accumulator, as the body takes it.
-/
import proofs.«169621_g2000704505896602_pallasbulk_1077_31_alg».proof.Proof.RefGhostData
import proofs.«169621_g2000704505896602_pallasbulk_1077_31_alg».proof.Proof.Spec
import proofs.«169621_g2000704505896602_pallasbulk_1077_31_alg».proof.Proof.LibStripForms
import proofs.«169621_g2000704505896602_pallasbulk_1077_31_alg».proof.Proof.LibPlainMatmul
import proofs.«169621_g2000704505896602_pallasbulk_1077_31_alg».proof.Proof.LibMergeForms
import proofs.«169621_g2000704505896602_pallasbulk_1077_31_alg».proof.Proof.LibColumnForms
import Idealize.ShloMosaic.Lib.ValueLayout
import Idealize.ShloMosaic.PureOps.Ideal.Laws

set_option maxRecDepth 16384

noncomputable section

namespace Cert.ReferenceIdeal.Ghost

open Cert.ReferenceIdeal Cert.ReferenceIdeal.Gen Cert.Proof
open Idealize.ShloMosaic Idealize.ShloMosaic.TcCoe Idealize.ShloMosaic.ValueIdx
open Cert.PointConv Cert.StripForms Cert.ColumnForms

/-! ## The rectifier -/

/-- Compare against the zero word, keep or scale by the slope word: the leaky rectifier. -/
theorem leaky_apply (a : EReal) :
    Scalar.select (FloatOps.cmpf (F := Ideal) .oge a (Scalar.ofBits (F := Ideal) .f32 0x00000000#32)) a
        (FloatOps.mulf (F := Ideal) (Scalar.ofBits (F := Ideal) .f32 0x3C23D70A#32) a) = Spec.leaky a := by
  show (if Ideal.cmp .oge a (Ideal.ofBits .f32 0x00000000#32) = 1 then a else Ideal.ofBits .f32 0x3C23D70A#32 * a) = _
  rw [Ideal.ofBits_zero_f32]
  unfold Ideal.cmp Spec.leaky Spec.slope
  by_cases h : (0 : EReal) ≤ a
  · simp [h]
  · simp [h]

/-! ## One tap of the 3×3 convolution -/

theorem dotTap_eq : dot_S32x128_S128x4352_S32x4352_1_0_0_1_n_n
    = plainDims 32 128 4352 dot_S32x128_S128x4352_S32x4352_1_0_0_1_n_n_wf := rfl

/-- Slice `k` of the convolution's weights, laid out as a 32 × 128 matrix. -/
theorem wpSlice_apply (x3 : Vec Ideal S9x32x128 .f32) (k : Fin 9) (inb) (o : Fin 32) (g : Fin 128) :
    shapeCast S32x128 (View.ld x3 (Rect.unit (s := S9x32x128) ![k.val, 0, 0] S1x32x128.size inb)) shapeCasts_S1x32x128_S32x128 (ix2 o g)
      = x3 (ix3 k o g) := by
  refine (shapeCast_1ab_ab_apply _ _ o g).trans ?_
  show x3 ((Rect.unit (s := S9x32x128) ![k.val, 0, 0] S1x32x128.size inb).emb (ix3 (0 : Fin 1) o g)) = _
  refine congrArg x3 (funext fun a => Fin.ext ?_)
  match a with
  | ⟨0, _⟩ => show k.val + 1 * 0 = k.val; omega
  | ⟨1, _⟩ => show 0 + 1 * o.val = o.val; omega
  | ⟨2, _⟩ => show 0 + 1 * g.val = g.val; omega

/-- A weight slice times a window of the padded strip (its rows laid end to end): entry (o, r·128 + j). -/
theorem tap_apply (x3 : Vec Ideal S9x32x128 .f32) (k : Fin 9) (inb) (T : FVec Ideal S128x34x128 .f32)
    (o : Fin 32) (r : Fin 34) (j : Fin 128) :
    matmul dot_S32x128_S128x4352_S32x4352_1_0_0_1_n_n none
        (shapeCast S32x128 (View.ld x3 (Rect.unit (s := S9x32x128) ![k.val, 0, 0] S1x32x128.size inb)) shapeCasts_S1x32x128_S32x128 : FVec Ideal S32x128 .f32)
        (shapeCast S128x4352 T shapeCasts_S128x34x128_S128x4352 : FVec Ideal S128x4352 .f32) (constant S32x4352 .f32 0x00000000#32)
        (ix2 o (⟨r.val * 128 + j.val, by omega⟩ : Fin 4352))
      = ∑ g : Fin 128, x3 (ix3 k o g) * T (ix3 g r j) := by
  show FloatOps.matmul dot_S32x128_S128x4352_S32x4352_1_0_0_1_n_n none _ _ (constant S32x4352 .f32 0x00000000#32) _ = _
  rw [dotTap_eq, plainMatmul_zero_apply]
  refine Finset.sum_congr rfl fun g _ => ?_
  rw [wpSlice_apply, shapeCast_abc_am_apply T _ (by norm_num) g r j _ rfl]

/-! ## The 34 rows of the first convolution -/

/-- The first convolution at row r, column j, channel o, from nine windows of the padded strip: the taps added one
    by one to the zero word, the bias, the rectifier. -/
def convAt (x3 : S9x32x128.Idx → EReal) (x4 : S32x1.Idx → EReal) (T0 T1 T2 T3 T4 T5 T6 T7 T8 : S128x34x128.Idx → EReal)
    (o : Fin 32) (r : Fin 34) (j : Fin 128) : EReal :=
  Spec.leaky ((((((((((Ideal.ofBits .f32 0x00000000#32 + (∑ g : Fin 128, x3 (ix3 (0 : Fin 9) o g) * T0 (ix3 g r j))) + (∑ g : Fin 128, x3 (ix3 (1 : Fin 9) o g) * T1 (ix3 g r j))) + (∑ g : Fin 128, x3 (ix3 (2 : Fin 9) o g) * T2 (ix3 g r j))) + (∑ g : Fin 128, x3 (ix3 (3 : Fin 9) o g) * T3 (ix3 g r j))) + (∑ g : Fin 128, x3 (ix3 (4 : Fin 9) o g) * T4 (ix3 g r j)))
    + (∑ g : Fin 128, x3 (ix3 (5 : Fin 9) o g) * T5 (ix3 g r j))) + (∑ g : Fin 128, x3 (ix3 (6 : Fin 9) o g) * T6 (ix3 g r j))) + (∑ g : Fin 128, x3 (ix3 (7 : Fin 9) o g) * T7 (ix3 g r j))) + (∑ g : Fin 128, x3 (ix3 (8 : Fin 9) o g) * T8 (ix3 g r j))) + x4 (ix2 o (0 : Fin 1)))

set_option maxHeartbeats 1000000 in
theorem convRows_apply (x3 : Vec Ideal S9x32x128 .f32) (x4 : Vec Ideal S32x1 .f32) (T0 T1 T2 T3 T4 T5 T6 T7 T8 : FVec Ideal S128x34x128 .f32) (inb0 inb1 inb2 inb3 inb4 inb5 inb6 inb7 inb8)
    (o : Fin 32) (r : Fin 34) (j : Fin 128) :
    k1_pay10 (F := Ideal) (k1_pay8 (k1_pay6 T0 (View.ld x3 (Rect.unit (s := S9x32x128) ![0, 0, 0] S1x32x128.size inb0))) (k1_pay7 T1) (View.ld x3 (Rect.unit (s := S9x32x128) ![1, 0, 0] S1x32x128.size inb1)) T2 (View.ld x3 (Rect.unit (s := S9x32x128) ![2, 0, 0] S1x32x128.size inb2)) T3 (View.ld x3 (Rect.unit (s := S9x32x128) ![3, 0, 0] S1x32x128.size inb3)) T4 (View.ld x3 (Rect.unit (s := S9x32x128) ![4, 0, 0] S1x32x128.size inb4)) T5 (View.ld x3 (Rect.unit (s := S9x32x128) ![5, 0, 0] S1x32x128.size inb5))) T6 (View.ld x3 (Rect.unit (s := S9x32x128) ![6, 0, 0] S1x32x128.size inb6)) T7 (View.ld x3 (Rect.unit (s := S9x32x128) ![7, 0, 0] S1x32x128.size inb7)) T8 (View.ld x3 (Rect.unit (s := S9x32x128) ![8, 0, 0] S1x32x128.size inb8)) x4 (ix3 o r j) = convAt x3 x4 T0 T1 T2 T3 T4 T5 T6 T7 T8 o r j := by
  unfold k1_pay10
  refine (shapeCast_am_abc_apply _ _ (by norm_num) o r j (⟨r.val * 128 + j.val, by omega⟩ : Fin 4352) rfl).trans ?_
  refine (leaky_apply _).trans ?_
  unfold convAt
  refine congrArg Spec.leaky ?_
  unfold k1_pay8 k1_pay6 k1_pay7
  rw [← tap_apply x3 0 inb0 T0 o r j, ← tap_apply x3 1 inb1 T1 o r j, ← tap_apply x3 2 inb2 T2 o r j,
    ← tap_apply x3 3 inb3 T3 o r j, ← tap_apply x3 4 inb4 T4 o r j, ← tap_apply x3 5 inb5 T5 o r j,
    ← tap_apply x3 6 inb6 T6 o r j, ← tap_apply x3 7 inb7 T7 o r j, ← tap_apply x3 8 inb8 T8 o r j,
    ← broadcastTo_a1_ab_apply x4 broadcasts_S32x1_S32x4352 o (⟨r.val * 128 + j.val, by omega⟩ : Fin 4352)]
  rfl

/-! ## The depthwise convolution -/

/-- Row `k` of the depthwise weights as a coefficient per channel, copied over the strip. -/
theorem wdCoef_apply (x5 : Vec Ideal S9x32 .f32) (k : Fin 9) (hs : S9x32.Slices ![k.val, 0] S1x32) (o : Fin 32) (i : Fin 32) (j : Fin 128) :
    broadcastTo S32x32x128 (shapeCast S32x1x1 (shapeCast S32 (extractStridedSlice S1x32 ![k.val, 0] x5 hs) shapeCasts_S1x32_S32) shapeCasts_S32_S32x1x1)
        broadcasts_S32x1x1_S32x32x128 (ix3 o i j) = x5 (ix2 k o) := by
  refine (broadcastTo_apply _ _ (ix3 o i j) (ix3 o (0 : Fin 1) (0 : Fin 1)) fun a => ?_).trans ?_
  · match a with
    | ⟨0, _⟩ => rfl
    | ⟨1, _⟩ => rfl
    | ⟨2, _⟩ => rfl
  refine (shapeCast_apply _ _ (ix3 o (0 : Fin 1) (0 : Fin 1)) (ix1 o) (by
    rw [Shape.rowMajor_val_one, Shape.rowMajor_val_three]; show o.val = (o.val * 1 + 0) * 1 + 0; omega)).trans ?_
  refine (shapeCast_1a_a_apply _ _ o).trans ?_
  exact extractStridedSlice_apply _ x5 hs _ (ix2 k o) fun a => by
    match a with
    | ⟨0, _⟩ => show k.val = k.val + 0; omega
    | ⟨1, _⟩ => show o.val = 0 + o.val; omega

/-- A bias column laid out per channel and copied over the strip. -/
theorem biasCol3_apply (x6 : Vec Ideal S32x1 .f32) (o : Fin 32) (i : Fin 32) (j : Fin 128) :
    broadcastTo S32x32x128 (shapeCast S32x1x1 x6 shapeCasts_S32x1_S32x1x1) broadcasts_S32x1x1_S32x32x128 (ix3 o i j)
      = x6 (ix2 o (0 : Fin 1)) := by
  refine (broadcastTo_apply _ _ (ix3 o i j) (ix3 o (0 : Fin 1) (0 : Fin 1)) fun a => ?_).trans ?_
  · match a with
    | ⟨0, _⟩ => rfl
    | ⟨1, _⟩ => rfl
    | ⟨2, _⟩ => rfl
  exact shapeCast_apply _ _ (ix3 o (0 : Fin 1) (0 : Fin 1)) (ix2 o (0 : Fin 1)) (by
    rw [Shape.rowMajor_val_two, Shape.rowMajor_val_three]; show o.val * 1 + 0 = (o.val * 1 + 0) * 1 + 0; omega)

/-- The depthwise convolution at row i, column j, channel o, from nine windows of the padded first convolution. -/
def dwAt (x5 : S9x32.Idx → EReal) (x6 : S32x1.Idx → EReal) (U0 U1 U2 U3 U4 U5 U6 U7 U8 : S32x32x128.Idx → EReal)
    (o : Fin 32) (i : Fin 32) (j : Fin 128) : EReal :=
  Spec.leaky ((((((((((Ideal.ofBits .f32 0x00000000#32 + U0 (ix3 o i j) * x5 (ix2 (0 : Fin 9) o)) + U1 (ix3 o i j) * x5 (ix2 (1 : Fin 9) o)) + U2 (ix3 o i j) * x5 (ix2 (2 : Fin 9) o)) + U3 (ix3 o i j) * x5 (ix2 (3 : Fin 9) o)) + U4 (ix3 o i j) * x5 (ix2 (4 : Fin 9) o))
    + U5 (ix3 o i j) * x5 (ix2 (5 : Fin 9) o)) + U6 (ix3 o i j) * x5 (ix2 (6 : Fin 9) o)) + U7 (ix3 o i j) * x5 (ix2 (7 : Fin 9) o)) + U8 (ix3 o i j) * x5 (ix2 (8 : Fin 9) o)) + x6 (ix2 o (0 : Fin 1)))

set_option maxHeartbeats 1000000 in
theorem dwRows_apply (x5 : Vec Ideal S9x32 .f32) (x6 : Vec Ideal S32x1 .f32) (U0 U1 U2 U3 U4 U5 U6 U7 U8 : FVec Ideal S32x32x128 .f32)
    (u : Fin 1) (o : Fin 32) (i : Fin 32) (j : Fin 128) :
    k1_pay1 (F := Ideal) (k1_pay17 x5 (k1_pay15 x5 U0 U1) U2 (k1_pay16 x5) U3 U4 U5 U6 U7) U8 (k1_pay18 x5) x6 (ix4 u o i j)
      = dwAt x5 x6 U0 U1 U2 U3 U4 U5 U6 U7 U8 o i j := by
  unfold k1_pay1
  refine (shapeCast_abc_1abc_apply _ _ u o i j).trans ?_
  refine (leaky_apply _).trans ?_
  unfold dwAt
  refine congrArg Spec.leaky ?_
  unfold k1_pay17 k1_pay15 k1_pay16 k1_pay18
  rw [← wdCoef_apply x5 0 slices_S9x32_o0_0_S1x32 o i j, ← wdCoef_apply x5 1 slices_S9x32_o1_0_S1x32 o i j,
    ← wdCoef_apply x5 2 slices_S9x32_o2_0_S1x32 o i j, ← wdCoef_apply x5 3 slices_S9x32_o3_0_S1x32 o i j,
    ← wdCoef_apply x5 4 slices_S9x32_o4_0_S1x32 o i j, ← wdCoef_apply x5 5 slices_S9x32_o5_0_S1x32 o i j,
    ← wdCoef_apply x5 6 slices_S9x32_o6_0_S1x32 o i j, ← wdCoef_apply x5 7 slices_S9x32_o7_0_S1x32 o i j,
    ← wdCoef_apply x5 8 slices_S9x32_o8_0_S1x32 o i j, ← biasCol3_apply x6 o i j]
  rfl

/-- The first 32 output channels: the interior of the padded first convolution. -/
theorem firstHalf_apply (W : FVec Ideal S32x32x128 .f32) (u : Fin 1) (o : Fin 32) (i : Fin 32) (j : Fin 128) :
    k1_pay14 (F := Ideal) W (ix4 u o i j) = W (ix3 o i j) := by
  unfold k1_pay14
  exact shapeCast_abc_1abc_apply _ _ u o i j

/-- The 34 rows as stored into the padded buffer. -/
theorem stored_apply (W : FVec Ideal S32x34x128 .f32) (y : S32x34x128.Idx) : k1_pay11 (F := Ideal) W y = W y := by
  unfold k1_pay11
  exact congrFun (shapeCast_self W _) y

end Cert.ReferenceIdeal.Ghost

end
-- ==== Proof.LibPieceRead.lean ====
/-
  Reading a buffer filled by rectangular stores, and a load through a rectangle, at an index.

  A rank-3 buffer [c, P, Q] written by a list of stores, newest first, each through the unit-stride rectangle of
  rows a … a+h−1 and columns b … b+w−1 on every channel: at (g, p, q) the contents are the newest store's payload
  at (g, p − a, q − b) when the index lies in its rectangle, and otherwise what the older stores left. A load
  through such a rectangle reads (g, r, j) at (g, a + r, b + j).
-/
import Idealize.ShloMosaic.Lib.Pipeline.Value
import Idealize.ShloMosaic.Lib.ValueIdx

noncomputable section

namespace Cert.PieceRead

open Idealize.ShloMosaic Idealize.ShloMosaic.ValueIdx

variable {Val : EltTy → Type} {e : EltTy}

/-- Membership of (g, p, q) in the rectangle of rows a…, columns b…. -/
theorem mem_unit3 {c P Q : Nat} (a b h w : Nat) (inb) (g : Fin c) (p : Fin P) (q : Fin Q) :
    (ix3 g p q : (⟨3, ![c, P, Q]⟩ : Shape).Idx) ∈ (Rect.unit (s := ⟨3, ![c, P, Q]⟩) ![0, a, b] ![c, h, w] inb).set
      ↔ (a ≤ p.val ∧ p.val < a + h) ∧ (b ≤ q.val ∧ q.val < b + w) := by
  rw [Rect.mem_set_unit]
  constructor
  · intro H
    exact ⟨H (1 : Fin 3), H (2 : Fin 3)⟩
  · intro H x
    match x with
    | ⟨0, _⟩ => exact ⟨Nat.zero_le _, by show g.val < 0 + c; omega⟩
    | ⟨1, _⟩ => exact H.1
    | ⟨2, _⟩ => exact H.2

/-- Inside the newest store's rectangle: its payload at the shifted index. -/
theorem canon_hit3 [∀ e, Nonempty (Val e)] {c P Q : Nat} (a b h w : Nat) (inb)
    (pay : (⟨3, ![c, h, w]⟩ : Shape).Idx → Val e) (L : List (View.Piece Val (⟨3, ![c, P, Q]⟩ : Shape) e))
    (g : Fin c) (p : Fin P) (q : Fin Q) (hp : a ≤ p.val ∧ p.val < a + h) (hq : b ≤ q.val ∧ q.val < b + w) :
    View.canon (⟨Rect.unit (s := ⟨3, ![c, P, Q]⟩) ![0, a, b] ![c, h, w] inb, pay⟩ :: L) (ix3 g p q)
      = pay (ix3 g (⟨p.val - a, by omega⟩ : Fin h) (⟨q.val - b, by omega⟩ : Fin w)) := by
  have e : (Rect.unit (s := ⟨3, ![c, P, Q]⟩) ![0, a, b] ![c, h, w] inb).emb (ix3 g (⟨p.val - a, by omega⟩ : Fin h) (⟨q.val - b, by omega⟩ : Fin w))
      = ix3 g p q := funext fun x => Fin.ext (by
    match x with
    | ⟨0, _⟩ => show 0 + 1 * g.val = g.val; omega
    | ⟨1, _⟩ => show a + 1 * (p.val - a) = p.val; omega
    | ⟨2, _⟩ => show b + 1 * (q.val - b) = q.val; omega)
  rw [← e]
  exact View.canon_cons_emb _ _ _ _

/-- Outside it: what the older stores left. -/
theorem canon_miss3 [∀ e, Nonempty (Val e)] {c P Q : Nat} (a b h w : Nat) (inb)
    (pay : (⟨3, ![c, h, w]⟩ : Shape).Idx → Val e) (L : List (View.Piece Val (⟨3, ![c, P, Q]⟩ : Shape) e))
    (g : Fin c) (p : Fin P) (q : Fin Q) (hm : ¬((a ≤ p.val ∧ p.val < a + h) ∧ (b ≤ q.val ∧ q.val < b + w))) :
    View.canon (⟨Rect.unit (s := ⟨3, ![c, P, Q]⟩) ![0, a, b] ![c, h, w] inb, pay⟩ :: L) (ix3 g p q) = View.canon L (ix3 g p q) :=
  View.canon_cons_of_not_mem _ _ (by rw [mem_unit3]; exact hm)

/-- A load through the rectangle of rows a…, columns b…: (g, r, j) reads (g, a + r, b + j). -/
theorem ld_unit3 {c P Q : Nat} (a b h w : Nat) (inb) (X : (⟨3, ![c, P, Q]⟩ : Shape).Idx → Val e)
    (g : Fin c) (r : Fin h) (j : Fin w) (hr : a + r.val < P) (hj : b + j.val < Q) :
    View.ld X (Rect.unit (s := ⟨3, ![c, P, Q]⟩) ![0, a, b] ![c, h, w] inb) (ix3 g r j) = X (ix3 g ⟨a + r.val, hr⟩ ⟨b + j.val, hj⟩) := by
  show X ((Rect.unit (s := ⟨3, ![c, P, Q]⟩) ![0, a, b] ![c, h, w] inb).emb (ix3 g r j)) = _
  refine congrArg X (funext fun x => Fin.ext ?_)
  match x with
  | ⟨0, _⟩ => show 0 + 1 * g.val = g.val; omega
  | ⟨1, _⟩ => show a + 1 * r.val = a + r.val; omega
  | ⟨2, _⟩ => show b + 1 * j.val = b + j.val; omega

end Cert.PieceRead

end
-- ==== Proof.RefGhostStrip.lean ====
/-
  What the two padded buffers of the second region hold.

  The padded strip of z [128, 36, 130] is filled with zeros, then the strip is stored at rows 2–33, columns
  1–128, then — where there is a strip above — two rows at rows 0–1, and — where there is one below — two rows at
  rows 34–35. The padded first convolution [32, 34, 130] is filled with zeros, then its 34 rows are stored at
  columns 1–128, then — on the first strip of an image — row 0 is zeroed, and — on the last — row 33. Entry by
  entry, for each of the three positions of a strip in its image.
-/
import proofs.«169621_g2000704505896602_pallasbulk_1077_31_alg».proof.Proof.RefGhostValue
import proofs.«169621_g2000704505896602_pallasbulk_1077_31_alg».proof.Proof.LibPieceRead

set_option maxRecDepth 16384

noncomputable section

namespace Cert.ReferenceIdeal.Ghost

open Cert.ReferenceIdeal Cert.ReferenceIdeal.Gen Cert.Proof
open Idealize.ShloMosaic Idealize.ShloMosaic.TcCoe Idealize.ShloMosaic.ValueIdx
open Cert.PieceRead

/-! ## The padded strip of z, by position -/

section PadZ
variable (fb ft : (⟨3, ![128, 2, 128]⟩ : Shape).Idx → Elt Ideal .f32) (fm : (⟨3, ![128, 32, 128]⟩ : Shape).Idx → Elt Ideal .f32)
  (fz : (⟨3, ![128, 36, 130]⟩ : Shape).Idx → Elt Ideal .f32) (inbB inbT inbM inbZ)
  (g : Fin 128) (p : Fin 36) (q : Fin 130)

/-- A middle strip: rows above and below copied in. -/
theorem padZ_middle (hz : ∀ y, fz y = (0 : EReal)) :
    View.canon (Val := Elt Ideal) (e := .f32) [⟨Rect.unit (s := S128x36x130) ![0, 34, 1] ![128, 2, 128] inbB, fb⟩, ⟨Rect.unit (s := S128x36x130) ![0, 0, 1] ![128, 2, 128] inbT, ft⟩, ⟨Rect.unit (s := S128x36x130) ![0, 2, 1] ![128, 32, 128] inbM, fm⟩, ⟨Rect.unit (s := S128x36x130) ![0, 0, 0] ![128, 36, 130] inbZ, fz⟩] (ix3 g p q)
      = (if hq : 1 ≤ q.val ∧ q.val ≤ 128 then
          (if hb : 34 ≤ p.val then fb (ix3 g (⟨p.val - 34, by omega⟩ : Fin 2) (⟨q.val - 1, by omega⟩ : Fin 128))
           else if ht : p.val < 2 then ft (ix3 g (⟨p.val - 0, by omega⟩ : Fin 2) (⟨q.val - 1, by omega⟩ : Fin 128))
           else fm (ix3 g (⟨p.val - 2, by omega⟩ : Fin 32) (⟨q.val - 1, by omega⟩ : Fin 128)))
        else 0 : EReal) := by
  by_cases hq : 1 ≤ q.val ∧ q.val ≤ 128
  · rw [dif_pos hq]
    by_cases hb : 34 ≤ p.val
    · rw [dif_pos hb]
      exact canon_hit3 (Val := Elt Ideal) (e := .f32) 34 1 2 128 inbB fb _ g p q (by omega) (by omega)
    · rw [dif_neg hb]
      refine (canon_miss3 (Val := Elt Ideal) (e := .f32) 34 1 2 128 inbB fb _ g p q (by omega)).trans ?_
      by_cases ht : p.val < 2
      · rw [dif_pos ht]
        exact canon_hit3 (Val := Elt Ideal) (e := .f32) 0 1 2 128 inbT ft _ g p q (by omega) (by omega)
      · rw [dif_neg ht]
        refine (canon_miss3 (Val := Elt Ideal) (e := .f32) 0 1 2 128 inbT ft _ g p q (by omega)).trans ?_
        exact canon_hit3 (Val := Elt Ideal) (e := .f32) 2 1 32 128 inbM fm _ g p q (by omega) (by omega)
  · rw [dif_neg hq]
    refine (canon_miss3 (Val := Elt Ideal) (e := .f32) 34 1 2 128 inbB fb _ g p q (by omega)).trans ?_
    refine (canon_miss3 (Val := Elt Ideal) (e := .f32) 0 1 2 128 inbT ft _ g p q (by omega)).trans ?_
    refine (canon_miss3 (Val := Elt Ideal) (e := .f32) 2 1 32 128 inbM fm _ g p q (by omega)).trans ?_
    exact (canon_hit3 (Val := Elt Ideal) (e := .f32) 0 0 36 130 inbZ fz _ g p q (by omega) (by omega)).trans (hz _)

/-- The first strip of an image: nothing above (rows 0–1 stay zero). -/
theorem padZ_first (hz : ∀ y, fz y = (0 : EReal)) :
    View.canon (Val := Elt Ideal) (e := .f32) [⟨Rect.unit (s := S128x36x130) ![0, 34, 1] ![128, 2, 128] inbB, fb⟩, ⟨Rect.unit (s := S128x36x130) ![0, 2, 1] ![128, 32, 128] inbM, fm⟩, ⟨Rect.unit (s := S128x36x130) ![0, 0, 0] ![128, 36, 130] inbZ, fz⟩] (ix3 g p q)
      = (if hq : 1 ≤ q.val ∧ q.val ≤ 128 then
          (if hb : 34 ≤ p.val then fb (ix3 g (⟨p.val - 34, by omega⟩ : Fin 2) (⟨q.val - 1, by omega⟩ : Fin 128))
           else if ht : p.val < 2 then 0
           else fm (ix3 g (⟨p.val - 2, by omega⟩ : Fin 32) (⟨q.val - 1, by omega⟩ : Fin 128)))
        else 0 : EReal) := by
  by_cases hq : 1 ≤ q.val ∧ q.val ≤ 128
  · rw [dif_pos hq]
    by_cases hb : 34 ≤ p.val
    · rw [dif_pos hb]
      exact canon_hit3 (Val := Elt Ideal) (e := .f32) 34 1 2 128 inbB fb _ g p q (by omega) (by omega)
    · rw [dif_neg hb]
      refine (canon_miss3 (Val := Elt Ideal) (e := .f32) 34 1 2 128 inbB fb _ g p q (by omega)).trans ?_
      by_cases ht : p.val < 2
      · rw [dif_pos ht]
        refine (canon_miss3 (Val := Elt Ideal) (e := .f32) 2 1 32 128 inbM fm _ g p q (by omega)).trans ?_
        exact (canon_hit3 (Val := Elt Ideal) (e := .f32) 0 0 36 130 inbZ fz _ g p q (by omega) (by omega)).trans (hz _)
      · rw [dif_neg ht]
        exact canon_hit3 (Val := Elt Ideal) (e := .f32) 2 1 32 128 inbM fm _ g p q (by omega) (by omega)
  · rw [dif_neg hq]
    refine (canon_miss3 (Val := Elt Ideal) (e := .f32) 34 1 2 128 inbB fb _ g p q (by omega)).trans ?_
    refine (canon_miss3 (Val := Elt Ideal) (e := .f32) 2 1 32 128 inbM fm _ g p q (by omega)).trans ?_
    exact (canon_hit3 (Val := Elt Ideal) (e := .f32) 0 0 36 130 inbZ fz _ g p q (by omega) (by omega)).trans (hz _)

/-- The last strip of an image: nothing below (rows 34–35 stay zero). -/
theorem padZ_last (hz : ∀ y, fz y = (0 : EReal)) :
    View.canon (Val := Elt Ideal) (e := .f32) [⟨Rect.unit (s := S128x36x130) ![0, 0, 1] ![128, 2, 128] inbT, ft⟩, ⟨Rect.unit (s := S128x36x130) ![0, 2, 1] ![128, 32, 128] inbM, fm⟩, ⟨Rect.unit (s := S128x36x130) ![0, 0, 0] ![128, 36, 130] inbZ, fz⟩] (ix3 g p q)
      = (if hq : 1 ≤ q.val ∧ q.val ≤ 128 then
          (if hb : 34 ≤ p.val then 0
           else if ht : p.val < 2 then ft (ix3 g (⟨p.val - 0, by omega⟩ : Fin 2) (⟨q.val - 1, by omega⟩ : Fin 128))
           else fm (ix3 g (⟨p.val - 2, by omega⟩ : Fin 32) (⟨q.val - 1, by omega⟩ : Fin 128)))
        else 0 : EReal) := by
  by_cases hq : 1 ≤ q.val ∧ q.val ≤ 128
  · rw [dif_pos hq]
    by_cases hb : 34 ≤ p.val
    · rw [dif_pos hb]
      refine (canon_miss3 (Val := Elt Ideal) (e := .f32) 0 1 2 128 inbT ft _ g p q (by omega)).trans ?_
      refine (canon_miss3 (Val := Elt Ideal) (e := .f32) 2 1 32 128 inbM fm _ g p q (by omega)).trans ?_
      exact (canon_hit3 (Val := Elt Ideal) (e := .f32) 0 0 36 130 inbZ fz _ g p q (by omega) (by omega)).trans (hz _)
    · rw [dif_neg hb]
      by_cases ht : p.val < 2
      · rw [dif_pos ht]
        exact canon_hit3 (Val := Elt Ideal) (e := .f32) 0 1 2 128 inbT ft _ g p q (by omega) (by omega)
      · rw [dif_neg ht]
        refine (canon_miss3 (Val := Elt Ideal) (e := .f32) 0 1 2 128 inbT ft _ g p q (by omega)).trans ?_
        exact canon_hit3 (Val := Elt Ideal) (e := .f32) 2 1 32 128 inbM fm _ g p q (by omega) (by omega)
  · rw [dif_neg hq]
    refine (canon_miss3 (Val := Elt Ideal) (e := .f32) 0 1 2 128 inbT ft _ g p q (by omega)).trans ?_
    refine (canon_miss3 (Val := Elt Ideal) (e := .f32) 2 1 32 128 inbM fm _ g p q (by omega)).trans ?_
    exact (canon_hit3 (Val := Elt Ideal) (e := .f32) 0 0 36 130 inbZ fz _ g p q (by omega) (by omega)).trans (hz _)

end PadZ

/-! ## The padded first convolution, by position -/

section PadX
variable (fx : (⟨3, ![32, 34, 128]⟩ : Shape).Idx → Elt Ideal .f32) (fr : (⟨3, ![32, 1, 130]⟩ : Shape).Idx → Elt Ideal .f32)
  (fz : (⟨3, ![32, 34, 130]⟩ : Shape).Idx → Elt Ideal .f32) (inbX inbR inbZ)
  (o : Fin 32) (r : Fin 34) (q : Fin 130)

theorem padX_middle (hz : ∀ y, fz y = (0 : EReal)) :
    View.canon (Val := Elt Ideal) (e := .f32) [⟨Rect.unit (s := S32x34x130) ![0, 0, 1] ![32, 34, 128] inbX, fx⟩, ⟨Rect.unit (s := S32x34x130) ![0, 0, 0] ![32, 34, 130] inbZ, fz⟩] (ix3 o r q)
      = (if hq : 1 ≤ q.val ∧ q.val ≤ 128 then fx (ix3 o (⟨r.val - 0, by omega⟩ : Fin 34) (⟨q.val - 1, by omega⟩ : Fin 128)) else 0 : EReal) := by
  by_cases hq : 1 ≤ q.val ∧ q.val ≤ 128
  · rw [dif_pos hq]
    exact canon_hit3 (Val := Elt Ideal) (e := .f32) 0 1 34 128 inbX fx _ o r q (by omega) (by omega)
  · rw [dif_neg hq]
    refine (canon_miss3 (Val := Elt Ideal) (e := .f32) 0 1 34 128 inbX fx _ o r q (by omega)).trans ?_
    exact (canon_hit3 (Val := Elt Ideal) (e := .f32) 0 0 34 130 inbZ fz _ o r q (by omega) (by omega)).trans (hz _)

theorem padX_first (hr : ∀ y, fr y = (0 : EReal)) (hz : ∀ y, fz y = (0 : EReal)) :
    View.canon (Val := Elt Ideal) (e := .f32) [⟨Rect.unit (s := S32x34x130) ![0, 0, 0] ![32, 1, 130] inbR, fr⟩, ⟨Rect.unit (s := S32x34x130) ![0, 0, 1] ![32, 34, 128] inbX, fx⟩, ⟨Rect.unit (s := S32x34x130) ![0, 0, 0] ![32, 34, 130] inbZ, fz⟩] (ix3 o r q)
      = (if h0 : r.val = 0 then 0
        else if hq : 1 ≤ q.val ∧ q.val ≤ 128 then fx (ix3 o (⟨r.val - 0, by omega⟩ : Fin 34) (⟨q.val - 1, by omega⟩ : Fin 128)) else 0 : EReal) := by
  by_cases h0 : r.val = 0
  · rw [dif_pos h0]
    exact (canon_hit3 (Val := Elt Ideal) (e := .f32) 0 0 1 130 inbR fr _ o r q (by omega) (by omega)).trans (hr _)
  · rw [dif_neg h0]
    refine (canon_miss3 (Val := Elt Ideal) (e := .f32) 0 0 1 130 inbR fr _ o r q (by omega)).trans ?_
    exact padX_middle fx fz inbX inbZ o r q hz

theorem padX_last (hr : ∀ y, fr y = (0 : EReal)) (hz : ∀ y, fz y = (0 : EReal)) :
    View.canon (Val := Elt Ideal) (e := .f32) [⟨Rect.unit (s := S32x34x130) ![0, 33, 0] ![32, 1, 130] inbR, fr⟩, ⟨Rect.unit (s := S32x34x130) ![0, 0, 1] ![32, 34, 128] inbX, fx⟩, ⟨Rect.unit (s := S32x34x130) ![0, 0, 0] ![32, 34, 130] inbZ, fz⟩] (ix3 o r q)
      = (if h33 : r.val = 33 then 0
        else if hq : 1 ≤ q.val ∧ q.val ≤ 128 then fx (ix3 o (⟨r.val - 0, by omega⟩ : Fin 34) (⟨q.val - 1, by omega⟩ : Fin 128)) else 0 : EReal) := by
  by_cases h33 : r.val = 33
  · rw [dif_pos h33]
    exact (canon_hit3 (Val := Elt Ideal) (e := .f32) 33 0 1 130 inbR fr _ o r q (by omega) (by omega)).trans (hr _)
  · rw [dif_neg h33]
    refine (canon_miss3 (Val := Elt Ideal) (e := .f32) 33 0 1 130 inbR fr _ o r q (by omega)).trans ?_
    exact padX_middle fx fz inbX inbZ o r q hz

end PadX

end Cert.ReferenceIdeal.Ghost

end
-- ==== Proof.RefGhostBlock.lean ====
/-
  The second region's output block as a closed term of its input blocks, for each position of the strip.

  The padded strip of z is the stores of the case, newest first, over the zero fill; the 34 rows of the first
  convolution are computed from nine windows of it and stored into the padded buffer of the first convolution
  (with the case's zeroed row); the output block's channels 0–31 are that buffer's interior and channels 32–63
  the depthwise convolution of nine windows of it.
-/
import proofs.«169621_g2000704505896602_pallasbulk_1077_31_alg».proof.Proof.RefGhostStrip

set_option maxRecDepth 16384

noncomputable section

namespace Cert.ReferenceIdeal.Ghost

open Cert.ReferenceIdeal Cert.ReferenceIdeal.Gen Cert.Proof
open Idealize.ShloMosaic Idealize.ShloMosaic.TcCoe Idealize.ShloMosaic.ValueIdx Idealize.ShloMosaic.Tactic
open Cert.PieceRead

/-! ## The pieces of the two padded buffers -/

abbrev zPiecesMiddle (x0 : Vec Ideal S1x128x32x128 .f32) (x1 x2 : Vec Ideal S1x128x8x128 .f32) : List (View.Piece (Elt Ideal) S128x36x130 .f32) :=
  [⟨Rect.unit (s := S128x36x130) ![0, 34, 1] S128x2x128.size inb_S128x36x130_S128x2x128_0_34_1, k1_pay5 (View.ld x2 (Rect.unit (s := S1x128x8x128) ![0, 0, 0, 0] S1x128x2x128.size inb_S1x128x8x128_S1x128x2x128_0_0_0_0))⟩, ⟨Rect.unit (s := S128x36x130) ![0, 0, 1] S128x2x128.size inb_S128x36x130_S128x2x128_0_0_1, k1_pay4 (View.ld x1 (Rect.unit (s := S1x128x8x128) ![0, 0, 6, 0] S1x128x2x128.size inb_S1x128x8x128_S1x128x2x128_0_0_6_0))⟩, ⟨Rect.unit (s := S128x36x130) ![0, 2, 1] S128x32x128.size inb_S128x36x130_S128x32x128_0_2_1, k1_pay3 (View.ld x0 (Rect.unit (s := S1x128x32x128) ![0, 0, 0, 0] S1x128x32x128.size inb_S1x128x32x128_S1x128x32x128_0_0_0_0))⟩, ⟨Rect.unit (s := S128x36x130) ![0, 0, 0] S128x36x130.size inb_S128x36x130_S128x36x130_0_0_0, k1_pay2 (F := Ideal)⟩]
abbrev xPiecesMiddle (X : FVec Ideal S32x34x128 .f32) : List (View.Piece (Elt Ideal) S32x34x130 .f32) :=
  [⟨Rect.unit (s := S32x34x130) ![0, 0, 1] S32x34x128.size inb_S32x34x130_S32x34x128_0_0_1, X⟩, ⟨Rect.unit (s := S32x34x130) ![0, 0, 0] S32x34x130.size inb_S32x34x130_S32x34x130_0_0_0, k1_pay9 (F := Ideal)⟩]
abbrev zPiecesFirst (x0 : Vec Ideal S1x128x32x128 .f32) (x1 x2 : Vec Ideal S1x128x8x128 .f32) : List (View.Piece (Elt Ideal) S128x36x130 .f32) :=
  [⟨Rect.unit (s := S128x36x130) ![0, 34, 1] S128x2x128.size inb_S128x36x130_S128x2x128_0_34_1, k1_pay5 (View.ld x2 (Rect.unit (s := S1x128x8x128) ![0, 0, 0, 0] S1x128x2x128.size inb_S1x128x8x128_S1x128x2x128_0_0_0_0))⟩, ⟨Rect.unit (s := S128x36x130) ![0, 2, 1] S128x32x128.size inb_S128x36x130_S128x32x128_0_2_1, k1_pay3 (View.ld x0 (Rect.unit (s := S1x128x32x128) ![0, 0, 0, 0] S1x128x32x128.size inb_S1x128x32x128_S1x128x32x128_0_0_0_0))⟩, ⟨Rect.unit (s := S128x36x130) ![0, 0, 0] S128x36x130.size inb_S128x36x130_S128x36x130_0_0_0, k1_pay2 (F := Ideal)⟩]
abbrev xPiecesFirst (X : FVec Ideal S32x34x128 .f32) : List (View.Piece (Elt Ideal) S32x34x130 .f32) :=
  [⟨Rect.unit (s := S32x34x130) ![0, 0, 0] S32x1x130.size inb_S32x34x130_S32x1x130_0_0_0, k1_pay12 (F := Ideal)⟩, ⟨Rect.unit (s := S32x34x130) ![0, 0, 1] S32x34x128.size inb_S32x34x130_S32x34x128_0_0_1, X⟩, ⟨Rect.unit (s := S32x34x130) ![0, 0, 0] S32x34x130.size inb_S32x34x130_S32x34x130_0_0_0, k1_pay9 (F := Ideal)⟩]
abbrev zPiecesLast (x0 : Vec Ideal S1x128x32x128 .f32) (x1 x2 : Vec Ideal S1x128x8x128 .f32) : List (View.Piece (Elt Ideal) S128x36x130 .f32) :=
  [⟨Rect.unit (s := S128x36x130) ![0, 0, 1] S128x2x128.size inb_S128x36x130_S128x2x128_0_0_1, k1_pay4 (View.ld x1 (Rect.unit (s := S1x128x8x128) ![0, 0, 6, 0] S1x128x2x128.size inb_S1x128x8x128_S1x128x2x128_0_0_6_0))⟩, ⟨Rect.unit (s := S128x36x130) ![0, 2, 1] S128x32x128.size inb_S128x36x130_S128x32x128_0_2_1, k1_pay3 (View.ld x0 (Rect.unit (s := S1x128x32x128) ![0, 0, 0, 0] S1x128x32x128.size inb_S1x128x32x128_S1x128x32x128_0_0_0_0))⟩, ⟨Rect.unit (s := S128x36x130) ![0, 0, 0] S128x36x130.size inb_S128x36x130_S128x36x130_0_0_0, k1_pay2 (F := Ideal)⟩]
abbrev xPiecesLast (X : FVec Ideal S32x34x128 .f32) : List (View.Piece (Elt Ideal) S32x34x130 .f32) :=
  [⟨Rect.unit (s := S32x34x130) ![0, 33, 0] S32x1x130.size inb_S32x34x130_S32x1x130_0_33_0, k1_pay13 (F := Ideal)⟩, ⟨Rect.unit (s := S32x34x130) ![0, 0, 1] S32x34x128.size inb_S32x34x130_S32x34x128_0_0_1, X⟩, ⟨Rect.unit (s := S32x34x130) ![0, 0, 0] S32x34x130.size inb_S32x34x130_S32x34x130_0_0_0, k1_pay9 (F := Ideal)⟩]

/-! ## The body's arithmetic over the two padded buffers -/

/-- The 34 rows of the first convolution, as the body computes and stores them, from the padded strip `P`. -/
def rowsTerm (x3 : Vec Ideal S9x32x128 .f32) (x4 : Vec Ideal S32x1 .f32) (P : FVec Ideal S128x36x130 .f32) : FVec Ideal S32x34x128 .f32 :=
  k1_pay11 (k1_pay10 (k1_pay8 (k1_pay6 (View.ld P (Rect.unit (s := S128x36x130) ![0, 0, 0] S128x34x128.size inb_S128x36x130_S128x34x128_0_0_0)) (View.ld x3 (Rect.unit (s := S9x32x128) ![0, 0, 0] S1x32x128.size inb_S9x32x128_S1x32x128_0_0_0))) (k1_pay7 (View.ld P (Rect.unit (s := S128x36x130) ![0, 0, 1] S128x34x128.size inb_S128x36x130_S128x34x128_0_0_1))) (View.ld x3 (Rect.unit (s := S9x32x128) ![1, 0, 0] S1x32x128.size inb_S9x32x128_S1x32x128_1_0_0)) (View.ld P (Rect.unit (s := S128x36x130) ![0, 0, 2] S128x34x128.size inb_S128x36x130_S128x34x128_0_0_2)) (View.ld x3 (Rect.unit (s := S9x32x128) ![2, 0, 0] S1x32x128.size inb_S9x32x128_S1x32x128_2_0_0)) (View.ld P (Rect.unit (s := S128x36x130) ![0, 1, 0] S128x34x128.size inb_S128x36x130_S128x34x128_0_1_0)) (View.ld x3 (Rect.unit (s := S9x32x128) ![3, 0, 0] S1x32x128.size inb_S9x32x128_S1x32x128_3_0_0)) (View.ld P (Rect.unit (s := S128x36x130) ![0, 1, 1] S128x34x128.size inb_S128x36x130_S128x34x128_0_1_1)) (View.ld x3 (Rect.unit (s := S9x32x128) ![4, 0, 0] S1x32x128.size inb_S9x32x128_S1x32x128_4_0_0)) (View.ld P (Rect.unit (s := S128x36x130) ![0, 1, 2] S128x34x128.size inb_S128x36x130_S128x34x128_0_1_2)) (View.ld x3 (Rect.unit (s := S9x32x128) ![5, 0, 0] S1x32x128.size inb_S9x32x128_S1x32x128_5_0_0)))
    (View.ld P (Rect.unit (s := S128x36x130) ![0, 2, 0] S128x34x128.size inb_S128x36x130_S128x34x128_0_2_0)) (View.ld x3 (Rect.unit (s := S9x32x128) ![6, 0, 0] S1x32x128.size inb_S9x32x128_S1x32x128_6_0_0)) (View.ld P (Rect.unit (s := S128x36x130) ![0, 2, 1] S128x34x128.size inb_S128x36x130_S128x34x128_0_2_1)) (View.ld x3 (Rect.unit (s := S9x32x128) ![7, 0, 0] S1x32x128.size inb_S9x32x128_S1x32x128_7_0_0)) (View.ld P (Rect.unit (s := S128x36x130) ![0, 2, 2] S128x34x128.size inb_S128x36x130_S128x34x128_0_2_2)) (View.ld x3 (Rect.unit (s := S9x32x128) ![8, 0, 0] S1x32x128.size inb_S9x32x128_S1x32x128_8_0_0)) (View.ld x4 (Rect.unit (s := S32x1) ![0, 0] S32x1.size inb_S32x1_S32x1_0_0)))

/-- Output channels 32–63 from the padded first convolution `Q`. -/
def outHi (x5 : Vec Ideal S9x32 .f32) (x6 : Vec Ideal S32x1 .f32) (Q : FVec Ideal S32x34x130 .f32) : FVec Ideal S1x32x32x128 .f32 :=
  k1_pay1 (k1_pay17 (View.ld x5 (Rect.unit (s := S9x32) ![0, 0] S9x32.size inb_S9x32_S9x32_0_0)) (k1_pay15 (View.ld x5 (Rect.unit (s := S9x32) ![0, 0] S9x32.size inb_S9x32_S9x32_0_0)) (View.ld Q (Rect.unit (s := S32x34x130) ![0, 0, 0] S32x32x128.size inb_S32x34x130_S32x32x128_0_0_0)) (View.ld Q (Rect.unit (s := S32x34x130) ![0, 0, 1] S32x32x128.size inb_S32x34x130_S32x32x128_0_0_1))) (View.ld Q (Rect.unit (s := S32x34x130) ![0, 0, 2] S32x32x128.size inb_S32x34x130_S32x32x128_0_0_2)) (k1_pay16 (View.ld x5 (Rect.unit (s := S9x32) ![0, 0] S9x32.size inb_S9x32_S9x32_0_0))) (View.ld Q (Rect.unit (s := S32x34x130) ![0, 1, 0] S32x32x128.size inb_S32x34x130_S32x32x128_0_1_0)) (View.ld Q (Rect.unit (s := S32x34x130) ![0, 1, 1] S32x32x128.size inb_S32x34x130_S32x32x128_0_1_1)) (View.ld Q (Rect.unit (s := S32x34x130) ![0, 1, 2] S32x32x128.size inb_S32x34x130_S32x32x128_0_1_2)) (View.ld Q (Rect.unit (s := S32x34x130) ![0, 2, 0] S32x32x128.size inb_S32x34x130_S32x32x128_0_2_0)) (View.ld Q (Rect.unit (s := S32x34x130) ![0, 2, 1] S32x32x128.size inb_S32x34x130_S32x32x128_0_2_1)))
    (View.ld Q (Rect.unit (s := S32x34x130) ![0, 2, 2] S32x32x128.size inb_S32x34x130_S32x32x128_0_2_2)) (k1_pay18 (View.ld x5 (Rect.unit (s := S9x32) ![0, 0] S9x32.size inb_S9x32_S9x32_0_0))) (View.ld x6 (Rect.unit (s := S32x1) ![0, 0] S32x1.size inb_S32x1_S32x1_0_0))

/-- Output channels 0–31 from it. -/
def outLo (Q : FVec Ideal S32x34x130 .f32) : FVec Ideal S1x32x32x128 .f32 :=
  k1_pay14 (View.ld Q (Rect.unit (s := S32x34x130) ![0, 1, 1] S32x32x128.size inb_S32x34x130_S32x32x128_0_1_1))

theorem hz3 : (![0, 0, 0] : Fin 3 → Nat) = fun _ => 0 := funext fun a => by fin_cases a <;> rfl

theorem zCoverMiddle (x0 : Vec Ideal S1x128x32x128 .f32) (x1 x2 : Vec Ideal S1x128x8x128 .f32) (y : S128x36x130.Idx) :
    ∃ p ∈ zPiecesMiddle x0 x1 x2, y ∈ p.1.set :=
  ⟨⟨Rect.unit (s := S128x36x130) ![0, 0, 0] S128x36x130.size inb_S128x36x130_S128x36x130_0_0_0, k1_pay2 (F := Ideal)⟩, by simp, View.mem_set_unit_zero hz3 inb_S128x36x130_S128x36x130_0_0_0 y⟩
theorem xCoverMiddle (X : FVec Ideal S32x34x128 .f32) (y : S32x34x130.Idx) : ∃ p ∈ xPiecesMiddle X, y ∈ p.1.set :=
  ⟨⟨Rect.unit (s := S32x34x130) ![0, 0, 0] S32x34x130.size inb_S32x34x130_S32x34x130_0_0_0, k1_pay9 (F := Ideal)⟩, by simp, View.mem_set_unit_zero hz3 inb_S32x34x130_S32x34x130_0_0_0 y⟩

set_option maxHeartbeats 4000000 in
/-- The output block on a middle strip, opened. -/
theorem outStripMiddle_open (c : Dev nD) (i : grid1.Coords)
    (a0 : Memref sig .tc .vmem S1x128x32x128 .f32) (h0 : a0.IsWhole) (a1 : Memref sig .tc .vmem S1x128x8x128 .f32) (h1 : a1.IsWhole)
    (a2 : Memref sig .tc .vmem S1x128x8x128 .f32) (h2 : a2.IsWhole) (a3 : Memref sig .tc .vmem S9x32x128 .f32) (h3 : a3.IsWhole)
    (a4 : Memref sig .tc .vmem S32x1 .f32) (h4 : a4.IsWhole) (a5 : Memref sig .tc .vmem S9x32 .f32) (h5 : a5.IsWhole)
    (a6 : Memref sig .tc .vmem S32x1 .f32) (h6 : a6.IsWhole) (a7 : Memref sig .tc .vmem S1x64x32x128 .f32) (h7 : a7.IsWhole)
    (s0 : Memref sig .tc .vmem S128x36x130 .f32) (hs0 : s0.IsWhole) (s1 : Memref sig .tc .vmem S32x34x130 .f32) (hs1 : s1.IsWhole)
    (hA : hasAbove i) (hB : hasBelow i) (hC : ¬isFirst i) (hD : ¬isLast i)
    (x0 : Vec Ideal S1x128x32x128 .f32) (x1 : Vec Ideal S1x128x8x128 .f32) (x2 : Vec Ideal S1x128x8x128 .f32) (x3 : Vec Ideal S9x32x128 .f32) (x4 : Vec Ideal S32x1 .f32) (x5 : Vec Ideal S9x32 .f32) (x6 : Vec Ideal S32x1 .f32) :
    outStripMiddle (F := Ideal) c i a0 h0 a1 h1 a2 h2 a3 h3 a4 h4 a5 h5 a6 h6 a7 h7 s0 hs0 s1 hs1 hA hB hC hD x0 x1 x2 x3 x4 x5 x6
      = View.canon [⟨Rect.unit (s := S1x64x32x128) ![0, 32, 0, 0] ![1, 32, 32, 128] inb_S1x64x32x128_S1x32x32x128_0_32_0_0,
            outHi x5 x6 (View.canon (xPiecesMiddle (rowsTerm x3 x4 (View.canon (zPiecesMiddle x0 x1 x2)))))⟩,
          ⟨Rect.unit (s := S1x64x32x128) ![0, 0, 0, 0] ![1, 32, 32, 128] inb_S1x64x32x128_S1x32x32x128_0_0_0_0,
            outLo (View.canon (xPiecesMiddle (rowsTerm x3 x4 (View.canon (zPiecesMiddle x0 x1 x2)))))⟩] := by
  unfold outStripMiddle
  rw [View.read_writes_eq_canon _ _ _ (coverMiddle c i a0 h0 a1 h1 a2 h2 a3 h3 a4 h4 a5 h5 a6 h6 a7 h7 s0 hs0 s1 hs1 hA hB hC hD x0 x1 x2 x3 x4 x5 x6)]
  unfold bodyRunMiddle
  dsimp only
  sl_unfold_words
  simp only [View.readAt_eq_ld, h0.read_unread, h1.read_unread, h2.read_unread, h3.read_unread, h4.read_unread, h5.read_unread, h6.read_unread]
  simp only [View.readCov_eq_canon_ld _ _ _ (zCoverMiddle x0 x1 x2)]
  simp only [View.readCov_eq_canon_ld _ _ _ (xCoverMiddle _)]
  rfl

theorem zCoverFirst (x0 : Vec Ideal S1x128x32x128 .f32) (x1 x2 : Vec Ideal S1x128x8x128 .f32) (y : S128x36x130.Idx) :
    ∃ p ∈ zPiecesFirst x0 x1 x2, y ∈ p.1.set :=
  ⟨⟨Rect.unit (s := S128x36x130) ![0, 0, 0] S128x36x130.size inb_S128x36x130_S128x36x130_0_0_0, k1_pay2 (F := Ideal)⟩, by simp, View.mem_set_unit_zero hz3 inb_S128x36x130_S128x36x130_0_0_0 y⟩
theorem xCoverFirst (X : FVec Ideal S32x34x128 .f32) (y : S32x34x130.Idx) : ∃ p ∈ xPiecesFirst X, y ∈ p.1.set :=
  ⟨⟨Rect.unit (s := S32x34x130) ![0, 0, 0] S32x34x130.size inb_S32x34x130_S32x34x130_0_0_0, k1_pay9 (F := Ideal)⟩, by simp, View.mem_set_unit_zero hz3 inb_S32x34x130_S32x34x130_0_0_0 y⟩

set_option maxHeartbeats 4000000 in
/-- The output block on a first strip, opened. -/
theorem outStripFirst_open (c : Dev nD) (i : grid1.Coords)
    (a0 : Memref sig .tc .vmem S1x128x32x128 .f32) (h0 : a0.IsWhole) (a1 : Memref sig .tc .vmem S1x128x8x128 .f32) (h1 : a1.IsWhole)
    (a2 : Memref sig .tc .vmem S1x128x8x128 .f32) (h2 : a2.IsWhole) (a3 : Memref sig .tc .vmem S9x32x128 .f32) (h3 : a3.IsWhole)
    (a4 : Memref sig .tc .vmem S32x1 .f32) (h4 : a4.IsWhole) (a5 : Memref sig .tc .vmem S9x32 .f32) (h5 : a5.IsWhole)
    (a6 : Memref sig .tc .vmem S32x1 .f32) (h6 : a6.IsWhole) (a7 : Memref sig .tc .vmem S1x64x32x128 .f32) (h7 : a7.IsWhole)
    (s0 : Memref sig .tc .vmem S128x36x130 .f32) (hs0 : s0.IsWhole) (s1 : Memref sig .tc .vmem S32x34x130 .f32) (hs1 : s1.IsWhole)
    (hA : ¬hasAbove i) (hB : hasBelow i) (hC : isFirst i) (hD : ¬isLast i)
    (x0 : Vec Ideal S1x128x32x128 .f32) (x1 : Vec Ideal S1x128x8x128 .f32) (x2 : Vec Ideal S1x128x8x128 .f32) (x3 : Vec Ideal S9x32x128 .f32) (x4 : Vec Ideal S32x1 .f32) (x5 : Vec Ideal S9x32 .f32) (x6 : Vec Ideal S32x1 .f32) :
    outStripFirst (F := Ideal) c i a0 h0 a1 h1 a2 h2 a3 h3 a4 h4 a5 h5 a6 h6 a7 h7 s0 hs0 s1 hs1 hA hB hC hD x0 x1 x2 x3 x4 x5 x6
      = View.canon [⟨Rect.unit (s := S1x64x32x128) ![0, 32, 0, 0] ![1, 32, 32, 128] inb_S1x64x32x128_S1x32x32x128_0_32_0_0,
            outHi x5 x6 (View.canon (xPiecesFirst (rowsTerm x3 x4 (View.canon (zPiecesFirst x0 x1 x2)))))⟩,
          ⟨Rect.unit (s := S1x64x32x128) ![0, 0, 0, 0] ![1, 32, 32, 128] inb_S1x64x32x128_S1x32x32x128_0_0_0_0,
            outLo (View.canon (xPiecesFirst (rowsTerm x3 x4 (View.canon (zPiecesFirst x0 x1 x2)))))⟩] := by
  unfold outStripFirst
  rw [View.read_writes_eq_canon _ _ _ (coverFirst c i a0 h0 a1 h1 a2 h2 a3 h3 a4 h4 a5 h5 a6 h6 a7 h7 s0 hs0 s1 hs1 hA hB hC hD x0 x1 x2 x3 x4 x5 x6)]
  unfold bodyRunFirst
  dsimp only
  sl_unfold_words
  simp only [View.readAt_eq_ld, h0.read_unread, h1.read_unread, h2.read_unread, h3.read_unread, h4.read_unread, h5.read_unread, h6.read_unread]
  simp only [View.readCov_eq_canon_ld _ _ _ (zCoverFirst x0 x1 x2)]
  simp only [View.readCov_eq_canon_ld _ _ _ (xCoverFirst _)]
  rfl

theorem zCoverLast (x0 : Vec Ideal S1x128x32x128 .f32) (x1 x2 : Vec Ideal S1x128x8x128 .f32) (y : S128x36x130.Idx) :
    ∃ p ∈ zPiecesLast x0 x1 x2, y ∈ p.1.set :=
  ⟨⟨Rect.unit (s := S128x36x130) ![0, 0, 0] S128x36x130.size inb_S128x36x130_S128x36x130_0_0_0, k1_pay2 (F := Ideal)⟩, by simp, View.mem_set_unit_zero hz3 inb_S128x36x130_S128x36x130_0_0_0 y⟩
theorem xCoverLast (X : FVec Ideal S32x34x128 .f32) (y : S32x34x130.Idx) : ∃ p ∈ xPiecesLast X, y ∈ p.1.set :=
  ⟨⟨Rect.unit (s := S32x34x130) ![0, 0, 0] S32x34x130.size inb_S32x34x130_S32x34x130_0_0_0, k1_pay9 (F := Ideal)⟩, by simp, View.mem_set_unit_zero hz3 inb_S32x34x130_S32x34x130_0_0_0 y⟩

set_option maxHeartbeats 4000000 in
/-- The output block on a last strip, opened. -/
theorem outStripLast_open (c : Dev nD) (i : grid1.Coords)
    (a0 : Memref sig .tc .vmem S1x128x32x128 .f32) (h0 : a0.IsWhole) (a1 : Memref sig .tc .vmem S1x128x8x128 .f32) (h1 : a1.IsWhole)
    (a2 : Memref sig .tc .vmem S1x128x8x128 .f32) (h2 : a2.IsWhole) (a3 : Memref sig .tc .vmem S9x32x128 .f32) (h3 : a3.IsWhole)
    (a4 : Memref sig .tc .vmem S32x1 .f32) (h4 : a4.IsWhole) (a5 : Memref sig .tc .vmem S9x32 .f32) (h5 : a5.IsWhole)
    (a6 : Memref sig .tc .vmem S32x1 .f32) (h6 : a6.IsWhole) (a7 : Memref sig .tc .vmem S1x64x32x128 .f32) (h7 : a7.IsWhole)
    (s0 : Memref sig .tc .vmem S128x36x130 .f32) (hs0 : s0.IsWhole) (s1 : Memref sig .tc .vmem S32x34x130 .f32) (hs1 : s1.IsWhole)
    (hA : hasAbove i) (hB : ¬hasBelow i) (hC : ¬isFirst i) (hD : isLast i)
    (x0 : Vec Ideal S1x128x32x128 .f32) (x1 : Vec Ideal S1x128x8x128 .f32) (x2 : Vec Ideal S1x128x8x128 .f32) (x3 : Vec Ideal S9x32x128 .f32) (x4 : Vec Ideal S32x1 .f32) (x5 : Vec Ideal S9x32 .f32) (x6 : Vec Ideal S32x1 .f32) :
    outStripLast (F := Ideal) c i a0 h0 a1 h1 a2 h2 a3 h3 a4 h4 a5 h5 a6 h6 a7 h7 s0 hs0 s1 hs1 hA hB hC hD x0 x1 x2 x3 x4 x5 x6
      = View.canon [⟨Rect.unit (s := S1x64x32x128) ![0, 32, 0, 0] ![1, 32, 32, 128] inb_S1x64x32x128_S1x32x32x128_0_32_0_0,
            outHi x5 x6 (View.canon (xPiecesLast (rowsTerm x3 x4 (View.canon (zPiecesLast x0 x1 x2)))))⟩,
          ⟨Rect.unit (s := S1x64x32x128) ![0, 0, 0, 0] ![1, 32, 32, 128] inb_S1x64x32x128_S1x32x32x128_0_0_0_0,
            outLo (View.canon (xPiecesLast (rowsTerm x3 x4 (View.canon (zPiecesLast x0 x1 x2)))))⟩] := by
  unfold outStripLast
  rw [View.read_writes_eq_canon _ _ _ (coverLast c i a0 h0 a1 h1 a2 h2 a3 h3 a4 h4 a5 h5 a6 h6 a7 h7 s0 hs0 s1 hs1 hA hB hC hD x0 x1 x2 x3 x4 x5 x6)]
  unfold bodyRunLast
  dsimp only
  sl_unfold_words
  simp only [View.readAt_eq_ld, h0.read_unread, h1.read_unread, h2.read_unread, h3.read_unread, h4.read_unread, h5.read_unread, h6.read_unread]
  simp only [View.readCov_eq_canon_ld _ _ _ (zCoverLast x0 x1 x2)]
  simp only [View.readCov_eq_canon_ld _ _ _ (xCoverLast _)]
  rfl

end Cert.ReferenceIdeal.Ghost

end
-- ==== Proof.RefGhostArray.lean ====
/-
  The second region of the reference leaves the decoder block's output.

  Grid point t = 4·b + s stages rows 32s … 32s+31 of image b of z, the eight rows of z that end at row 32s − 1
  (for s = 0: the first eight, unused) and the eight that begin at row 32s + 32 (for s = 3: the last eight,
  unused), the parameters whole, and writes rows 32s … 32s+31 of image b of the result.
-/
import proofs.«169621_g2000704505896602_pallasbulk_1077_31_alg».proof.Proof.RefGhostBlock

set_option maxRecDepth 16384

noncomputable section

namespace Cert.ReferenceIdeal.Ghost

open Cert.ReferenceIdeal Cert.ReferenceIdeal.Gen Cert.Proof
open Idealize.ShloMosaic Idealize.ShloMosaic.TcCoe Idealize.ShloMosaic.ValueIdx
open Idealize.ShloMosaic.Pipeline (Dat)
open Cert.PieceRead Cert.PointConv Cert.StripForms Cert.ColumnForms

variable (V : (c : Dev nD) → (b : Ref sig .tc) → Buf (Elt Ideal) ((c : Thread nD τ).loc b))

/-! ## Which block each window has at a point (decided over the 32 points) -/

theorem idx_facts : ∀ t : Fin cfg1.N,
    win1_0.index t = ![t.val / 4, 0, t.val % 4, 0]
    ∧ win1_1.index t = ![t.val / 4, 0, (if t.val % 4 = 0 then 0 else 4 * (t.val % 4) - 1), 0]
    ∧ win1_2.index t = ![t.val / 4, 0, (if t.val % 4 = 3 then 15 else 4 * (t.val % 4) + 4), 0]
    ∧ win1_3.index t = ![0, 0, 0] ∧ win1_4.index t = ![0, 0] ∧ win1_5.index t = ![0, 0] ∧ win1_6.index t = ![0, 0]
    ∧ win1_7.index t = ![t.val / 4, 0, t.val % 4, 0] :=
  (by decide +kernel : ∀ t : Fin grid1.N,
    win1_0.index t = ![t.val / 4, 0, t.val % 4, 0]
    ∧ win1_1.index t = ![t.val / 4, 0, (if t.val % 4 = 0 then 0 else 4 * (t.val % 4) - 1), 0]
    ∧ win1_2.index t = ![t.val / 4, 0, (if t.val % 4 = 3 then 15 else 4 * (t.val % 4) + 4), 0]
    ∧ win1_3.index t = ![0, 0, 0] ∧ win1_4.index t = ![0, 0] ∧ win1_5.index t = ![0, 0] ∧ win1_6.index t = ![0, 0]
    ∧ win1_7.index t = ![t.val / 4, 0, t.val % 4, 0])

theorem point_lt (t : Fin cfg1.N) : t.val < 32 := lt_of_lt_of_eq t.isLt N_1

/-! ## The blocks at array coordinates -/

theorem strip0_apply (c : Dev nD) (t : Fin cfg1.N) (u : Fin 1) (g : Fin 128) (r : Fin 32) (j : Fin 128) :
    strip V c 0 t (ix4 u g r j) = (V c main_v0 : S8x128x128x128.Idx → EReal) (ix4 (⟨t.val / 4, by have := point_lt t; omega⟩ : Fin 8) g (⟨t.val % 4 * 32 + r.val, by omega⟩ : Fin 128) j) := by
  have hi := (idx_facts t).1
  have ht := point_lt t
  show V c (Pipeline.arrRef spec1 0) (((cfg1.win 0).blk t).view.emb (ix4 u g r j)) = _
  refine congrArg (V c main_v0) (funext fun a => Fin.ext ?_)
  match a with
  | ⟨0, _⟩ => show win1_0.index t 0 * 1 + 1 * u.val = t.val / 4; rw [hi]; show t.val / 4 * 1 + 1 * u.val = t.val / 4; omega
  | ⟨1, _⟩ => show win1_0.index t 1 * 128 + 1 * g.val = g.val; rw [hi]; show 0 * 128 + 1 * g.val = g.val; omega
  | ⟨2, _⟩ => show win1_0.index t 2 * 32 + 1 * r.val = t.val % 4 * 32 + r.val; rw [hi]; show t.val % 4 * 32 + 1 * r.val = t.val % 4 * 32 + r.val; omega
  | ⟨3, _⟩ => show win1_0.index t 3 * 128 + 1 * j.val = j.val; rw [hi]; show 0 * 128 + 1 * j.val = j.val; omega

theorem strip1_apply (c : Dev nD) (t : Fin cfg1.N) (u : Fin 1) (g : Fin 128) (r : Fin 8) (j : Fin 128) :
    strip V c 1 t (ix4 u g r j) = (V c main_v0 : S8x128x128x128.Idx → EReal) (ix4 (⟨t.val / 4, by have := point_lt t; omega⟩ : Fin 8) g (⟨(if t.val % 4 = 0 then 0 else 4 * (t.val % 4) - 1) * 8 + r.val, by split <;> omega⟩ : Fin 128) j) := by
  have hi := (idx_facts t).2.1
  have ht := point_lt t
  show V c (Pipeline.arrRef spec1 1) (((cfg1.win 1).blk t).view.emb (ix4 u g r j)) = _
  refine congrArg (V c main_v0) (funext fun a => Fin.ext ?_)
  match a with
  | ⟨0, _⟩ => show win1_1.index t 0 * 1 + 1 * u.val = t.val / 4; rw [hi]; show t.val / 4 * 1 + 1 * u.val = t.val / 4; omega
  | ⟨1, _⟩ => show win1_1.index t 1 * 128 + 1 * g.val = g.val; rw [hi]; show 0 * 128 + 1 * g.val = g.val; omega
  | ⟨2, _⟩ => show win1_1.index t 2 * 8 + 1 * r.val = (if t.val % 4 = 0 then 0 else 4 * (t.val % 4) - 1) * 8 + r.val; rw [hi]; show (if t.val % 4 = 0 then 0 else 4 * (t.val % 4) - 1) * 8 + 1 * r.val = (if t.val % 4 = 0 then 0 else 4 * (t.val % 4) - 1) * 8 + r.val; split <;> omega
  | ⟨3, _⟩ => show win1_1.index t 3 * 128 + 1 * j.val = j.val; rw [hi]; show 0 * 128 + 1 * j.val = j.val; omega

theorem strip2_apply (c : Dev nD) (t : Fin cfg1.N) (u : Fin 1) (g : Fin 128) (r : Fin 8) (j : Fin 128) :
    strip V c 2 t (ix4 u g r j) = (V c main_v0 : S8x128x128x128.Idx → EReal) (ix4 (⟨t.val / 4, by have := point_lt t; omega⟩ : Fin 8) g (⟨(if t.val % 4 = 3 then 15 else 4 * (t.val % 4) + 4) * 8 + r.val, by split <;> omega⟩ : Fin 128) j) := by
  have hi := (idx_facts t).2.2.1
  have ht := point_lt t
  show V c (Pipeline.arrRef spec1 2) (((cfg1.win 2).blk t).view.emb (ix4 u g r j)) = _
  refine congrArg (V c main_v0) (funext fun a => Fin.ext ?_)
  match a with
  | ⟨0, _⟩ => show win1_2.index t 0 * 1 + 1 * u.val = t.val / 4; rw [hi]; show t.val / 4 * 1 + 1 * u.val = t.val / 4; omega
  | ⟨1, _⟩ => show win1_2.index t 1 * 128 + 1 * g.val = g.val; rw [hi]; show 0 * 128 + 1 * g.val = g.val; omega
  | ⟨2, _⟩ => show win1_2.index t 2 * 8 + 1 * r.val = (if t.val % 4 = 3 then 15 else 4 * (t.val % 4) + 4) * 8 + r.val; rw [hi]; show (if t.val % 4 = 3 then 15 else 4 * (t.val % 4) + 4) * 8 + 1 * r.val = (if t.val % 4 = 3 then 15 else 4 * (t.val % 4) + 4) * 8 + r.val; split <;> omega
  | ⟨3, _⟩ => show win1_2.index t 3 * 128 + 1 * j.val = j.val; rw [hi]; show 0 * 128 + 1 * j.val = j.val; omega

theorem strip3_apply (c : Dev nD) (t : Fin cfg1.N) (k : Fin 9) (o : Fin 32) (g : Fin 128) :
    strip V c 3 t (ix3 k o g) = (V c main_arg4 : Spec.SWp.Idx → EReal) (ix3 k o g) := by
  have hi := (idx_facts t).2.2.2.1
  have ht := point_lt t
  show V c (Pipeline.arrRef spec1 3) (((cfg1.win 3).blk t).view.emb (ix3 k o g)) = _
  refine congrArg (V c main_arg4) (funext fun a => Fin.ext ?_)
  match a with
  | ⟨0, _⟩ => show win1_3.index t 0 * 9 + 1 * k.val = k.val; rw [hi]; show 0 * 9 + 1 * k.val = k.val; omega
  | ⟨1, _⟩ => show win1_3.index t 1 * 32 + 1 * o.val = o.val; rw [hi]; show 0 * 32 + 1 * o.val = o.val; omega
  | ⟨2, _⟩ => show win1_3.index t 2 * 128 + 1 * g.val = g.val; rw [hi]; show 0 * 128 + 1 * g.val = g.val; omega

theorem strip4_apply (c : Dev nD) (t : Fin cfg1.N) (o : Fin 32) (u : Fin 1) :
    strip V c 4 t (ix2 o u) = (V c main_arg5 : Spec.SB1.Idx → EReal) (ix2 o u) := by
  have hi := (idx_facts t).2.2.2.2.1
  have ht := point_lt t
  show V c (Pipeline.arrRef spec1 4) (((cfg1.win 4).blk t).view.emb (ix2 o u)) = _
  refine congrArg (V c main_arg5) (funext fun a => Fin.ext ?_)
  match a with
  | ⟨0, _⟩ => show win1_4.index t 0 * 32 + 1 * o.val = o.val; rw [hi]; show 0 * 32 + 1 * o.val = o.val; omega
  | ⟨1, _⟩ => show win1_4.index t 1 * 1 + 1 * u.val = u.val; rw [hi]; show 0 * 1 + 1 * u.val = u.val; omega

theorem strip5_apply (c : Dev nD) (t : Fin cfg1.N) (k : Fin 9) (o : Fin 32) :
    strip V c 5 t (ix2 k o) = (V c main_arg6 : Spec.SWd.Idx → EReal) (ix2 k o) := by
  have hi := (idx_facts t).2.2.2.2.2.1
  have ht := point_lt t
  show V c (Pipeline.arrRef spec1 5) (((cfg1.win 5).blk t).view.emb (ix2 k o)) = _
  refine congrArg (V c main_arg6) (funext fun a => Fin.ext ?_)
  match a with
  | ⟨0, _⟩ => show win1_5.index t 0 * 9 + 1 * k.val = k.val; rw [hi]; show 0 * 9 + 1 * k.val = k.val; omega
  | ⟨1, _⟩ => show win1_5.index t 1 * 32 + 1 * o.val = o.val; rw [hi]; show 0 * 32 + 1 * o.val = o.val; omega

theorem strip6_apply (c : Dev nD) (t : Fin cfg1.N) (o : Fin 32) (u : Fin 1) :
    strip V c 6 t (ix2 o u) = (V c main_arg7 : Spec.SB1.Idx → EReal) (ix2 o u) := by
  have hi := (idx_facts t).2.2.2.2.2.2.1
  have ht := point_lt t
  show V c (Pipeline.arrRef spec1 6) (((cfg1.win 6).blk t).view.emb (ix2 o u)) = _
  refine congrArg (V c main_arg7) (funext fun a => Fin.ext ?_)
  match a with
  | ⟨0, _⟩ => show win1_6.index t 0 * 32 + 1 * o.val = o.val; rw [hi]; show 0 * 32 + 1 * o.val = o.val; omega
  | ⟨1, _⟩ => show win1_6.index t 1 * 1 + 1 * u.val = u.val; rw [hi]; show 0 * 1 + 1 * u.val = u.val; omega

/-! ## The opened terms over any padded buffers -/

theorem hz2 : (![0, 0] : Fin 2 → Nat) = fun _ => 0 := funext fun a => by fin_cases a <;> rfl
theorem hz4 : (![0, 0, 0, 0] : Fin 4 → Nat) = fun _ => 0 := funext fun a => by fin_cases a <;> rfl

theorem rowsTerm_apply (x3 : Vec Ideal S9x32x128 .f32) (x4 : Vec Ideal S32x1 .f32) (P : FVec Ideal S128x36x130 .f32)
    (o : Fin 32) (r : Fin 34) (j : Fin 128) :
    rowsTerm x3 x4 P (ix3 o r j)
      = convAt x3 x4 (View.ld (Val := Elt Ideal) (e' := .f32) P (Rect.unit (s := S128x36x130) ![0, 0, 0] S128x34x128.size inb_S128x36x130_S128x34x128_0_0_0)) (View.ld (Val := Elt Ideal) (e' := .f32) P (Rect.unit (s := S128x36x130) ![0, 0, 1] S128x34x128.size inb_S128x36x130_S128x34x128_0_0_1)) (View.ld (Val := Elt Ideal) (e' := .f32) P (Rect.unit (s := S128x36x130) ![0, 0, 2] S128x34x128.size inb_S128x36x130_S128x34x128_0_0_2)) (View.ld (Val := Elt Ideal) (e' := .f32) P (Rect.unit (s := S128x36x130) ![0, 1, 0] S128x34x128.size inb_S128x36x130_S128x34x128_0_1_0)) (View.ld (Val := Elt Ideal) (e' := .f32) P (Rect.unit (s := S128x36x130) ![0, 1, 1] S128x34x128.size inb_S128x36x130_S128x34x128_0_1_1)) (View.ld (Val := Elt Ideal) (e' := .f32) P (Rect.unit (s := S128x36x130) ![0, 1, 2] S128x34x128.size inb_S128x36x130_S128x34x128_0_1_2)) (View.ld (Val := Elt Ideal) (e' := .f32) P (Rect.unit (s := S128x36x130) ![0, 2, 0] S128x34x128.size inb_S128x36x130_S128x34x128_0_2_0)) (View.ld (Val := Elt Ideal) (e' := .f32) P (Rect.unit (s := S128x36x130) ![0, 2, 1] S128x34x128.size inb_S128x36x130_S128x34x128_0_2_1)) (View.ld (Val := Elt Ideal) (e' := .f32) P (Rect.unit (s := S128x36x130) ![0, 2, 2] S128x34x128.size inb_S128x36x130_S128x34x128_0_2_2)) o r j := by
  unfold rowsTerm
  refine (stored_apply _ _).trans ?_
  rw [View.ld_unit_zero (S := S32x1) hz2 _ x4]
  exact convRows_apply x3 x4 _ _ _ _ _ _ _ _ _ _ _ _ _ _ _ _ _ _ o r j

theorem outHi_apply (x5 : Vec Ideal S9x32 .f32) (x6 : Vec Ideal S32x1 .f32) (Q : FVec Ideal S32x34x130 .f32)
    (u : Fin 1) (o : Fin 32) (i : Fin 32) (j : Fin 128) :
    outHi x5 x6 Q (ix4 u o i j)
      = dwAt x5 x6 (View.ld (Val := Elt Ideal) (e' := .f32) Q (Rect.unit (s := S32x34x130) ![0, 0, 0] S32x32x128.size inb_S32x34x130_S32x32x128_0_0_0)) (View.ld (Val := Elt Ideal) (e' := .f32) Q (Rect.unit (s := S32x34x130) ![0, 0, 1] S32x32x128.size inb_S32x34x130_S32x32x128_0_0_1)) (View.ld (Val := Elt Ideal) (e' := .f32) Q (Rect.unit (s := S32x34x130) ![0, 0, 2] S32x32x128.size inb_S32x34x130_S32x32x128_0_0_2)) (View.ld (Val := Elt Ideal) (e' := .f32) Q (Rect.unit (s := S32x34x130) ![0, 1, 0] S32x32x128.size inb_S32x34x130_S32x32x128_0_1_0)) (View.ld (Val := Elt Ideal) (e' := .f32) Q (Rect.unit (s := S32x34x130) ![0, 1, 1] S32x32x128.size inb_S32x34x130_S32x32x128_0_1_1)) (View.ld (Val := Elt Ideal) (e' := .f32) Q (Rect.unit (s := S32x34x130) ![0, 1, 2] S32x32x128.size inb_S32x34x130_S32x32x128_0_1_2)) (View.ld (Val := Elt Ideal) (e' := .f32) Q (Rect.unit (s := S32x34x130) ![0, 2, 0] S32x32x128.size inb_S32x34x130_S32x32x128_0_2_0)) (View.ld (Val := Elt Ideal) (e' := .f32) Q (Rect.unit (s := S32x34x130) ![0, 2, 1] S32x32x128.size inb_S32x34x130_S32x32x128_0_2_1)) (View.ld (Val := Elt Ideal) (e' := .f32) Q (Rect.unit (s := S32x34x130) ![0, 2, 2] S32x32x128.size inb_S32x34x130_S32x32x128_0_2_2)) o i j := by
  unfold outHi
  rw [View.ld_unit_zero (S := S9x32) hz2 _ x5, View.ld_unit_zero (S := S32x1) hz2 _ x6]
  exact dwRows_apply x5 x6 _ _ _ _ _ _ _ _ _ u o i j

theorem outLo_apply (Q : FVec Ideal S32x34x130 .f32) (u : Fin 1) (o : Fin 32) (i : Fin 32) (j : Fin 128) :
    outLo Q (ix4 u o i j) = Q (ix3 o (⟨1 + i.val, by omega⟩ : Fin 34) (⟨1 + j.val, by omega⟩ : Fin 130)) := by
  unfold outLo
  refine (firstHalf_apply _ u o i j).trans ?_
  exact ld_unit3 (Val := Elt Ideal) (e := .f32) 1 1 32 128 _ Q o i j (by omega) (by omega)

/-! ## The simple payloads -/

theorem zeroZ_apply (y : S128x36x130.Idx) : k1_pay2 (F := Ideal) y = (0 : EReal) := by
  unfold k1_pay2
  refine (congrFun (shapeCast_self _ _) y).trans ?_
  show Ideal.ofBits .f32 0x00000000#32 = 0
  exact Ideal.ofBits_zero_f32
theorem zeroX_apply (y : S32x34x130.Idx) : k1_pay9 (F := Ideal) y = (0 : EReal) := by
  unfold k1_pay9
  refine (congrFun (shapeCast_self _ _) y).trans ?_
  show Ideal.ofBits .f32 0x00000000#32 = 0
  exact Ideal.ofBits_zero_f32
theorem zeroRow0_apply (y : S32x1x130.Idx) : k1_pay12 (F := Ideal) y = (0 : EReal) := by
  unfold k1_pay12
  refine (congrFun (shapeCast_self _ _) y).trans ?_
  show Ideal.ofBits .f32 0x00000000#32 = 0
  exact Ideal.ofBits_zero_f32
theorem zeroRow33_apply (y : S32x1x130.Idx) : k1_pay13 (F := Ideal) y = (0 : EReal) := by
  unfold k1_pay13
  refine (congrFun (shapeCast_self _ _) y).trans ?_
  show Ideal.ofBits .f32 0x00000000#32 = 0
  exact Ideal.ofBits_zero_f32

/-- The strip as stored into the padded buffer. -/
theorem midPay_apply (x0 : Vec Ideal S1x128x32x128 .f32) (inb) (g : Fin 128) (r : Fin 32) (j : Fin 128) :
    k1_pay3 (F := Ideal) (View.ld x0 (Rect.unit (s := S1x128x32x128) ![0, 0, 0, 0] S1x128x32x128.size inb)) (ix3 g r j)
      = x0 (ix4 (0 : Fin 1) g r j) := by
  unfold k1_pay3
  rw [View.ld_unit_zero (S := S1x128x32x128) hz4 _ x0]
  refine (congrFun (shapeCast_self _ _) _).trans ?_
  exact shapeCast_1abc_abc_apply _ _ g r j

/-- The two rows above, as stored: rows 6 and 7 of the eight staged. -/
theorem topPay_apply (x1 : Vec Ideal S1x128x8x128 .f32) (inb) (g : Fin 128) (r : Fin 2) (j : Fin 128) :
    k1_pay4 (F := Ideal) (View.ld x1 (Rect.unit (s := S1x128x8x128) ![0, 0, 6, 0] S1x128x2x128.size inb)) (ix3 g r j)
      = x1 (ix4 (0 : Fin 1) g (⟨6 + r.val, by omega⟩ : Fin 8) j) := by
  unfold k1_pay4
  refine (congrFun (shapeCast_self _ _) _).trans ?_
  refine (shapeCast_1abc_abc_apply _ _ g r j).trans ?_
  show x1 ((Rect.unit (s := S1x128x8x128) ![0, 0, 6, 0] S1x128x2x128.size inb).emb (ix4 (0 : Fin 1) g r j)) = _
  refine congrArg x1 (funext fun a => Fin.ext ?_)
  match a with
  | ⟨0, _⟩ => show 0 + 1 * 0 = 0; omega
  | ⟨1, _⟩ => show 0 + 1 * g.val = g.val; omega
  | ⟨2, _⟩ => show 6 + 1 * r.val = 6 + r.val; omega
  | ⟨3, _⟩ => show 0 + 1 * j.val = j.val; omega

/-- The two rows below, as stored: rows 0 and 1 of the eight staged. -/
theorem botPay_apply (x2 : Vec Ideal S1x128x8x128 .f32) (inb) (g : Fin 128) (r : Fin 2) (j : Fin 128) :
    k1_pay5 (F := Ideal) (View.ld x2 (Rect.unit (s := S1x128x8x128) ![0, 0, 0, 0] S1x128x2x128.size inb)) (ix3 g r j)
      = x2 (ix4 (0 : Fin 1) g (⟨r.val, by omega⟩ : Fin 8) j) := by
  unfold k1_pay5
  refine (congrFun (shapeCast_self _ _) _).trans ?_
  refine (shapeCast_1abc_abc_apply _ _ g r j).trans ?_
  show x2 ((Rect.unit (s := S1x128x8x128) ![0, 0, 0, 0] S1x128x2x128.size inb).emb (ix4 (0 : Fin 1) g r j)) = _
  refine congrArg x2 (funext fun a => Fin.ext ?_)
  match a with
  | ⟨0, _⟩ => show 0 + 1 * 0 = 0; omega
  | ⟨1, _⟩ => show 0 + 1 * g.val = g.val; omega
  | ⟨2, _⟩ => show 0 + 1 * r.val = r.val; omega
  | ⟨3, _⟩ => show 0 + 1 * j.val = j.val; omega

/-! ## Nine taps from the zero word are a sum over the taps -/

theorem sum9 (f : Fin 9 → EReal) :
    (((((((((Ideal.ofBits .f32 0x00000000#32 + f 0) + f 1) + f 2) + f 3) + f 4) + f 5) + f 6) + f 7) + f 8) = ∑ k : Fin 9, f k := by
  rw [Ideal.ofBits_zero_f32]
  symm
  simp only [Fin.sum_univ_castSucc, Fin.sum_univ_zero]
  rfl

/-! ## The padded strip of z at a point is z extended by zero -/

section Padded
variable (c : Dev nD) (X : Spec.SX.Idx → EReal) (Sk : Spec.SSkip.Idx → EReal) (W : Spec.SW.Idx → EReal) (B : Spec.SBias.Idx → EReal)

theorem zc {b b' : Fin 8} {g g' i i' j j' : Fin 128} (hb : b.val = b'.val) (hg : g.val = g'.val) (hi : i.val = i'.val) (hj : j.val = j'.val) :
    Spec.z X Sk W B b g i j = Spec.z X Sk W B b' g' i' j' := by
  obtain rfl := Fin.ext hb; obtain rfl := Fin.ext hg; obtain rfl := Fin.ext hi; obtain rfl := Fin.ext hj; rfl

variable (hZ : ∀ (b : Fin 8) (g i j : Fin 128), (V c main_v0 : S8x128x128x128.Idx → EReal) (ix4 b g i j) = Spec.z X Sk W B b g i j)
include hZ

/-- A middle strip (s = 1, 2): padded row p is image row 32s + p − 2. -/
theorem padded_middle (t : Fin cfg1.N) (hs : t.val % 4 = 1 ∨ t.val % 4 = 2) (g : Fin 128) (p : Fin 36) (q : Fin 130) :
    View.canon (zPiecesMiddle (strip V c 0 t) (strip V c 1 t) (strip V c 2 t)) (ix3 g p q) = Spec.zPad X Sk W B (⟨t.val / 4, by have := point_lt t; omega⟩ : Fin 8) g (t.val % 4 * 32 + p.val - 1) q.val := by
  have ht := point_lt t
  refine (padZ_middle _ _ _ _ _ _ _ _ g p q zeroZ_apply).trans ?_
  unfold Spec.zPad
  by_cases hq : 1 ≤ q.val ∧ q.val ≤ 128
  · rw [dif_pos hq]
    by_cases hb : 34 ≤ p.val
    · have hc : (1 ≤ t.val % 4 * 32 + p.val - 1 ∧ t.val % 4 * 32 + p.val - 1 ≤ 128 ∧ 1 ≤ q.val ∧ q.val ≤ 128) := by omega
      rw [dif_pos hb, dif_pos hc, botPay_apply, strip2_apply, hZ]
      exact zc X Sk W B rfl rfl (by show (if t.val % 4 = 3 then 15 else 4 * (t.val % 4) + 4) * 8 + (p.val - 34) = t.val % 4 * 32 + p.val - 1 - 1; split <;> omega) rfl
    · rw [dif_neg hb]
      by_cases htp : p.val < 2
      · have hc : (1 ≤ t.val % 4 * 32 + p.val - 1 ∧ t.val % 4 * 32 + p.val - 1 ≤ 128 ∧ 1 ≤ q.val ∧ q.val ≤ 128) := by omega
        rw [dif_pos htp, dif_pos hc, topPay_apply, strip1_apply, hZ]
        exact zc X Sk W B rfl rfl (by show (if t.val % 4 = 0 then 0 else 4 * (t.val % 4) - 1) * 8 + (6 + (p.val - 0)) = t.val % 4 * 32 + p.val - 1 - 1; split <;> omega) rfl
      · have hc : (1 ≤ t.val % 4 * 32 + p.val - 1 ∧ t.val % 4 * 32 + p.val - 1 ≤ 128 ∧ 1 ≤ q.val ∧ q.val ≤ 128) := by omega
        rw [dif_neg htp, dif_pos hc, midPay_apply, strip0_apply, hZ]
        exact zc X Sk W B rfl rfl (by show t.val % 4 * 32 + (p.val - 2) = t.val % 4 * 32 + p.val - 1 - 1; omega) rfl
  · have hc : ¬(1 ≤ t.val % 4 * 32 + p.val - 1 ∧ t.val % 4 * 32 + p.val - 1 ≤ 128 ∧ 1 ≤ q.val ∧ q.val ≤ 128) := by omega
    rw [dif_neg hq, dif_neg hc]

/-- The first strip (s = 0): the two rows above the image are zero. -/
theorem padded_first (t : Fin cfg1.N) (hs : t.val % 4 = 0) (g : Fin 128) (p : Fin 36) (q : Fin 130) :
    View.canon (zPiecesFirst (strip V c 0 t) (strip V c 1 t) (strip V c 2 t)) (ix3 g p q) = Spec.zPad X Sk W B (⟨t.val / 4, by have := point_lt t; omega⟩ : Fin 8) g (t.val % 4 * 32 + p.val - 1) q.val := by
  have ht := point_lt t
  refine (padZ_first _ _ _ _ _ _ g p q zeroZ_apply).trans ?_
  unfold Spec.zPad
  by_cases hq : 1 ≤ q.val ∧ q.val ≤ 128
  · rw [dif_pos hq]
    by_cases hb : 34 ≤ p.val
    · have hc : (1 ≤ t.val % 4 * 32 + p.val - 1 ∧ t.val % 4 * 32 + p.val - 1 ≤ 128 ∧ 1 ≤ q.val ∧ q.val ≤ 128) := by omega
      rw [dif_pos hb, dif_pos hc, botPay_apply, strip2_apply, hZ]
      exact zc X Sk W B rfl rfl (by show (if t.val % 4 = 3 then 15 else 4 * (t.val % 4) + 4) * 8 + (p.val - 34) = t.val % 4 * 32 + p.val - 1 - 1; split <;> omega) rfl
    · rw [dif_neg hb]
      by_cases htp : p.val < 2
      · have hc : ¬(1 ≤ t.val % 4 * 32 + p.val - 1 ∧ t.val % 4 * 32 + p.val - 1 ≤ 128 ∧ 1 ≤ q.val ∧ q.val ≤ 128) := by omega
        rw [dif_pos htp, dif_neg hc]
      · have hc : (1 ≤ t.val % 4 * 32 + p.val - 1 ∧ t.val % 4 * 32 + p.val - 1 ≤ 128 ∧ 1 ≤ q.val ∧ q.val ≤ 128) := by omega
        rw [dif_neg htp, dif_pos hc, midPay_apply, strip0_apply, hZ]
        exact zc X Sk W B rfl rfl (by show t.val % 4 * 32 + (p.val - 2) = t.val % 4 * 32 + p.val - 1 - 1; omega) rfl
  · have hc : ¬(1 ≤ t.val % 4 * 32 + p.val - 1 ∧ t.val % 4 * 32 + p.val - 1 ≤ 128 ∧ 1 ≤ q.val ∧ q.val ≤ 128) := by omega
    rw [dif_neg hq, dif_neg hc]

/-- The last strip (s = 3): the two rows below the image are zero. -/
theorem padded_last (t : Fin cfg1.N) (hs : t.val % 4 = 3) (g : Fin 128) (p : Fin 36) (q : Fin 130) :
    View.canon (zPiecesLast (strip V c 0 t) (strip V c 1 t) (strip V c 2 t)) (ix3 g p q) = Spec.zPad X Sk W B (⟨t.val / 4, by have := point_lt t; omega⟩ : Fin 8) g (t.val % 4 * 32 + p.val - 1) q.val := by
  have ht := point_lt t
  refine (padZ_last _ _ _ _ _ _ g p q zeroZ_apply).trans ?_
  unfold Spec.zPad
  by_cases hq : 1 ≤ q.val ∧ q.val ≤ 128
  · rw [dif_pos hq]
    by_cases hb : 34 ≤ p.val
    · have hc : ¬(1 ≤ t.val % 4 * 32 + p.val - 1 ∧ t.val % 4 * 32 + p.val - 1 ≤ 128 ∧ 1 ≤ q.val ∧ q.val ≤ 128) := by omega
      rw [dif_pos hb, dif_neg hc]
    · rw [dif_neg hb]
      by_cases htp : p.val < 2
      · have hc : (1 ≤ t.val % 4 * 32 + p.val - 1 ∧ t.val % 4 * 32 + p.val - 1 ≤ 128 ∧ 1 ≤ q.val ∧ q.val ≤ 128) := by omega
        rw [dif_pos htp, dif_pos hc, topPay_apply, strip1_apply, hZ]
        exact zc X Sk W B rfl rfl (by show (if t.val % 4 = 0 then 0 else 4 * (t.val % 4) - 1) * 8 + (6 + (p.val - 0)) = t.val % 4 * 32 + p.val - 1 - 1; split <;> omega) rfl
      · have hc : (1 ≤ t.val % 4 * 32 + p.val - 1 ∧ t.val % 4 * 32 + p.val - 1 ≤ 128 ∧ 1 ≤ q.val ∧ q.val ≤ 128) := by omega
        rw [dif_neg htp, dif_pos hc, midPay_apply, strip0_apply, hZ]
        exact zc X Sk W B rfl rfl (by show t.val % 4 * 32 + (p.val - 2) = t.val % 4 * 32 + p.val - 1 - 1; omega) rfl
  · have hc : ¬(1 ≤ t.val % 4 * 32 + p.val - 1 ∧ t.val % 4 * 32 + p.val - 1 ≤ 128 ∧ 1 ≤ q.val ∧ q.val ≤ 128) := by omega
    rw [dif_neg hq, dif_neg hc]

end Padded

/-! ## The two convolutions over padded buffers that are z and x1 extended by zero -/

/-- The two stores of the output block, read at an index. -/
theorem blockOut (fh fl : (⟨4, ![1, 32, 32, 128]⟩ : Shape).Idx → Elt Ideal .f32) (inbH inbL) (u : Fin 1) (ch : Fin 64) (i : Fin 32) (j : Fin 128) :
    View.canon (Val := Elt Ideal) (e := .f32)
        [⟨Rect.unit (s := S1x64x32x128) ![0, 32, 0, 0] ![1, 32, 32, 128] inbH, fh⟩, ⟨Rect.unit (s := S1x64x32x128) ![0, 0, 0, 0] ![1, 32, 32, 128] inbL, fl⟩]
        (ix4 u ch i j)
      = (if h : ch.val < 32 then fl (ix4 u (⟨ch.val, h⟩ : Fin 32) i j) else fh (ix4 u (⟨ch.val - 32, by omega⟩ : Fin 32) i j) : EReal) := by
  by_cases h : ch.val < 32
  · rw [dif_pos h]
    refine (View.canon_cons_of_not_mem _ _ (by
      rw [Rect.mem_set_unit]; intro H
      have h1 : 32 ≤ ch.val := (H (1 : Fin 4)).1
      omega)).trans ?_
    have e : (Rect.unit (s := S1x64x32x128) ![0, 0, 0, 0] ![1, 32, 32, 128] inbL).emb (ix4 u (⟨ch.val, h⟩ : Fin 32) i j) = ix4 u ch i j :=
      funext fun x => Fin.ext (by
        match x with
        | ⟨0, _⟩ => show 0 + 1 * u.val = u.val; omega
        | ⟨1, _⟩ => show 0 + 1 * ch.val = ch.val; omega
        | ⟨2, _⟩ => show 0 + 1 * i.val = i.val; omega
        | ⟨3, _⟩ => show 0 + 1 * j.val = j.val; omega)
    rw [← e]
    exact View.canon_cons_emb _ _ _ _
  · rw [dif_neg h]
    have e : (Rect.unit (s := S1x64x32x128) ![0, 32, 0, 0] ![1, 32, 32, 128] inbH).emb (ix4 u (⟨ch.val - 32, by omega⟩ : Fin 32) i j) = ix4 u ch i j :=
      funext fun x => Fin.ext (by
        match x with
        | ⟨0, _⟩ => show 0 + 1 * u.val = u.val; omega
        | ⟨1, _⟩ => show 32 + 1 * (ch.val - 32) = ch.val; omega
        | ⟨2, _⟩ => show 0 + 1 * i.val = i.val; omega
        | ⟨3, _⟩ => show 0 + 1 * j.val = j.val; omega)
    rw [← e]
    exact View.canon_cons_emb _ _ _ _

section Outputs
variable (X : Spec.SX.Idx → EReal) (Sk : Spec.SSkip.Idx → EReal) (W : Spec.SW.Idx → EReal) (B : Spec.SBias.Idx → EReal)
  (Wp : Spec.SWp.Idx → EReal) (B1 : Spec.SB1.Idx → EReal) (Wd : Spec.SWd.Idx → EReal) (B2 : Spec.SB1.Idx → EReal)
  (b : Fin 8) (s : ℕ) (hs3 : s ≤ 3)

theorem zPadc {g : Fin 128} {p p' q q' : ℕ} (hp : p = p') (hq : q = q') :
    Spec.zPad X Sk W B b g p q = Spec.zPad X Sk W B b g p' q' := by subst hp; subst hq; rfl
theorem x1Padc {o : Fin 32} {p p' q q' : ℕ} (hp : p = p') (hq : q = q') :
    Spec.x1Pad X Sk W B Wp B1 b o p q = Spec.x1Pad X Sk W B Wp B1 b o p' q' := by subst hp; subst hq; rfl
theorem x1c {o : Fin 32} {i i' j j' : Fin 128} (hi : i.val = i'.val) (hj : j.val = j'.val) :
    Spec.x1 X Sk W B Wp B1 b o i j = Spec.x1 X Sk W B Wp B1 b o i' j' := by
  obtain rfl := Fin.ext hi; obtain rfl := Fin.ext hj; rfl

/-- One tap of the first convolution over the padded strip of z. -/
theorem tap_eq (P : FVec Ideal S128x36x130 .f32) (hP : ∀ (g : Fin 128) (p : Fin 36) (q : Fin 130), P (ix3 g p q) = Spec.zPad X Sk W B b g (s * 32 + p.val - 1) q.val)
    (x3 : S9x32x128.Idx → EReal) (h3 : ∀ (k : Fin 9) (o : Fin 32) (g : Fin 128), x3 (ix3 k o g) = Wp (ix3 k o g))
    (k : Fin 9) (ky kx : ℕ) (hky : ky = k.val / 3) (hkx : kx = k.val % 3) (inb) (o : Fin 32) (r : Fin 34) (j : Fin 128)
    (hr : 1 ≤ s * 32 + r.val) :
    (∑ g : Fin 128, x3 (ix3 k o g)
        * View.ld (Val := Elt Ideal) (e' := .f32) P (Rect.unit (s := S128x36x130) ![0, ky, kx] S128x34x128.size inb) (ix3 g r j))
      = ∑ g : Fin 128, Wp (ix3 k o g) * Spec.zPad X Sk W B b g (s * 32 + r.val - 1 + k.val / 3) (j.val + k.val % 3) := by
  subst hky; subst hkx
  have hk := k.isLt
  refine Finset.sum_congr rfl fun g _ => ?_
  rw [h3, ld_unit3 (Val := Elt Ideal) (e := .f32) (k.val / 3) (k.val % 3) 34 128 inb P g r j (by omega) (by omega), hP]
  exact congrArg _ (zPadc X Sk W B b (by show s * 32 + (k.val / 3 + r.val) - 1 = s * 32 + r.val - 1 + k.val / 3; omega)
    (by show k.val % 3 + j.val = j.val + k.val % 3; omega))

/-- The 34 rows of the first convolution are rows 32s − 1 … 32s + 32 of Spec.x1 (those inside the image). -/
theorem rows_eq (P : FVec Ideal S128x36x130 .f32) (hP : ∀ (g : Fin 128) (p : Fin 36) (q : Fin 130), P (ix3 g p q) = Spec.zPad X Sk W B b g (s * 32 + p.val - 1) q.val)
    (x3 : Vec Ideal S9x32x128 .f32) (x4 : Vec Ideal S32x1 .f32)
    (h3 : ∀ (k : Fin 9) (o : Fin 32) (g : Fin 128), x3 (ix3 k o g) = Wp (ix3 k o g)) (h4 : ∀ (o : Fin 32) (u : Fin 1), x4 (ix2 o u) = B1 (ix2 o u))
    (o : Fin 32) (r : Fin 34) (j : Fin 128) (hr : 1 ≤ s * 32 + r.val) (hr' : s * 32 + r.val ≤ 128) :
    rowsTerm x3 x4 P (ix3 o r j) = Spec.x1 X Sk W B Wp B1 b o (⟨s * 32 + r.val - 1, by omega⟩ : Fin 128) j := by
  rw [rowsTerm_apply]
  unfold convAt Spec.x1
  refine congrArg Spec.leaky ?_
  rw [tap_eq X Sk W B Wp b s P hP x3 h3 0 0 0 rfl rfl _ o r j hr,
    tap_eq X Sk W B Wp b s P hP x3 h3 1 0 1 rfl rfl _ o r j hr,
    tap_eq X Sk W B Wp b s P hP x3 h3 2 0 2 rfl rfl _ o r j hr,
    tap_eq X Sk W B Wp b s P hP x3 h3 3 1 0 rfl rfl _ o r j hr,
    tap_eq X Sk W B Wp b s P hP x3 h3 4 1 1 rfl rfl _ o r j hr,
    tap_eq X Sk W B Wp b s P hP x3 h3 5 1 2 rfl rfl _ o r j hr,
    tap_eq X Sk W B Wp b s P hP x3 h3 6 2 0 rfl rfl _ o r j hr,
    tap_eq X Sk W B Wp b s P hP x3 h3 7 2 1 rfl rfl _ o r j hr,
    tap_eq X Sk W B Wp b s P hP x3 h3 8 2 2 rfl rfl _ o r j hr,
    h4]
  exact congrArg (· + B1 (ix2 o (0 : Fin 1))) (sum9 fun k : Fin 9 => ∑ g : Fin 128, Wp (ix3 k o g)
    * Spec.zPad X Sk W B b g (s * 32 + r.val - 1 + k.val / 3) (j.val + k.val % 3))

/-- The padded first convolution, by position, is Spec.x1 extended by zero at image rows 32s + r − 1. -/
theorem x1pad_middle (hs : s = 1 ∨ s = 2) (P : FVec Ideal S128x36x130 .f32) (hP : ∀ (g : Fin 128) (p : Fin 36) (q : Fin 130), P (ix3 g p q) = Spec.zPad X Sk W B b g (s * 32 + p.val - 1) q.val)
    (x3 : Vec Ideal S9x32x128 .f32) (x4 : Vec Ideal S32x1 .f32)
    (h3 : ∀ (k : Fin 9) (o : Fin 32) (g : Fin 128), x3 (ix3 k o g) = Wp (ix3 k o g)) (h4 : ∀ (o : Fin 32) (u : Fin 1), x4 (ix2 o u) = B1 (ix2 o u))
    (o : Fin 32) (r : Fin 34) (q : Fin 130) :
    View.canon (xPiecesMiddle (rowsTerm x3 x4 P)) (ix3 o r q) = Spec.x1Pad X Sk W B Wp B1 b o (s * 32 + r.val) q.val := by
  refine (padX_middle _ _ _ _ o r q zeroX_apply).trans ?_
  unfold Spec.x1Pad
  by_cases hq : 1 ≤ q.val ∧ q.val ≤ 128
  · have hc : (1 ≤ s * 32 + r.val ∧ s * 32 + r.val ≤ 128 ∧ 1 ≤ q.val ∧ q.val ≤ 128) := by omega
    rw [dif_pos hq, dif_pos hc, rows_eq X Sk W B Wp B1 b s P hP x3 x4 h3 h4 o _ _ (by show 1 ≤ s * 32 + (r.val - 0); omega) (by show s * 32 + (r.val - 0) ≤ 128; omega)]
    exact x1c X Sk W B Wp B1 b (by show s * 32 + (r.val - 0) - 1 = s * 32 + r.val - 1; omega) rfl
  · have hc : ¬(1 ≤ s * 32 + r.val ∧ s * 32 + r.val ≤ 128 ∧ 1 ≤ q.val ∧ q.val ≤ 128) := by omega
    rw [dif_neg hq, dif_neg hc]

theorem x1pad_first (hs : s = 0) (P : FVec Ideal S128x36x130 .f32) (hP : ∀ (g : Fin 128) (p : Fin 36) (q : Fin 130), P (ix3 g p q) = Spec.zPad X Sk W B b g (s * 32 + p.val - 1) q.val)
    (x3 : Vec Ideal S9x32x128 .f32) (x4 : Vec Ideal S32x1 .f32)
    (h3 : ∀ (k : Fin 9) (o : Fin 32) (g : Fin 128), x3 (ix3 k o g) = Wp (ix3 k o g)) (h4 : ∀ (o : Fin 32) (u : Fin 1), x4 (ix2 o u) = B1 (ix2 o u))
    (o : Fin 32) (r : Fin 34) (q : Fin 130) :
    View.canon (xPiecesFirst (rowsTerm x3 x4 P)) (ix3 o r q) = Spec.x1Pad X Sk W B Wp B1 b o (s * 32 + r.val) q.val := by
  refine (padX_first _ _ _ _ _ _ o r q zeroRow0_apply zeroX_apply).trans ?_
  unfold Spec.x1Pad
  by_cases h0 : r.val = 0
  · have hc : ¬(1 ≤ s * 32 + r.val ∧ s * 32 + r.val ≤ 128 ∧ 1 ≤ q.val ∧ q.val ≤ 128) := by omega
    rw [dif_pos h0, dif_neg hc]
  · rw [dif_neg h0]
    by_cases hq : 1 ≤ q.val ∧ q.val ≤ 128
    · have hc : (1 ≤ s * 32 + r.val ∧ s * 32 + r.val ≤ 128 ∧ 1 ≤ q.val ∧ q.val ≤ 128) := by omega
      rw [dif_pos hq, dif_pos hc, rows_eq X Sk W B Wp B1 b s P hP x3 x4 h3 h4 o _ _ (by show 1 ≤ s * 32 + (r.val - 0); omega) (by show s * 32 + (r.val - 0) ≤ 128; omega)]
      exact x1c X Sk W B Wp B1 b (by show s * 32 + (r.val - 0) - 1 = s * 32 + r.val - 1; omega) rfl
    · have hc : ¬(1 ≤ s * 32 + r.val ∧ s * 32 + r.val ≤ 128 ∧ 1 ≤ q.val ∧ q.val ≤ 128) := by omega
      rw [dif_neg hq, dif_neg hc]

theorem x1pad_last (hs : s = 3) (P : FVec Ideal S128x36x130 .f32) (hP : ∀ (g : Fin 128) (p : Fin 36) (q : Fin 130), P (ix3 g p q) = Spec.zPad X Sk W B b g (s * 32 + p.val - 1) q.val)
    (x3 : Vec Ideal S9x32x128 .f32) (x4 : Vec Ideal S32x1 .f32)
    (h3 : ∀ (k : Fin 9) (o : Fin 32) (g : Fin 128), x3 (ix3 k o g) = Wp (ix3 k o g)) (h4 : ∀ (o : Fin 32) (u : Fin 1), x4 (ix2 o u) = B1 (ix2 o u))
    (o : Fin 32) (r : Fin 34) (q : Fin 130) :
    View.canon (xPiecesLast (rowsTerm x3 x4 P)) (ix3 o r q) = Spec.x1Pad X Sk W B Wp B1 b o (s * 32 + r.val) q.val := by
  refine (padX_last _ _ _ _ _ _ o r q zeroRow33_apply zeroX_apply).trans ?_
  unfold Spec.x1Pad
  by_cases h33 : r.val = 33
  · have hc : ¬(1 ≤ s * 32 + r.val ∧ s * 32 + r.val ≤ 128 ∧ 1 ≤ q.val ∧ q.val ≤ 128) := by omega
    rw [dif_pos h33, dif_neg hc]
  · rw [dif_neg h33]
    by_cases hq : 1 ≤ q.val ∧ q.val ≤ 128
    · have hc : (1 ≤ s * 32 + r.val ∧ s * 32 + r.val ≤ 128 ∧ 1 ≤ q.val ∧ q.val ≤ 128) := by omega
      rw [dif_pos hq, dif_pos hc, rows_eq X Sk W B Wp B1 b s P hP x3 x4 h3 h4 o _ _ (by show 1 ≤ s * 32 + (r.val - 0); omega) (by show s * 32 + (r.val - 0) ≤ 128; omega)]
      exact x1c X Sk W B Wp B1 b (by show s * 32 + (r.val - 0) - 1 = s * 32 + r.val - 1; omega) rfl
    · have hc : ¬(1 ≤ s * 32 + r.val ∧ s * 32 + r.val ≤ 128 ∧ 1 ≤ q.val ∧ q.val ≤ 128) := by omega
      rw [dif_neg hq, dif_neg hc]

/-- One tap of the depthwise convolution over the padded first convolution. -/
theorem dwtap_eq (Q : FVec Ideal S32x34x130 .f32) (hQ : ∀ (o : Fin 32) (r : Fin 34) (q : Fin 130), Q (ix3 o r q) = Spec.x1Pad X Sk W B Wp B1 b o (s * 32 + r.val) q.val)
    (x5 : S9x32.Idx → EReal) (h5 : ∀ (k : Fin 9) (o : Fin 32), x5 (ix2 k o) = Wd (ix2 k o))
    (k : Fin 9) (ky kx : ℕ) (hky : ky = k.val / 3) (hkx : kx = k.val % 3) (inb) (o : Fin 32) (i : Fin 32) (j : Fin 128) :
    View.ld (Val := Elt Ideal) (e' := .f32) Q (Rect.unit (s := S32x34x130) ![0, ky, kx] S32x32x128.size inb) (ix3 o i j) * x5 (ix2 k o)
      = Spec.x1Pad X Sk W B Wp B1 b o (s * 32 + i.val + k.val / 3) (j.val + k.val % 3) * Wd (ix2 k o) := by
  subst hky; subst hkx
  have hk := k.isLt
  rw [h5, ld_unit3 (Val := Elt Ideal) (e := .f32) (k.val / 3) (k.val % 3) 32 128 inb Q o i j (by omega) (by omega), hQ]
  exact congrArg (· * _) (x1Padc X Sk W B Wp B1 b (by show s * 32 + (k.val / 3 + i.val) = s * 32 + i.val + k.val / 3; omega)
    (by show k.val % 3 + j.val = j.val + k.val % 3; omega))

/-- The output block from the padded first convolution is the strip of the decoder block's output. -/
theorem block_is_out (Q : FVec Ideal S32x34x130 .f32) (hQ : ∀ (o : Fin 32) (r : Fin 34) (q : Fin 130), Q (ix3 o r q) = Spec.x1Pad X Sk W B Wp B1 b o (s * 32 + r.val) q.val)
    (x5 : Vec Ideal S9x32 .f32) (x6 : Vec Ideal S32x1 .f32)
    (h5 : ∀ (k : Fin 9) (o : Fin 32), x5 (ix2 k o) = Wd (ix2 k o)) (h6 : ∀ (o : Fin 32) (u : Fin 1), x6 (ix2 o u) = B2 (ix2 o u))
    (inbH inbL) (u : Fin 1) (ch : Fin 64) (i : Fin 32) (j : Fin 128) :
    View.canon (Val := Elt Ideal) (e := .f32)
        [⟨Rect.unit (s := S1x64x32x128) ![0, 32, 0, 0] ![1, 32, 32, 128] inbH, outHi x5 x6 Q⟩,
          ⟨Rect.unit (s := S1x64x32x128) ![0, 0, 0, 0] ![1, 32, 32, 128] inbL, outLo Q⟩] (ix4 u ch i j)
      = Spec.out X Sk W B Wp B1 Wd B2 (ix4 b ch (⟨s * 32 + i.val, by omega⟩ : Fin 128) j) := by
  refine (blockOut _ _ inbH inbL u ch i j).trans ?_
  unfold Spec.out
  by_cases h : ch.val < 32
  · rw [dif_pos h, dif_pos (show ((ix4 b ch (⟨s * 32 + i.val, by omega⟩ : Fin 128) j : Spec.SOut.Idx) 1).val < 32 from h),
      outLo_apply, hQ]
    unfold Spec.x1Pad
    have hc : (1 ≤ s * 32 + (1 + i.val) ∧ s * 32 + (1 + i.val) ≤ 128 ∧ 1 ≤ 1 + j.val ∧ 1 + j.val ≤ 128) := by omega
    rw [dif_pos hc]
    exact x1c X Sk W B Wp B1 b (by show s * 32 + (1 + i.val) - 1 = s * 32 + i.val; omega) (by show 1 + j.val - 1 = j.val; omega)
  · rw [dif_neg h, dif_neg (show ¬((ix4 b ch (⟨s * 32 + i.val, by omega⟩ : Fin 128) j : Spec.SOut.Idx) 1).val < 32 from h),
      outHi_apply]
    unfold dwAt Spec.x2
    refine congrArg Spec.leaky ?_
    generalize (⟨ch.val - 32, by omega⟩ : Fin 32) = o
    rw [dwtap_eq X Sk W B Wp B1 Wd b s Q hQ x5 h5 0 0 0 rfl rfl _ o i j,
    dwtap_eq X Sk W B Wp B1 Wd b s Q hQ x5 h5 1 0 1 rfl rfl _ o i j,
    dwtap_eq X Sk W B Wp B1 Wd b s Q hQ x5 h5 2 0 2 rfl rfl _ o i j,
    dwtap_eq X Sk W B Wp B1 Wd b s Q hQ x5 h5 3 1 0 rfl rfl _ o i j,
    dwtap_eq X Sk W B Wp B1 Wd b s Q hQ x5 h5 4 1 1 rfl rfl _ o i j,
    dwtap_eq X Sk W B Wp B1 Wd b s Q hQ x5 h5 5 1 2 rfl rfl _ o i j,
    dwtap_eq X Sk W B Wp B1 Wd b s Q hQ x5 h5 6 2 0 rfl rfl _ o i j,
    dwtap_eq X Sk W B Wp B1 Wd b s Q hQ x5 h5 7 2 1 rfl rfl _ o i j,
    dwtap_eq X Sk W B Wp B1 Wd b s Q hQ x5 h5 8 2 2 rfl rfl _ o i j,
      h6]
    exact congrArg (· + B2 (ix2 o (0 : Fin 1))) (sum9 fun k : Fin 9 =>
      Spec.x1Pad X Sk W B Wp B1 b o (s * 32 + i.val + k.val / 3) (j.val + k.val % 3) * Wd (ix2 k o))

end Outputs

/-! ## What a point writes, and the result array -/

/-- The parameters as the region finds them. -/
def wpOf (c : Dev nD) : Spec.SWp.Idx → EReal := V c main_arg4
def b1Of (c : Dev nD) : Spec.SB1.Idx → EReal := V c main_arg5
def wdOf (c : Dev nD) : Spec.SWd.Idx → EReal := V c main_arg6
def b2Of (c : Dev nD) : Spec.SB1.Idx → EReal := V c main_arg7

theorem first_iff : ∀ t : Fin cfg1.N, isFirst (grid1.coords t) ↔ t.val % 4 = 0 :=
  (by decide +kernel : ∀ t : Fin grid1.N, isFirst (grid1.coords t) ↔ t.val % 4 = 0)
theorem last_iff : ∀ t : Fin cfg1.N, isLast (grid1.coords t) ↔ t.val % 4 = 3 :=
  (by decide +kernel : ∀ t : Fin grid1.N, isLast (grid1.coords t) ↔ t.val % 4 = 3)

section Points
variable (c : Dev nD) (X : Spec.SX.Idx → EReal) (Sk : Spec.SSkip.Idx → EReal) (W : Spec.SW.Idx → EReal) (B : Spec.SBias.Idx → EReal)
variable (hZ : ∀ (b : Fin 8) (g i j : Fin 128), (V c main_v0 : S8x128x128x128.Idx → EReal) (ix4 b g i j) = Spec.z X Sk W B b g i j)
include hZ

/-- The block point t = 4b + s leaves is rows 32s … 32s+31 of image b of the decoder block's output. -/
theorem outAt_eq (t : Fin cfg1.N) (u : Fin 1) (ch : Fin 64) (i : Fin 32) (j : Fin 128) :
    outAt V c t (ix4 u ch i j)
      = Spec.out X Sk W B (wpOf V c) (b1Of V c) (wdOf V c) (b2Of V c) (ix4 (⟨t.val / 4, by have := point_lt t; omega⟩ : Fin 8) ch (⟨t.val % 4 * 32 + i.val, by omega⟩ : Fin 128) j) := by
  have ht := point_lt t
  have hs3 : t.val % 4 ≤ 3 := by omega
  by_cases hF : isFirst (grid1.coords t)
  · have hs := (first_iff t).mp hF
    rw [outAt_first V c t hF, outStripFirst_open]
    exact block_is_out X Sk W B (wpOf V c) (b1Of V c) (wdOf V c) (b2Of V c) (⟨t.val / 4, by have := point_lt t; omega⟩ : Fin 8) (t.val % 4) hs3 _
      (x1pad_first X Sk W B (wpOf V c) (b1Of V c) (⟨t.val / 4, by have := point_lt t; omega⟩ : Fin 8) (t.val % 4) hs _ (padded_first V c X Sk W B hZ t hs) _ _
        (fun k o g => strip3_apply V c t k o g) (fun o u => strip4_apply V c t o u))
      _ _ (fun k o => strip5_apply V c t k o) (fun o u => strip6_apply V c t o u) _ _ u ch i j
  · by_cases hL : isLast (grid1.coords t)
    · have hs := (last_iff t).mp hL
      rw [outAt_last V c t hF hL, outStripLast_open]
      exact block_is_out X Sk W B (wpOf V c) (b1Of V c) (wdOf V c) (b2Of V c) (⟨t.val / 4, by have := point_lt t; omega⟩ : Fin 8) (t.val % 4) hs3 _
        (x1pad_last X Sk W B (wpOf V c) (b1Of V c) (⟨t.val / 4, by have := point_lt t; omega⟩ : Fin 8) (t.val % 4) hs _ (padded_last V c X Sk W B hZ t hs) _ _
          (fun k o g => strip3_apply V c t k o g) (fun o u => strip4_apply V c t o u))
        _ _ (fun k o => strip5_apply V c t k o) (fun o u => strip6_apply V c t o u) _ _ u ch i j
    · have hs : t.val % 4 = 1 ∨ t.val % 4 = 2 := by
        have h0 : ¬ t.val % 4 = 0 := fun e => hF ((first_iff t).mpr e)
        have h3 : ¬ t.val % 4 = 3 := fun e => hL ((last_iff t).mpr e)
        omega
      rw [outAt_middle V c t hF hL, outStripMiddle_open]
      exact block_is_out X Sk W B (wpOf V c) (b1Of V c) (wdOf V c) (b2Of V c) (⟨t.val / 4, by have := point_lt t; omega⟩ : Fin 8) (t.val % 4) hs3 _
        (x1pad_middle X Sk W B (wpOf V c) (b1Of V c) (⟨t.val / 4, by have := point_lt t; omega⟩ : Fin 8) (t.val % 4) hs _ (padded_middle V c X Sk W B hZ t hs) _ _
          (fun k o g => strip3_apply V c t k o g) (fun o u => strip4_apply V c t o u))
        _ _ (fun k o => strip5_apply V c t k o) (fun o u => strip6_apply V c t o u) _ _ u ch i j

/-- The decoder block's output of the arrays the region finds, as contents of the result's buffer. -/
def outOf : Buf (Elt Ideal) ((c : Thread nD τ).loc main_v1) := fun y =>
  Spec.out X Sk W B (wpOf V c) (b1Of V c) (wdOf V c) (b2Of V c) (ix4 (⟨(y 0).val, (y 0).isLt⟩ : Fin 8) (⟨(y 1).val, (y 1).isLt⟩ : Fin 64) (⟨(y 2).val, (y 2).isLt⟩ : Fin 128) (⟨(y 3).val, (y 3).isLt⟩ : Fin 128))

omit hZ in
theorem ix4c {n0 n1 n2 n3 : Nat} {a a' : Fin n0} {b b' : Fin n1} {d d' : Fin n2} {e e' : Fin n3}
    (ha : a.val = a'.val) (hb : b.val = b'.val) (hd : d.val = d'.val) (he : e.val = e'.val) : ix4 a b d e = ix4 a' b' d' e' := by
  obtain rfl := Fin.ext ha; obtain rfl := Fin.ext hb; obtain rfl := Fin.ext hd; obtain rfl := Fin.ext he; rfl

/-- WHAT POINT t WRITES BACK is its block of that array. -/
theorem flushed_out (t : Fin cfg1.N) :
    (dat V c).flushed 7 t = ((cfg1.win 7).blk t).view.read (Elt Ideal) (outOf V c X Sk W B) := by
  show (cfg1.win 7).cut (grid1.coords t) ((dat V c).after 7 t) = _
  rw [after_7]
  funext y
  obtain ⟨u, ch, i, j, rfl⟩ : ∃ (u : Fin 1) (ch : Fin 64) (i : Fin 32) (j : Fin 128), y = ix4 u ch i j := ⟨y 0, y 1, y 2, y 3, eq_ix4 y⟩
  have ht := point_lt t
  have hi := (idx_facts t).2.2.2.2.2.2.2
  refine (outAt_eq V c X Sk W B hZ t u ch i j).trans ?_
  show _ = outOf V c X Sk W B (((cfg1.win 7).blk t).view.emb (ix4 u ch i j))
  unfold outOf
  refine congrArg _ (ix4c ?_ ?_ ?_ ?_)
  · show t.val / 4 = win1_7.index t 0 * 1 + 1 * u.val; rw [hi]; show t.val / 4 = t.val / 4 * 1 + 1 * u.val; omega
  · show ch.val = win1_7.index t 1 * 64 + 1 * ch.val; rw [hi]; show ch.val = 0 * 64 + 1 * ch.val; omega
  · show t.val % 4 * 32 + i.val = win1_7.index t 2 * 32 + 1 * i.val; rw [hi]; show _ = t.val % 4 * 32 + 1 * i.val; omega
  · show j.val = win1_7.index t 3 * 128 + 1 * j.val; rw [hi]; show j.val = 0 * 128 + 1 * j.val; omega

omit hZ in
theorem mem_outblk (t : Fin cfg1.N) (i : S8x64x128x128.Idx) :
    i ∈ ((cfg1.win 7).blk t).view.set ↔ ∀ a : Fin 4, win1_7.index t a * S1x64x32x128.size a ≤ (i a).val
      ∧ (i a).val < win1_7.index t a * S1x64x32x128.size a + S1x64x32x128.size a := by
  show i ∈ ((View.whole main_v1).slice (win1_7.rect t)).set ↔ _
  rw [View.set_slice_whole, Rect.mem_set_unit]
  exact Iff.rfl

omit hZ in
theorem out_cover (i : S8x64x128x128.Idx) :
    ∃ t : Fin cfg1.N, (cfg1.win 7).flush t = true ∧ i ∈ ((cfg1.win 7).blk t).view.set := by
  have h0 : (i 0).val < 8 := (i 0).isLt
  have h1 : (i 1).val < 64 := (i 1).isLt
  have h2 : (i 2).val < 128 := (i 2).isLt
  have h3 : (i 3).val < 128 := (i 3).isLt
  refine ⟨⟨(i 0).val * 4 + (i 2).val / 32, by show _ < grid1.N; rw [N_1]; omega⟩, flush1_7 _, ?_⟩
  rw [mem_outblk]
  have hi := (idx_facts ⟨(i 0).val * 4 + (i 2).val / 32, by show _ < grid1.N; rw [N_1]; omega⟩).2.2.2.2.2.2.2
  intro a
  rw [hi]
  match a with
  | ⟨0, _⟩ => show ((i 0).val * 4 + (i 2).val / 32) / 4 * 1 ≤ (i 0).val ∧ (i 0).val < ((i 0).val * 4 + (i 2).val / 32) / 4 * 1 + 1; omega
  | ⟨1, _⟩ => show 0 * 64 ≤ (i 1).val ∧ (i 1).val < 0 * 64 + 64; omega
  | ⟨2, _⟩ => show ((i 0).val * 4 + (i 2).val / 32) % 4 * 32 ≤ (i 2).val ∧ (i 2).val < ((i 0).val * 4 + (i 2).val / 32) % 4 * 32 + 32; omega
  | ⟨3, _⟩ => show 0 * 128 ≤ (i 3).val ∧ (i 3).val < 0 * 128 + 128; omega

/-- After the region the result's buffer holds the decoder block's output of the arrays the region found. -/
theorem out_array : (dat V c).arrAt 7 cfg1.N = outOf V c X Sk W B :=
  (dat V c).arrAt_eq_of_cover 7 (outOf V c X Sk W B) (fun t _ => flushed_out V c X Sk W B hZ t) out_cover

end Points

end Cert.ReferenceIdeal.Ghost

end
-- ==== Proof.ReferenceResult.lean ====
/-
  The reference's result array is the decoder block of its arguments (Proof/Spec.lean).

  The first region writes z strip by strip: its buffer ends holding Spec.z of the arguments. The second reads each
  strip of z with the two rows above and below it (rows of the neighbouring strips, or zeros at the image
  border) and writes the 64 output channels of the strip: the result's buffer ends holding Spec.out of z and the
  remaining arguments, which the first region did not touch.
-/
import proofs.«169621_g2000704505896602_pallasbulk_1077_31_alg».proof.Defs
import proofs.«169621_g2000704505896602_pallasbulk_1077_31_alg».proof.Proof.RefWhole
import proofs.«169621_g2000704505896602_pallasbulk_1077_31_alg».proof.Proof.RefUpsampleArray
import proofs.«169621_g2000704505896602_pallasbulk_1077_31_alg».proof.Proof.RefGhostArray
import proofs.«169621_g2000704505896602_pallasbulk_1077_31_alg».proof.Proof.Spec

set_option maxRecDepth 16384

noncomputable section

namespace Cert.Proof.ResultEq

open Idealize.ShloMosaic Idealize.ShloMosaic.TcCoe Idealize.SL.Sem Idealize.ShloMosaic.ValueIdx
open Cert.ReferenceIdeal

/-- What the reference's second region's thirty-two write-backs fold to, over the z its first region's thirty-two
    write-backs left, is the decoder block of its arguments. -/
theorem reference_result [Cert.ReferenceIdeal.Facts]
    (m' : (ℓ : Loc Cert.ReferenceIdeal.nD Cert.ReferenceIdeal.τ Cert.ReferenceIdeal.sig) → Buf (Elt Ideal) ℓ)
    (ρ' : Dev Cert.ReferenceIdeal.nD → PrngReg) (c : Dev Cert.ReferenceIdeal.nD) :
    ((Cert.ReferenceIdeal.Ghost.dat (F := Ideal) (Cert.ReferenceIdeal.Whole.V1 m' ρ') c).arrAt 7 Cert.ReferenceIdeal.cfg1.N : Spec.SOut.Idx → EReal)
      = Spec.out
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) := by
  have hZ : ∀ (b : Fin 8) (g i j : Fin 128),
      (Whole.V1 m' ρ' c main_v0 : S8x128x128x128.Idx → EReal) (ix4 b g i j)
        = Spec.z (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) b g i j := by
    intro b g i j
    have e1 : Whole.V1 m' ρ' c main_v0 = (Upsample.dat (Whole.V0 m' ρ') c).arrAt 4 cfg0.N := Whole.W1_arr m' ρ' c 4
    rw [e1, Upsample.z_array]
    rfl
  have e4 : Ghost.wpOf (Whole.V1 m' ρ') c = (m' ((c.tc : Thread Cert.ReferenceIdeal.nD Cert.ReferenceIdeal.τ).loc Cert.ReferenceIdeal.main_arg4)) := by
    unfold Ghost.wpOf; exact Whole.W1_of_ne m' ρ' c main_arg4 (by decide)
  have e5 : Ghost.b1Of (Whole.V1 m' ρ') c = (m' ((c.tc : Thread Cert.ReferenceIdeal.nD Cert.ReferenceIdeal.τ).loc Cert.ReferenceIdeal.main_arg5)) := by
    unfold Ghost.b1Of; exact Whole.W1_of_ne m' ρ' c main_arg5 (by decide)
  have e6 : Ghost.wdOf (Whole.V1 m' ρ') c = (m' ((c.tc : Thread Cert.ReferenceIdeal.nD Cert.ReferenceIdeal.τ).loc Cert.ReferenceIdeal.main_arg6)) := by
    unfold Ghost.wdOf; exact Whole.W1_of_ne m' ρ' c main_arg6 (by decide)
  have e7 : Ghost.b2Of (Whole.V1 m' ρ') c = (m' ((c.tc : Thread Cert.ReferenceIdeal.nD Cert.ReferenceIdeal.τ).loc Cert.ReferenceIdeal.main_arg7)) := by
    unfold Ghost.b2Of; exact Whole.W1_of_ne m' ρ' c main_arg7 (by decide)
  rw [Ghost.out_array (Whole.V1 m' ρ') c _ _ _ _ hZ]
  funext y
  unfold Ghost.outOf
  rw [e4, e5, e6, e7]
  exact congrArg _ (eq_ix4 y).symm

end Cert.Proof.ResultEq

end
-- ==== Proof.ResultEq.lean ====
/-
  The two result arrays are one array: each is the decoder block of Proof/Spec.lean applied to its program's
  arguments, and the arguments agree.

  The fused kernel leaves, image by image, the 64-channel output it computes from one image of the input, one of
  the skip tensor and the parameters. The reference leaves, strip by strip, the 64-channel output its second
  region computes from z — which its first region wrote strip by strip from the same arguments. With the padded
  layouts read back (the kernel's flat rows of 128 lanes with one zero row above and below and the two edge
  masks; the reference's strips padded by rows of the neighbouring strips or by zeros at the image border) both
  are Spec.out. Sums over channels and taps are regrouped freely: addition on the extended reals is commutative
  and associative, and no product is distributed.

  The two halves are Proof/KernelResult.lean and Proof/ReferenceResult.lean; `result_eq` follows from them.
-/
import proofs.«169621_g2000704505896602_pallasbulk_1077_31_alg».proof.Defs
import proofs.«169621_g2000704505896602_pallasbulk_1077_31_alg».proof.Proof.Gen.KernelIdeal.Value
import proofs.«169621_g2000704505896602_pallasbulk_1077_31_alg».proof.Proof.RefWhole
import proofs.«169621_g2000704505896602_pallasbulk_1077_31_alg».proof.Proof.Spec
import proofs.«169621_g2000704505896602_pallasbulk_1077_31_alg».proof.Proof.KernelResult
import proofs.«169621_g2000704505896602_pallasbulk_1077_31_alg».proof.Proof.ReferenceResult

noncomputable section

namespace Cert.Proof.ResultEq

open Idealize.ShloMosaic Idealize.ShloMosaic.TcCoe Idealize.SL.Sem

/-- From memories that agree on the eight arguments the two result arrays are equal. -/
theorem result_eq [Cert.KernelIdeal.Facts] [Cert.ReferenceIdeal.Facts] [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (c : Dev Cert.ReferenceIdeal.nD) :
    (Cert.ReferenceIdeal.Ghost.dat (F := Ideal) (Cert.ReferenceIdeal.Whole.V1 m' ρ') c).arrAt 7 Cert.ReferenceIdeal.cfg1.N
      = (Cert.KernelIdeal.Gen.dats (F := Ideal) m 0 c).arrAt 8 Cert.KernelIdeal.cfg0.N := by
  refine (reference_result m' ρ' c).trans ?_
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]
  exact (kernel_result m c).symm

end Cert.Proof.ResultEq

end
-- ==== Proof.lean ====
/-
  The certificate of the fused decoder block against its two-call reference.

  Five claims. The kernel as printed and the kernel read at the extended reals run one pipeline of eight grid
  points, one image each, and leave their arguments unchanged (Proof/KernelFrames.lean). The reference runs two
  pipelines of thirty-two grid points each — the up-sampling beside the skip tensor into z, then the two
  convolutions of z strip by strip — and leaves its arguments unchanged (Proof/RefUpsample*.lean,
  Proof/RefGhost*.lean, Proof/RefWhole.lean). The idealization rewrote nothing. The two idealized programs end
  with equal results: each side's run names its result array (the kernel's write-backs folded; the reference's
  second region's write-backs folded over what the first left), and the two arrays are one
  (Proof/ResultEq.lean).
-/
import proofs.«169621_g2000704505896602_pallasbulk_1077_31_alg».proof.Defs
import proofs.«169621_g2000704505896602_pallasbulk_1077_31_alg».proof.Proof.Gen.Kernel
import proofs.«169621_g2000704505896602_pallasbulk_1077_31_alg».proof.Proof.Gen.KernelIdeal
import proofs.«169621_g2000704505896602_pallasbulk_1077_31_alg».proof.Proof.Gen.KernelIdeal.Value
import proofs.«169621_g2000704505896602_pallasbulk_1077_31_alg».proof.Proof.Gen.ReferenceIdeal
import proofs.«169621_g2000704505896602_pallasbulk_1077_31_alg».proof.Proof.Gen.Pre_finite_inputs
import proofs.«169621_g2000704505896602_pallasbulk_1077_31_alg».proof.Proof.KernelFrames
import proofs.«169621_g2000704505896602_pallasbulk_1077_31_alg».proof.Proof.RefWhole
import proofs.«169621_g2000704505896602_pallasbulk_1077_31_alg».proof.Proof.ResultEq
import Idealize.ShloMosaic.Adequacy
import Idealize.ShloMosaic.Init

noncomputable section

namespace Cert.Proof

open Idealize.ShloMosaic Idealize.SL.Sem

/-- The reference runs (terminates, no fault) and its arguments end unchanged. -/
theorem frame_reference [Cert.ReferenceIdeal.Facts] [Cert.Pre_finite_inputs.Facts] : Cert.frame_ReferenceIdeal :=
  fun m ρ _ => Cert.ReferenceIdeal.Whole.frame (F := Ideal) m ρ

/-- Both idealized programs run from memories agreeing on the arguments and end with one result: the kernel's
    run names its result array, the reference's run names its own, and the two are equal. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => (Cert.KernelIdeal.Gen.dats (F := Ideal) m 0 c).arrAt 8 Cert.KernelIdeal.cfg0.N,
    Cert.KernelIdeal.Value.run_blocks (F := Ideal) m ρ, ?_⟩
  refine (θ_run Cert.ReferenceIdeal.defs _ _).mono (fun r h c => ⟨(h c).1.trans ?_, (h c).2⟩)
    (Cert.ReferenceIdeal.Whole.run_named (F := Ideal) m' ρ')
  exact Cert.Proof.ResultEq.result_eq m m' ρ' hpre hagree c

theorem claim : Cert.Claim :=
  ⟨Cert.Kernel.Gen.facts, Cert.KernelIdeal.Gen.facts, Cert.ReferenceIdeal.Gen.facts, Cert.Pre_finite_inputs.Gen.facts,
    @KernelFrames.frame_kernel Cert.Kernel.Gen.facts Cert.Pre_finite_inputs.Gen.facts,
    @KernelFrames.frame_kernel_ideal Cert.KernelIdeal.Gen.facts Cert.Pre_finite_inputs.Gen.facts,
    @frame_reference Cert.ReferenceIdeal.Gen.facts Cert.Pre_finite_inputs.Gen.facts,
    KernelFrames.preserves,
    @algebraic Cert.KernelIdeal.Gen.facts Cert.ReferenceIdeal.Gen.facts Cert.Pre_finite_inputs.Gen.facts⟩

end Cert.Proof

end
